-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S128x256 : Shape := ⟨2, ![128, 256]⟩
abbrev S128 : Shape := ⟨1, ![128]⟩
abbrev S50000x128 : Shape := ⟨2, ![50000, 128]⟩
abbrev S32x128 : Shape := ⟨2, ![32, 128]⟩
abbrev S1x128 : Shape := ⟨2, ![1, 128]⟩
abbrev S128x128 : Shape := ⟨2, ![128, 128]⟩
abbrev S600000 : Shape := ⟨1, ![600000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S50000x128 : S_.BroadcastsInDim S50000x128 (![] : Fin 0 → Fin S50000x128.rank)
  reducesTo_S50000x128_S_d0_1 : S50000x128.ReducesTo [0, 1] S_
  bcast_S_S32x128 : S_.BroadcastsInDim S32x128 (![] : Fin 0 → Fin S32x128.rank)
  reducesTo_S32x128_S_d0_1 : S32x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg18 : FVec F S128 .f32) (main_arg19 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg14 : FVec F S128x128 .f32) (main_arg15 : FVec F S128x128 .f32) (main_arg16 : FVec F S128x128 .f32) (main_arg17 : FVec F S128 .f32) (main_arg18 : FVec F S128 .f32) (main_arg19 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_v83 main_v84 main_cst_32

def fn_part3 {F : FTy → Type} [FloatOps F] (main_arg11 : FVec F S128 .f32) (main_arg12 : FVec F S32x128 .f32) (main_arg13 : FVec F S1x128 .f32) (main_arg14 : FVec F S128x128 .f32) (main_arg15 : FVec F S128x128 .f32) (main_arg16 : FVec F S128x128 .f32) (main_arg17 : FVec F S128 .f32) (main_arg18 : FVec F S128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S32x128 .f32 := Host.absf main_arg12
  let main_cst_22 : FVec F S_ .f32 := constant S_ .f32 0x7F800000#32
  let main_v60 : FVec F S32x128 .f32 := broadcastInDim S32x128 ![] bcast_S_S32x128 main_cst_22
  let main_v61 : IVec S32x128 1 := cmpf .olt main_v59 main_v60
  let main_c_23 : IVec S_ 1 := constantI S_ 1 1#1
  let main_v62 : IVec S_ 1 := (fun x v => Host.reduce IntOp.andi x v reducesTo_S32x128_S_d0_1 h_S_) main_v61 main_c_23
  let main_v63 : IVec S_ 1 := andi main_v58 main_v62
  let main_v64 : FVec F S1x128 .f32 := Host.absf main_arg13
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg14 main_arg15 main_arg16 main_arg17 main_arg18 main_arg19 main_v63 main_v67

def fn_part2 {F : FTy → Type} [FloatOps F] (main_arg7 : FVec F S128x128 .f32) (main_arg8 : FVec F S128x128 .f32) (main_arg9 : FVec F S128 .f32) (main_arg10 : FVec F S128 .f32) (main_arg11 : FVec F S128 .f32) (main_arg12 : FVec F S32x128 .f32) (main_arg13 : FVec F S1x128 .f32) (main_arg14 : FVec F S128x128 .f32) (main_arg15 : FVec F S128x128 .f32) (main_arg16 : FVec F S128x128 .f32) (main_arg17 : FVec F S128 .f32) (main_arg18 : FVec F S128 .f32) (main_arg19 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_v48 main_v49 main_v50

def fn_part1 {F : FTy → Type} [FloatOps F] (main_arg4 : FVec F S32x128 .f32) (main_arg5 : FVec F S1x128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S32x128 .f32) (main_arg13 : FVec F S1x128 .f32) (main_arg14 : FVec F S128x128 .f32) (main_arg15 : FVec F S128x128 .f32) (main_arg16 : FVec F S128x128 .f32) (main_arg17 : FVec F S128 .f32) (main_arg18 : FVec F S128 .f32) (main_arg19 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S32x128 .f32 := Host.absf main_arg4
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_v33

def fn {F : FTy → Type} [FloatOps F] (main_arg0 : FVec F S50000x256 .f32) (main_arg1 : FVec F S128x256 .f32) (main_arg2 : FVec F S128 .f32) (main_arg3 : FVec F S50000x128 .f32) (main_arg4 : FVec F S32x128 .f32) (main_arg5 : FVec F S1x128 .f32) (main_arg6 : FVec F S128x128 .f32) (main_arg7 : FVec F S128x128 .f32) (main_arg8 : FVec F S128x128 .f32) (main_arg9 : FVec F S128 .f32) (main_arg10 : FVec F S128 .f32) (main_arg11 : FVec F S128 .f32) (main_arg12 : FVec F S32x128 .f32) (main_arg13 : FVec F S1x128 .f32) (main_arg14 : FVec F S128x128 .f32) (main_arg15 : FVec F S128x128 .f32) (main_arg16 : FVec F S128x128 .f32) (main_arg17 : FVec F S128 .f32) (main_arg18 : FVec F S128 .f32) (main_arg19 : FVec F S128 .f32) (main_arg20 : IVec S600000 32) (main_arg21 : IVec S600000 32) (main_arg22 : IVec S600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S50000x128 .f32 := Host.absf main_arg3
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_v13 main_v16
-- ==== Kernel.lean ====
abbrev S50000x256 : Shape := ⟨2, ![50000, 256]⟩
abbrev S128x256 : Shape := ⟨2, ![128, 256]⟩
abbrev S128 : Shape := ⟨1, ![128]⟩
abbrev S50000x128 : Shape := ⟨2, ![50000, 128]⟩
abbrev S32x128 : Shape := ⟨2, ![32, 128]⟩
abbrev S1x128 : Shape := ⟨2, ![1, 128]⟩
abbrev S128x128 : Shape := ⟨2, ![128, 128]⟩
abbrev S600000 : Shape := ⟨1, ![600000]⟩
abbrev S256x128 : Shape := ⟨2, ![256, 128]⟩
abbrev S5000x256 : Shape := ⟨2, ![5000, 256]⟩
abbrev S5000x128 : Shape := ⟨2, ![5000, 128]⟩
abbrev S100000x128 : Shape := ⟨2, ![100000, 128]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S4800x128 : Shape := ⟨2, ![4800, 128]⟩
abbrev S4800x1 : Shape := ⟨2, ![4800, 1]⟩
abbrev S100000x1 : Shape := ⟨2, ![100000, 1]⟩
abbrev S5000 : Shape := ⟨1, ![5000]⟩
abbrev S5000x1 : Shape := ⟨2, ![5000, 1]⟩

abbrev nBuf : Space → Nat
  | .hbm => 205
  | .vmem => 64
  | .smem => 0
  | _ => 0

abbrev hbmTy0_0 (i : Nat) : BufTy := match i % 128 with
  | 0 => ⟨S50000x256, .f32⟩
  | 1 => ⟨S128x256, .f32⟩
  | 2 => ⟨S128, .f32⟩
  | 3 => ⟨S50000x128, .f32⟩
  | 4 => ⟨S32x128, .f32⟩
  | 5 => ⟨S1x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S32x128, .f32⟩
  | 13 => ⟨S1x128, .f32⟩
  | 14 => ⟨S128x128, .f32⟩
  | 15 => ⟨S128x128, .f32⟩
  | 16 => ⟨S128x128, .f32⟩
  | 17 => ⟨S128, .f32⟩
  | 18 => ⟨S128, .f32⟩
  | 19 => ⟨S128, .f32⟩
  | 20 => ⟨S600000, .i32⟩
  | 21 => ⟨S600000, .i32⟩
  | 22 => ⟨S600000, .i32⟩
  | 23 => ⟨S256x128, .f32⟩
  | 24 => ⟨S1x128, .f32⟩
  | 25 => ⟨S50000x128, .f32⟩
  | 26 => ⟨S100000x128, .f32⟩
  | 27 => ⟨S_, .f32⟩
  | 28 => ⟨S600000, .f32⟩
  | 29 => ⟨S_, .f32⟩
  | 30 => ⟨S100000, .f32⟩
  | 31 => ⟨S600000x1, .i32⟩
  | 32 => ⟨S100000, .f32⟩
  | 33 => ⟨S_, .f32⟩
  | 34 => ⟨S100000, .f32⟩
  | 35 => ⟨S600000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S100000, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .i1⟩
  | 54 => ⟨S_, .f32⟩
  | 55 => ⟨S100000, .f32⟩
  | 56 => ⟨S100000, .f32⟩
  | 57 => ⟨S100000, .f32⟩
  | 58 => ⟨S_, .f32⟩
  | 59 => ⟨S100000, .f32⟩
  | 60 => ⟨S100000, .f32⟩
  | 61 => ⟨S_, .f32⟩
  | 62 => ⟨S_, .f32⟩
  | 63 => ⟨S100000, .f32⟩
  | 64 => ⟨S100000, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000x128, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000x128, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000, .f32⟩
  | 101 => ⟨S600000x1, .f32⟩
  | 102 => ⟨S_, .i32⟩
  | 103 => ⟨S600000, .i32⟩
  | 104 => ⟨S600000, .i1⟩
  | 105 => ⟨S_, .i32⟩
  | 106 => ⟨S600000, .i32⟩
  | 107 => ⟨S600000, .i32⟩
  | 108 => ⟨S600000, .i32⟩
  | 109 => ⟨S600000x1, .i32⟩
  | 110 => ⟨S600000, .f32⟩
  | 111 => ⟨S600000x1, .f32⟩
  | 112 => ⟨S128x128, .f32⟩
  | 113 => ⟨S128x128, .f32⟩
  | 114 => ⟨S600000x128, .f32⟩
  | 115 => ⟨S600000x128, .f32⟩
  | 116 => ⟨S_, .f32⟩
  | 117 => ⟨S100000x128, .f32⟩
  | 118 => ⟨S600000x1, .i32⟩
  | 119 => ⟨S100000x128, .f32⟩
  | 120 => ⟨S100000x1, .f32⟩
  | 121 => ⟨S100000x128, .f32⟩
  | 122 => ⟨S100000x128, .f32⟩
  | 123 => ⟨S_, .f32⟩
  | 124 => ⟨S100000x128, .f32⟩
  | 125 => ⟨S600000x1, .i32⟩
  | 126 => ⟨S100000x128, .f32⟩
  | 127 => ⟨S100000x1, .f32⟩
  | _ => ⟨S50000x256, .f32⟩

abbrev hbmTy0_1 (i : Nat) : BufTy := match i % 128 with
  | 0 => ⟨S100000x128, .f32⟩
  | 1 => ⟨S100000x128, .f32⟩
  | 2 => ⟨S128x128, .f32⟩
  | 3 => ⟨S1x128, .f32⟩
  | 4 => ⟨S1x128, .f32⟩
  | 5 => ⟨S1x128, .f32⟩
  | 6 => ⟨S100000x128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000x128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000x128, .f32⟩
  | 25 => ⟨S_, .i32⟩
  | 26 => ⟨S600000, .i32⟩
  | 27 => ⟨S600000, .i1⟩
  | 28 => ⟨S_, .i32⟩
  | 29 => ⟨S600000, .i32⟩
  | 30 => ⟨S600000, .i32⟩
  | 31 => ⟨S600000, .i32⟩
  | 32 => ⟨S600000x1, .i32⟩
  | 33 => ⟨S600000x128, .f32⟩
  | 34 => ⟨S_, .i32⟩
  | 35 => ⟨S600000, .i32⟩
  | 36 => ⟨S600000, .i1⟩
  | 37 => ⟨S_, .i32⟩
  | 38 => ⟨S600000, .i32⟩
  | 39 => ⟨S600000, .i32⟩
  | 40 => ⟨S600000, .i32⟩
  | 41 => ⟨S600000x1, .i32⟩
  | 42 => ⟨S600000, .f32⟩
  | 43 => ⟨S600000x1, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S600000x1, .f32⟩
  | 54 => ⟨S128x128, .f32⟩
  | 55 => ⟨S128x128, .f32⟩
  | 56 => ⟨S600000x128, .f32⟩
  | 57 => ⟨S600000x128, .f32⟩
  | 58 => ⟨S_, .f32⟩
  | 59 => ⟨S100000x128, .f32⟩
  | 60 => ⟨S600000x1, .i32⟩
  | 61 => ⟨S100000x128, .f32⟩
  | 62 => ⟨S100000x1, .f32⟩
  | 63 => ⟨S100000x128, .f32⟩
  | 64 => ⟨S100000x128, .f32⟩
  | 65 => ⟨S_, .f32⟩
  | 66 => ⟨S100000x128, .f32⟩
  | 67 => ⟨S600000x1, .i32⟩
  | 68 => ⟨S100000x128, .f32⟩
  | 69 => ⟨S100000x1, .f32⟩
  | 70 => ⟨S100000x128, .f32⟩
  | 71 => ⟨S100000x128, .f32⟩
  | 72 => ⟨S128x128, .f32⟩
  | 73 => ⟨S1x128, .f32⟩
  | 74 => ⟨S1x128, .f32⟩
  | 75 => ⟨S1x128, .f32⟩
  | 76 => ⟨S100000x128, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S4800x128, .f32⟩
  | .local _ .vmem, ⟨7, _⟩ => ⟨S4800x128, .f32⟩
  | .local _ .vmem, ⟨8, _⟩ => ⟨S4800x128, .f32⟩
  | .local _ .vmem, ⟨9, _⟩ => ⟨S4800x128, .f32⟩
  | .local _ .vmem, ⟨10, _⟩ => ⟨S4800x128, .f32⟩
  | .local _ .vmem, ⟨11, _⟩ => ⟨S4800x128, .f32⟩
  | .local _ .vmem, ⟨12, _⟩ => ⟨S4800x1, .f32⟩
  | .local _ .vmem, ⟨13, _⟩ => ⟨S4800x1, .f32⟩
  | .local _ .vmem, ⟨14, _⟩ => ⟨S4800x1, .f32⟩
  | .local _ .vmem, ⟨15, _⟩ => ⟨S4800x1, .f32⟩
  | .local _ .vmem, ⟨16, _⟩ => ⟨S128x128, .f32⟩
  | .local _ .vmem, ⟨17, _⟩ => ⟨S128x128, .f32⟩
  | .local _ .vmem, ⟨18, _⟩ => ⟨S4800x128, .f32⟩
  | .local _ .vmem, ⟨19, _⟩ => ⟨S4800x128, .f32⟩
  | .local _ .vmem, ⟨20, _⟩ => ⟨S4800x128, .f32⟩
  | .local _ .vmem, ⟨21, _⟩ => ⟨S4800x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S128x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S4800x128, .f32⟩
  | .local _ .vmem, ⟨36, _⟩ => ⟨S4800x128, .f32⟩
  | .local _ .vmem, ⟨37, _⟩ => ⟨S4800x128, .f32⟩
  | .local _ .vmem, ⟨38, _⟩ => ⟨S4800x128, .f32⟩
  | .local _ .vmem, ⟨39, _⟩ => ⟨S4800x128, .f32⟩
  | .local _ .vmem, ⟨40, _⟩ => ⟨S4800x128, .f32⟩
  | .local _ .vmem, ⟨41, _⟩ => ⟨S4800x1, .f32⟩
  | .local _ .vmem, ⟨42, _⟩ => ⟨S4800x1, .f32⟩
  | .local _ .vmem, ⟨43, _⟩ => ⟨S4800x1, .f32⟩
  | .local _ .vmem, ⟨44, _⟩ => ⟨S4800x1, .f32⟩
  | .local _ .vmem, ⟨45, _⟩ => ⟨S128x128, .f32⟩
  | .local _ .vmem, ⟨46, _⟩ => ⟨S128x128, .f32⟩
  | .local _ .vmem, ⟨47, _⟩ => ⟨S4800x128, .f32⟩
  | .local _ .vmem, ⟨48, _⟩ => ⟨S4800x128, .f32⟩
  | .local _ .vmem, ⟨49, _⟩ => ⟨S4800x128, .f32⟩
  | .local _ .vmem, ⟨50, _⟩ => ⟨S4800x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩
abbrev main_cst_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_8 : Ref sig .tc := ⟨.hbm, 58, rfl⟩
abbrev main_v24 : Ref sig .tc := ⟨.hbm, 59, rfl⟩
abbrev main_v25 : Ref sig .tc := ⟨.hbm, 60, rfl⟩
abbrev main_cst_9 : Ref sig .tc := ⟨.hbm, 61, rfl⟩
abbrev main_call1_v0 : Ref sig .tc := ⟨.hbm, 62, rfl⟩
abbrev main_call1_v1 : Ref sig .tc := ⟨.hbm, 63, rfl⟩
abbrev main_v26 : Ref sig .tc := ⟨.hbm, 64, rfl⟩
abbrev main_c : Ref sig .tc := ⟨.hbm, 65, rfl⟩
abbrev main_v27 : Ref sig .tc := ⟨.hbm, 66, rfl⟩
abbrev main_v28 : Ref sig .tc := ⟨.hbm, 67, rfl⟩
abbrev main_c_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_c_11 : Ref sig .tc := ⟨.hbm, 74, rfl⟩
abbrev main_v34 : Ref sig .tc := ⟨.hbm, 75, rfl⟩
abbrev main_v35 : Ref sig .tc := ⟨.hbm, 76, rfl⟩
abbrev main_c_12 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_c_13 : Ref sig .tc := ⟨.hbm, 83, rfl⟩
abbrev main_v41 : Ref sig .tc := ⟨.hbm, 84, rfl⟩
abbrev main_v42 : Ref sig .tc := ⟨.hbm, 85, rfl⟩
abbrev main_c_14 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_15 : Ref sig .tc := ⟨.hbm, 92, rfl⟩
abbrev main_v48 : Ref sig .tc := ⟨.hbm, 93, rfl⟩
abbrev main_v49 : Ref sig .tc := ⟨.hbm, 94, rfl⟩
abbrev main_c_16 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_17 : Ref sig .tc := ⟨.hbm, 102, rfl⟩
abbrev main_v56 : Ref sig .tc := ⟨.hbm, 103, rfl⟩
abbrev main_v57 : Ref sig .tc := ⟨.hbm, 104, rfl⟩
abbrev main_c_18 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66_0 : Ref sig .tc := ⟨.hbm, 114, rfl⟩
abbrev main_v66_1 : Ref sig .tc := ⟨.hbm, 115, rfl⟩
abbrev main_cst_19 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_20 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_c_21 : Ref sig .tc := ⟨.hbm, 135, rfl⟩
abbrev main_v84 : Ref sig .tc := ⟨.hbm, 136, rfl⟩
abbrev main_v85 : Ref sig .tc := ⟨.hbm, 137, rfl⟩
abbrev main_c_22 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_c_23 : Ref sig .tc := ⟨.hbm, 144, rfl⟩
abbrev main_v91 : Ref sig .tc := ⟨.hbm, 145, rfl⟩
abbrev main_v92 : Ref sig .tc := ⟨.hbm, 146, rfl⟩
abbrev main_c_24 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_25 : Ref sig .tc := ⟨.hbm, 153, rfl⟩
abbrev main_v98 : Ref sig .tc := ⟨.hbm, 154, rfl⟩
abbrev main_v99 : Ref sig .tc := ⟨.hbm, 155, rfl⟩
abbrev main_c_26 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_c_27 : Ref sig .tc := ⟨.hbm, 162, rfl⟩
abbrev main_v105 : Ref sig .tc := ⟨.hbm, 163, rfl⟩
abbrev main_v106 : Ref sig .tc := ⟨.hbm, 164, rfl⟩
abbrev main_c_28 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_29 : Ref sig .tc := ⟨.hbm, 172, rfl⟩
abbrev main_v113 : Ref sig .tc := ⟨.hbm, 173, rfl⟩
abbrev main_v114 : Ref sig .tc := ⟨.hbm, 174, rfl⟩
abbrev main_c_30 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123_0 : Ref sig .tc := ⟨.hbm, 184, rfl⟩
abbrev main_v123_1 : Ref sig .tc := ⟨.hbm, 185, rfl⟩
abbrev main_cst_31 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_32 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg6_0 : Ref sig .tc := ⟨.vmem, 46, rfl⟩
abbrev cc3_stg7_0 : Ref sig .tc := ⟨.vmem, 47, rfl⟩
abbrev cc3_stg7_1 : Ref sig .tc := ⟨.vmem, 48, rfl⟩
abbrev cc3_stg8_0 : Ref sig .tc := ⟨.vmem, 49, rfl⟩
abbrev cc3_stg8_1 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg1_1 : Ref sig .tc := ⟨.vmem, 54, rfl⟩
abbrev cc4_stg2_0 : Ref sig .tc := ⟨.vmem, 55, rfl⟩
abbrev cc4_stg2_1 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg5_0 : Ref sig .tc := ⟨.vmem, 59, rfl⟩
abbrev cc4_stg6_0 : Ref sig .tc := ⟨.vmem, 60, rfl⟩
abbrev cc4_stg7_0 : Ref sig .tc := ⟨.vmem, 61, rfl⟩
abbrev cc4_stg8_0 : Ref sig .tc := ⟨.vmem, 62, rfl⟩
abbrev cc4_stg8_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem6_0 : DmaSem sig := 46
abbrev cc3_sem7_0 : DmaSem sig := 47
abbrev cc3_sem7_1 : DmaSem sig := 48
abbrev cc3_sem8_0 : DmaSem sig := 49
abbrev cc3_sem8_1 : DmaSem sig := 50
abbrev cc4_sem0_0 : DmaSem sig := 51
abbrev cc4_sem0_1 : DmaSem sig := 52
abbrev cc4_sem1_0 : DmaSem sig := 53
abbrev cc4_sem1_1 : DmaSem sig := 54
abbrev cc4_sem2_0 : DmaSem sig := 55
abbrev cc4_sem2_1 : DmaSem sig := 56
abbrev cc4_sem3_0 : DmaSem sig := 57
abbrev cc4_sem4_0 : DmaSem sig := 58
abbrev cc4_sem5_0 : DmaSem sig := 59
abbrev cc4_sem6_0 : DmaSem sig := 60
abbrev cc4_sem7_0 : DmaSem sig := 61
abbrev cc4_sem8_0 : DmaSem sig := 62
abbrev cc4_sem8_1 : DmaSem sig := 63

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4800x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4800x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4800x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4800x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4800x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4800x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4800x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4800x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4800x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4800x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4800x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4800x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4800x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4800x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  transposes_S128x256_S256x128_1_0 : S128x256.Transposes [1, 0] S256x128
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  concatenates_S50000x128_S50000x128_S100000x128_d0 : Shape.Concatenates [S50000x128, S50000x128] S100000x128 0
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S600000_S600000x1 : S600000.ShapeCasts S600000x1
  transposes_S128x128_S128x128_1_0 : S128x128.Transposes [1, 0] S128x128
  inb_S4800x128_S4800x128_0_0 : ∀ a, (![0, 0] : Fin 2 → Nat) a + S4800x128.size a ≤ S4800x128.size a
  h_S4800x128 : 0 < S4800x128.numel
  shapeCasts_S4800x128_S4800x128 : S4800x128.ShapeCasts S4800x128
  inb_S4800x1_S4800x1_0_0 : ∀ a, (![0, 0] : Fin 2 → Nat) a + S4800x1.size a ≤ S4800x1.size a
  h_S4800x1 : 0 < S4800x1.numel
  shapeCasts_S4800x1_S4800x1 : S4800x1.ShapeCasts S4800x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S4800x1_S4800x128 : S4800x1.Broadcasts S4800x128
  bcast_S_S100000x128 : S_.BroadcastsInDim S100000x128 (![] : Fin 0 → Fin S100000x128.rank)
  shapeCasts_S100000_S100000x1 : S100000.ShapeCasts S100000x1
  bcast_S100000x1_S100000x128_0_1 : S100000x1.BroadcastsInDim S100000x128 (![0, 1] : Fin 2 → Fin S100000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x256_S256x128_S5000x128_1_0_0_1_n_n_wf : DotDims.WF S5000x256 S256x128 S5000x128 [1] [0] [0] [1] [] []
  scatter_S100000_S600000x1_S600000_n_0_0_1_wf : ScatterDims.WF S100000 S600000x1 S600000 [] [0] [0] 1
  gather_S32x128_S600000x1_S600000x128_1_0_n_n_0_1_1128_wf : GatherDims.WF S32x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  gather_S100000_S600000x1_S600000_n_0_n_n_0_1_1_wf : GatherDims.WF S100000 S600000x1 S600000 [] [0] [] [0] [] 1 ![1]
  dot_S4800x128_S128x128_S4800x128_1_0_0_1_n_n_wf : DotDims.WF S4800x128 S128x128 S4800x128 [1] [0] [0] [1] [] []
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4800x128.size a ≤ S600000x128.size a
  hwx1_0 : ∀ i : grid1.Coords, EltTy.bits .f32 = 32 ∨ (Rect.block (s := S600000x128) S4800x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4800x128.size a ≤ S600000x128.size a
  hwx1_1 : ∀ i : grid1.Coords, EltTy.bits .f32 = 32 ∨ (Rect.block (s := S600000x128) S4800x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4800x128.size a ≤ S600000x128.size a
  hwx1_2 : ∀ i : grid1.Coords, EltTy.bits .f32 = 32 ∨ (Rect.block (s := S600000x128) S4800x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4800x1.size a ≤ S600000x1.size a
  hwx1_3 : ∀ i : grid1.Coords, EltTy.bits .f32 = 32 ∨ (Rect.block (s := S600000x1) S4800x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4800x1.size a ≤ S600000x1.size a
  hwx1_4 : ∀ i : grid1.Coords, EltTy.bits .f32 = 32 ∨ (Rect.block (s := S600000x1) S4800x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4800x128.size a ≤ S600000x128.size a
  hwx1_7 : ∀ i : grid1.Coords, EltTy.bits .f32 = 32 ∨ (Rect.block (s := S600000x128) S4800x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4800x128.size a ≤ S600000x128.size a
  hwx1_8 : ∀ i : grid1.Coords, EltTy.bits .f32 = 32 ∨ (Rect.block (s := S600000x128) S4800x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S100000x128.size a
  hwx2_8 : ∀ i : grid2.Coords, EltTy.bits .f32 = 32 ∨ (Rect.block (s := S100000x128) S5000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4800x128.size a ≤ S600000x128.size a
  hwx3_0 : ∀ i : grid3.Coords, EltTy.bits .f32 = 32 ∨ (Rect.block (s := S600000x128) S4800x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4800x128.size a ≤ S600000x128.size a
  hwx3_1 : ∀ i : grid3.Coords, EltTy.bits .f32 = 32 ∨ (Rect.block (s := S600000x128) S4800x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4800x128.size a ≤ S600000x128.size a
  hwx3_2 : ∀ i : grid3.Coords, EltTy.bits .f32 = 32 ∨ (Rect.block (s := S600000x128) S4800x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4800x1.size a ≤ S600000x1.size a
  hwx3_3 : ∀ i : grid3.Coords, EltTy.bits .f32 = 32 ∨ (Rect.block (s := S600000x1) S4800x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4800x1.size a ≤ S600000x1.size a
  hwx3_4 : ∀ i : grid3.Coords, EltTy.bits .f32 = 32 ∨ (Rect.block (s := S600000x1) S4800x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4800x128.size a ≤ S600000x128.size a
  hwx3_7 : ∀ i : grid3.Coords, EltTy.bits .f32 = 32 ∨ (Rect.block (s := S600000x128) S4800x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4800x128.size a ≤ S600000x128.size a
  hwx3_8 : ∀ i : grid3.Coords, EltTy.bits .f32 = 32 ∨ (Rect.block (s := S600000x128) S4800x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S100000x128.size a
  hwx4_8 : ∀ i : grid4.Coords, EltTy.bits .f32 = 32 ∨ (Rect.block (s := S100000x128) S5000x128.size (cc4_transform_8 i) (hinb4_8 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S32x128_S600000x1_S600000x128_1_0_n_n_0_1_1128 : GatherDims S32x128 S600000x1 S600000x128 where
  offsetDims := [1]
  collapsedSliceDims := [0]
  operandBatchingDims := []
  startIndicesBatchingDims := []
  startIndexMap := [0]
  indexVectorDim := 1
  sliceSizes := ![1, 128]
  wf := gather_S32x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def dot_S4800x128_S128x128_S4800x128_1_0_0_1_n_n : DotDims S4800x128 S128x128 S4800x128 where
  lhsContracting := [1]
  rhsContracting := [0]
  lhsNonContracting := [0]
  rhsNonContracting := [1]
  lhsBatch := []
  rhsBatch := []
  wf := dot_S4800x128_S128x128_S4800x128_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v40) S4800x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S4800x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S4800x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S4800x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v63) S4800x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v64) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v65) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v66_0) S4800x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v66_1) S4800x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v3) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v81) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v82) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v83) S5000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v97) S4800x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v104) S4800x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v90) S4800x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v112) S4800x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v120) S4800x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v121) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v122) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v123_0) S4800x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v123_1) S4800x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v83) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v129) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v135) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v136) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v137) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v138) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v139) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v140) S5000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x256 : Shape := ⟨2, ![50000, 256]⟩
abbrev S128x256 : Shape := ⟨2, ![128, 256]⟩
abbrev S128 : Shape := ⟨1, ![128]⟩
abbrev S50000x128 : Shape := ⟨2, ![50000, 128]⟩
abbrev S32x128 : Shape := ⟨2, ![32, 128]⟩
abbrev S1x128 : Shape := ⟨2, ![1, 128]⟩
abbrev S128x128 : Shape := ⟨2, ![128, 128]⟩
abbrev S600000 : Shape := ⟨1, ![600000]⟩
abbrev S256x128 : Shape := ⟨2, ![256, 128]⟩
abbrev S100000x128 : Shape := ⟨2, ![100000, 128]⟩
abbrev S_ : Shape := ⟨0, ![]⟩
abbrev S100000 : Shape := ⟨1, ![100000]⟩
abbrev S600000x1 : Shape := ⟨2, ![600000, 1]⟩
abbrev S600000x128 : Shape := ⟨2, ![600000, 128]⟩
abbrev S100000x1 : Shape := ⟨2, ![100000, 1]⟩

abbrev nBuf : Space → Nat
  | .hbm => 332
  | .vmem => 0
  | .smem => 0
  | _ => 0

abbrev hbmTy0_0 (i : Nat) : BufTy := match i % 128 with
  | 0 => ⟨S50000x256, .f32⟩
  | 1 => ⟨S128x256, .f32⟩
  | 2 => ⟨S128, .f32⟩
  | 3 => ⟨S50000x128, .f32⟩
  | 4 => ⟨S32x128, .f32⟩
  | 5 => ⟨S1x128, .f32⟩
  | 6 => ⟨S128x128, .f32⟩
  | 7 => ⟨S128x128, .f32⟩
  | 8 => ⟨S128x128, .f32⟩
  | 9 => ⟨S128, .f32⟩
  | 10 => ⟨S128, .f32⟩
  | 11 => ⟨S128, .f32⟩
  | 12 => ⟨S32x128, .f32⟩
  | 13 => ⟨S1x128, .f32⟩
  | 14 => ⟨S128x128, .f32⟩
  | 15 => ⟨S128x128, .f32⟩
  | 16 => ⟨S128x128, .f32⟩
  | 17 => ⟨S128, .f32⟩
  | 18 => ⟨S128, .f32⟩
  | 19 => ⟨S128, .f32⟩
  | 20 => ⟨S600000, .i32⟩
  | 21 => ⟨S600000, .i32⟩
  | 22 => ⟨S600000, .i32⟩
  | 23 => ⟨S256x128, .f32⟩
  | 24 => ⟨S50000x128, .f32⟩
  | 25 => ⟨S1x128, .f32⟩
  | 26 => ⟨S50000x128, .f32⟩
  | 27 => ⟨S50000x128, .f32⟩
  | 28 => ⟨S100000x128, .f32⟩
  | 29 => ⟨S_, .f32⟩
  | 30 => ⟨S600000, .f32⟩
  | 31 => ⟨S_, .f32⟩
  | 32 => ⟨S100000, .f32⟩
  | 33 => ⟨S600000x1, .i32⟩
  | 34 => ⟨S100000, .f32⟩
  | 35 => ⟨S_, .f32⟩
  | 36 => ⟨S100000, .f32⟩
  | 37 => ⟨S600000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S100000, .f32⟩
  | 48 => ⟨S100000, .f32⟩
  | 49 => ⟨S_, .f32⟩
  | 50 => ⟨S_, .f32⟩
  | 51 => ⟨S100000, .f32⟩
  | 52 => ⟨S100000, .f32⟩
  | 53 => ⟨S_, .f32⟩
  | 54 => ⟨S100000, .f32⟩
  | 55 => ⟨S100000, .i1⟩
  | 56 => ⟨S_, .f32⟩
  | 57 => ⟨S100000, .f32⟩
  | 58 => ⟨S100000, .f32⟩
  | 59 => ⟨S100000, .f32⟩
  | 60 => ⟨S_, .f32⟩
  | 61 => ⟨S100000, .f32⟩
  | 62 => ⟨S100000, .f32⟩
  | 63 => ⟨S_, .f32⟩
  | 64 => ⟨S_, .f32⟩
  | 65 => ⟨S100000, .f32⟩
  | 66 => ⟨S100000, .f32⟩
  | 67 => ⟨S_, .i32⟩
  | 68 => ⟨S600000, .i32⟩
  | 69 => ⟨S600000, .i1⟩
  | 70 => ⟨S_, .i32⟩
  | 71 => ⟨S600000, .i32⟩
  | 72 => ⟨S600000, .i32⟩
  | 73 => ⟨S600000, .i32⟩
  | 74 => ⟨S600000x1, .i32⟩
  | 75 => ⟨S600000x128, .f32⟩
  | 76 => ⟨S_, .i32⟩
  | 77 => ⟨S600000, .i32⟩
  | 78 => ⟨S600000, .i1⟩
  | 79 => ⟨S_, .i32⟩
  | 80 => ⟨S600000, .i32⟩
  | 81 => ⟨S600000, .i32⟩
  | 82 => ⟨S600000, .i32⟩
  | 83 => ⟨S600000x1, .i32⟩
  | 84 => ⟨S600000x128, .f32⟩
  | 85 => ⟨S600000x128, .f32⟩
  | 86 => ⟨S128x128, .f32⟩
  | 87 => ⟨S600000x128, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000, .f32⟩
  | 97 => ⟨S600000x1, .f32⟩
  | 98 => ⟨S600000x128, .f32⟩
  | 99 => ⟨S600000x128, .f32⟩
  | 100 => ⟨S_, .f32⟩
  | 101 => ⟨S100000x128, .f32⟩
  | 102 => ⟨S600000x1, .i32⟩
  | 103 => ⟨S100000x128, .f32⟩
  | 104 => ⟨S100000x1, .f32⟩
  | 105 => ⟨S100000x128, .f32⟩
  | 106 => ⟨S100000x128, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x128, .f32⟩
  | 117 => ⟨S128x128, .f32⟩
  | 118 => ⟨S600000x128, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000, .f32⟩
  | _ => ⟨S50000x256, .f32⟩

abbrev hbmTy0_1 (i : Nat) : BufTy := match i % 128 with
  | 0 => ⟨S600000x1, .f32⟩
  | 1 => ⟨S600000x128, .f32⟩
  | 2 => ⟨S600000x128, .f32⟩
  | 3 => ⟨S_, .f32⟩
  | 4 => ⟨S100000x128, .f32⟩
  | 5 => ⟨S600000x1, .i32⟩
  | 6 => ⟨S100000x128, .f32⟩
  | 7 => ⟨S100000x1, .f32⟩
  | 8 => ⟨S100000x128, .f32⟩
  | 9 => ⟨S100000x128, .f32⟩
  | 10 => ⟨S100000x128, .f32⟩
  | 11 => ⟨S100000x128, .f32⟩
  | 12 => ⟨S128x128, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .f32⟩
  | 26 => ⟨S100000, .f32⟩
  | 27 => ⟨S100000x1, .f32⟩
  | 28 => ⟨S_, .f32⟩
  | 29 => ⟨S100000x1, .f32⟩
  | 30 => ⟨S100000x1, .f32⟩
  | 31 => ⟨S100000x128, .f32⟩
  | 32 => ⟨S100000x128, .f32⟩
  | 33 => ⟨S100000x128, .f32⟩
  | 34 => ⟨S_, .f32⟩
  | 35 => ⟨S100000, .f32⟩
  | 36 => ⟨S100000x1, .f32⟩
  | 37 => ⟨S_, .f32⟩
  | 38 => ⟨S100000x1, .f32⟩
  | 39 => ⟨S100000x1, .f32⟩
  | 40 => ⟨S100000x128, .f32⟩
  | 41 => ⟨S100000x128, .f32⟩
  | 42 => ⟨S_, .f32⟩
  | 43 => ⟨S100000x1, .f32⟩
  | 44 => ⟨S100000x1, .f32⟩
  | 45 => ⟨S100000x1, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S600000, .f32⟩
  | 56 => ⟨S_, .f32⟩
  | 57 => ⟨S100000, .f32⟩
  | 58 => ⟨S600000x1, .i32⟩
  | 59 => ⟨S100000, .f32⟩
  | 60 => ⟨S_, .f32⟩
  | 61 => ⟨S100000, .f32⟩
  | 62 => ⟨S600000x1, .i32⟩
  | 63 => ⟨S100000, .f32⟩
  | 64 => ⟨S_, .f32⟩
  | 65 => ⟨S100000, .f32⟩
  | 66 => ⟨S100000, .i1⟩
  | 67 => ⟨S_, .f32⟩
  | 68 => ⟨S100000, .f32⟩
  | 69 => ⟨S100000, .f32⟩
  | 70 => ⟨S100000, .f32⟩
  | 71 => ⟨S_, .f32⟩
  | 72 => ⟨S100000, .f32⟩
  | 73 => ⟨S100000, .f32⟩
  | 74 => ⟨S_, .f32⟩
  | 75 => ⟨S_, .f32⟩
  | 76 => ⟨S100000, .f32⟩
  | 77 => ⟨S100000, .f32⟩
  | 78 => ⟨S_, .f32⟩
  | 79 => ⟨S100000, .f32⟩
  | 80 => ⟨S100000, .i1⟩
  | 81 => ⟨S_, .f32⟩
  | 82 => ⟨S100000, .f32⟩
  | 83 => ⟨S100000, .f32⟩
  | 84 => ⟨S100000, .f32⟩
  | 85 => ⟨S_, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S600000, .i32⟩
  | 94 => ⟨S600000, .i1⟩
  | 95 => ⟨S_, .i32⟩
  | 96 => ⟨S600000, .i32⟩
  | 97 => ⟨S600000, .i32⟩
  | 98 => ⟨S600000, .i32⟩
  | 99 => ⟨S600000x1, .i32⟩
  | 100 => ⟨S600000x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S600000x128, .f32⟩
  | 111 => ⟨S128x128, .f32⟩
  | 112 => ⟨S600000x128, .f32⟩
  | 113 => ⟨S_, .i32⟩
  | 114 => ⟨S600000, .i32⟩
  | 115 => ⟨S600000, .i1⟩
  | 116 => ⟨S_, .i32⟩
  | 117 => ⟨S600000, .i32⟩
  | 118 => ⟨S600000, .i32⟩
  | 119 => ⟨S600000, .i32⟩
  | 120 => ⟨S600000x1, .i32⟩
  | 121 => ⟨S600000, .f32⟩
  | 122 => ⟨S600000x1, .f32⟩
  | 123 => ⟨S600000x128, .f32⟩
  | 124 => ⟨S600000x128, .f32⟩
  | 125 => ⟨S_, .f32⟩
  | 126 => ⟨S100000x128, .f32⟩
  | 127 => ⟨S600000x1, .i32⟩
  | _ => ⟨S50000x256, .f32⟩

abbrev hbmTy0_2 (i : Nat) : BufTy := match i % 128 with
  | 0 => ⟨S100000x128, .f32⟩
  | 1 => ⟨S100000x1, .f32⟩
  | 2 => ⟨S100000x128, .f32⟩
  | 3 => ⟨S100000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S600000x128, .f32⟩
  | 14 => ⟨S128x128, .f32⟩
  | 15 => ⟨S600000x128, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000x1, .f32⟩
  | 26 => ⟨S600000x128, .f32⟩
  | 27 => ⟨S600000x128, .f32⟩
  | 28 => ⟨S_, .f32⟩
  | 29 => ⟨S100000x128, .f32⟩
  | 30 => ⟨S600000x1, .i32⟩
  | 31 => ⟨S100000x128, .f32⟩
  | 32 => ⟨S100000x1, .f32⟩
  | 33 => ⟨S100000x128, .f32⟩
  | 34 => ⟨S100000x128, .f32⟩
  | 35 => ⟨S100000x128, .f32⟩
  | 36 => ⟨S100000x128, .f32⟩
  | 37 => ⟨S128x128, .f32⟩
  | 38 => ⟨S100000x128, .f32⟩
  | 39 => ⟨S100000x128, .f32⟩
  | 40 => ⟨S100000x128, .f32⟩
  | 41 => ⟨S_, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S_, .f32⟩
  | 65 => ⟨S100000x1, .f32⟩
  | 66 => ⟨S100000x1, .f32⟩
  | 67 => ⟨S100000x1, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_cst : Ref sig .tc := ⟨.hbm, 29, rfl⟩
abbrev main_v6 : Ref sig .tc := ⟨.hbm, 30, rfl⟩
abbrev main_cst_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_2 : Ref sig .tc := ⟨.hbm, 39, rfl⟩
abbrev main_v13 : Ref sig .tc := ⟨.hbm, 40, rfl⟩
abbrev main_v14 : Ref sig .tc := ⟨.hbm, 41, rfl⟩
abbrev main_cst_3 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_4 : Ref sig .tc := ⟨.hbm, 46, rfl⟩
abbrev main_v18 : Ref sig .tc := ⟨.hbm, 47, rfl⟩
abbrev main_v19 : Ref sig .tc := ⟨.hbm, 48, rfl⟩
abbrev main_cst_5 : Ref sig .tc := ⟨.hbm, 49, rfl⟩
abbrev main_call0_v0 : Ref sig .tc := ⟨.hbm, 50, rfl⟩
abbrev main_call0_v1 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_v22 : Ref sig .tc := ⟨.hbm, 55, rfl⟩
abbrev main_cst_7 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_8 : Ref sig .tc := ⟨.hbm, 60, rfl⟩
abbrev main_v26 : Ref sig .tc := ⟨.hbm, 61, rfl⟩
abbrev main_v27 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_v28 : Ref sig .tc := ⟨.hbm, 66, rfl⟩
abbrev main_c : Ref sig .tc := ⟨.hbm, 67, rfl⟩
abbrev main_v29 : Ref sig .tc := ⟨.hbm, 68, rfl⟩
abbrev main_v30 : Ref sig .tc := ⟨.hbm, 69, rfl⟩
abbrev main_c_10 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_11 : Ref sig .tc := ⟨.hbm, 76, rfl⟩
abbrev main_v36 : Ref sig .tc := ⟨.hbm, 77, rfl⟩
abbrev main_v37 : Ref sig .tc := ⟨.hbm, 78, rfl⟩
abbrev main_c_12 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_13 : Ref sig .tc := ⟨.hbm, 88, rfl⟩
abbrev main_v46 : Ref sig .tc := ⟨.hbm, 89, rfl⟩
abbrev main_v47 : Ref sig .tc := ⟨.hbm, 90, rfl⟩
abbrev main_c_14 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_15 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_16 : Ref sig .tc := ⟨.hbm, 107, rfl⟩
abbrev main_v62 : Ref sig .tc := ⟨.hbm, 108, rfl⟩
abbrev main_v63 : Ref sig .tc := ⟨.hbm, 109, rfl⟩
abbrev main_c_17 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_c_18 : Ref sig .tc := ⟨.hbm, 119, rfl⟩
abbrev main_v72 : Ref sig .tc := ⟨.hbm, 120, rfl⟩
abbrev main_v73 : Ref sig .tc := ⟨.hbm, 121, rfl⟩
abbrev main_c_19 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_20 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_21 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_call2_cst : Ref sig .tc := ⟨.hbm, 150, rfl⟩
abbrev main_call2_v0 : Ref sig .tc := ⟨.hbm, 151, rfl⟩
abbrev main_v99 : Ref sig .tc := ⟨.hbm, 152, rfl⟩
abbrev main_cst_22 : Ref sig .tc := ⟨.hbm, 153, rfl⟩
abbrev main_v100 : Ref sig .tc := ⟨.hbm, 154, rfl⟩
abbrev main_v101 : Ref sig .tc := ⟨.hbm, 155, rfl⟩
abbrev main_cst_23 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_cst_24 : Ref sig .tc := ⟨.hbm, 162, rfl⟩
abbrev main_v107 : Ref sig .tc := ⟨.hbm, 163, rfl⟩
abbrev main_v108 : Ref sig .tc := ⟨.hbm, 164, rfl⟩
abbrev main_cst_25 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_26 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_27 : Ref sig .tc := ⟨.hbm, 182, rfl⟩
abbrev main_v124 : Ref sig .tc := ⟨.hbm, 183, rfl⟩
abbrev main_cst_28 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_cst_29 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_cst_30 : Ref sig .tc := ⟨.hbm, 192, rfl⟩
abbrev main_v131 : Ref sig .tc := ⟨.hbm, 193, rfl⟩
abbrev main_v132 : Ref sig .tc := ⟨.hbm, 194, rfl⟩
abbrev main_cst_31 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_cst_32 : Ref sig .tc := ⟨.hbm, 199, rfl⟩
abbrev main_v136 : Ref sig .tc := ⟨.hbm, 200, rfl⟩
abbrev main_v137 : Ref sig .tc := ⟨.hbm, 201, rfl⟩
abbrev main_cst_33 : Ref sig .tc := ⟨.hbm, 202, rfl⟩
abbrev main_call3_v0 : Ref sig .tc := ⟨.hbm, 203, rfl⟩
abbrev main_call3_v1 : Ref sig .tc := ⟨.hbm, 204, rfl⟩
abbrev main_v138 : Ref sig .tc := ⟨.hbm, 205, rfl⟩
abbrev main_cst_34 : Ref sig .tc := ⟨.hbm, 206, rfl⟩
abbrev main_v139 : Ref sig .tc := ⟨.hbm, 207, rfl⟩
abbrev main_v140 : Ref sig .tc := ⟨.hbm, 208, rfl⟩
abbrev main_cst_35 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_cst_36 : Ref sig .tc := ⟨.hbm, 213, rfl⟩
abbrev main_v144 : Ref sig .tc := ⟨.hbm, 214, rfl⟩
abbrev main_v145 : Ref sig .tc := ⟨.hbm, 215, rfl⟩
abbrev main_cst_37 : Ref sig .tc := ⟨.hbm, 216, rfl⟩
abbrev main_call4_v0 : Ref sig .tc := ⟨.hbm, 217, rfl⟩
abbrev main_call4_v1 : Ref sig .tc := ⟨.hbm, 218, rfl⟩
abbrev main_v146 : Ref sig .tc := ⟨.hbm, 219, rfl⟩
abbrev main_c_38 : Ref sig .tc := ⟨.hbm, 220, rfl⟩
abbrev main_v147 : Ref sig .tc := ⟨.hbm, 221, rfl⟩
abbrev main_v148 : Ref sig .tc := ⟨.hbm, 222, rfl⟩
abbrev main_c_39 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_c_40 : Ref sig .tc := ⟨.hbm, 229, rfl⟩
abbrev main_v154 : Ref sig .tc := ⟨.hbm, 230, rfl⟩
abbrev main_v155 : Ref sig .tc := ⟨.hbm, 231, rfl⟩
abbrev main_c_41 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_c_42 : Ref sig .tc := ⟨.hbm, 241, rfl⟩
abbrev main_v164 : Ref sig .tc := ⟨.hbm, 242, rfl⟩
abbrev main_v165 : Ref sig .tc := ⟨.hbm, 243, rfl⟩
abbrev main_c_43 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_cst_44 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_c_45 : Ref sig .tc := ⟨.hbm, 260, rfl⟩
abbrev main_v180 : Ref sig .tc := ⟨.hbm, 261, rfl⟩
abbrev main_v181 : Ref sig .tc := ⟨.hbm, 262, rfl⟩
abbrev main_c_46 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_c_47 : Ref sig .tc := ⟨.hbm, 272, rfl⟩
abbrev main_v190 : Ref sig .tc := ⟨.hbm, 273, rfl⟩
abbrev main_v191 : Ref sig .tc := ⟨.hbm, 274, rfl⟩
abbrev main_c_48 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_cst_49 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_cst_50 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_cst_51 : Ref sig .tc := ⟨.hbm, 303, rfl⟩
abbrev main_v217 : Ref sig .tc := ⟨.hbm, 304, rfl⟩
abbrev main_v218 : Ref sig .tc := ⟨.hbm, 305, rfl⟩
abbrev main_cst_52 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_cst_53 : Ref sig .tc := ⟨.hbm, 312, rfl⟩
abbrev main_v224 : Ref sig .tc := ⟨.hbm, 313, rfl⟩
abbrev main_v225 : Ref sig .tc := ⟨.hbm, 314, rfl⟩
abbrev main_cst_54 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_cst_55 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_v236 : Ref sig .tc := ⟨.hbm, 327, rfl⟩
abbrev main_v237 : Ref sig .tc := ⟨.hbm, 328, rfl⟩
abbrev main_v238 : Ref sig .tc := ⟨.hbm, 329, rfl⟩
abbrev main_v239 : Ref sig .tc := ⟨.hbm, 330, rfl⟩
abbrev main_v240 : Ref sig .tc := ⟨.hbm, 331, rfl⟩

abbrev nD : Nat := 1
abbrev τ : Topo := Topo.v7x

variable {F : FTy → Type} [FloatOps F]

class Facts₀ : Prop where
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S100000x128_d0 : Shape.Concatenates [S50000x128, S50000x128] S100000x128 0
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  transposes_S128x128_S128x128_1_0 : S128x128.Transposes [1, 0] S128x128
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  dot_S50000x256_S256x128_S50000x128_1_0_0_1_n_n_wf : DotDims.WF S50000x256 S256x128 S50000x128 [1] [0] [0] [1] [] []
  scatter_S100000_S600000x1_S600000_n_0_0_1_wf : ScatterDims.WF S100000 S600000x1 S600000 [] [0] [0] 1
  gather_S32x128_S600000x1_S600000x128_1_0_n_n_0_1_1128_wf : GatherDims.WF S32x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  dot_S600000x128_S128x128_S600000x128_1_0_0_1_n_n_wf : DotDims.WF S600000x128 S128x128 S600000x128 [1] [0] [0] [1] [] []
  gather_S100000_S600000x1_S600000_n_0_n_n_0_1_1_wf : GatherDims.WF S100000 S600000x1 S600000 [] [0] [] [0] [] 1 ![1]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S32x128_S600000x1_S600000x128_1_0_n_n_0_1_1128 : GatherDims S32x128 S600000x1 S600000x128 where
  offsetDims := [1]
  collapsedSliceDims := [0]
  operandBatchingDims := []
  startIndicesBatchingDims := []
  startIndexMap := [0]
  indexVectorDim := 1
  sliceSizes := ![1, 128]
  wf := gather_S32x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The mathematics both programs compute, entry by entry, on the extended reals (the reading of floats in which every
  operation is exact and a change of format is the identity). Three row-wise functions, each generic in the number of
  rows, so that the same function describes one block of rows and the whole array:

  * `mlp`   — an affine layer: entry (p, j) of x·w + b, with b a single row laid along every row;
  * `edge`  — a message: entry (p, j) of ((xs − rel)·w), the row p then scaled by the one number inv(p, 0);
  * `node`  — the node update: z = (ao + ai + (x − lr)·wl)·(1/3) + bias, optionally max(z, 0), then the row's
                layer normalisation ((z − μ)·rsqrt(σ² + ε))·g + b with μ and σ² the row's mean and mean squared deviation
                (sums over the 128 columns divided by 128).

  Every output row depends only on the same row of the row-indexed operands and on the small tables, which is why a grid
  of row blocks computes the whole array.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with R rows and C columns. -/
abbrev Mat (R C : Nat) : Type := (⟨2, ![R, C]⟩ : Shape).Idx → EReal

/-- Entry (p, j) of x·w + b. -/
def mlpAt {R K N : Nat} (x : Mat R K) (w : Mat K N) (b : Mat 1 N) (p : Fin R) (j : Fin N) : EReal :=
  (∑ k : Fin K, x (ix2 p k) * w (ix2 k j)) + b (ix2 (0 : Fin 1) j)

/-- The affine layer as a whole matrix. -/
def mlp {R K N : Nat} (x : Mat R K) (w : Mat K N) (b : Mat 1 N) : Mat R N :=
  fun i => mlpAt x w b (i 0) (i 1)

/-- Entry (p, j) of ((xs − rel)·w) with row p scaled by inv(p, 0). -/
def edgeAt {R K N : Nat} (xs rel : Mat R K) (inv : Mat R 1) (w : Mat K N) (p : Fin R) (j : Fin N) : EReal :=
  (∑ k : Fin K, (xs (ix2 p k) - rel (ix2 p k)) * w (ix2 k j)) * inv (ix2 p (0 : Fin 1))

/-- The message as a whole matrix. -/
def edge {R K N : Nat} (xs rel : Mat R K) (inv : Mat R 1) (w : Mat K N) : Mat R N :=
  fun i => edgeAt xs rel inv w (i 0) (i 1)

/-- The number 128 as the programs spell it (the same word on both sides, never evaluated). -/
def c128 : EReal := Ideal.ofBits .f32 0x43000000#32

/-- The normalisation's ε as the programs spell it (the same word on both sides, never evaluated). -/
def eps : EReal := Ideal.ofBits .f32 0x3727C5AC#32

/-- The combined message at (p, j), before normalisation: (ao + ai + (x − lr)·wl)·(1/3) + bias, and its positive part
    when `relu` is set. -/
def comboAt (relu : Bool) {R : Nat} (x ao ai : Mat R 128) (lr : Mat 1 128) (wl : Mat 128 128) (bias : Mat 1 128)
    (p : Fin R) (j : Fin 128) : EReal :=
  let z := (ao (ix2 p j) + ai (ix2 p j) + ∑ k : Fin 128, (x (ix2 p k) - lr (ix2 (0 : Fin 1) k)) * wl (ix2 k j))
      * ((1 / 3 : ℝ) : EReal) + bias (ix2 (0 : Fin 1) j)
  if relu then max z 0 else z

/-- The mean of a row of 128 numbers: their sum divided by 128. -/
def meanAt (f : Fin 128 → EReal) : EReal := Ideal.div (∑ j : Fin 128, f j) c128

/-- Layer normalisation of one row z at column j, with gain g and offset b. -/
def lnAt (z : Fin 128 → EReal) (g b : Mat 1 128) (j : Fin 128) : EReal :=
  (z j - meanAt z) * Ideal.rsqrt (meanAt (fun q => (z q - meanAt z) * (z q - meanAt z)) + eps) * g (ix2 (0 : Fin 1) j)
    + b (ix2 (0 : Fin 1) j)

/-- Entry (p, j) of the node update. -/
def nodeAt (relu : Bool) {R : Nat} (x ao ai : Mat R 128) (lr : Mat 1 128) (wl : Mat 128 128) (bias g b : Mat 1 128)
    (p : Fin R) (j : Fin 128) : EReal :=
  lnAt (fun q => comboAt relu x ao ai lr wl bias p q) g b j

/-- The node update as a whole matrix. -/
def node (relu : Bool) {R : Nat} (x ao ai : Mat R 128) (lr : Mat 1 128) (wl : Mat 128 128) (bias g b : Mat 1 128) :
    Mat R 128 :=
  fun i => nodeAt relu x ao ai lr wl bias g b (i 0) (i 1)

/-- Rows a·B … a·B + B − 1 of a matrix, as a matrix of B rows: what a block of rows holds. -/
def rows {R C : Nat} (B : Nat) (a : Nat) (h : ∀ r : Fin B, a * B + r.val < R) (x : Mat R C) : Mat B C :=
  fun i => x (ix2 ⟨a * B + (i 0).val, h (i 0)⟩ (i 1))

end Cert.Spec

end
-- ==== Proof.LibSageLayer.lean ====
/-
  One dense graph-convolution layer read at one entry, at the ideal values (extended reals, every operation exact; a
  change of float format is the identity).

  `dense A X Wl Wr b p j` is entry (p, j) of `A Wl + X Wr + b`: the two sums over the contracted coordinate of the
  products, added, plus the bias entry. `kernel_layer_apply`: the two products, each of format-narrowed operands and
  accumulated into a zero splat, added, plus a [1, N] bias row laid along every row, is `dense`. `host_layer_apply`: the
  first product plus the bias vector (laid as one row, then along every row), plus the second product, is `dense` too —
  addition of extended reals is commutative and associative, so the bias may be added before or after the second
  product. `relu_host_apply`, `relu_kernel_apply`: the maximum with a zero (a scalar constant broadcast, or a splat of
  the zero word), read at an entry, is `max · 0`. `rowcast_apply`: a vector cast to a one-row matrix reads, at (0, j),
  the vector at j.
-/
import Idealize.ShloMosaic.Lib.ValueLayout
import Idealize.ShloMosaic.Lib.StackMember
import Idealize.ShloMosaic.Lib.KernelVsHost
import Idealize.ShloMosaic.PureOps.Ideal.Laws
import Idealize.ShloMosaic.Lib.Pipeline.Value

noncomputable section

open scoped BigOperators

namespace Cert.Sage

open Idealize.ShloMosaic Idealize.ShloMosaic.ValueIdx Idealize.ShloMosaic.StackMember

/-- Entry (p, j) of `A Wl + X Wr + b`. -/
def dense {R K N : Nat} (A X : (⟨2, ![R, K]⟩ : Shape).Idx → EReal) (Wl Wr : (⟨2, ![K, N]⟩ : Shape).Idx → EReal) (b : Fin N → EReal) (p : Fin R) (j : Fin N) : EReal :=
  (∑ k : Fin K, A (ix2 p k) * Wl (ix2 k j) + ∑ k : Fin K, X (ix2 p k) * Wr (ix2 k j)) + b j

/-- A plain [R, K] by [K, N] product into a zero accumulator, read at (p, j), whatever the operands' formats: the sum
    over the contracted coordinate of the products. -/
theorem matmul0_apply {R K N : Nat} {φ₁ φ₂ : FTy} (prec : Option ContractPrecision)
    (h : FVec Ideal ⟨2, ![R, K]⟩ φ₁) (w : FVec Ideal ⟨2, ![K, N]⟩ φ₂) (p : Fin R) (j : Fin N) :
    matmul (DotDims.plain R K N) prec h w (constant ⟨2, ![R, N]⟩ .f32 0x00000000#32) (ix2 p j)
      = ∑ k : Fin K, h (ix2 p k) * w (ix2 k j) :=
  (congrFun (matmul_zero_eq_dotGeneral _ prec h w) _).trans (dotGeneral_plain_apply prec h w p j)

/-- A vector laid as one row (axis 1 of a [1, N] matrix), read at (0, j), is the vector at j. -/
theorem broadcastInDim_vecRow_apply {α : Type} {N : Nat} (h1 : (⟨1, ![N]⟩ : Shape).BroadcastsInDim ⟨2, ![1, N]⟩ ![1])
    (bl : (⟨1, ![N]⟩ : Shape).Idx → α) (j : Fin N) :
    broadcastInDim ⟨2, ![1, N]⟩ ![1] h1 bl (ix2 (0 : Fin 1) j) = bl (ix1 j) := by
  refine broadcastInDim_apply ![1] h1 bl (ix2 (0 : Fin 1) j) (ix1 j) ?_
  intro a
  match a with
  | ⟨0, _⟩ =>
    show j.val = if N = 1 then 0 else j.val
    split
    · have := j.isLt; omega
    · rfl

/-- The kernel's layer: the two products of format-narrowed operands into zero accumulators, added, plus the bias row
    laid along every row. The dimension numbers are any record equal to the plain ones. -/
theorem kernel_layer_apply {R K N : Nat} (D : DotDims ⟨2, ![R, K]⟩ ⟨2, ![K, N]⟩ ⟨2, ![R, N]⟩) (hD : D = DotDims.plain R K N)
    (a x : FVec Ideal ⟨2, ![R, K]⟩ .f32) (wl wr : FVec Ideal ⟨2, ![K, N]⟩ .f32) (b : FVec Ideal ⟨2, ![1, N]⟩ .f32)
    (ht : FTy.bits .bf16 < FTy.bits .f32) (hb : (⟨2, ![1, N]⟩ : Shape).Broadcasts ⟨2, ![R, N]⟩) (p : Fin R) (j : Fin N) :
    addf (addf (matmul D none (truncf .bf16 a ht) (truncf .bf16 wl ht) (constant ⟨2, ![R, N]⟩ .f32 0x00000000#32))
               (matmul D none (truncf .bf16 x ht) (truncf .bf16 wr ht) (constant ⟨2, ![R, N]⟩ .f32 0x00000000#32)))
         (broadcastTo ⟨2, ![R, N]⟩ b hb) (ix2 p j)
      = dense a x wl wr (fun j => b (ix2 (0 : Fin 1) j)) p j := by
  subst hD
  rw [addf_apply, addf_apply, broadcastTo_1b_ab_apply, matmul0_apply, matmul0_apply]
  rfl

/-- The host's layer: the first product plus the bias (a vector laid as one row, the row laid along every row), plus
    the second product. The bias is added before the second product here and after it in `dense`; the two sums agree. -/
theorem host_layer_apply {R K N : Nat} (D : DotDims ⟨2, ![R, K]⟩ ⟨2, ![K, N]⟩ ⟨2, ![R, N]⟩) (hD : D = DotDims.plain R K N)
    (A X : FVec Ideal ⟨2, ![R, K]⟩ .f32) (Wl Wr : FVec Ideal ⟨2, ![K, N]⟩ .f32) (bl : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (j : Fin N) :
    addf (addf (Host.dotGeneral D none A Wl) (broadcastInDim ⟨2, ![R, N]⟩ ![0, 1] h2 (broadcastInDim ⟨2, ![1, N]⟩ ![1] h1 bl)))
         (Host.dotGeneral D none X Wr) (ix2 p j)
      = dense A X Wl Wr (fun j => bl (ix1 j)) p j := by
  subst hD
  rw [addf_apply, addf_apply, broadcastInDim_oneRow_apply, broadcastInDim_vecRow_apply, dotGeneral_plain_apply,
    dotGeneral_plain_apply]
  unfold dense
  exact add_right_comm _ _ _

/-- The maximum with a scalar zero constant broadcast to the shape, read at an entry. -/
theorem relu_host_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = max (v i) 0 := by
  rw [maximumf_apply]
  refine congrArg (max (v i)) ?_
  refine (broadcastInDim_apply ![] h (constant (F := Ideal) ⟨0, ![]⟩ .f32 0x00000000#32) i (fun a => a.elim0)
    (fun a => a.elim0)).trans ?_
  rw [constant_apply, Ideal.ofBits_zero_f32]

/-- The maximum with a splat of the zero word, read at an entry. -/
theorem relu_kernel_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- A vector cast to a one-row matrix reads, at (0, j), the vector at j. -/
theorem rowcast_apply {α : Type} {N : Nat} (bl : (⟨1, ![N]⟩ : Shape).Idx → α) (h : (⟨1, ![N]⟩ : Shape).ShapeCasts ⟨2, ![1, N]⟩) (j : Fin N) :
    shapeCast ⟨2, ![1, N]⟩ bl h (ix2 (0 : Fin 1) j) = bl (ix1 j) :=
  shapeCast_apply bl h (ix2 (0 : Fin 1) j) (ix1 j) (by
    rw [Shape.rowMajor_val_two, Shape.rowMajor_val_one]; show j.val = 0 * N + j.val; omega)

end Cert.Sage

end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.EdgePay.lean ====
/-
  The arithmetic of the affine-encoder body and of the per-edge message body, read at one entry, at the ideal values
  (extended reals, every operation exact, a change of float format the identity).

  The encoder's body is a plain product of a block of rows by the weight table, accumulated into zero, plus the one bias
  row laid along every row: at the entry (p, j) that is the sum over the contracted coordinate of x(p, k)·w(k, j), plus
  b(0, j). The message body subtracts the relation block from the feature block, multiplies the difference by the weight
  table (into zero), and scales row p by the one number of the inverse-degree column: at (p, j) that is
  (∑ k, (xs(p, k) − rel(p, k))·w(k, j))·inv(p, 0). The casts to a narrower format and the casts of a shape to itself
  change nothing.
-/
import proofs.«138557_j88261577933338_1_alg».proof.Proof.Gen.KernelIdeal.Skeleton
import proofs.«138557_j88261577933338_1_alg».proof.Proof.Spec
import proofs.«138557_j88261577933338_1_alg».proof.Proof.LibSageLayer
import proofs.«138557_j88261577933338_1_alg».proof.Proof.LibColumnLayout

noncomputable section

open scoped BigOperators

namespace Cert.KernelIdeal.EdgePay

open Idealize.ShloMosaic Idealize.ShloMosaic.ValueIdx Idealize.SL.Sem Cert.KernelIdeal Cert.KernelIdeal.Gen

/-- The encoder's printed dimension numbers are the plain ones: contract the left operand's axis 1 with the right
    operand's axis 0, no batch axis. -/
theorem dot_mlp_plain : dot_S5000x256_S256x128_S5000x128_1_0_0_1_n_n = DotDims.plain 5000 256 128 := rfl

/-- The message's printed dimension numbers are the plain ones. -/
theorem dot_edge_plain : dot_S4800x128_S128x128_S4800x128_1_0_0_1_n_n = DotDims.plain 4800 128 128 := rfl

/-- The encoder's body at the entry (p, j): the row of the block times the column of the table, plus the bias entry. -/
theorem k0_pay1_apply (x : Vec Ideal S5000x256 .f32) (w : Vec Ideal S256x128 .f32) (b : Vec Ideal S1x128 .f32)
    (p : Fin 5000) (j : Fin 128) :
    k0_pay1 (F := Ideal) x w b (ValueIdx.ix2 p j) = Cert.Spec.mlpAt x w b p j := by
  unfold k0_pay1
  rw [shapeCast_self, shapeCast_self, addf_apply, broadcastTo_1b_ab_apply, dot_mlp_plain, Cert.Sage.matmul0_apply]
  rfl

/-- The message's arithmetic on four operands at the entry (p, j). -/
theorem edge_body_apply (xs rel : FVec Ideal S4800x128 .f32) (inv : FVec Ideal S4800x1 .f32) (w : FVec Ideal S128x128 .f32)
    (p : Fin 4800) (j : Fin 128) :
    mulf (matmul dot_S4800x128_S128x128_S4800x128_1_0_0_1_n_n none (truncf .bf16 (subf xs rel) bitsLt_bf16_f32)
        (truncf .bf16 w bitsLt_bf16_f32) (constant S4800x128 .f32 0x00000000#32))
      (broadcastTo S4800x128 inv broadcasts_S4800x1_S4800x128) (ValueIdx.ix2 p j)
      = Cert.Spec.edgeAt xs rel inv w p j := by
  rw [mulf_apply, PhysLoss.broadcastTo_a1_ab_apply, dot_edge_plain, Cert.Sage.matmul0_apply]
  rfl

theorem k1_pay2_apply (xs rel : Vec Ideal S4800x128 .f32) (inv : Vec Ideal S4800x1 .f32) (w : Vec Ideal S128x128 .f32)
    (p : Fin 4800) (j : Fin 128) :
    k1_pay2 (F := Ideal) xs rel inv w (ValueIdx.ix2 p j) = Cert.Spec.edgeAt xs rel inv w p j := by
  unfold k1_pay2 k1_pay1
  rw [shapeCast_self, shapeCast_self, shapeCast_self, shapeCast_self]
  exact edge_body_apply xs rel inv w p j

theorem k1_pay3_apply (xs rel : Vec Ideal S4800x128 .f32) (inv : Vec Ideal S4800x1 .f32) (w : Vec Ideal S128x128 .f32)
    (p : Fin 4800) (j : Fin 128) :
    k1_pay3 (F := Ideal) xs rel inv w (ValueIdx.ix2 p j) = Cert.Spec.edgeAt xs rel inv w p j := by
  unfold k1_pay3 k1_pay1
  rw [shapeCast_self, shapeCast_self, shapeCast_self, shapeCast_self]
  exact edge_body_apply xs rel inv w p j

theorem k3_pay2_apply (xs rel : Vec Ideal S4800x128 .f32) (inv : Vec Ideal S4800x1 .f32) (w : Vec Ideal S128x128 .f32)
    (p : Fin 4800) (j : Fin 128) :
    k3_pay2 (F := Ideal) xs rel inv w (ValueIdx.ix2 p j) = Cert.Spec.edgeAt xs rel inv w p j := by
  unfold k3_pay2 k3_pay1
  rw [shapeCast_self, shapeCast_self, shapeCast_self, shapeCast_self]
  exact edge_body_apply xs rel inv w p j

theorem k3_pay3_apply (xs rel : Vec Ideal S4800x128 .f32) (inv : Vec Ideal S4800x1 .f32) (w : Vec Ideal S128x128 .f32)
    (p : Fin 4800) (j : Fin 128) :
    k3_pay3 (F := Ideal) xs rel inv w (ValueIdx.ix2 p j) = Cert.Spec.edgeAt xs rel inv w p j := by
  unfold k3_pay3 k3_pay1
  rw [shapeCast_self, shapeCast_self, shapeCast_self, shapeCast_self]
  exact edge_body_apply xs rel inv w p j

end Cert.KernelIdeal.EdgePay

end
-- ==== Proof.Region0.lean ====
/-
  The affine encoder's region as one array: after its ten grid points the output array holds, at every entry (r, j), the
  sum over k of x(r, k)·w(k, j) plus b(0, j), with x, w, b the three input arrays as the region finds them.

  Point t stages rows 5000·t … 5000·t + 4999 of x (all 256 columns) and the whole of the two small tables, and writes back
  rows 5000·t … 5000·t + 4999 of the output (all 128 columns). The body's value at the entry (p, j) of its block is the
  affine layer of row p of the staged block, which is row 5000·t + p of x; so what point t writes back is block t of the
  affine layer of the whole arrays. Row r lies in the block of point r / 5000, so the ten blocks cover the output.
-/
import proofs.«138557_j88261577933338_1_alg».proof.Proof.Gen.KernelIdeal.Frame
import proofs.«138557_j88261577933338_1_alg».proof.Proof.EdgePay
import Idealize.ShloMosaic.Lib.Pipeline.Value
import Idealize.ShloMosaic.Lib.ValueIdx

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the ten points: the row-blocked windows sit at block row t, column block 0; the two
    tables at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The affine layer's value at an entry depends only on the row of x, the column of w and the entry of b that it reads. -/
theorem mlpAt_congr {R R' K N : Nat} (x : Cert.Spec.Mat R K) (x' : Cert.Spec.Mat R' K) (w w' : Cert.Spec.Mat K N)
    (b b' : Cert.Spec.Mat 1 N) (p : Fin R) (p' : Fin R') (j j' : Fin N)
    (hx : ∀ k : Fin K, x (ix2 p k) = x' (ix2 p' k)) (hw : ∀ k : Fin K, w (ix2 k j) = w' (ix2 k j'))
    (hb : b (ix2 (0 : Fin 1) j) = b' (ix2 (0 : Fin 1) j')) :
    Cert.Spec.mlpAt x w b p j = Cert.Spec.mlpAt x' w' b' p' j' := by
  unfold Cert.Spec.mlpAt
  rw [hb]
  exact congrArg (· + b' (ix2 (0 : Fin 1) j')) (Finset.sum_congr rfl fun k _ => by rw [hx k, hw k])

/-- Window 0's block at point t is rows 5000·t … of the first array. -/
theorem iblk_x (c : Dev nD) (t : Fin cfg0.N) (p : Fin 5000) (k : Fin 256) (r : Fin 50000) (hr : r.val = t.val * 5000 + p.val) :
    (iblk0 V c 0 t : Vec Ideal S5000x256 .f32) (ix2 p k) = (V c main_arg0 : S50000x256.Idx → EReal) (ix2 r k) := by
  obtain ⟨e0, e1, -⟩ := index_facts t
  unfold iblk0
  rw [View.read_apply]
  show (V c main_arg0 : S50000x256.Idx → EReal) _ = _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- Window 1's block at every point is the whole weight table. -/
theorem iblk_w (c : Dev nD) (t : Fin cfg0.N) (k : Fin 256) (j : Fin 128) :
    (iblk0 V c 1 t : Vec Ideal S256x128 .f32) (ix2 k j) = (V c main_v0 : S256x128.Idx → EReal) (ix2 k j) := by
  obtain ⟨-, -, e0, e1, -⟩ := index_facts t
  unfold iblk0
  rw [View.read_apply]
  show (V c main_v0 : S256x128.Idx → EReal) _ = _
  congr 1
  funext a
  apply Fin.ext
  match a with
  | ⟨0, _⟩ => show win0_1.index t (0 : Fin 2) * 256 + 1 * k.val = k.val; rw [e0]; omega
  | ⟨1, _⟩ => show win0_1.index t (1 : Fin 2) * 128 + 1 * j.val = j.val; rw [e1]; omega

/-- Window 2's block at every point is the whole bias row. -/
theorem iblk_b (c : Dev nD) (t : Fin cfg0.N) (u : Fin 1) (j : Fin 128) :
    (iblk0 V c 2 t : Vec Ideal S1x128 .f32) (ix2 u j) = (V c main_v1 : S1x128.Idx → EReal) (ix2 u j) := by
  obtain ⟨-, -, -, -, e0, e1, -⟩ := index_facts t
  unfold iblk0
  rw [View.read_apply]
  show (V c main_v1 : S1x128.Idx → EReal) _ = _
  congr 1
  funext a
  apply Fin.ext
  match a with
  | ⟨0, _⟩ => show win0_2.index t (0 : Fin 2) * 1 + 1 * u.val = u.val; rw [e0]; omega
  | ⟨1, _⟩ => show win0_2.index t (1 : Fin 2) * 128 + 1 * j.val = j.val; rw [e1]; omega

/-- What point t writes back is block t of the affine layer of the whole arrays. -/
theorem flushed_eq (c : Dev nD) (t : Fin cfg0.N) :
    (dat0 (F := Ideal) V c).flushed 3 t
      = ((cfg0.win 3).blk t).view.read (Elt Ideal) (Cert.Spec.mlp (V c main_arg0) (V c main_v0) (V c main_v1)) := by
  show (cfg0.win 3).cut (grid0.coords t) ((dat0 V c).after 3 t) = _
  rw [after0_3]
  unfold out0_3
  rw [View.canon_unit_zero zero_offsets]
  simp only [View.ld_unit_zero (S := S5000x256) zero_offsets, View.ld_unit_zero (S := S256x128) zero_offsets,
    View.ld_unit_zero (S := S1x128) zero_offsets]
  have ht : t.val < 10 := lt_of_lt_of_eq t.isLt (N_0 : cfg0.N = 10)
  obtain ⟨-, -, -, -, -, -, e0, e1⟩ := index_facts t
  refine funext fun (y : S5000x128.Idx) => ?_
  obtain ⟨p, j, rfl⟩ : ∃ (p : Fin 5000) (j : Fin 128), y = ix2 p j := ⟨y 0, y 1, eq_ix2 y⟩
  show k0_pay1 (F := Ideal) (iblk0 V c 0 t) (iblk0 V c 1 t) (iblk0 V c 2 t) (ix2 p j)
    = Cert.Spec.mlp (V c main_arg0) (V c main_v0) (V c main_v1) (((cfg0.win 3).blk t).view.emb (ix2 p j))
  refine (Cert.KernelIdeal.EdgePay.k0_pay1_apply _ _ _ p j).trans ?_
  have hq : ((cfg0.win 3).blk t).view.emb (ix2 p j)
      = (ix2 (⟨t.val * 5000 + p.val, by have := p.isLt; omega⟩ : Fin 50000) j : S50000x128.Idx) := by
    funext a
    apply Fin.ext
    match a with
    | ⟨0, _⟩ => show win0_3.index t (0 : Fin 2) * 5000 + 1 * p.val = t.val * 5000 + p.val; rw [e0]; omega
    | ⟨1, _⟩ => show win0_3.index t (1 : Fin 2) * 128 + 1 * j.val = j.val; rw [e1]; omega
  rw [hq]
  show _ = Cert.Spec.mlpAt (V c main_arg0) (V c main_v0) (V c main_v1) ⟨t.val * 5000 + p.val, _⟩ j
  exact mlpAt_congr _ _ _ _ _ _ p _ j j (fun k => iblk_x V c t p k _ rfl) (fun k => iblk_w V c t k j)
    (iblk_b V c t 0 j)

/-- An index of the output array is in point t's block iff each coordinate is in the block's range on its axis. -/
theorem mem_blk (t : Fin cfg0.N) (i : S50000x128.Idx) :
    i ∈ ((cfg0.win 3).blk t).view.set
      ↔ ∀ a : Fin 2, win0_3.index t a * S5000x128.size a ≤ (i a).val
          ∧ (i a).val < win0_3.index t a * S5000x128.size a + S5000x128.size a := by
  show i ∈ ((View.whole main_v2).slice (win0_3.rect t)).set ↔ _
  rw [View.set_slice_whole, Rect.mem_set_unit]
  exact Iff.rfl

/-- Every entry of the output lies in the block of the point its row falls in. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1⟩ := index_facts t
  have e0' : win0_3.index t (0 : Fin 2) = (i 0).val / 5000 := e0
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0']; omega
  | ⟨1, _⟩ =>
    show win0_3.index t (1 : Fin 2) * 128 ≤ (i 1).val ∧ (i 1).val < win0_3.index t (1 : Fin 2) * 128 + 128
    rw [e1]; omega

/-- The output array after the region: the affine layer of the three input arrays. -/
theorem arr (c : Dev nD) :
    (dat0 (F := Ideal) V c).arrAt 3 cfg0.N = Cert.Spec.mlp (V c main_arg0) (V c main_v0) (V c main_v1) :=
  (dat0 (F := Ideal) V c).arrAt_eq_of_cover 3 (Cert.Spec.mlp (V c main_arg0) (V c main_v0) (V c main_v1))
    (fun t _ => flushed_eq V c t) cover

end Cert.KernelIdeal.Region0

end
-- ==== Proof.Region1.lean ====
/-
  One per-edge message region as two arrays: after its 125 grid points the first output array holds, at every entry
  (r, j), (∑ k, (xs(r, k) − rel(r, k))·w_out(k, j))·inv_s(r, 0), and the second the same with xt, w_in and inv_t, the
  seven input arrays being as the region finds them.

  Point t stages rows 4800·t … 4800·t + 4799 of the three feature arrays (all 128 columns) and of the two one-column
  scale arrays, and the whole of the two weight tables; it writes back rows 4800·t … 4800·t + 4799 of both outputs. The
  body's value at the entry (p, j) of a block is the message of row p of the staged blocks, which is row 4800·t + p of the
  arrays; so what point t writes back is block t of the message of the whole arrays. Row r lies in the block of point
  r / 4800, so the 125 blocks cover each output.
-/
import proofs.«138557_j88261577933338_1_alg».proof.Proof.Gen.KernelIdeal.Frame
import proofs.«138557_j88261577933338_1_alg».proof.Proof.EdgePay
import Idealize.ShloMosaic.Lib.Pipeline.Value
import Idealize.ShloMosaic.Lib.ValueIdx

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! The block index maps over the 125 points: a row-blocked window sits at block row t, column block 0; a weight table
    at block (0, 0). -/

theorem index_0 : ∀ t : Fin cfg1.N, win1_0.index t (0 : Fin 2) = t.val ∧ win1_0.index t (1 : Fin 2) = 0 :=
  (by decide +kernel : ∀ t : Fin grid1.N, _)
theorem index_1 : ∀ t : Fin cfg1.N, win1_1.index t (0 : Fin 2) = t.val ∧ win1_1.index t (1 : Fin 2) = 0 :=
  (by decide +kernel : ∀ t : Fin grid1.N, _)
theorem index_2 : ∀ t : Fin cfg1.N, win1_2.index t (0 : Fin 2) = t.val ∧ win1_2.index t (1 : Fin 2) = 0 :=
  (by decide +kernel : ∀ t : Fin grid1.N, _)
theorem index_3 : ∀ t : Fin cfg1.N, win1_3.index t (0 : Fin 2) = t.val ∧ win1_3.index t (1 : Fin 2) = 0 :=
  (by decide +kernel : ∀ t : Fin grid1.N, _)
theorem index_4 : ∀ t : Fin cfg1.N, win1_4.index t (0 : Fin 2) = t.val ∧ win1_4.index t (1 : Fin 2) = 0 :=
  (by decide +kernel : ∀ t : Fin grid1.N, _)
theorem index_5 : ∀ t : Fin cfg1.N, win1_5.index t (0 : Fin 2) = 0 ∧ win1_5.index t (1 : Fin 2) = 0 :=
  (by decide +kernel : ∀ t : Fin grid1.N, _)
theorem index_6 : ∀ t : Fin cfg1.N, win1_6.index t (0 : Fin 2) = 0 ∧ win1_6.index t (1 : Fin 2) = 0 :=
  (by decide +kernel : ∀ t : Fin grid1.N, _)
theorem index_7 : ∀ t : Fin cfg1.N, win1_7.index t (0 : Fin 2) = t.val ∧ win1_7.index t (1 : Fin 2) = 0 :=
  (by decide +kernel : ∀ t : Fin grid1.N, _)
theorem index_8 : ∀ t : Fin cfg1.N, win1_8.index t (0 : Fin 2) = t.val ∧ win1_8.index t (1 : Fin 2) = 0 :=
  (by decide +kernel : ∀ t : Fin grid1.N, _)

/-- The message's value at an entry depends only on the rows of xs, rel and inv and the column of w that it reads. -/
theorem edgeAt_congr {R R' K N : Nat} (xs rel : Cert.Spec.Mat R K) (xs' rel' : Cert.Spec.Mat R' K)
    (inv : Cert.Spec.Mat R 1) (inv' : Cert.Spec.Mat R' 1) (w w' : Cert.Spec.Mat K N) (p : Fin R) (p' : Fin R') (j : Fin N)
    (hx : ∀ k : Fin K, xs (ix2 p k) = xs' (ix2 p' k)) (hr : ∀ k : Fin K, rel (ix2 p k) = rel' (ix2 p' k))
    (hi : inv (ix2 p (0 : Fin 1)) = inv' (ix2 p' (0 : Fin 1))) (hw : ∀ k : Fin K, w (ix2 k j) = w' (ix2 k j)) :
    Cert.Spec.edgeAt xs rel inv w p j = Cert.Spec.edgeAt xs' rel' inv' w' p' j := by
  unfold Cert.Spec.edgeAt
  rw [hi]
  exact congrArg (· * inv' (ix2 p' (0 : Fin 1))) (Finset.sum_congr rfl fun k _ => by rw [hx k, hr k, hw k])

/-- Window 0's block at point t is rows 4800·t … of the source-feature array. -/
theorem iblk_xs (c : Dev nD) (t : Fin cfg1.N) (p : Fin 4800) (k : Fin 128) (r : Fin 600000) (hr : r.val = t.val * 4800 + p.val) :
    (iblk1 V c 0 t : Vec Ideal S4800x128 .f32) (ix2 p k) = (V c main_v40 : S600000x128.Idx → EReal) (ix2 r k) := by
  obtain ⟨e0, e1⟩ := index_0 t
  unfold iblk1
  rw [View.read_apply]
  show (V c main_v40 : S600000x128.Idx → EReal) _ = _
  congr 1
  funext a
  apply Fin.ext
  match a with
  | ⟨0, _⟩ => show win1_0.index t (0 : Fin 2) * 4800 + 1 * p.val = r.val; rw [e0, hr]; omega
  | ⟨1, _⟩ => show win1_0.index t (1 : Fin 2) * 128 + 1 * k.val = k.val; rw [e1]; omega

/-- Window 1's block at point t is rows 4800·t … of the target-feature array. -/
theorem iblk_xt (c : Dev nD) (t : Fin cfg1.N) (p : Fin 4800) (k : Fin 128) (r : Fin 600000) (hr : r.val = t.val * 4800 + p.val) :
    (iblk1 V c 1 t : Vec Ideal S4800x128 .f32) (ix2 p k) = (V c main_v47 : S600000x128.Idx → EReal) (ix2 r k) := by
  obtain ⟨e0, e1⟩ := index_1 t
  unfold iblk1
  rw [View.read_apply]
  show (V c main_v47 : S600000x128.Idx → EReal) _ = _
  congr 1
  funext a
  apply Fin.ext
  match a with
  | ⟨0, _⟩ => show win1_1.index t (0 : Fin 2) * 4800 + 1 * p.val = r.val; rw [e0, hr]; omega
  | ⟨1, _⟩ => show win1_1.index t (1 : Fin 2) * 128 + 1 * k.val = k.val; rw [e1]; omega

/-- Window 2's block at point t is rows 4800·t … of the relation array. -/
theorem iblk_rel (c : Dev nD) (t : Fin cfg1.N) (p : Fin 4800) (k : Fin 128) (r : Fin 600000) (hr : r.val = t.val * 4800 + p.val) :
    (iblk1 V c 2 t : Vec Ideal S4800x128 .f32) (ix2 p k) = (V c main_v33 : S600000x128.Idx → EReal) (ix2 r k) := by
  obtain ⟨e0, e1⟩ := index_2 t
  unfold iblk1
  rw [View.read_apply]
  show (V c main_v33 : S600000x128.Idx → EReal) _ = _
  congr 1
  funext a
  apply Fin.ext
  match a with
  | ⟨0, _⟩ => show win1_2.index t (0 : Fin 2) * 4800 + 1 * p.val = r.val; rw [e0, hr]; omega
  | ⟨1, _⟩ => show win1_2.index t (1 : Fin 2) * 128 + 1 * k.val = k.val; rw [e1]; omega

/-- Window 3's block at point t is rows 4800·t … of the first scale column. -/
theorem iblk_invs (c : Dev nD) (t : Fin cfg1.N) (p : Fin 4800) (u : Fin 1) (r : Fin 600000) (hr : r.val = t.val * 4800 + p.val) :
    (iblk1 V c 3 t : Vec Ideal S4800x1 .f32) (ix2 p u) = (V c main_v55 : S600000x1.Idx → EReal) (ix2 r u) := by
  obtain ⟨e0, e1⟩ := index_3 t
  unfold iblk1
  rw [View.read_apply]
  show (V c main_v55 : S600000x1.Idx → EReal) _ = _
  congr 1
  funext a
  apply Fin.ext
  match a with
  | ⟨0, _⟩ => show win1_3.index t (0 : Fin 2) * 4800 + 1 * p.val = r.val; rw [e0, hr]; omega
  | ⟨1, _⟩ => show win1_3.index t (1 : Fin 2) * 1 + 1 * u.val = u.val; rw [e1]; omega

/-- Window 4's block at point t is rows 4800·t … of the second scale column. -/
theorem iblk_invt (c : Dev nD) (t : Fin cfg1.N) (p : Fin 4800) (u : Fin 1) (r : Fin 600000) (hr : r.val = t.val * 4800 + p.val) :
    (iblk1 V c 4 t : Vec Ideal S4800x1 .f32) (ix2 p u) = (V c main_v63 : S600000x1.Idx → EReal) (ix2 r u) := by
  obtain ⟨e0, e1⟩ := index_4 t
  unfold iblk1
  rw [View.read_apply]
  show (V c main_v63 : S600000x1.Idx → EReal) _ = _
  congr 1
  funext a
  apply Fin.ext
  match a with
  | ⟨0, _⟩ => show win1_4.index t (0 : Fin 2) * 4800 + 1 * p.val = r.val; rw [e0, hr]; omega
  | ⟨1, _⟩ => show win1_4.index t (1 : Fin 2) * 1 + 1 * u.val = u.val; rw [e1]; omega

/-- Window 5's block at every point is the whole first weight table. -/
theorem iblk_wout (c : Dev nD) (t : Fin cfg1.N) (k : Fin 128) (j : Fin 128) :
    (iblk1 V c 5 t : Vec Ideal S128x128 .f32) (ix2 k j) = (V c main_v64 : S128x128.Idx → EReal) (ix2 k j) := by
  obtain ⟨e0, e1⟩ := index_5 t
  unfold iblk1
  rw [View.read_apply]
  show (V c main_v64 : S128x128.Idx → EReal) _ = _
  congr 1
  funext a
  apply Fin.ext
  match a with
  | ⟨0, _⟩ => show win1_5.index t (0 : Fin 2) * 128 + 1 * k.val = k.val; rw [e0]; omega
  | ⟨1, _⟩ => show win1_5.index t (1 : Fin 2) * 128 + 1 * j.val = j.val; rw [e1]; omega

/-- Window 6's block at every point is the whole second weight table. -/
theorem iblk_win (c : Dev nD) (t : Fin cfg1.N) (k : Fin 128) (j : Fin 128) :
    (iblk1 V c 6 t : Vec Ideal S128x128 .f32) (ix2 k j) = (V c main_v65 : S128x128.Idx → EReal) (ix2 k j) := by
  obtain ⟨e0, e1⟩ := index_6 t
  unfold iblk1
  rw [View.read_apply]
  show (V c main_v65 : S128x128.Idx → EReal) _ = _
  congr 1
  funext a
  apply Fin.ext
  match a with
  | ⟨0, _⟩ => show win1_6.index t (0 : Fin 2) * 128 + 1 * k.val = k.val; rw [e0]; omega
  | ⟨1, _⟩ => show win1_6.index t (1 : Fin 2) * 128 + 1 * j.val = j.val; rw [e1]; omega

/-- What point t writes back to the first output is block t of the message of the whole arrays. -/
theorem flushed7_eq (c : Dev nD) (t : Fin cfg1.N) :
    (dat1 (F := Ideal) V c).flushed 7 t
      = ((cfg1.win 7).blk t).view.read (Elt Ideal) (Cert.Spec.edge (V c main_v40) (V c main_v33) (V c main_v55) (V c main_v64)) := by
  show (cfg1.win 7).cut (grid1.coords t) ((dat1 V c).after 7 t) = _
  rw [after1_7]
  unfold out1_7
  rw [View.canon_unit_zero zero_offsets]
  simp only [View.ld_unit_zero (S := S4800x128) zero_offsets, View.ld_unit_zero (S := S4800x1) zero_offsets,
    View.ld_unit_zero (S := S128x128) zero_offsets]
  have ht : t.val < 125 := lt_of_lt_of_eq t.isLt (N_1 : cfg1.N = 125)
  obtain ⟨e0, e1⟩ := index_7 t
  refine funext fun (y : S4800x128.Idx) => ?_
  obtain ⟨p, j, rfl⟩ : ∃ (p : Fin 4800) (j : Fin 128), y = ix2 p j := ⟨y 0, y 1, eq_ix2 y⟩
  show k1_pay2 (F := Ideal) (iblk1 V c 0 t) (iblk1 V c 2 t) (iblk1 V c 3 t) (iblk1 V c 5 t) (ix2 p j)
    = Cert.Spec.edge (V c main_v40) (V c main_v33) (V c main_v55) (V c main_v64) (((cfg1.win 7).blk t).view.emb (ix2 p j))
  refine (Cert.KernelIdeal.EdgePay.k1_pay2_apply _ _ _ _ p j).trans ?_
  have hq : ((cfg1.win 7).blk t).view.emb (ix2 p j)
      = (ix2 (⟨t.val * 4800 + p.val, by have := p.isLt; omega⟩ : Fin 600000) j : S600000x128.Idx) := by
    funext a
    apply Fin.ext
    match a with
    | ⟨0, _⟩ => show win1_7.index t (0 : Fin 2) * 4800 + 1 * p.val = t.val * 4800 + p.val; rw [e0]; omega
    | ⟨1, _⟩ => show win1_7.index t (1 : Fin 2) * 128 + 1 * j.val = j.val; rw [e1]; omega
  rw [hq]
  show _ = Cert.Spec.edgeAt (V c main_v40) (V c main_v33) (V c main_v55) (V c main_v64) ⟨t.val * 4800 + p.val, _⟩ j
  exact edgeAt_congr _ _ _ _ _ _ _ _ p _ j (fun k => iblk_xs V c t p k _ rfl) (fun k => iblk_rel V c t p k _ rfl)
    (iblk_invs V c t p 0 _ rfl) (fun k => iblk_wout V c t k j)

/-- An index of the first output array is in point t's block iff each coordinate is in the block's range on its axis. -/
theorem mem_blk7 (t : Fin cfg1.N) (i : S600000x128.Idx) :
    i ∈ ((cfg1.win 7).blk t).view.set
      ↔ ∀ a : Fin 2, win1_7.index t a * S4800x128.size a ≤ (i a).val
          ∧ (i a).val < win1_7.index t a * S4800x128.size a + S4800x128.size a := by
  show i ∈ ((View.whole main_v66_0).slice (win1_7.rect t)).set ↔ _
  rw [View.set_slice_whole, Rect.mem_set_unit]
  exact Iff.rfl

/-- Every entry of the first output lies in the block of the point its row falls in. -/
theorem cover7 (i : S600000x128.Idx) :
    ∃ t : Fin cfg1.N, (cfg1.win 7).flush t = true ∧ i ∈ ((cfg1.win 7).blk t).view.set := by
  have hi0 : (i 0).val < 600000 := (i 0).isLt
  have hi1 : (i 1).val < 128 := (i 1).isLt
  have hN : cfg1.N = 125 := N_1
  let t : Fin cfg1.N := ⟨(i 0).val / 4800, by rw [hN]; omega⟩
  obtain ⟨e0, e1⟩ := index_7 t
  have e0' : win1_7.index t (0 : Fin 2) = (i 0).val / 4800 := e0
  refine ⟨t, flush1_7 t, ?_⟩
  rw [mem_blk7]
  intro a
  match a with
  | ⟨0, _⟩ =>
    show win1_7.index t (0 : Fin 2) * 4800 ≤ (i 0).val ∧ (i 0).val < win1_7.index t (0 : Fin 2) * 4800 + 4800
    rw [e0']; omega
  | ⟨1, _⟩ =>
    show win1_7.index t (1 : Fin 2) * 128 ≤ (i 1).val ∧ (i 1).val < win1_7.index t (1 : Fin 2) * 128 + 128
    rw [e1]; omega

/-- The first output array after the region: the message of the arrays it reads. -/
theorem arr7 (c : Dev nD) :
    (dat1 (F := Ideal) V c).arrAt 7 cfg1.N = Cert.Spec.edge (V c main_v40) (V c main_v33) (V c main_v55) (V c main_v64) :=
  (dat1 (F := Ideal) V c).arrAt_eq_of_cover 7 (Cert.Spec.edge (V c main_v40) (V c main_v33) (V c main_v55) (V c main_v64))
    (fun t _ => flushed7_eq V c t) cover7

/-- What point t writes back to the second output is block t of the message of the whole arrays. -/
theorem flushed8_eq (c : Dev nD) (t : Fin cfg1.N) :
    (dat1 (F := Ideal) V c).flushed 8 t
      = ((cfg1.win 8).blk t).view.read (Elt Ideal) (Cert.Spec.edge (V c main_v47) (V c main_v33) (V c main_v63) (V c main_v65)) := by
  show (cfg1.win 8).cut (grid1.coords t) ((dat1 V c).after 8 t) = _
  rw [after1_8]
  unfold out1_8
  rw [View.canon_unit_zero zero_offsets]
  simp only [View.ld_unit_zero (S := S4800x128) zero_offsets, View.ld_unit_zero (S := S4800x1) zero_offsets,
    View.ld_unit_zero (S := S128x128) zero_offsets]
  have ht : t.val < 125 := lt_of_lt_of_eq t.isLt (N_1 : cfg1.N = 125)
  obtain ⟨e0, e1⟩ := index_8 t
  refine funext fun (y : S4800x128.Idx) => ?_
  obtain ⟨p, j, rfl⟩ : ∃ (p : Fin 4800) (j : Fin 128), y = ix2 p j := ⟨y 0, y 1, eq_ix2 y⟩
  show k1_pay3 (F := Ideal) (iblk1 V c 1 t) (iblk1 V c 2 t) (iblk1 V c 4 t) (iblk1 V c 6 t) (ix2 p j)
    = Cert.Spec.edge (V c main_v47) (V c main_v33) (V c main_v63) (V c main_v65) (((cfg1.win 8).blk t).view.emb (ix2 p j))
  refine (Cert.KernelIdeal.EdgePay.k1_pay3_apply _ _ _ _ p j).trans ?_
  have hq : ((cfg1.win 8).blk t).view.emb (ix2 p j)
      = (ix2 (⟨t.val * 4800 + p.val, by have := p.isLt; omega⟩ : Fin 600000) j : S600000x128.Idx) := by
    funext a
    apply Fin.ext
    match a with
    | ⟨0, _⟩ => show win1_8.index t (0 : Fin 2) * 4800 + 1 * p.val = t.val * 4800 + p.val; rw [e0]; omega
    | ⟨1, _⟩ => show win1_8.index t (1 : Fin 2) * 128 + 1 * j.val = j.val; rw [e1]; omega
  rw [hq]
  show _ = Cert.Spec.edgeAt (V c main_v47) (V c main_v33) (V c main_v63) (V c main_v65) ⟨t.val * 4800 + p.val, _⟩ j
  exact edgeAt_congr _ _ _ _ _ _ _ _ p _ j (fun k => iblk_xt V c t p k _ rfl) (fun k => iblk_rel V c t p k _ rfl)
    (iblk_invt V c t p 0 _ rfl) (fun k => iblk_win V c t k j)

/-- An index of the second output array is in point t's block iff each coordinate is in the block's range on its axis. -/
theorem mem_blk8 (t : Fin cfg1.N) (i : S600000x128.Idx) :
    i ∈ ((cfg1.win 8).blk t).view.set
      ↔ ∀ a : Fin 2, win1_8.index t a * S4800x128.size a ≤ (i a).val
          ∧ (i a).val < win1_8.index t a * S4800x128.size a + S4800x128.size a := by
  show i ∈ ((View.whole main_v66_1).slice (win1_8.rect t)).set ↔ _
  rw [View.set_slice_whole, Rect.mem_set_unit]
  exact Iff.rfl

/-- Every entry of the second output lies in the block of the point its row falls in. -/
theorem cover8 (i : S600000x128.Idx) :
    ∃ t : Fin cfg1.N, (cfg1.win 8).flush t = true ∧ i ∈ ((cfg1.win 8).blk t).view.set := by
  have hi0 : (i 0).val < 600000 := (i 0).isLt
  have hi1 : (i 1).val < 128 := (i 1).isLt
  have hN : cfg1.N = 125 := N_1
  let t : Fin cfg1.N := ⟨(i 0).val / 4800, by rw [hN]; omega⟩
  obtain ⟨e0, e1⟩ := index_8 t
  have e0' : win1_8.index t (0 : Fin 2) = (i 0).val / 4800 := e0
  refine ⟨t, flush1_8 t, ?_⟩
  rw [mem_blk8]
  intro a
  match a with
  | ⟨0, _⟩ =>
    show win1_8.index t (0 : Fin 2) * 4800 ≤ (i 0).val ∧ (i 0).val < win1_8.index t (0 : Fin 2) * 4800 + 4800
    rw [e0']; omega
  | ⟨1, _⟩ =>
    show win1_8.index t (1 : Fin 2) * 128 ≤ (i 1).val ∧ (i 1).val < win1_8.index t (1 : Fin 2) * 128 + 128
    rw [e1]; omega

/-- The second output array after the region: the message of the arrays it reads. -/
theorem arr8 (c : Dev nD) :
    (dat1 (F := Ideal) V c).arrAt 8 cfg1.N = Cert.Spec.edge (V c main_v47) (V c main_v33) (V c main_v63) (V c main_v65) :=
  (dat1 (F := Ideal) V c).arrAt_eq_of_cover 8 (Cert.Spec.edge (V c main_v47) (V c main_v33) (V c main_v63) (V c main_v65))
    (fun t _ => flushed8_eq V c t) cover8

end Cert.KernelIdeal.Region1

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibBlockRead.lean ====
/-
  Reading a block at an index given by coordinates: general lemmas over shapes written with literal
  extents and indices written `ix1 … ix4`.  A load through a unit-stride rectangle reads the contents at
  the offset index; a column `[a, 1]` cast to a vector, a leading slice of a stack of matrices, a row or
  a column of a small table taken as a vector, a vector written as one row and spread over the rows of a
  block, a flat vector folded into rows, and the one entry of a vector of length one, each read at an
  index; a product of an `[a, c]` block with a `[c, b]` matrix into the zero accumulator, on the extended
  reals, is at `(n, k)` the sum over the contracted coordinate; the sum over the lanes of an `[a, b]`
  block is at `n` the sum of row `n`; and the minimum over the lanes from `+∞` exceeds `c` exactly when
  `+∞` and every entry of the row do.
-/
import Idealize.ShloMosaic.Lib.ValueLayout
import Idealize.ShloMosaic.PureOps.Ideal.Laws
import Idealize.ShloMosaic.Lib.Pipeline.FrameBody

open Idealize.ShloMosaic Idealize.ShloMosaic.ValueIdx
open scoped BigOperators

namespace Cert.Lib.BlockRead

variable {α : Type}

/-- A load through a unit-stride rectangle reads the contents at the offset index. -/
theorem ld_unit_apply {Val : EltTy → Type} {S : Shape} {e : EltTy} (X : S.Idx → Val e) (off size : Fin S.rank → Nat)
    (inb : ∀ a, off a + size a ≤ S.size a) (y : (Rect.unit off size inb).shape.Idx) (k : S.Idx)
    (hk : ∀ a, (k a).val = off a + (y a).val) : View.ld X (Rect.unit off size inb) y = X k :=
  congrArg X (funext fun a => Fin.ext (by
    rw [hk a]; show off a + 1 * (y a).val = _; rw [Nat.one_mul]))

/-- A column `[a, 1]` cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A stack of matrices cut along its first axis from `o` reads, at `(j, b, c)`, the source at `(k, b, c)`
    with `k = o + j`. -/
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (c : Fin n2) (k : Fin n0) (hk : k.val = o + j.val) :
    extractStridedSlice ⟨3, ![m, n1, n2]⟩ ![o, 0, 0] X h (ix3 j b c) = X (ix3 k b c) :=
  extractStridedSlice_apply _ _ _ _ _ (fun ax => by
    match ax with
    | ⟨0, _⟩ => exact hk
    | ⟨1, _⟩ => exact (Nat.zero_add _).symm
    | ⟨2, _⟩ => exact (Nat.zero_add _).symm)

/-- A flat vector of `N = a · b` entries folded into `a` rows of `b` reads, at `(p, q)`, the operand at `b p + q`. -/
theorem shapeCast_flat_rows_apply {N a b : ℕ} (x : (⟨1, ![N]⟩ : Shape).Idx → α)
    (h : (⟨1, ![N]⟩ : Shape).ShapeCasts ⟨2, ![a, b]⟩) (p : Fin a) (q : Fin b) (hlt : p.val * b + q.val < N) :
    shapeCast ⟨2, ![a, b]⟩ x h (ix2 p q) = x (ix1 (⟨p.val * b + q.val, hlt⟩ : Fin N)) :=
  shapeCast_apply x h _ _ (by
    rw [Shape.rowMajor_val_two, Shape.rowMajor_val_one]
    rfl)

/-- A flat vector of 4096 folded into 32 rows of 128 reads, at `(p, q)`, the operand at `128 p + q`. -/
theorem shapeCast_4096_32x128_apply (x : (⟨1, ![4096]⟩ : Shape).Idx → α)
    (h : (⟨1, ![4096]⟩ : Shape).ShapeCasts ⟨2, ![32, 128]⟩) (p : Fin 32) (q : Fin 128) :
    shapeCast ⟨2, ![32, 128]⟩ x h (ix2 p q) = x (ix1 (⟨p.val * 128 + q.val, by omega⟩ : Fin 4096)) :=
  shapeCast_flat_rows_apply x h p q _

/-- The one entry of a vector of length one. -/
theorem extractAt_one (x : (⟨1, ![1]⟩ : Shape).Idx → α)
    (h : ∀ a, (![0] : Fin 1 → Nat) a < (⟨1, ![1]⟩ : Shape).size a) :
    extractAt ![0] x h = x (ix1 (0 : Fin 1)) :=
  congrArg x (funext fun a => match a with | ⟨0, _⟩ => rfl)

/-- A vector `[b]` written as one row and spread over `a` rows reads, at `(p, c)`, the vector at `c`. -/
theorem rows_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- Row `o` of a stack of three matrices, as a matrix. -/
theorem mat_of_stack_apply {a b : ℕ} (o : Nat) (ho : o < 3) (w : (⟨3, ![3, a, b]⟩ : Shape).Idx → α)
    (h1 : (⟨3, ![3, a, b]⟩ : Shape).Slices ![o, 0, 0] ⟨3, ![1, a, b]⟩)
    (h2 : (⟨3, ![1, a, b]⟩ : Shape).ShapeCasts ⟨2, ![a, b]⟩) (j : Fin a) (k : Fin b) :
    shapeCast ⟨2, ![a, b]⟩ (extractStridedSlice ⟨3, ![1, a, b]⟩ ![o, 0, 0] w h1) h2 (ix2 j k)
      = w (ix3 (⟨o, ho⟩ : Fin 3) j k) := by
  rw [shapeCast_1ab_ab_apply, slice3_axis0_apply o w h1 (0 : Fin 1) j k ⟨o, ho⟩ rfl]

/-- Row `o` of a table of three rows, as a vector. -/
theorem row_of_table_apply {b : ℕ} (o : Nat) (ho : o < 3) (w : (⟨2, ![3, b]⟩ : Shape).Idx → α)
    (h1 : (⟨2, ![3, b]⟩ : Shape).Slices ![o, 0] ⟨2, ![1, b]⟩)
    (h2 : (⟨2, ![1, b]⟩ : Shape).ShapeCasts ⟨1, ![b]⟩) (k : Fin b) :
    shapeCast ⟨1, ![b]⟩ (extractStridedSlice ⟨2, ![1, b]⟩ ![o, 0] w h1) h2 (ix1 k)
      = w (ix2 (⟨o, ho⟩ : Fin 3) k) := by
  rw [shapeCast_1a_a_apply, slice2_axis0_apply o w h1 (0 : Fin 1) k ⟨o, ho⟩ rfl]

/-- Column `o` of a table of two columns, as a vector. -/
theorem col_of_table_apply {a : ℕ} (o : Nat) (ho : o < 2) (w : (⟨2, ![a, 2]⟩ : Shape).Idx → α)
    (h1 : (⟨2, ![a, 2]⟩ : Shape).Slices ![0, o] ⟨2, ![a, 1]⟩)
    (h2 : (⟨2, ![a, 1]⟩ : Shape).ShapeCasts ⟨1, ![a]⟩) (d : Fin a) :
    shapeCast ⟨1, ![a]⟩ (extractStridedSlice ⟨2, ![a, 1]⟩ ![0, o] w h1) h2 (ix1 d)
      = w (ix2 d (⟨o, ho⟩ : Fin 2)) := by
  rw [shapeCast_a1_a_apply, slice2_axis1_apply o w h1 d (0 : Fin 1) ⟨o, ho⟩ rfl]

/-- A product of an `[a, c]` block with a `[c, b]` matrix (one contracted axis: the block's second, the
    matrix's first) into the zero accumulator reads, at `(n, k)`, the sum over the contracted coordinate. -/
theorem matmul_zero_apply {a b c : ℕ} {φ₁ φ₂ : FTy}
    (D : DotDims ⟨2, ![a, c]⟩ ⟨2, ![c, b]⟩ ⟨2, ![a, b]⟩) (hr : D.contr.rank = 1)
    (hs : D.contr.size ⟨0, by omega⟩ = c)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![a, c]⟩ φ₁) (rhs : FVec Ideal ⟨2, ![c, b]⟩ φ₂)
    (n : Fin a) (k : Fin b) :
    matmul D prec lhs rhs (constant ⟨2, ![a, b]⟩ .f32 0x00000000#32) (ix2 n k)
      = ∑ d : Fin c, lhs (ix2 n d) * rhs (ix2 d k) := by
  refine (Ideal.matmul_constant_zero_apply D prec lhs rhs (ix2 n k)).trans ?_
  rw [← Equiv.sum_comp (contrEquiv1 D c hr hs).symm]
  refine Finset.sum_congr rfl fun d _ => ?_
  have e := contrEquiv1_symm_val D c hr hs d
  congr 2
  · funext ax
    match ax with
    | ⟨0, _⟩ => exact Fin.ext (hl0 _ _)
    | ⟨1, _⟩ => exact Fin.ext ((hl1 _ _).trans e)
  · funext ax
    match ax with
    | ⟨0, _⟩ => exact Fin.ext ((hr0 _ _).trans e)
    | ⟨1, _⟩ => exact Fin.ext (hr1 _ _)

/-- The sum over the lanes of an `[a, b]` block reads, at `n`, the sum of row `n`. -/
theorem sum_lanes_apply {a b : ℕ} (src : FVec Ideal ⟨2, ![a, b]⟩ .f32)
    (h : (⟨2, ![a, b]⟩ : Shape).Reduces [1] ⟨1, ![a]⟩)
    (hφ : FKind.Formats .f32) (hacc : (0x00000000#32 : BitVec 32) = FKind.add.neutral .f32 hφ) (n : Fin a) :
    multiReduction .add [1] ⟨1, ![a]⟩ src 0x00000000#32 h hφ hacc (ix1 n) = ∑ k : Fin b, src (ix2 n k) := by
  refine (Ideal.multiReduction_add_single src _ h hφ hacc (ix1 n)).trans ?_
  refine Finset.sum_congr rfl fun k _ => congrArg src ?_
  funext ax
  match ax with
  | ⟨0, _⟩ => exact Fin.ext rfl
  | ⟨1, _⟩ => exact Fin.ext rfl

/-- The minimum over the lanes of an `[a, b]` block, from `+∞`, exceeds `c` exactly when `+∞` and every
    entry of the row do. -/
theorem lt_min_lanes_iff {a b : ℕ} (src : FVec Ideal ⟨2, ![a, b]⟩ .f32)
    (h : (⟨2, ![a, b]⟩ : Shape).Reduces [1] ⟨1, ![a]⟩)
    (hφ : FKind.Formats .f32) (hacc : (0x7F800000#32 : BitVec 32) = FKind.minimumf.neutral .f32 hφ) (n : Fin a)
    (c : EReal) :
    c < multiReduction .minimumf [1] ⟨1, ![a]⟩ src 0x7F800000#32 h hφ hacc (ix1 n)
      ↔ c < Ideal.ofBits .f32 0x7F800000#32 ∧ ∀ k : Fin b, c < src (ix2 n k) := by
  rw [multiReduction_minimumf_eq_fold, h.fold_filter_drop_single]
  have e : ∀ k : Fin b, h.lift (ix1 n) k = ix2 n k := fun k => by
    funext ax
    match ax with
    | ⟨0, _⟩ => exact Fin.ext rfl
    | ⟨1, _⟩ => exact Fin.ext rfl
  refine (Finset.lt_fold_min (f := src ∘ h.lift (ix1 n)) (b := Ideal.ofBits .f32 0x7F800000#32)
    (s := Finset.univ) (c := c)).trans ?_
  constructor
  · rintro ⟨h1, h2⟩
    exact ⟨h1, fun k => by
      have := h2 k (Finset.mem_univ _)
      show c < src (ix2 n k)
      rw [← e k]; exact this⟩
  · rintro ⟨h1, h2⟩
    exact ⟨h1, fun k _ => by
      show c < src (h.lift (ix1 n) k)
      rw [e k]; exact h2 k⟩

end Cert.Lib.BlockRead
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.NodePay.lean ====
/-
  The node update on one block of 5000 rows, read at an entry. With z the combined message of the row
  (the two aggregates plus the self-loop product, a third of it, plus the bias, and its positive part in the first
  layer), the block computes the row's mean μ = (Σ z)/128, the deviations z − μ, the mean squared deviation
  σ² = (Σ (z − μ)²)/128, and stores ((z − μ)·rsqrt(σ² + ε))·g + b. Each step is read at an index of the block: a sum over
  the 128 lanes is a finite sum, a column laid along the lanes reads its row's one entry, a row laid along the rows
  reads its column's one entry, the product into a zero accumulator is the finite sum of products.
-/
import proofs.«138557_j88261577933338_1_alg».proof.Proof.Spec
import proofs.«138557_j88261577933338_1_alg».proof.Proof.Gen.KernelIdeal.Skeleton
import proofs.«138557_j88261577933338_1_alg».proof.Proof.LibSoftplus
import proofs.«138557_j88261577933338_1_alg».proof.Proof.LibColumnLayout
import proofs.«138557_j88261577933338_1_alg».proof.Proof.LibBlockRead
import proofs.«138557_j88261577933338_1_alg».proof.Proof.LibDenseLayer

noncomputable section

open scoped BigOperators

namespace Cert.KernelIdeal.NodePay

open Idealize.ShloMosaic Idealize.SL.Sem Cert.KernelIdeal Cert.KernelIdeal.Gen Idealize.ShloMosaic.ValueIdx

/-- The named third is the rational 1/3 on the extended reals. -/
theorem inv3 : Named.named (F := Ideal) Cert.KernelIdeal.κ "inv_3" (φ := .f32) 0x3EAAAAAB#32 = ((1 / 3 : ℝ) : EReal) :=
  IdealRules.named_const.ideal_named_scalar _ _ _ _ rfl

/-- The block's product contracts the left operand's columns with the right operand's rows. -/
theorem dot_plain : dot_S5000x128_S128x128_S5000x128_1_0_0_1_n_n = DotDims.plain 5000 128 128 := rfl

/-! ## The row statistics of a block, as vector terms -/

/-- The column of row means of a block: the lane sums divided by 128. -/
def rowMean (z : FVec Ideal S5000x128 .f32) : FVec Ideal S5000x1 .f32 :=
  divf (shapeCast S5000x1 (multiReduction .add [1] S5000 z 0x00000000#32 reduces_S5000x128_S5000 (.inl rfl) rfl) shapeCasts_S5000_S5000x1)
    (broadcast S5000x1 (Scalar.ofBits (F := Ideal) .f32 0x43000000#32))

/-- A block minus its column of row means laid along the lanes. -/
def centered (z : FVec Ideal S5000x128 .f32) : FVec Ideal S5000x128 .f32 :=
  subf z (broadcastTo S5000x128 (rowMean z) broadcasts_S5000x1_S5000x128)

/-- The column of mean squared deviations plus ε. -/
def varEps (z : FVec Ideal S5000x128 .f32) : FVec Ideal S5000x1 .f32 :=
  addf (rowMean (mulf (centered z) (centered z))) (broadcast S5000x1 (Scalar.ofBits (F := Ideal) .f32 0x3727C5AC#32))

/-- The combined message of a block before the positive part: (ao + ai + (x − lr)·wl)·(1/3) + bias. -/
def combo (x ao ai : Vec Ideal S5000x128 .f32) (lr : Vec Ideal S1x128 .f32) (wl : Vec Ideal S128x128 .f32)
    (bias : Vec Ideal S1x128 .f32) : FVec Ideal S5000x128 .f32 :=
  addf (mulf (addf (addf (shapeCast S5000x128 ao shapeCasts_S5000x128_S5000x128) (shapeCast S5000x128 ai shapeCasts_S5000x128_S5000x128))
      (matmul dot_S5000x128_S128x128_S5000x128_1_0_0_1_n_n none
        (truncf .bf16 (subf (shapeCast S5000x128 x shapeCasts_S5000x128_S5000x128) (broadcastTo S5000x128 lr broadcasts_S1x128_S5000x128)) bitsLt_bf16_f32)
        (truncf .bf16 (shapeCast S128x128 wl shapeCasts_S128x128_S128x128) bitsLt_bf16_f32)
        (constant S5000x128 .f32 0x00000000#32)))
      (broadcast S5000x128 (Named.named κ "inv_3" 0x3EAAAAAB#32)))
    (broadcastTo S5000x128 (shapeCast S1x128 bias shapeCasts_S1x128_S1x128) broadcasts_S1x128_S5000x128)

/-! ## Each statistic at an entry -/

theorem rowMean_apply (z : FVec Ideal S5000x128 .f32) (p : Fin 5000) (u : Fin 1) :
    rowMean z (ix2 p u) = Cert.Spec.meanAt (fun q => z (ix2 p q)) := by
  unfold rowMean Cert.Spec.meanAt Cert.Spec.c128
  rw [divf_apply, broadcast_apply, PhysLoss.shapeCast_a_a1_apply]
  refine congrArg (fun s => Ideal.div s _) ?_
  exact Cert.Lib.BlockRead.sum_lanes_apply z _ _ _ p

theorem centered_apply (z : FVec Ideal S5000x128 .f32) (p : Fin 5000) (j : Fin 128) :
    centered z (ix2 p j) = z (ix2 p j) - Cert.Spec.meanAt (fun q => z (ix2 p q)) := by
  unfold centered
  rw [subf_apply, PhysLoss.broadcastTo_a1_ab_apply, rowMean_apply]

theorem varEps_apply (z : FVec Ideal S5000x128 .f32) (p : Fin 5000) (u : Fin 1) :
    varEps z (ix2 p u)
      = Cert.Spec.meanAt (fun q => (z (ix2 p q) - Cert.Spec.meanAt (fun r => z (ix2 p r))) * (z (ix2 p q) - Cert.Spec.meanAt (fun r => z (ix2 p r))))
        + Cert.Spec.eps := by
  unfold varEps Cert.Spec.eps
  rw [addf_apply, broadcast_apply, rowMean_apply]
  refine congrArg (fun s => Cert.Spec.meanAt s + _) ?_
  funext q
  rw [mulf_apply, centered_apply]

theorem combo_apply (x ao ai : Vec Ideal S5000x128 .f32) (lr : Vec Ideal S1x128 .f32) (wl : Vec Ideal S128x128 .f32)
    (bias : Vec Ideal S1x128 .f32) (p : Fin 5000) (j : Fin 128) :
    combo x ao ai lr wl bias (ix2 p j) = Cert.Spec.comboAt false x ao ai lr wl bias p j := by
  unfold combo Cert.Spec.comboAt
  simp only [shapeCast_self]
  rw [addf_apply, mulf_apply, addf_apply, addf_apply, broadcast_apply, broadcastTo_1b_ab_apply, inv3,
    Cert.Lib.Softplus.matmul0_plain_apply _ dot_plain]
  refine congrArg (fun s => (ao (ix2 p j) + ai (ix2 p j) + s) * _ + _) ?_
  refine Finset.sum_congr rfl fun k _ => ?_
  rw [truncf_apply, truncf_apply, subf_apply, broadcastTo_1b_ab_apply]

/-! ## The printed payloads are these terms -/

theorem pay2_2 (x : Vec Ideal S5000x128 .f32) (lr : Vec Ideal S1x128 .f32) (wl : Vec Ideal S128x128 .f32)
    (ao ai : Vec Ideal S5000x128 .f32) (bias : Vec Ideal S1x128 .f32) :
    k2_pay2 (F := Ideal) x lr wl ao ai bias
      = maximumf (combo x ao ai lr wl bias) (broadcast S5000x128 (Scalar.ofBits (F := Ideal) .f32 0x00000000#32)) := rfl

theorem pay2_4 (x : Vec Ideal S5000x128 .f32) (lr : Vec Ideal S1x128 .f32) (wl : Vec Ideal S128x128 .f32)
    (ao ai : Vec Ideal S5000x128 .f32) (bias : Vec Ideal S1x128 .f32) :
    k2_pay4 (F := Ideal) x lr wl ao ai bias = centered (k2_pay2 x lr wl ao ai bias) := rfl

theorem pay2_5 (x : Vec Ideal S5000x128 .f32) (lr : Vec Ideal S1x128 .f32) (wl : Vec Ideal S128x128 .f32)
    (ao ai : Vec Ideal S5000x128 .f32) (bias : Vec Ideal S1x128 .f32) :
    k2_pay5 (F := Ideal) x lr wl ao ai bias = varEps (k2_pay2 x lr wl ao ai bias) := rfl

theorem pay4_2 (x : Vec Ideal S5000x128 .f32) (lr : Vec Ideal S1x128 .f32) (wl : Vec Ideal S128x128 .f32)
    (ao ai : Vec Ideal S5000x128 .f32) (bias : Vec Ideal S1x128 .f32) :
    k4_pay2 (F := Ideal) x lr wl ao ai bias
      = mulf (centered (combo x ao ai lr wl bias))
          (broadcastTo S5000x128 (rsqrt (varEps (combo x ao ai lr wl bias))) broadcasts_S5000x1_S5000x128) := rfl

/-! ## The stored terms at an entry -/

/-- The positive part of the combined message is the first layer's combined message. -/
theorem comboAt_true {R : Nat} (x ao ai : Cert.Spec.Mat R 128) (lr : Cert.Spec.Mat 1 128) (wl : Cert.Spec.Mat 128 128)
    (bias : Cert.Spec.Mat 1 128) (p : Fin R) (q : Fin 128) :
    Cert.Spec.comboAt true x ao ai lr wl bias p q = max (Cert.Spec.comboAt false x ao ai lr wl bias p q) 0 := rfl

theorem pay2_2_apply (x : Vec Ideal S5000x128 .f32) (lr : Vec Ideal S1x128 .f32) (wl : Vec Ideal S128x128 .f32)
    (ao ai : Vec Ideal S5000x128 .f32) (bias : Vec Ideal S1x128 .f32) (p : Fin 5000) (q : Fin 128) :
    k2_pay2 (F := Ideal) x lr wl ao ai bias (ix2 p q) = Cert.Spec.comboAt true x ao ai lr wl bias p q := by
  rw [pay2_2, Cert.Lib.DenseLayer.relu_apply, combo_apply, comboAt_true]

/-- Deviation times rsqrt of the row's variance term, times the gain row, plus the offset row. -/
theorem pay2_1_apply (d : FVec Ideal S5000x128 .f32) (s : FVec Ideal S5000x1 .f32) (g b : Vec Ideal S1x128 .f32)
    (p : Fin 5000) (j : Fin 128) :
    k2_pay1 (F := Ideal) d s g b (ix2 p j)
      = d (ix2 p j) * Ideal.rsqrt (s (ix2 p (0 : Fin 1))) * g (ix2 (0 : Fin 1) j) + b (ix2 (0 : Fin 1) j) := by
  unfold k2_pay1
  simp only [shapeCast_self]
  rw [addf_apply, mulf_apply, mulf_apply, broadcastTo_1b_ab_apply, broadcastTo_1b_ab_apply, PhysLoss.broadcastTo_a1_ab_apply]
  rfl

theorem pay4_1_apply (v : FVec Ideal S5000x128 .f32) (g b : Vec Ideal S1x128 .f32) (p : Fin 5000) (j : Fin 128) :
    k4_pay1 (F := Ideal) v g b (ix2 p j) = v (ix2 p j) * g (ix2 (0 : Fin 1) j) + b (ix2 (0 : Fin 1) j) := by
  unfold k4_pay1
  simp only [shapeCast_self]
  rw [addf_apply, mulf_apply, broadcastTo_1b_ab_apply, broadcastTo_1b_ab_apply]

/-- The first node layer's stored block at an entry is the node update with the positive part. -/
theorem out2_apply (x ao ai : Vec Ideal S5000x128 .f32) (lr : Vec Ideal S1x128 .f32) (wl : Vec Ideal S128x128 .f32)
    (bias g b : Vec Ideal S1x128 .f32) (p : Fin 5000) (j : Fin 128) :
    k2_pay1 (F := Ideal) (k2_pay4 x lr wl ao ai bias) (k2_pay5 x lr wl ao ai bias) g b (ix2 p j)
      = Cert.Spec.nodeAt true x ao ai lr wl bias g b p j := by
  rw [pay2_1_apply, pay2_4, pay2_5, centered_apply, varEps_apply]
  simp only [pay2_2_apply]
  rfl

/-- The second node layer's stored block at an entry is the node update without the positive part. -/
theorem out4_apply (x ao ai : Vec Ideal S5000x128 .f32) (lr : Vec Ideal S1x128 .f32) (wl : Vec Ideal S128x128 .f32)
    (bias g b : Vec Ideal S1x128 .f32) (p : Fin 5000) (j : Fin 128) :
    k4_pay1 (F := Ideal) (k4_pay2 x lr wl ao ai bias) g b (ix2 p j)
      = Cert.Spec.nodeAt false x ao ai lr wl bias g b p j := by
  rw [pay4_1_apply, pay4_2, mulf_apply, PhysLoss.broadcastTo_a1_ab_apply, centered_apply]
  show _ * Ideal.rsqrt (varEps (combo x ao ai lr wl bias) (ix2 p (0 : Fin 1))) * _ + _ = _
  rw [varEps_apply]
  simp only [combo_apply]
  rfl

/-- The same two facts as equations between functions on the block. -/
theorem out2_eq (x ao ai : Vec Ideal S5000x128 .f32) (lr : Vec Ideal S1x128 .f32) (wl : Vec Ideal S128x128 .f32)
    (bias g b : Vec Ideal S1x128 .f32) :
    k2_pay1 (F := Ideal) (k2_pay4 x lr wl ao ai bias) (k2_pay5 x lr wl ao ai bias) g b
      = Cert.Spec.node true x ao ai lr wl bias g b := by
  funext i
  rw [eq_ix2 i]
  exact out2_apply x ao ai lr wl bias g b (i 0) (i 1)

theorem out4_eq (x ao ai : Vec Ideal S5000x128 .f32) (lr : Vec Ideal S1x128 .f32) (wl : Vec Ideal S128x128 .f32)
    (bias g b : Vec Ideal S1x128 .f32) :
    k4_pay1 (F := Ideal) (k4_pay2 x lr wl ao ai bias) g b = Cert.Spec.node false x ao ai lr wl bias g b := by
  funext i
  rw [eq_ix2 i]
  exact out4_apply x ao ai lr wl bias g b (i 0) (i 1)

/-! ## A row of the update depends on the same row of the row-indexed operands only -/

/-- If row p of a block's three row-indexed operands is row P of the arrays', and the tables agree, the update of the
    block at (p, j) is the update of the arrays at (P, j). -/
theorem nodeAt_rows (relu : Bool) {R B : Nat} (X AO AI : Cert.Spec.Mat R 128) (x ao ai : Cert.Spec.Mat B 128)
    (lr lr' : Cert.Spec.Mat 1 128) (wl wl' : Cert.Spec.Mat 128 128) (bias bias' g g' b b' : Cert.Spec.Mat 1 128)
    (p : Fin B) (P : Fin R) (j j' : Fin 128)
    (hx : ∀ k, x (ix2 p k) = X (ix2 P k)) (hao : ∀ k, ao (ix2 p k) = AO (ix2 P k)) (hai : ∀ k, ai (ix2 p k) = AI (ix2 P k))
    (hlr : lr = lr') (hwl : wl = wl') (hbias : bias = bias') (hg : g = g') (hb : b = b') (hj : j = j') :
    Cert.Spec.nodeAt relu x ao ai lr wl bias g b p j = Cert.Spec.nodeAt relu X AO AI lr' wl' bias' g' b' P j' := by
  subst hlr hwl hbias hg hb hj
  unfold Cert.Spec.nodeAt Cert.Spec.lnAt Cert.Spec.comboAt
  simp only [hx, hao, hai]

end Cert.KernelIdeal.NodePay

end
-- ==== Proof.Region2.lean ====
/-
  The first node region as one array: after its twenty grid points the output array holds, at every entry (r, j),
  the node update of row r — the combined message of the row (the two aggregates plus the self-loop product, a third of
  it, plus the bias, and its positive part), normalised along the row, times the gain, plus the offset —
  of the eight input arrays as the region finds them.

  Point t stages rows 5000·t … 5000·t + 4999 of the three row-indexed arrays and the whole of the five small tables, and
  writes back rows 5000·t … 5000·t + 4999 of the output. The body's value at the entry (p, j) of its block is the node
  update of row p of the staged blocks, and a row of the update depends only on the same row of the row-indexed operands
  and on the tables; row p of a staged block is row 5000·t + p of its array. So what point t writes back is block t of the
  node update of the whole arrays. Row r lies in the block of point r / 5000, so the twenty blocks cover the output.
-/
import proofs.«138557_j88261577933338_1_alg».proof.Proof.Gen.KernelIdeal.Frame
import proofs.«138557_j88261577933338_1_alg».proof.Proof.NodePay
import Idealize.ShloMosaic.Lib.Pipeline.Value
import Idealize.ShloMosaic.Lib.ValueIdx

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the twenty points: the three row-indexed inputs and the output sit at block row t, column
    block 0; the five tables at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of window 0's block at point t is row 5000·t + p of the node features. -/
theorem iblk_row0 (c : Dev nD) (t : Fin cfg2.N) (p : Fin 5000) (k : Fin 128) (r : Fin 100000) (hr : r.val = t.val * 5000 + p.val) :
    (iblk2 V c 0 t : Vec Ideal S5000x128 .f32) (ix2 p k) = (V c main_v3 : S100000x128.Idx → EReal) (ix2 r k) := by
  obtain ⟨e0, e1, -⟩ := index_facts t
  unfold iblk2
  rw [View.read_apply]
  show (V c main_v3 : S100000x128.Idx → EReal) _ = _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- Row p of window 1's block at point t is row 5000·t + p of the outgoing aggregate. -/
theorem iblk_row1 (c : Dev nD) (t : Fin cfg2.N) (p : Fin 5000) (k : Fin 128) (r : Fin 100000) (hr : r.val = t.val * 5000 + p.val) :
    (iblk2 V c 1 t : Vec Ideal S5000x128 .f32) (ix2 p k) = (V c main_v72 : S100000x128.Idx → EReal) (ix2 r k) := by
  obtain ⟨-, -, e0, e1, -⟩ := index_facts t
  unfold iblk2
  rw [View.read_apply]
  show (V c main_v72 : S100000x128.Idx → EReal) _ = _
  congr 1
  funext a
  apply Fin.ext
  match a with
  | ⟨0, _⟩ => show win2_1.index t (0 : Fin 2) * 5000 + 1 * p.val = r.val; rw [e0, hr]; omega
  | ⟨1, _⟩ => show win2_1.index t (1 : Fin 2) * 128 + 1 * k.val = k.val; rw [e1]; omega

/-- Row p of window 2's block at point t is row 5000·t + p of the incoming aggregate. -/
theorem iblk_row2 (c : Dev nD) (t : Fin cfg2.N) (p : Fin 5000) (k : Fin 128) (r : Fin 100000) (hr : r.val = t.val * 5000 + p.val) :
    (iblk2 V c 2 t : Vec Ideal S5000x128 .f32) (ix2 p k) = (V c main_v78 : S100000x128.Idx → EReal) (ix2 r k) := by
  obtain ⟨-, -, -, -, e0, e1, -⟩ := index_facts t
  unfold iblk2
  rw [View.read_apply]
  show (V c main_v78 : S100000x128.Idx → EReal) _ = _
  congr 1
  funext a
  apply Fin.ext
  match a with
  | ⟨0, _⟩ => show win2_2.index t (0 : Fin 2) * 5000 + 1 * p.val = r.val; rw [e0, hr]; omega
  | ⟨1, _⟩ => show win2_2.index t (1 : Fin 2) * 128 + 1 * k.val = k.val; rw [e1]; omega

/-- Window 3's block at every point is the whole of the self-loop relation row. -/
theorem iblk_tab3 (c : Dev nD) (t : Fin cfg2.N) :
    (iblk2 V c 3 t : Vec Ideal S1x128 .f32) = (V c main_arg5 : S1x128.Idx → EReal) := by
  obtain ⟨-, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk2
  rw [View.read_apply]
  show (V c main_arg5 : S1x128.Idx → EReal) _ = _
  congr 1
  funext a
  apply Fin.ext
  match a with
  | ⟨0, _⟩ => show win2_3.index t (0 : Fin 2) * 1 + 1 * u.val = u.val; rw [e0]; omega
  | ⟨1, _⟩ => show win2_3.index t (1 : Fin 2) * 128 + 1 * j.val = j.val; rw [e1]; omega

/-- Window 4's block at every point is the whole of the self-loop weight table. -/
theorem iblk_tab4 (c : Dev nD) (t : Fin cfg2.N) :
    (iblk2 V c 4 t : Vec Ideal S128x128 .f32) = (V c main_v79 : S128x128.Idx → EReal) := by
  obtain ⟨-, -, -, -, -, -, -, -, e0, e1, -⟩ := index_facts t
  refine funext fun (y : S128x128.Idx) => ?_
  obtain ⟨u, j, rfl⟩ : ∃ (u : Fin 128) (j : Fin 128), y = ix2 u j := ⟨y 0, y 1, eq_ix2 y⟩
  unfold iblk2
  rw [View.read_apply]
  show (V c main_v79 : S128x128.Idx → EReal) _ = _
  congr 1
  funext a
  apply Fin.ext
  match a with
  | ⟨0, _⟩ => show win2_4.index t (0 : Fin 2) * 128 + 1 * u.val = u.val; rw [e0]; omega
  | ⟨1, _⟩ => show win2_4.index t (1 : Fin 2) * 128 + 1 * j.val = j.val; rw [e1]; omega

/-- Window 5's block at every point is the whole of the bias row. -/
theorem iblk_tab5 (c : Dev nD) (t : Fin cfg2.N) :
    (iblk2 V c 5 t : Vec Ideal S1x128 .f32) = (V c main_v80 : S1x128.Idx → EReal) := by
  obtain ⟨-, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk2
  rw [View.read_apply]
  show (V c main_v80 : S1x128.Idx → EReal) _ = _
  congr 1
  funext a
  apply Fin.ext
  match a with
  | ⟨0, _⟩ => show win2_5.index t (0 : Fin 2) * 1 + 1 * u.val = u.val; rw [e0]; omega
  | ⟨1, _⟩ => show win2_5.index t (1 : Fin 2) * 128 + 1 * j.val = j.val; rw [e1]; omega

/-- Window 6's block at every point is the whole of the gain row. -/
theorem iblk_tab6 (c : Dev nD) (t : Fin cfg2.N) :
    (iblk2 V c 6 t : Vec Ideal S1x128 .f32) = (V c main_v81 : S1x128.Idx → EReal) := by
  obtain ⟨-, -, -, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk2
  rw [View.read_apply]
  show (V c main_v81 : S1x128.Idx → EReal) _ = _
  congr 1
  funext a
  apply Fin.ext
  match a with
  | ⟨0, _⟩ => show win2_6.index t (0 : Fin 2) * 1 + 1 * u.val = u.val; rw [e0]; omega
  | ⟨1, _⟩ => show win2_6.index t (1 : Fin 2) * 128 + 1 * j.val = j.val; rw [e1]; omega

/-- Window 7's block at every point is the whole of the offset row. -/
theorem iblk_tab7 (c : Dev nD) (t : Fin cfg2.N) :
    (iblk2 V c 7 t : Vec Ideal S1x128 .f32) = (V c main_v82 : S1x128.Idx → EReal) := by
  obtain ⟨-, -, -, -, -, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk2
  rw [View.read_apply]
  show (V c main_v82 : S1x128.Idx → EReal) _ = _
  congr 1
  funext a
  apply Fin.ext
  match a with
  | ⟨0, _⟩ => show win2_7.index t (0 : Fin 2) * 1 + 1 * u.val = u.val; rw [e0]; omega
  | ⟨1, _⟩ => show win2_7.index t (1 : Fin 2) * 128 + 1 * j.val = j.val; rw [e1]; omega

/-- What point t writes back is block t of the node update of the whole arrays. -/
theorem flushed_eq (c : Dev nD) (t : Fin cfg2.N) :
    (dat2 (F := Ideal) V c).flushed 8 t
      = ((cfg2.win 8).blk t).view.read (Elt Ideal)
          (Cert.Spec.node true (V c main_v3) (V c main_v72) (V c main_v78) (V c main_arg5) (V c main_v79) (V c main_v80) (V c main_v81) (V c main_v82)) := by
  show (cfg2.win 8).cut (grid2.coords t) ((dat2 V c).after 8 t) = _
  rw [after2_8]
  unfold out2_8
  rw [View.canon_unit_zero zero_offsets]
  simp only [View.ld_unit_zero (S := S5000x128) zero_offsets, View.ld_unit_zero (S := S1x128) zero_offsets,
    View.ld_unit_zero (S := S128x128) zero_offsets]
  have ht : t.val < 20 := lt_of_lt_of_eq t.isLt (N_2 : cfg2.N = 20)
  obtain ⟨-, -, -, -, -, -, -, -, -, -, -, -, -, -, -, -, e0, e1⟩ := index_facts t
  refine funext fun (y : S5000x128.Idx) => ?_
  obtain ⟨p, j, rfl⟩ : ∃ (p : Fin 5000) (j : Fin 128), y = ix2 p j := ⟨y 0, y 1, eq_ix2 y⟩
  show k2_pay1 (F := Ideal) (k2_pay4 (iblk2 V c 0 t) (iblk2 V c 3 t) (iblk2 V c 4 t) (iblk2 V c 1 t) (iblk2 V c 2 t) (iblk2 V c 5 t))
      (k2_pay5 (iblk2 V c 0 t) (iblk2 V c 3 t) (iblk2 V c 4 t) (iblk2 V c 1 t) (iblk2 V c 2 t) (iblk2 V c 5 t)) (iblk2 V c 6 t) (iblk2 V c 7 t) (ix2 p j)
    = Cert.Spec.node true (V c main_v3) (V c main_v72) (V c main_v78) (V c main_arg5) (V c main_v79) (V c main_v80) (V c main_v81) (V c main_v82)
        (((cfg2.win 8).blk t).view.emb (ix2 p j))
  refine (Cert.KernelIdeal.NodePay.out2_apply _ _ _ _ _ _ _ _ p j).trans ?_
  have hq : ((cfg2.win 8).blk t).view.emb (ix2 p j)
      = (ix2 (⟨t.val * 5000 + p.val, by have := p.isLt; omega⟩ : Fin 100000) j : S100000x128.Idx) := by
    funext a
    apply Fin.ext
    match a with
    | ⟨0, _⟩ => show win2_8.index t (0 : Fin 2) * 5000 + 1 * p.val = t.val * 5000 + p.val; rw [e0]; omega
    | ⟨1, _⟩ => show win2_8.index t (1 : Fin 2) * 128 + 1 * j.val = j.val; rw [e1]; omega
  rw [hq]
  show _ = Cert.Spec.nodeAt true (V c main_v3) (V c main_v72) (V c main_v78) (V c main_arg5) (V c main_v79) (V c main_v80) (V c main_v81) (V c main_v82)
      ⟨t.val * 5000 + p.val, _⟩ j
  exact Cert.KernelIdeal.NodePay.nodeAt_rows true _ _ _ _ _ _ _ _ _ _ _ _ _ _ _ _ p _ j j
    (fun k => iblk_row0 V c t p k _ rfl) (fun k => iblk_row1 V c t p k _ rfl) (fun k => iblk_row2 V c t p k _ rfl)
    (iblk_tab3 V c t) (iblk_tab4 V c t) (iblk_tab5 V c t) (iblk_tab6 V c t) (iblk_tab7 V c t) rfl

/-- An index of the output array is in point t's block iff each coordinate is in the block's range on its axis. -/
theorem mem_blk (t : Fin cfg2.N) (i : S100000x128.Idx) :
    i ∈ ((cfg2.win 8).blk t).view.set
      ↔ ∀ a : Fin 2, win2_8.index t a * S5000x128.size a ≤ (i a).val
          ∧ (i a).val < win2_8.index t a * S5000x128.size a + S5000x128.size a := by
  show i ∈ ((View.whole main_v83).slice (win2_8.rect t)).set ↔ _
  rw [View.set_slice_whole, Rect.mem_set_unit]
  exact Iff.rfl

/-- Every entry of the output lies in the block of the point its row falls in. -/
theorem cover (i : S100000x128.Idx) :
    ∃ t : Fin cfg2.N, (cfg2.win 8).flush t = true ∧ i ∈ ((cfg2.win 8).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, -, -, -, -, -, -, -, -, -, -, e0, e1⟩ := index_facts t
  have e0' : win2_8.index t (0 : Fin 2) = (i 0).val / 5000 := e0
  refine ⟨t, flush2_8 t, ?_⟩
  rw [mem_blk]
  intro a
  match a with
  | ⟨0, _⟩ =>
    show win2_8.index t (0 : Fin 2) * 5000 ≤ (i 0).val ∧ (i 0).val < win2_8.index t (0 : Fin 2) * 5000 + 5000
    rw [e0']; omega
  | ⟨1, _⟩ =>
    show win2_8.index t (1 : Fin 2) * 128 ≤ (i 1).val ∧ (i 1).val < win2_8.index t (1 : Fin 2) * 128 + 128
    rw [e1]; omega

/-- The output array after the region: the node update of the eight input arrays. -/
theorem arr (c : Dev nD) :
    (dat2 (F := Ideal) V c).arrAt 8 cfg2.N
      = Cert.Spec.node true (V c main_v3) (V c main_v72) (V c main_v78) (V c main_arg5) (V c main_v79) (V c main_v80) (V c main_v81) (V c main_v82) :=
  (dat2 (F := Ideal) V c).arrAt_eq_of_cover 8
    (Cert.Spec.node true (V c main_v3) (V c main_v72) (V c main_v78) (V c main_arg5) (V c main_v79) (V c main_v80) (V c main_v81) (V c main_v82))
    (fun t _ => flushed_eq V c t) cover

end Cert.KernelIdeal.Region2

end
-- ==== Proof.Region3.lean ====
/-
  One per-edge message region as two arrays: after its 125 grid points the first output array holds, at every entry
  (r, j), (∑ k, (xs(r, k) − rel(r, k))·w_out(k, j))·inv_s(r, 0), and the second the same with xt, w_in and inv_t, the
  seven input arrays being as the region finds them.

  Point t stages rows 4800·t … 4800·t + 4799 of the three feature arrays (all 128 columns) and of the two one-column
  scale arrays, and the whole of the two weight tables; it writes back rows 4800·t … 4800·t + 4799 of both outputs. The
  body's value at the entry (p, j) of a block is the message of row p of the staged blocks, which is row 4800·t + p of the
  arrays; so what point t writes back is block t of the message of the whole arrays. Row r lies in the block of point
  r / 4800, so the 125 blocks cover each output.
-/
import proofs.«138557_j88261577933338_1_alg».proof.Proof.Gen.KernelIdeal.Frame
import proofs.«138557_j88261577933338_1_alg».proof.Proof.EdgePay
import Idealize.ShloMosaic.Lib.Pipeline.Value
import Idealize.ShloMosaic.Lib.ValueIdx

noncomputable section

open scoped BigOperators

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! The block index maps over the 125 points: a row-blocked window sits at block row t, column block 0; a weight table
    at block (0, 0). -/

theorem index_0 : ∀ t : Fin cfg3.N, win3_0.index t (0 : Fin 2) = t.val ∧ win3_0.index t (1 : Fin 2) = 0 :=
  (by decide +kernel : ∀ t : Fin grid3.N, _)
theorem index_1 : ∀ t : Fin cfg3.N, win3_1.index t (0 : Fin 2) = t.val ∧ win3_1.index t (1 : Fin 2) = 0 :=
  (by decide +kernel : ∀ t : Fin grid3.N, _)
theorem index_2 : ∀ t : Fin cfg3.N, win3_2.index t (0 : Fin 2) = t.val ∧ win3_2.index t (1 : Fin 2) = 0 :=
  (by decide +kernel : ∀ t : Fin grid3.N, _)
theorem index_3 : ∀ t : Fin cfg3.N, win3_3.index t (0 : Fin 2) = t.val ∧ win3_3.index t (1 : Fin 2) = 0 :=
  (by decide +kernel : ∀ t : Fin grid3.N, _)
theorem index_4 : ∀ t : Fin cfg3.N, win3_4.index t (0 : Fin 2) = t.val ∧ win3_4.index t (1 : Fin 2) = 0 :=
  (by decide +kernel : ∀ t : Fin grid3.N, _)
theorem index_5 : ∀ t : Fin cfg3.N, win3_5.index t (0 : Fin 2) = 0 ∧ win3_5.index t (1 : Fin 2) = 0 :=
  (by decide +kernel : ∀ t : Fin grid3.N, _)
theorem index_6 : ∀ t : Fin cfg3.N, win3_6.index t (0 : Fin 2) = 0 ∧ win3_6.index t (1 : Fin 2) = 0 :=
  (by decide +kernel : ∀ t : Fin grid3.N, _)
theorem index_7 : ∀ t : Fin cfg3.N, win3_7.index t (0 : Fin 2) = t.val ∧ win3_7.index t (1 : Fin 2) = 0 :=
  (by decide +kernel : ∀ t : Fin grid3.N, _)
theorem index_8 : ∀ t : Fin cfg3.N, win3_8.index t (0 : Fin 2) = t.val ∧ win3_8.index t (1 : Fin 2) = 0 :=
  (by decide +kernel : ∀ t : Fin grid3.N, _)

/-- The message's value at an entry depends only on the rows of xs, rel and inv and the column of w that it reads. -/
theorem edgeAt_congr {R R' K N : Nat} (xs rel : Cert.Spec.Mat R K) (xs' rel' : Cert.Spec.Mat R' K)
    (inv : Cert.Spec.Mat R 1) (inv' : Cert.Spec.Mat R' 1) (w w' : Cert.Spec.Mat K N) (p : Fin R) (p' : Fin R') (j : Fin N)
    (hx : ∀ k : Fin K, xs (ix2 p k) = xs' (ix2 p' k)) (hr : ∀ k : Fin K, rel (ix2 p k) = rel' (ix2 p' k))
    (hi : inv (ix2 p (0 : Fin 1)) = inv' (ix2 p' (0 : Fin 1))) (hw : ∀ k : Fin K, w (ix2 k j) = w' (ix2 k j)) :
    Cert.Spec.edgeAt xs rel inv w p j = Cert.Spec.edgeAt xs' rel' inv' w' p' j := by
  unfold Cert.Spec.edgeAt
  rw [hi]
  exact congrArg (· * inv' (ix2 p' (0 : Fin 1))) (Finset.sum_congr rfl fun k _ => by rw [hx k, hr k, hw k])

/-- Window 0's block at point t is rows 4800·t … of the source-feature array. -/
theorem iblk_xs (c : Dev nD) (t : Fin cfg3.N) (p : Fin 4800) (k : Fin 128) (r : Fin 600000) (hr : r.val = t.val * 4800 + p.val) :
    (iblk3 V c 0 t : Vec Ideal S4800x128 .f32) (ix2 p k) = (V c main_v97 : S600000x128.Idx → EReal) (ix2 r k) := by
  obtain ⟨e0, e1⟩ := index_0 t
  unfold iblk3
  rw [View.read_apply]
  show (V c main_v97 : S600000x128.Idx → EReal) _ = _
  congr 1
  funext a
  apply Fin.ext
  match a with
  | ⟨0, _⟩ => show win3_0.index t (0 : Fin 2) * 4800 + 1 * p.val = r.val; rw [e0, hr]; omega
  | ⟨1, _⟩ => show win3_0.index t (1 : Fin 2) * 128 + 1 * k.val = k.val; rw [e1]; omega

/-- Window 1's block at point t is rows 4800·t … of the target-feature array. -/
theorem iblk_xt (c : Dev nD) (t : Fin cfg3.N) (p : Fin 4800) (k : Fin 128) (r : Fin 600000) (hr : r.val = t.val * 4800 + p.val) :
    (iblk3 V c 1 t : Vec Ideal S4800x128 .f32) (ix2 p k) = (V c main_v104 : S600000x128.Idx → EReal) (ix2 r k) := by
  obtain ⟨e0, e1⟩ := index_1 t
  unfold iblk3
  rw [View.read_apply]
  show (V c main_v104 : S600000x128.Idx → EReal) _ = _
  congr 1
  funext a
  apply Fin.ext
  match a with
  | ⟨0, _⟩ => show win3_1.index t (0 : Fin 2) * 4800 + 1 * p.val = r.val; rw [e0, hr]; omega
  | ⟨1, _⟩ => show win3_1.index t (1 : Fin 2) * 128 + 1 * k.val = k.val; rw [e1]; omega

/-- Window 2's block at point t is rows 4800·t … of the relation array. -/
theorem iblk_rel (c : Dev nD) (t : Fin cfg3.N) (p : Fin 4800) (k : Fin 128) (r : Fin 600000) (hr : r.val = t.val * 4800 + p.val) :
    (iblk3 V c 2 t : Vec Ideal S4800x128 .f32) (ix2 p k) = (V c main_v90 : S600000x128.Idx → EReal) (ix2 r k) := by
  obtain ⟨e0, e1⟩ := index_2 t
  unfold iblk3
  rw [View.read_apply]
  show (V c main_v90 : S600000x128.Idx → EReal) _ = _
  congr 1
  funext a
  apply Fin.ext
  match a with
  | ⟨0, _⟩ => show win3_2.index t (0 : Fin 2) * 4800 + 1 * p.val = r.val; rw [e0, hr]; omega
  | ⟨1, _⟩ => show win3_2.index t (1 : Fin 2) * 128 + 1 * k.val = k.val; rw [e1]; omega

/-- Window 3's block at point t is rows 4800·t … of the first scale column. -/
theorem iblk_invs (c : Dev nD) (t : Fin cfg3.N) (p : Fin 4800) (u : Fin 1) (r : Fin 600000) (hr : r.val = t.val * 4800 + p.val) :
    (iblk3 V c 3 t : Vec Ideal S4800x1 .f32) (ix2 p u) = (V c main_v112 : S600000x1.Idx → EReal) (ix2 r u) := by
  obtain ⟨e0, e1⟩ := index_3 t
  unfold iblk3
  rw [View.read_apply]
  show (V c main_v112 : S600000x1.Idx → EReal) _ = _
  congr 1
  funext a
  apply Fin.ext
  match a with
  | ⟨0, _⟩ => show win3_3.index t (0 : Fin 2) * 4800 + 1 * p.val = r.val; rw [e0, hr]; omega
  | ⟨1, _⟩ => show win3_3.index t (1 : Fin 2) * 1 + 1 * u.val = u.val; rw [e1]; omega

/-- Window 4's block at point t is rows 4800·t … of the second scale column. -/
theorem iblk_invt (c : Dev nD) (t : Fin cfg3.N) (p : Fin 4800) (u : Fin 1) (r : Fin 600000) (hr : r.val = t.val * 4800 + p.val) :
    (iblk3 V c 4 t : Vec Ideal S4800x1 .f32) (ix2 p u) = (V c main_v120 : S600000x1.Idx → EReal) (ix2 r u) := by
  obtain ⟨e0, e1⟩ := index_4 t
  unfold iblk3
  rw [View.read_apply]
  show (V c main_v120 : S600000x1.Idx → EReal) _ = _
  congr 1
  funext a
  apply Fin.ext
  match a with
  | ⟨0, _⟩ => show win3_4.index t (0 : Fin 2) * 4800 + 1 * p.val = r.val; rw [e0, hr]; omega
  | ⟨1, _⟩ => show win3_4.index t (1 : Fin 2) * 1 + 1 * u.val = u.val; rw [e1]; omega

/-- Window 5's block at every point is the whole first weight table. -/
theorem iblk_wout (c : Dev nD) (t : Fin cfg3.N) (k : Fin 128) (j : Fin 128) :
    (iblk3 V c 5 t : Vec Ideal S128x128 .f32) (ix2 k j) = (V c main_v121 : S128x128.Idx → EReal) (ix2 k j) := by
  obtain ⟨e0, e1⟩ := index_5 t
  unfold iblk3
  rw [View.read_apply]
  show (V c main_v121 : S128x128.Idx → EReal) _ = _
  congr 1
  funext a
  apply Fin.ext
  match a with
  | ⟨0, _⟩ => show win3_5.index t (0 : Fin 2) * 128 + 1 * k.val = k.val; rw [e0]; omega
  | ⟨1, _⟩ => show win3_5.index t (1 : Fin 2) * 128 + 1 * j.val = j.val; rw [e1]; omega

/-- Window 6's block at every point is the whole second weight table. -/
theorem iblk_win (c : Dev nD) (t : Fin cfg3.N) (k : Fin 128) (j : Fin 128) :
    (iblk3 V c 6 t : Vec Ideal S128x128 .f32) (ix2 k j) = (V c main_v122 : S128x128.Idx → EReal) (ix2 k j) := by
  obtain ⟨e0, e1⟩ := index_6 t
  unfold iblk3
  rw [View.read_apply]
  show (V c main_v122 : S128x128.Idx → EReal) _ = _
  congr 1
  funext a
  apply Fin.ext
  match a with
  | ⟨0, _⟩ => show win3_6.index t (0 : Fin 2) * 128 + 1 * k.val = k.val; rw [e0]; omega
  | ⟨1, _⟩ => show win3_6.index t (1 : Fin 2) * 128 + 1 * j.val = j.val; rw [e1]; omega

/-- What point t writes back to the first output is block t of the message of the whole arrays. -/
theorem flushed7_eq (c : Dev nD) (t : Fin cfg3.N) :
    (dat3 (F := Ideal) V c).flushed 7 t
      = ((cfg3.win 7).blk t).view.read (Elt Ideal) (Cert.Spec.edge (V c main_v97) (V c main_v90) (V c main_v112) (V c main_v121)) := by
  show (cfg3.win 7).cut (grid3.coords t) ((dat3 V c).after 7 t) = _
  rw [after3_7]
  unfold out3_7
  rw [View.canon_unit_zero zero_offsets]
  simp only [View.ld_unit_zero (S := S4800x128) zero_offsets, View.ld_unit_zero (S := S4800x1) zero_offsets,
    View.ld_unit_zero (S := S128x128) zero_offsets]
  have ht : t.val < 125 := lt_of_lt_of_eq t.isLt (N_3 : cfg3.N = 125)
  obtain ⟨e0, e1⟩ := index_7 t
  refine funext fun (y : S4800x128.Idx) => ?_
  obtain ⟨p, j, rfl⟩ : ∃ (p : Fin 4800) (j : Fin 128), y = ix2 p j := ⟨y 0, y 1, eq_ix2 y⟩
  show k3_pay2 (F := Ideal) (iblk3 V c 0 t) (iblk3 V c 2 t) (iblk3 V c 3 t) (iblk3 V c 5 t) (ix2 p j)
    = Cert.Spec.edge (V c main_v97) (V c main_v90) (V c main_v112) (V c main_v121) (((cfg3.win 7).blk t).view.emb (ix2 p j))
  refine (Cert.KernelIdeal.EdgePay.k3_pay2_apply _ _ _ _ p j).trans ?_
  have hq : ((cfg3.win 7).blk t).view.emb (ix2 p j)
      = (ix2 (⟨t.val * 4800 + p.val, by have := p.isLt; omega⟩ : Fin 600000) j : S600000x128.Idx) := by
    funext a
    apply Fin.ext
    match a with
    | ⟨0, _⟩ => show win3_7.index t (0 : Fin 2) * 4800 + 1 * p.val = t.val * 4800 + p.val; rw [e0]; omega
    | ⟨1, _⟩ => show win3_7.index t (1 : Fin 2) * 128 + 1 * j.val = j.val; rw [e1]; omega
  rw [hq]
  show _ = Cert.Spec.edgeAt (V c main_v97) (V c main_v90) (V c main_v112) (V c main_v121) ⟨t.val * 4800 + p.val, _⟩ j
  exact edgeAt_congr _ _ _ _ _ _ _ _ p _ j (fun k => iblk_xs V c t p k _ rfl) (fun k => iblk_rel V c t p k _ rfl)
    (iblk_invs V c t p 0 _ rfl) (fun k => iblk_wout V c t k j)

/-- An index of the first output array is in point t's block iff each coordinate is in the block's range on its axis. -/
theorem mem_blk7 (t : Fin cfg3.N) (i : S600000x128.Idx) :
    i ∈ ((cfg3.win 7).blk t).view.set
      ↔ ∀ a : Fin 2, win3_7.index t a * S4800x128.size a ≤ (i a).val
          ∧ (i a).val < win3_7.index t a * S4800x128.size a + S4800x128.size a := by
  show i ∈ ((View.whole main_v123_0).slice (win3_7.rect t)).set ↔ _
  rw [View.set_slice_whole, Rect.mem_set_unit]
  exact Iff.rfl

/-- Every entry of the first output lies in the block of the point its row falls in. -/
theorem cover7 (i : S600000x128.Idx) :
    ∃ t : Fin cfg3.N, (cfg3.win 7).flush t = true ∧ i ∈ ((cfg3.win 7).blk t).view.set := by
  have hi0 : (i 0).val < 600000 := (i 0).isLt
  have hi1 : (i 1).val < 128 := (i 1).isLt
  have hN : cfg3.N = 125 := N_3
  let t : Fin cfg3.N := ⟨(i 0).val / 4800, by rw [hN]; omega⟩
  obtain ⟨e0, e1⟩ := index_7 t
  have e0' : win3_7.index t (0 : Fin 2) = (i 0).val / 4800 := e0
  refine ⟨t, flush3_7 t, ?_⟩
  rw [mem_blk7]
  intro a
  match a with
  | ⟨0, _⟩ =>
    show win3_7.index t (0 : Fin 2) * 4800 ≤ (i 0).val ∧ (i 0).val < win3_7.index t (0 : Fin 2) * 4800 + 4800
    rw [e0']; omega
  | ⟨1, _⟩ =>
    show win3_7.index t (1 : Fin 2) * 128 ≤ (i 1).val ∧ (i 1).val < win3_7.index t (1 : Fin 2) * 128 + 128
    rw [e1]; omega

/-- The first output array after the region: the message of the arrays it reads. -/
theorem arr7 (c : Dev nD) :
    (dat3 (F := Ideal) V c).arrAt 7 cfg3.N = Cert.Spec.edge (V c main_v97) (V c main_v90) (V c main_v112) (V c main_v121) :=
  (dat3 (F := Ideal) V c).arrAt_eq_of_cover 7 (Cert.Spec.edge (V c main_v97) (V c main_v90) (V c main_v112) (V c main_v121))
    (fun t _ => flushed7_eq V c t) cover7

/-- What point t writes back to the second output is block t of the message of the whole arrays. -/
theorem flushed8_eq (c : Dev nD) (t : Fin cfg3.N) :
    (dat3 (F := Ideal) V c).flushed 8 t
      = ((cfg3.win 8).blk t).view.read (Elt Ideal) (Cert.Spec.edge (V c main_v104) (V c main_v90) (V c main_v120) (V c main_v122)) := by
  show (cfg3.win 8).cut (grid3.coords t) ((dat3 V c).after 8 t) = _
  rw [after3_8]
  unfold out3_8
  rw [View.canon_unit_zero zero_offsets]
  simp only [View.ld_unit_zero (S := S4800x128) zero_offsets, View.ld_unit_zero (S := S4800x1) zero_offsets,
    View.ld_unit_zero (S := S128x128) zero_offsets]
  have ht : t.val < 125 := lt_of_lt_of_eq t.isLt (N_3 : cfg3.N = 125)
  obtain ⟨e0, e1⟩ := index_8 t
  refine funext fun (y : S4800x128.Idx) => ?_
  obtain ⟨p, j, rfl⟩ : ∃ (p : Fin 4800) (j : Fin 128), y = ix2 p j := ⟨y 0, y 1, eq_ix2 y⟩
  show k3_pay3 (F := Ideal) (iblk3 V c 1 t) (iblk3 V c 2 t) (iblk3 V c 4 t) (iblk3 V c 6 t) (ix2 p j)
    = Cert.Spec.edge (V c main_v104) (V c main_v90) (V c main_v120) (V c main_v122) (((cfg3.win 8).blk t).view.emb (ix2 p j))
  refine (Cert.KernelIdeal.EdgePay.k3_pay3_apply _ _ _ _ p j).trans ?_
  have hq : ((cfg3.win 8).blk t).view.emb (ix2 p j)
      = (ix2 (⟨t.val * 4800 + p.val, by have := p.isLt; omega⟩ : Fin 600000) j : S600000x128.Idx) := by
    funext a
    apply Fin.ext
    match a with
    | ⟨0, _⟩ => show win3_8.index t (0 : Fin 2) * 4800 + 1 * p.val = t.val * 4800 + p.val; rw [e0]; omega
    | ⟨1, _⟩ => show win3_8.index t (1 : Fin 2) * 128 + 1 * j.val = j.val; rw [e1]; omega
  rw [hq]
  show _ = Cert.Spec.edgeAt (V c main_v104) (V c main_v90) (V c main_v120) (V c main_v122) ⟨t.val * 4800 + p.val, _⟩ j
  exact edgeAt_congr _ _ _ _ _ _ _ _ p _ j (fun k => iblk_xt V c t p k _ rfl) (fun k => iblk_rel V c t p k _ rfl)
    (iblk_invt V c t p 0 _ rfl) (fun k => iblk_win V c t k j)

/-- An index of the second output array is in point t's block iff each coordinate is in the block's range on its axis. -/
theorem mem_blk8 (t : Fin cfg3.N) (i : S600000x128.Idx) :
    i ∈ ((cfg3.win 8).blk t).view.set
      ↔ ∀ a : Fin 2, win3_8.index t a * S4800x128.size a ≤ (i a).val
          ∧ (i a).val < win3_8.index t a * S4800x128.size a + S4800x128.size a := by
  show i ∈ ((View.whole main_v123_1).slice (win3_8.rect t)).set ↔ _
  rw [View.set_slice_whole, Rect.mem_set_unit]
  exact Iff.rfl

/-- Every entry of the second output lies in the block of the point its row falls in. -/
theorem cover8 (i : S600000x128.Idx) :
    ∃ t : Fin cfg3.N, (cfg3.win 8).flush t = true ∧ i ∈ ((cfg3.win 8).blk t).view.set := by
  have hi0 : (i 0).val < 600000 := (i 0).isLt
  have hi1 : (i 1).val < 128 := (i 1).isLt
  have hN : cfg3.N = 125 := N_3
  let t : Fin cfg3.N := ⟨(i 0).val / 4800, by rw [hN]; omega⟩
  obtain ⟨e0, e1⟩ := index_8 t
  have e0' : win3_8.index t (0 : Fin 2) = (i 0).val / 4800 := e0
  refine ⟨t, flush3_8 t, ?_⟩
  rw [mem_blk8]
  intro a
  match a with
  | ⟨0, _⟩ =>
    show win3_8.index t (0 : Fin 2) * 4800 ≤ (i 0).val ∧ (i 0).val < win3_8.index t (0 : Fin 2) * 4800 + 4800
    rw [e0']; omega
  | ⟨1, _⟩ =>
    show win3_8.index t (1 : Fin 2) * 128 ≤ (i 1).val ∧ (i 1).val < win3_8.index t (1 : Fin 2) * 128 + 128
    rw [e1]; omega

/-- The second output array after the region: the message of the arrays it reads. -/
theorem arr8 (c : Dev nD) :
    (dat3 (F := Ideal) V c).arrAt 8 cfg3.N = Cert.Spec.edge (V c main_v104) (V c main_v90) (V c main_v120) (V c main_v122) :=
  (dat3 (F := Ideal) V c).arrAt_eq_of_cover 8 (Cert.Spec.edge (V c main_v104) (V c main_v90) (V c main_v120) (V c main_v122))
    (fun t _ => flushed8_eq V c t) cover8

end Cert.KernelIdeal.Region3

end
-- ==== Proof.Region4.lean ====
/-
  The second node region as one array: after its twenty grid points the output array holds, at every entry (r, j),
  the node update of row r — the combined message of the row (the two aggregates plus the self-loop product, a third of
  it, plus the bias, and its positive part), normalised along the row, times the gain, plus the offset —
  of the eight input arrays as the region finds them.

  Point t stages rows 5000·t … 5000·t + 4999 of the three row-indexed arrays and the whole of the five small tables, and
  writes back rows 5000·t … 5000·t + 4999 of the output. The body's value at the entry (p, j) of its block is the node
  update of row p of the staged blocks, and a row of the update depends only on the same row of the row-indexed operands
  and on the tables; row p of a staged block is row 5000·t + p of its array. So what point t writes back is block t of the
  node update of the whole arrays. Row r lies in the block of point r / 5000, so the twenty blocks cover the output.
-/
import proofs.«138557_j88261577933338_1_alg».proof.Proof.Gen.KernelIdeal.Frame
import proofs.«138557_j88261577933338_1_alg».proof.Proof.NodePay
import Idealize.ShloMosaic.Lib.Pipeline.Value
import Idealize.ShloMosaic.Lib.ValueIdx

noncomputable section

open scoped BigOperators

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The block index maps over the twenty points: the three row-indexed inputs and the output sit at block row t, column
    block 0; the five tables at block (0, 0). -/
theorem index_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0
    ∧ win4_8.index t (0 : Fin 2) = t.val ∧ win4_8.index t (1 : Fin 2) = 0 :=
  (by decide +kernel : ∀ t : Fin grid4.N, _)

/-- Row p of window 0's block at point t is row 5000·t + p of the node features. -/
theorem iblk_row0 (c : Dev nD) (t : Fin cfg4.N) (p : Fin 5000) (k : Fin 128) (r : Fin 100000) (hr : r.val = t.val * 5000 + p.val) :
    (iblk4 V c 0 t : Vec Ideal S5000x128 .f32) (ix2 p k) = (V c main_v83 : S100000x128.Idx → EReal) (ix2 r k) := by
  obtain ⟨e0, e1, -⟩ := index_facts t
  unfold iblk4
  rw [View.read_apply]
  show (V c main_v83 : S100000x128.Idx → EReal) _ = _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- Row p of window 1's block at point t is row 5000·t + p of the outgoing aggregate. -/
theorem iblk_row1 (c : Dev nD) (t : Fin cfg4.N) (p : Fin 5000) (k : Fin 128) (r : Fin 100000) (hr : r.val = t.val * 5000 + p.val) :
    (iblk4 V c 1 t : Vec Ideal S5000x128 .f32) (ix2 p k) = (V c main_v129 : S100000x128.Idx → EReal) (ix2 r k) := by
  obtain ⟨-, -, e0, e1, -⟩ := index_facts t
  unfold iblk4
  rw [View.read_apply]
  show (V c main_v129 : S100000x128.Idx → EReal) _ = _
  congr 1
  funext a
  apply Fin.ext
  match a with
  | ⟨0, _⟩ => show win4_1.index t (0 : Fin 2) * 5000 + 1 * p.val = r.val; rw [e0, hr]; omega
  | ⟨1, _⟩ => show win4_1.index t (1 : Fin 2) * 128 + 1 * k.val = k.val; rw [e1]; omega

/-- Row p of window 2's block at point t is row 5000·t + p of the incoming aggregate. -/
theorem iblk_row2 (c : Dev nD) (t : Fin cfg4.N) (p : Fin 5000) (k : Fin 128) (r : Fin 100000) (hr : r.val = t.val * 5000 + p.val) :
    (iblk4 V c 2 t : Vec Ideal S5000x128 .f32) (ix2 p k) = (V c main_v135 : S100000x128.Idx → EReal) (ix2 r k) := by
  obtain ⟨-, -, -, -, e0, e1, -⟩ := index_facts t
  unfold iblk4
  rw [View.read_apply]
  show (V c main_v135 : S100000x128.Idx → EReal) _ = _
  congr 1
  funext a
  apply Fin.ext
  match a with
  | ⟨0, _⟩ => show win4_2.index t (0 : Fin 2) * 5000 + 1 * p.val = r.val; rw [e0, hr]; omega
  | ⟨1, _⟩ => show win4_2.index t (1 : Fin 2) * 128 + 1 * k.val = k.val; rw [e1]; omega

/-- Window 3's block at every point is the whole of the self-loop relation row. -/
theorem iblk_tab3 (c : Dev nD) (t : Fin cfg4.N) :
    (iblk4 V c 3 t : Vec Ideal S1x128 .f32) = (V c main_arg13 : S1x128.Idx → EReal) := by
  obtain ⟨-, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk4
  rw [View.read_apply]
  show (V c main_arg13 : S1x128.Idx → EReal) _ = _
  congr 1
  funext a
  apply Fin.ext
  match a with
  | ⟨0, _⟩ => show win4_3.index t (0 : Fin 2) * 1 + 1 * u.val = u.val; rw [e0]; omega
  | ⟨1, _⟩ => show win4_3.index t (1 : Fin 2) * 128 + 1 * j.val = j.val; rw [e1]; omega

/-- Window 4's block at every point is the whole of the self-loop weight table. -/
theorem iblk_tab4 (c : Dev nD) (t : Fin cfg4.N) :
    (iblk4 V c 4 t : Vec Ideal S128x128 .f32) = (V c main_v136 : S128x128.Idx → EReal) := by
  obtain ⟨-, -, -, -, -, -, -, -, e0, e1, -⟩ := index_facts t
  refine funext fun (y : S128x128.Idx) => ?_
  obtain ⟨u, j, rfl⟩ : ∃ (u : Fin 128) (j : Fin 128), y = ix2 u j := ⟨y 0, y 1, eq_ix2 y⟩
  unfold iblk4
  rw [View.read_apply]
  show (V c main_v136 : S128x128.Idx → EReal) _ = _
  congr 1
  funext a
  apply Fin.ext
  match a with
  | ⟨0, _⟩ => show win4_4.index t (0 : Fin 2) * 128 + 1 * u.val = u.val; rw [e0]; omega
  | ⟨1, _⟩ => show win4_4.index t (1 : Fin 2) * 128 + 1 * j.val = j.val; rw [e1]; omega

/-- Window 5's block at every point is the whole of the bias row. -/
theorem iblk_tab5 (c : Dev nD) (t : Fin cfg4.N) :
    (iblk4 V c 5 t : Vec Ideal S1x128 .f32) = (V c main_v137 : S1x128.Idx → EReal) := by
  obtain ⟨-, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk4
  rw [View.read_apply]
  show (V c main_v137 : S1x128.Idx → EReal) _ = _
  congr 1
  funext a
  apply Fin.ext
  match a with
  | ⟨0, _⟩ => show win4_5.index t (0 : Fin 2) * 1 + 1 * u.val = u.val; rw [e0]; omega
  | ⟨1, _⟩ => show win4_5.index t (1 : Fin 2) * 128 + 1 * j.val = j.val; rw [e1]; omega

/-- Window 6's block at every point is the whole of the gain row. -/
theorem iblk_tab6 (c : Dev nD) (t : Fin cfg4.N) :
    (iblk4 V c 6 t : Vec Ideal S1x128 .f32) = (V c main_v138 : S1x128.Idx → EReal) := by
  obtain ⟨-, -, -, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk4
  rw [View.read_apply]
  show (V c main_v138 : S1x128.Idx → EReal) _ = _
  congr 1
  funext a
  apply Fin.ext
  match a with
  | ⟨0, _⟩ => show win4_6.index t (0 : Fin 2) * 1 + 1 * u.val = u.val; rw [e0]; omega
  | ⟨1, _⟩ => show win4_6.index t (1 : Fin 2) * 128 + 1 * j.val = j.val; rw [e1]; omega

/-- Window 7's block at every point is the whole of the offset row. -/
theorem iblk_tab7 (c : Dev nD) (t : Fin cfg4.N) :
    (iblk4 V c 7 t : Vec Ideal S1x128 .f32) = (V c main_v139 : S1x128.Idx → EReal) := by
  obtain ⟨-, -, -, -, -, -, -, -, -, -, -, -, -, -, e0, e1, -⟩ := index_facts t
  refine funext fun (y : S1x128.Idx) => ?_
  obtain ⟨u, j, rfl⟩ : ∃ (u : Fin 1) (j : Fin 128), y = ix2 u j := ⟨y 0, y 1, eq_ix2 y⟩
  unfold iblk4
  rw [View.read_apply]
  show (V c main_v139 : S1x128.Idx → EReal) _ = _
  congr 1
  funext a
  apply Fin.ext
  match a with
  | ⟨0, _⟩ => show win4_7.index t (0 : Fin 2) * 1 + 1 * u.val = u.val; rw [e0]; omega
  | ⟨1, _⟩ => show win4_7.index t (1 : Fin 2) * 128 + 1 * j.val = j.val; rw [e1]; omega

/-- What point t writes back is block t of the node update of the whole arrays. -/
theorem flushed_eq (c : Dev nD) (t : Fin cfg4.N) :
    (dat4 (F := Ideal) V c).flushed 8 t
      = ((cfg4.win 8).blk t).view.read (Elt Ideal)
          (Cert.Spec.node false (V c main_v83) (V c main_v129) (V c main_v135) (V c main_arg13) (V c main_v136) (V c main_v137) (V c main_v138) (V c main_v139)) := by
  show (cfg4.win 8).cut (grid4.coords t) ((dat4 V c).after 8 t) = _
  rw [after4_8]
  unfold out4_8
  rw [View.canon_unit_zero zero_offsets]
  simp only [View.ld_unit_zero (S := S5000x128) zero_offsets, View.ld_unit_zero (S := S1x128) zero_offsets,
    View.ld_unit_zero (S := S128x128) zero_offsets]
  have ht : t.val < 20 := lt_of_lt_of_eq t.isLt (N_4 : cfg4.N = 20)
  obtain ⟨-, -, -, -, -, -, -, -, -, -, -, -, -, -, -, -, e0, e1⟩ := index_facts t
  refine funext fun (y : S5000x128.Idx) => ?_
  obtain ⟨p, j, rfl⟩ : ∃ (p : Fin 5000) (j : Fin 128), y = ix2 p j := ⟨y 0, y 1, eq_ix2 y⟩
  show k4_pay1 (F := Ideal) (k4_pay2 (iblk4 V c 0 t) (iblk4 V c 3 t) (iblk4 V c 4 t) (iblk4 V c 1 t) (iblk4 V c 2 t) (iblk4 V c 5 t)) (iblk4 V c 6 t) (iblk4 V c 7 t) (ix2 p j)
    = Cert.Spec.node false (V c main_v83) (V c main_v129) (V c main_v135) (V c main_arg13) (V c main_v136) (V c main_v137) (V c main_v138) (V c main_v139)
        (((cfg4.win 8).blk t).view.emb (ix2 p j))
  refine (Cert.KernelIdeal.NodePay.out4_apply _ _ _ _ _ _ _ _ p j).trans ?_
  have hq : ((cfg4.win 8).blk t).view.emb (ix2 p j)
      = (ix2 (⟨t.val * 5000 + p.val, by have := p.isLt; omega⟩ : Fin 100000) j : S100000x128.Idx) := by
    funext a
    apply Fin.ext
    match a with
    | ⟨0, _⟩ => show win4_8.index t (0 : Fin 2) * 5000 + 1 * p.val = t.val * 5000 + p.val; rw [e0]; omega
    | ⟨1, _⟩ => show win4_8.index t (1 : Fin 2) * 128 + 1 * j.val = j.val; rw [e1]; omega
  rw [hq]
  show _ = Cert.Spec.nodeAt false (V c main_v83) (V c main_v129) (V c main_v135) (V c main_arg13) (V c main_v136) (V c main_v137) (V c main_v138) (V c main_v139)
      ⟨t.val * 5000 + p.val, _⟩ j
  exact Cert.KernelIdeal.NodePay.nodeAt_rows false _ _ _ _ _ _ _ _ _ _ _ _ _ _ _ _ p _ j j
    (fun k => iblk_row0 V c t p k _ rfl) (fun k => iblk_row1 V c t p k _ rfl) (fun k => iblk_row2 V c t p k _ rfl)
    (iblk_tab3 V c t) (iblk_tab4 V c t) (iblk_tab5 V c t) (iblk_tab6 V c t) (iblk_tab7 V c t) rfl

/-- An index of the output array is in point t's block iff each coordinate is in the block's range on its axis. -/
theorem mem_blk (t : Fin cfg4.N) (i : S100000x128.Idx) :
    i ∈ ((cfg4.win 8).blk t).view.set
      ↔ ∀ a : Fin 2, win4_8.index t a * S5000x128.size a ≤ (i a).val
          ∧ (i a).val < win4_8.index t a * S5000x128.size a + S5000x128.size a := by
  show i ∈ ((View.whole main_v140).slice (win4_8.rect t)).set ↔ _
  rw [View.set_slice_whole, Rect.mem_set_unit]
  exact Iff.rfl

/-- Every entry of the output lies in the block of the point its row falls in. -/
theorem cover (i : S100000x128.Idx) :
    ∃ t : Fin cfg4.N, (cfg4.win 8).flush t = true ∧ i ∈ ((cfg4.win 8).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, -, -, -, -, -, -, -, -, -, e0, e1⟩ := index_facts t
  have e0' : win4_8.index t (0 : Fin 2) = (i 0).val / 5000 := e0
  refine ⟨t, flush4_8 t, ?_⟩
  rw [mem_blk]
  intro a
  match a with
  | ⟨0, _⟩ =>
    show win4_8.index t (0 : Fin 2) * 5000 ≤ (i 0).val ∧ (i 0).val < win4_8.index t (0 : Fin 2) * 5000 + 5000
    rw [e0']; omega
  | ⟨1, _⟩ =>
    show win4_8.index t (1 : Fin 2) * 128 ≤ (i 1).val ∧ (i 1).val < win4_8.index t (1 : Fin 2) * 128 + 128
    rw [e1]; omega

/-- The output array after the region: the node update of the eight input arrays. -/
theorem arr (c : Dev nD) :
    (dat4 (F := Ideal) V c).arrAt 8 cfg4.N
      = Cert.Spec.node false (V c main_v83) (V c main_v129) (V c main_v135) (V c main_arg13) (V c main_v136) (V c main_v137) (V c main_v138) (V c main_v139) :=
  (dat4 (F := Ideal) V c).arrAt_eq_of_cover 8
    (Cert.Spec.node false (V c main_v83) (V c main_v129) (V c main_v135) (V c main_arg13) (V c main_v136) (V c main_v137) (V c main_v138) (V c main_v139))
    (fun t _ => flushed_eq V c t) cover

end Cert.KernelIdeal.Region4

end
-- ==== Proof.KRun.lean ====
/-
  The kernel's run with its result: every weakly fair execution of @main terminates without a fault, the result buffer
  ends at what the last segment boundary holds there, and the 23 argument arrays end as launched. The run over the
  fourteen segments (host stretches and regions, each entered from the contents the previous one leaves) ends with every
  unscoped buffer at the last boundary's contents; the result buffer is one of them, and each argument's contents at the
  last boundary walk back to the launch memory.
-/
import proofs.«138557_j88261577933338_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
theorem run_value : θ_run defs (onTc (τ := τ) (main (F := F))) ⟨m, fun _ => 0, ρ⟩ (fun r => ∀ c : Dev nD,
      r.2.mem ((c.tc : Thread nD τ).loc main_v140) = W14 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v140 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c)⟩)

end Cert.KernelIdeal.KRun

end
-- ==== Proof.KSeg.lean ====
/-
  What each segment of the kernel's @main leaves untouched. @main is fourteen segments: nine stretches of host
  operations and five kernel regions. A stretch changes only the buffers its operations write; a region changes only
  its output arrays (its input arrays are read through windows and end as they were). So two boundary contents agree
  off the list of buffers written in between, and a buffer's contents at a late boundary are its contents right after
  the segment that wrote it.
-/
import proofs.«138557_j88261577933338_1_alg».proof.Proof.Gen.KernelIdeal.Frame

set_option maxRecDepth 16384

noncomputable section

namespace Cert.KernelIdeal.KSeg

open Idealize.ShloMosaic Idealize.SL.Sem Cert.KernelIdeal Cert.KernelIdeal.Gen

variable {F : FTy → Type} [FloatOps F] [Named F]

/-- Two buffer contents agree off a list of references. -/
def Agree (S : List (Ref sig .tc)) (W W' : Valuation τ sig (Elt F)) : Prop :=
  ∀ r : Ref sig .tc, r ∉ S → W (Proc.devRef .tc r) = W' (Proc.devRef .tc r)

theorem Agree.trans {S T : List (Ref sig .tc)} {W W' W'' : Valuation τ sig (Elt F)}
    (h : Agree S W W') (h' : Agree T W' W'') : Agree (S ++ T) W W'' :=
  fun r hr => (h r fun hm => hr (List.mem_append_left _ hm)).trans (h' r fun hm => hr (List.mem_append_right _ hm))

/-- Every operation of a literal stretch writes a buffer of the given list. -/
macro "writes_in_list" : tactic => `(tactic| (
  simp only [List.Forall, StableHlo.nullary_writes, StableHlo.unary_writes, StableHlo.binary_writes,
    StableHlo.ternary_writes, StableHlo.quaternary_writes, StableHlo.reshape_writes, StableHlo.binaryIndexed_writes,
    Finset.singleton_subset_iff, List.mem_toFinset]
  repeat' apply And.intro
  all_goals exact List.mem_map_of_mem (by decide)))

/-- The buffers the stretch `hostOps0` writes. -/
def wr0 : List (Ref sig .tc) :=
  [main_v0, main_v1]

theorem host_wr0 (V : Valuation τ sig (Elt F)) : Agree wr0 (StableHlo.after (hostOps0 (F := F)) V) V :=
  fun r hr => StableHlo.after_of_writes_sub _ V (W := wr0) (by unfold wr0; writes_in_list) hr

/-- The buffers the stretch `hostOps1` writes. -/
def wr1 : List (Ref sig .tc) :=
  [main_v3, main_cst, main_v4, main_cst_0, main_v5, main_v6, main_v7, main_cst_1, main_v8, main_v9, main_v10,
   main_cst_2, main_v11, main_v12, main_cst_3, main_v13, main_v14, main_v15, main_cst_4, main_v16, main_v17,
   main_cst_5]

theorem host_wr1 (V : Valuation τ sig (Elt F)) : Agree wr1 (StableHlo.after (hostOps1 (F := F)) V) V :=
  fun r hr => StableHlo.after_of_writes_sub _ V (W := wr1) (by unfold wr1; writes_in_list) hr

/-- The buffers the stretch `hostOps1_1` writes. -/
def wr1_1 : List (Ref sig .tc) :=
  [main_call0_v0, main_call0_v1, main_v18]

theorem host_wr1_1 (V : Valuation τ sig (Elt F)) : Agree wr1_1 (StableHlo.after (hostOps1_1 (F := F)) V) V :=
  fun r hr => StableHlo.after_of_writes_sub _ V (W := wr1_1) (by unfold wr1_1; writes_in_list) hr

/-- The buffers the stretch `hostOps1_2` writes. -/
def wr1_2 : List (Ref sig .tc) :=
  [main_cst_6, main_v19, main_v20, main_cst_7, main_v21, main_v22, main_v23, main_cst_8, main_v24, main_v25,
   main_cst_9]

theorem host_wr1_2 (V : Valuation τ sig (Elt F)) : Agree wr1_2 (StableHlo.after (hostOps1_2 (F := F)) V) V :=
  fun r hr => StableHlo.after_of_writes_sub _ V (W := wr1_2) (by unfold wr1_2; writes_in_list) hr

/-- The buffers the stretch `hostOps1_3` writes. -/
def wr1_3 : List (Ref sig .tc) :=
  [main_call1_v0, main_call1_v1, main_v26]

theorem host_wr1_3 (V : Valuation τ sig (Elt F)) : Agree wr1_3 (StableHlo.after (hostOps1_3 (F := F)) V) V :=
  fun r hr => StableHlo.after_of_writes_sub _ V (W := wr1_3) (by unfold wr1_3; writes_in_list) hr

/-- The buffers the stretch `hostOps1_4` writes. -/
def wr1_4 : List (Ref sig .tc) :=
  [main_c, main_v27, main_v28, main_c_10, main_v29, main_v30, main_v31, main_v32, main_v33, main_c_11,
   main_v34, main_v35, main_c_12, main_v36, main_v37, main_v38, main_v39, main_v40, main_c_13, main_v41,
   main_v42, main_c_14, main_v43, main_v44, main_v45, main_v46, main_v47, main_c_15, main_v48, main_v49,
   main_c_16, main_v50, main_v51, main_v52, main_v53, main_v54, main_v55, main_c_17, main_v56, main_v57,
   main_c_18, main_v58, main_v59, main_v60, main_v61, main_v62, main_v63, main_v64, main_v65]

theorem host_wr1_4 (V : Valuation τ sig (Elt F)) : Agree wr1_4 (StableHlo.after (hostOps1_4 (F := F)) V) V :=
  fun r hr => StableHlo.after_of_writes_sub _ V (W := wr1_4) (by unfold wr1_4; writes_in_list) hr

/-- The buffers the stretch `hostOps2` writes. -/
def wr2 : List (Ref sig .tc) :=
  [main_cst_19, main_v67, main_v68, main_v69, main_v70, main_v71, main_v72, main_cst_20, main_v73, main_v74,
   main_v75, main_v76, main_v77, main_v78, main_v79, main_v80, main_v81, main_v82]

theorem host_wr2 (V : Valuation τ sig (Elt F)) : Agree wr2 (StableHlo.after (hostOps2 (F := F)) V) V :=
  fun r hr => StableHlo.after_of_writes_sub _ V (W := wr2) (by unfold wr2; writes_in_list) hr

/-- The buffers the stretch `hostOps3` writes. -/
def wr3 : List (Ref sig .tc) :=
  [main_c_21, main_v84, main_v85, main_c_22, main_v86, main_v87, main_v88, main_v89, main_v90, main_c_23,
   main_v91, main_v92, main_c_24, main_v93, main_v94, main_v95, main_v96, main_v97, main_c_25, main_v98,
   main_v99, main_c_26, main_v100, main_v101, main_v102, main_v103, main_v104, main_c_27, main_v105,
   main_v106, main_c_28, main_v107, main_v108, main_v109, main_v110, main_v111, main_v112, main_c_29,
   main_v113, main_v114, main_c_30, main_v115, main_v116, main_v117, main_v118, main_v119, main_v120,
   main_v121, main_v122]

theorem host_wr3 (V : Valuation τ sig (Elt F)) : Agree wr3 (StableHlo.after (hostOps3 (F := F)) V) V :=
  fun r hr => StableHlo.after_of_writes_sub _ V (W := wr3) (by unfold wr3; writes_in_list) hr

/-- The buffers the stretch `hostOps4` writes. -/
def wr4 : List (Ref sig .tc) :=
  [main_cst_31, main_v124, main_v125, main_v126, main_v127, main_v128, main_v129, main_cst_32, main_v130,
   main_v131, main_v132, main_v133, main_v134, main_v135, main_v136, main_v137, main_v138, main_v139]

theorem host_wr4 (V : Valuation τ sig (Elt F)) : Agree wr4 (StableHlo.after (hostOps4 (F := F)) V) V :=
  fun r hr => StableHlo.after_of_writes_sub _ V (W := wr4) (by unfold wr4; writes_in_list) hr

/-! ## The regions: a region changes none of the buffers that are not its arrays -/

variable (m : (ℓ : Loc nD τ sig) → Buf (Elt F) ℓ) (ρ : Dev nD → PrngReg)

/-- The arrays of region 0 (the inputs first, the output last). -/
def arr0 : List (Ref sig .tc) := [main_arg0, main_v0, main_v1, main_v2]
/-- The arrays of region 1. -/
def arr1 : List (Ref sig .tc) :=
  [main_v40, main_v47, main_v33, main_v55, main_v63, main_v64, main_v65, main_v66_0, main_v66_1]
/-- The arrays of region 2. -/
def arr2 : List (Ref sig .tc) :=
  [main_v3, main_v72, main_v78, main_arg5, main_v79, main_v80, main_v81, main_v82, main_v83]
/-- The arrays of region 3. -/
def arr3 : List (Ref sig .tc) :=
  [main_v97, main_v104, main_v90, main_v112, main_v120, main_v121, main_v122, main_v123_0, main_v123_1]
/-- The arrays of region 4. -/
def arr4 : List (Ref sig .tc) :=
  [main_v83, main_v129, main_v135, main_arg13, main_v136, main_v137, main_v138, main_v139, main_v140]

theorem reg0 (c : Dev nD) : Agree arr0 (W2 m ρ c) (W1 m ρ c) := fun r hr =>
  W2_of_ne m ρ c r fun w e => hr (by subst e; unfold arr0; fin_cases w <;> decide)
theorem reg1 (c : Dev nD) : Agree arr1 (W8 m ρ c) (W7 m ρ c) := fun r hr =>
  W8_of_ne m ρ c r fun w e => hr (by subst e; unfold arr1; fin_cases w <;> decide)
theorem reg2 (c : Dev nD) : Agree arr2 (W10 m ρ c) (W9 m ρ c) := fun r hr =>
  W10_of_ne m ρ c r fun w e => hr (by subst e; unfold arr2; fin_cases w <;> decide)
theorem reg3 (c : Dev nD) : Agree arr3 (W12 m ρ c) (W11 m ρ c) := fun r hr =>
  W12_of_ne m ρ c r fun w e => hr (by subst e; unfold arr3; fin_cases w <;> decide)
theorem reg4 (c : Dev nD) : Agree arr4 (W14 m ρ c) (W13 m ρ c) := fun r hr =>
  W14_of_ne m ρ c r fun w e => hr (by subst e; unfold arr4; fin_cases w <;> decide)

/-! ## From a boundary back to an earlier one -/

/-- From region 1's entry (after the five stretches that follow region 0) back to region 0's exit. -/
theorem W7_W2 (c : Dev nD) : Agree (wr1_4 ++ (wr1_3 ++ (wr1_2 ++ (wr1_1 ++ wr1)))) (W7 m ρ c) (W2 m ρ c) :=
  (host_wr1_4 _).trans ((host_wr1_3 _).trans ((host_wr1_2 _).trans ((host_wr1_1 _).trans (host_wr1 _))))

/-- From the launch to region 0's exit: the stretch before region 0, then region 0. -/
theorem W2_W0 (c : Dev nD) : Agree (arr0 ++ wr0) (W2 m ρ c) (W0 m ρ c) :=
  (reg0 m ρ c).trans (host_wr0 _)

/-- Region 2's entry back to region 1's entry. -/
theorem W9_W7 (c : Dev nD) : Agree (wr2 ++ arr1) (W9 m ρ c) (W7 m ρ c) :=
  (host_wr2 _).trans (reg1 m ρ c)

/-- Region 3's entry back to region 2's entry. -/
theorem W11_W9 (c : Dev nD) : Agree (wr3 ++ arr2) (W11 m ρ c) (W9 m ρ c) :=
  (host_wr3 _).trans (reg2 m ρ c)

/-- Region 4's entry back to region 3's entry. -/
theorem W13_W11 (c : Dev nD) : Agree (wr4 ++ arr3) (W13 m ρ c) (W11 m ρ c) :=
  (host_wr4 _).trans (reg3 m ρ c)

/-- A buffer at the launch holds the launch memory. -/
theorem W0_eq (c : Dev nD) (r : Ref sig .tc) : W0 m ρ c (Proc.devRef .tc r) = m ((c.tc : Thread nD τ).loc r) := rfl

end Cert.KernelIdeal.KSeg

end
-- ==== Proof.KPieces.lean ====
/-
  The host operations between the kernel's regions, kept as the program prints them and grouped into the few pieces
  the mathematics names: jnp's wrap of a negative index, an index vector as a column, taking rows of a table by an
  index column (x[idx]), the number of edges ending at each node (a scatter-add of ones), its inverse square root
  where positive (1/√max(d, 1) where d > 0, else 0), the sum of edge rows per node (segment_sum), the scaling of every
  row of a node table by a per-node number, and the casts of a vector to a one-column or one-row matrix.
-/
import proofs.«138557_j88261577933338_1_alg».proof.Proof.Gen.KernelIdeal

noncomputable section

namespace Cert.KernelIdeal.KTerm

open Idealize.ShloMosaic Cert.KernelIdeal Cert.KernelIdeal.Facts₀

/-- A float array of the given shape, at the exact reading. -/
abbrev VF (s : Shape) : Type := FVec Ideal s .f32
/-- A 32-bit integer array of the given shape. -/
abbrev VI (s : Shape) : Type := IVec s 32

/-- jnp's wrap of a negative index into an axis of extent n: a + n where a < 0, else a. -/
def wrapIdx (n : BitVec 32) (a : VI S600000) : VI S600000 :=
  select (cmpi .slt a (broadcastInDim S600000 ![] bcast_S_S600000 (constantI S_ 32 0#32)))
    (addi a (broadcastInDim S600000 ![] bcast_S_S600000 (constantI S_ 32 n))) a

/-- An index vector as a column of one-entry index vectors. -/
def col (a : VI S600000) : VI S600000x1 := broadcastInDim S600000x1 ![0] bcast_S600000_S600000x1_0 a

/-- Rows of a node table taken by an edge-end vector: x[idx]. -/
def rowsOf (x : VF S100000x128) (a : VI S600000) : VF S600000x128 :=
  Host.gather gather_S100000x128_S600000x1_S600000x128_1_0_n_n_0_1_1128 x (col (wrapIdx 100000#32 a))

/-- Rows of the relation table taken by the edge-relation vector. -/
def relOf (rel : VF S32x128) (a : VI S600000) : VF S600000x128 :=
  Host.gather gather_S32x128_S600000x1_S600000x128_1_0_n_n_0_1_1128 rel (col (wrapIdx 32#32 a))

/-- Entries of a per-node vector taken by an edge-end vector: v[idx]. -/
def pick (v : VF S100000) (a : VI S600000) : VF S600000 :=
  Host.gather gather_S100000_S600000x1_S600000_n_0_n_n_0_1_1 v (col (wrapIdx 100000#32 a))

/-- The splat of a float word over the nodes. -/
def splatN (w : BitVec 32) : VF S100000 := broadcastInDim S100000 ![] bcast_S_S100000 (constant (F := Ideal) S_ .f32 w)

/-- The number of edges whose end (given by the vector) is each node: a scatter-add of ones into zeros. -/
def deg (a : VI S600000) : VF S100000 :=
  Host.scatterAdd (F := Ideal) scatter_S100000_S600000x1_S600000_n_0_0_1 (splatN 0x00000000#32) (col a)
    (broadcastInDim S600000 ![] bcast_S_S600000 (constant (F := Ideal) S_ .f32 0x3F800000#32))

/-- The degree factor: 1/√max(d, 1) where the degree d is positive, else 0. -/
def invDeg (a : VI S600000) : VF S100000 :=
  select (cmpf (F := Ideal) .ogt (deg a) (splatN 0x00000000#32))
    (Host.divf (F := Ideal) (splatN 0x3F800000#32) (Host.sqrt (F := Ideal) (maximumf (F := Ideal) (deg a) (splatN 0x3F800000#32))))
    (splatN 0x00000000#32)

/-- The sum of the edge rows ending at each node (segment_sum). -/
def segSum (u : VF S600000x128) (a : VI S600000) : VF S100000x128 :=
  Host.scatterAdd (F := Ideal) scatter_S100000x128_S600000x1_S600000x128_1_0_0_1
    (broadcastInDim S100000x128 ![] bcast_S_S100000x128 (constant (F := Ideal) S_ .f32 0x00000000#32)) (col a) u

/-- Every row of a node table scaled by that node's number. -/
def scaleRows (x : VF S100000x128) (v : VF S100000) : VF S100000x128 :=
  mulf (F := Ideal) x (broadcastInDim S100000x128 ![0, 1] bcast_S100000x1_S100000x128_0_1
    (shapeCast S100000x1 v shapeCasts_S100000_S100000x1))

/-- A per-edge vector as a one-column matrix. -/
def colF (v : VF S600000) : VF S600000x1 := shapeCast S600000x1 v shapeCasts_S600000_S600000x1

/-- A vector of 128 numbers as a one-row matrix. -/
def rowF (v : VF S128) : VF S1x128 := shapeCast S1x128 v shapeCasts_S128_S1x128

/-- The transpose of a 128 by 128 matrix. -/
def tr (w : VF S128x128) : VF S128x128 := transpose S128x128 [1, 0] w transposes_S128x128_S128x128_1_0

end Cert.KernelIdeal.KTerm

end
-- ==== Proof.KHost.lean ====
/-
  What the live buffers hold after each stretch of host operations of the kernel's @main, as the pieces of KPieces
  applied to what the stretch found in the buffers it reads — for ANY contents V found at its start. Each is a
  computation: the stretch's operations are unfolded one after the other, each writing its function of its operands.
-/
import proofs.«138557_j88261577933338_1_alg».proof.Proof.Gen.KernelIdeal.Launch
import proofs.«138557_j88261577933338_1_alg».proof.Proof.KPieces
import Idealize.ShloMosaic.Lib.StableHlo.Run

set_option maxRecDepth 16384

noncomputable section

namespace Cert.KernelIdeal.KHost

open Idealize.ShloMosaic Idealize.SL.Sem Cert.KernelIdeal Cert.KernelIdeal.Gen Cert.KernelIdeal.KTerm

variable (V : Valuation τ sig (Elt Ideal))

/-! ## Before region 0: the transposed encoder weights and the bias as a row -/

theorem s0_v0 : StableHlo.after (hostOps0 (F := Ideal)) V (Proc.devRef .tc main_v0) = transpose S256x128 [1, 0] (V (Proc.devRef .tc main_arg1)) transposes_S128x256_S256x128_1_0 := by
  after_results_simp <;> rfl

theorem s0_v1 : StableHlo.after (hostOps0 (F := Ideal)) V (Proc.devRef .tc main_v1) = rowF (V (Proc.devRef .tc main_arg2)) := by
  after_results_simp <;> rfl

/-! ## After region 0: the node table, and the degrees by target and by source -/

theorem s1_v3 : StableHlo.after (hostOps1 (F := Ideal)) V (Proc.devRef .tc main_v3) = concatenate S100000x128 0 [⟨S50000x128, (V (Proc.devRef .tc main_v2))⟩, ⟨S50000x128, (V (Proc.devRef .tc main_arg3))⟩] concatenates_S50000x128_S50000x128_S100000x128_d0 := by
  after_results_simp <;> rfl

theorem s1_v12 : StableHlo.after (hostOps1 (F := Ideal)) V (Proc.devRef .tc main_v12) = cmpf .ogt (deg (V (Proc.devRef .tc main_arg22))) (splatN 0x00000000#32) := by
  after_results_simp <;> rfl

theorem s1_v17 : StableHlo.after (hostOps1 (F := Ideal)) V (Proc.devRef .tc main_v17) = Host.divf (splatN 0x3F800000#32) (Host.sqrt (maximumf (deg (V (Proc.devRef .tc main_arg22))) (splatN 0x3F800000#32))) := by
  after_results_simp <;> rfl

theorem s1_cst_5 : StableHlo.after (hostOps1 (F := Ideal)) V (Proc.devRef .tc main_cst_5) = constant (F := Ideal) S_ .f32 0x00000000#32 := by
  after_results_simp <;> rfl

theorem s1_v10 : StableHlo.after (hostOps1 (F := Ideal)) V (Proc.devRef .tc main_v10) = deg (V (Proc.devRef .tc main_arg20)) := by
  after_results_simp <;> rfl

/-! ## The two selections "where the degree is positive" -/

theorem s11_v18 : StableHlo.after (hostOps1_1 (F := Ideal)) V (Proc.devRef .tc main_v18) = select (V (Proc.devRef .tc main_v12)) (V (Proc.devRef .tc main_v17)) (broadcastInDim S100000 ![] bcast_S_S100000 (V (Proc.devRef .tc main_cst_5))) := by
  after_results_simp <;> rfl

theorem s12_v20 : StableHlo.after (hostOps1_2 (F := Ideal)) V (Proc.devRef .tc main_v20) = cmpf .ogt (V (Proc.devRef .tc main_v10)) (splatN 0x00000000#32) := by
  after_results_simp <;> rfl

theorem s12_v25 : StableHlo.after (hostOps1_2 (F := Ideal)) V (Proc.devRef .tc main_v25) = Host.divf (splatN 0x3F800000#32) (Host.sqrt (maximumf (V (Proc.devRef .tc main_v10)) (splatN 0x3F800000#32))) := by
  after_results_simp <;> rfl

theorem s12_cst_9 : StableHlo.after (hostOps1_2 (F := Ideal)) V (Proc.devRef .tc main_cst_9) = constant (F := Ideal) S_ .f32 0x00000000#32 := by
  after_results_simp <;> rfl

theorem s13_v26 : StableHlo.after (hostOps1_3 (F := Ideal)) V (Proc.devRef .tc main_v26) = select (V (Proc.devRef .tc main_v20)) (V (Proc.devRef .tc main_v25)) (broadcastInDim S100000 ![] bcast_S_S100000 (V (Proc.devRef .tc main_cst_9))) := by
  after_results_simp <;> rfl

/-! ## Before region 1: the gathers of layer 0 -/

theorem s14_v33 : StableHlo.after (hostOps1_4 (F := Ideal)) V (Proc.devRef .tc main_v33) = relOf (V (Proc.devRef .tc main_arg4)) (V (Proc.devRef .tc main_arg21)) := by
  after_results_simp <;> rfl

theorem s14_v40 : StableHlo.after (hostOps1_4 (F := Ideal)) V (Proc.devRef .tc main_v40) = rowsOf (V (Proc.devRef .tc main_v3)) (V (Proc.devRef .tc main_arg20)) := by
  after_results_simp <;> rfl

theorem s14_v47 : StableHlo.after (hostOps1_4 (F := Ideal)) V (Proc.devRef .tc main_v47) = rowsOf (V (Proc.devRef .tc main_v3)) (V (Proc.devRef .tc main_arg22)) := by
  after_results_simp <;> rfl

theorem s14_v55 : StableHlo.after (hostOps1_4 (F := Ideal)) V (Proc.devRef .tc main_v55) = colF (pick (V (Proc.devRef .tc main_v26)) (V (Proc.devRef .tc main_arg20))) := by
  after_results_simp <;> rfl

theorem s14_v63 : StableHlo.after (hostOps1_4 (F := Ideal)) V (Proc.devRef .tc main_v63) = colF (pick (V (Proc.devRef .tc main_v18)) (V (Proc.devRef .tc main_arg22))) := by
  after_results_simp <;> rfl

theorem s14_v64 : StableHlo.after (hostOps1_4 (F := Ideal)) V (Proc.devRef .tc main_v64) = tr (V (Proc.devRef .tc main_arg8)) := by
  after_results_simp <;> rfl

theorem s14_v65 : StableHlo.after (hostOps1_4 (F := Ideal)) V (Proc.devRef .tc main_v65) = tr (V (Proc.devRef .tc main_arg7)) := by
  after_results_simp <;> rfl

/-! ## Before region 2: the sums per node of layer 0, and the small tables of the node update -/

theorem s2_v72 : StableHlo.after (hostOps2 (F := Ideal)) V (Proc.devRef .tc main_v72) = scaleRows (segSum (V (Proc.devRef .tc main_v66_0)) (V (Proc.devRef .tc main_arg22))) (V (Proc.devRef .tc main_v18)) := by
  after_results_simp <;> rfl

theorem s2_v78 : StableHlo.after (hostOps2 (F := Ideal)) V (Proc.devRef .tc main_v78) = scaleRows (segSum (V (Proc.devRef .tc main_v66_1)) (V (Proc.devRef .tc main_arg20))) (V (Proc.devRef .tc main_v26)) := by
  after_results_simp <;> rfl

theorem s2_v79 : StableHlo.after (hostOps2 (F := Ideal)) V (Proc.devRef .tc main_v79) = tr (V (Proc.devRef .tc main_arg6)) := by
  after_results_simp <;> rfl

theorem s2_v80 : StableHlo.after (hostOps2 (F := Ideal)) V (Proc.devRef .tc main_v80) = rowF (V (Proc.devRef .tc main_arg9)) := by
  after_results_simp <;> rfl

theorem s2_v81 : StableHlo.after (hostOps2 (F := Ideal)) V (Proc.devRef .tc main_v81) = rowF (V (Proc.devRef .tc main_arg10)) := by
  after_results_simp <;> rfl

theorem s2_v82 : StableHlo.after (hostOps2 (F := Ideal)) V (Proc.devRef .tc main_v82) = rowF (V (Proc.devRef .tc main_arg11)) := by
  after_results_simp <;> rfl

/-! ## Before region 3: the gathers of layer 1 -/

theorem s3_v90 : StableHlo.after (hostOps3 (F := Ideal)) V (Proc.devRef .tc main_v90) = relOf (V (Proc.devRef .tc main_arg12)) (V (Proc.devRef .tc main_arg21)) := by
  after_results_simp <;> rfl

theorem s3_v97 : StableHlo.after (hostOps3 (F := Ideal)) V (Proc.devRef .tc main_v97) = rowsOf (V (Proc.devRef .tc main_v83)) (V (Proc.devRef .tc main_arg20)) := by
  after_results_simp <;> rfl

theorem s3_v104 : StableHlo.after (hostOps3 (F := Ideal)) V (Proc.devRef .tc main_v104) = rowsOf (V (Proc.devRef .tc main_v83)) (V (Proc.devRef .tc main_arg22)) := by
  after_results_simp <;> rfl

theorem s3_v112 : StableHlo.after (hostOps3 (F := Ideal)) V (Proc.devRef .tc main_v112) = colF (pick (V (Proc.devRef .tc main_v26)) (V (Proc.devRef .tc main_arg20))) := by
  after_results_simp <;> rfl

theorem s3_v120 : StableHlo.after (hostOps3 (F := Ideal)) V (Proc.devRef .tc main_v120) = colF (pick (V (Proc.devRef .tc main_v18)) (V (Proc.devRef .tc main_arg22))) := by
  after_results_simp <;> rfl

theorem s3_v121 : StableHlo.after (hostOps3 (F := Ideal)) V (Proc.devRef .tc main_v121) = tr (V (Proc.devRef .tc main_arg16)) := by
  after_results_simp <;> rfl

theorem s3_v122 : StableHlo.after (hostOps3 (F := Ideal)) V (Proc.devRef .tc main_v122) = tr (V (Proc.devRef .tc main_arg15)) := by
  after_results_simp <;> rfl

/-! ## Before region 4: the sums per node of layer 1, and the small tables of the node update -/

theorem s4_v129 : StableHlo.after (hostOps4 (F := Ideal)) V (Proc.devRef .tc main_v129) = scaleRows (segSum (V (Proc.devRef .tc main_v123_0)) (V (Proc.devRef .tc main_arg22))) (V (Proc.devRef .tc main_v18)) := by
  after_results_simp <;> rfl

theorem s4_v135 : StableHlo.after (hostOps4 (F := Ideal)) V (Proc.devRef .tc main_v135) = scaleRows (segSum (V (Proc.devRef .tc main_v123_1)) (V (Proc.devRef .tc main_arg20))) (V (Proc.devRef .tc main_v26)) := by
  after_results_simp <;> rfl

theorem s4_v136 : StableHlo.after (hostOps4 (F := Ideal)) V (Proc.devRef .tc main_v136) = tr (V (Proc.devRef .tc main_arg14)) := by
  after_results_simp <;> rfl

theorem s4_v137 : StableHlo.after (hostOps4 (F := Ideal)) V (Proc.devRef .tc main_v137) = rowF (V (Proc.devRef .tc main_arg17)) := by
  after_results_simp <;> rfl

theorem s4_v138 : StableHlo.after (hostOps4 (F := Ideal)) V (Proc.devRef .tc main_v138) = rowF (V (Proc.devRef .tc main_arg18)) := by
  after_results_simp <;> rfl

theorem s4_v139 : StableHlo.after (hostOps4 (F := Ideal)) V (Proc.devRef .tc main_v139) = rowF (V (Proc.devRef .tc main_arg19)) := by
  after_results_simp <;> rfl

end Cert.KernelIdeal.KHost

end
-- ==== Proof.KTerm.lean ====
/-
  The kernel's @main as one function of its 23 argument arrays, at the exact reading of floats: the host pieces
  between the regions, and for the regions the three row-wise functions of the specification. One layer: gather the
  relation rows and the end-point rows of every edge, form the two messages, sum them per node and scale by the degree
  factors, and apply the node update. The program is the encoder, the concatenation with the second node type's table,
  and two layers (the first with the positive part, the second without).
-/
import proofs.«138557_j88261577933338_1_alg».proof.Proof.KPieces
import proofs.«138557_j88261577933338_1_alg».proof.Proof.Spec

noncomputable section

namespace Cert.KernelIdeal.KTerm

open Idealize.ShloMosaic Cert.KernelIdeal Cert.KernelIdeal.Facts₀

/-- The message along the edges out of their sources: ((x[s] − rel[r])·w_outᵀ) scaled by the source factor. -/
def msgOut (x : VF S100000x128) (rel : VF S32x128) (wout : VF S128x128) (s r : VI S600000) : VF S600000x128 :=
  Cert.Spec.edge (rowsOf x s) (relOf rel r) (colF (pick (invDeg s) s)) (tr wout)

/-- The message along the edges into their targets: ((x[t] − rel[r])·w_inᵀ) scaled by the target factor. -/
def msgIn (x : VF S100000x128) (rel : VF S32x128) (win : VF S128x128) (r t : VI S600000) : VF S600000x128 :=
  Cert.Spec.edge (rowsOf x t) (relOf rel r) (colF (pick (invDeg t) t)) (tr win)

/-- One layer of the network on the node table x. -/
def layer (relu : Bool) (x : VF S100000x128) (rel : VF S32x128) (lr : VF S1x128) (wloop win wout : VF S128x128)
    (bias g b : VF S128) (s r t : VI S600000) : VF S100000x128 :=
  Cert.Spec.node relu x
    (scaleRows (segSum (msgOut x rel wout s r) t) (invDeg t))
    (scaleRows (segSum (msgIn x rel win r t) s) (invDeg s))
    lr (tr wloop) (rowF bias) (rowF g) (rowF b)

/-- The node table before the layers: the encoder's rows, then the second type's rows. -/
def table0 (xa : VF S50000x256) (wm : VF S128x256) (bm : VF S128) (eb : VF S50000x128) : VF S100000x128 :=
  concatenate S100000x128 0
    [⟨S50000x128, Cert.Spec.mlp xa (transpose S256x128 [1, 0] wm transposes_S128x256_S256x128_1_0) (rowF bm)⟩,
     ⟨S50000x128, eb⟩] concatenates_S50000x128_S50000x128_S100000x128_d0

/-- The whole program: two layers on the node table. -/
def forward (xa : VF S50000x256) (wm : VF S128x256) (bm : VF S128) (eb : VF S50000x128)
    (rel0 : VF S32x128) (lr0 : VF S1x128) (wloop0 win0 wout0 : VF S128x128) (bias0 g0 b0 : VF S128)
    (rel1 : VF S32x128) (lr1 : VF S1x128) (wloop1 win1 wout1 : VF S128x128) (bias1 g1 b1 : VF S128)
    (s r t : VI S600000) : VF S100000x128 :=
  layer false (layer true (table0 xa wm bm eb) rel0 lr0 wloop0 win0 wout0 bias0 g0 b0 s r t)
    rel1 lr1 wloop1 win1 wout1 bias1 g1 b1 s r t

end Cert.KernelIdeal.KTerm

end
-- ==== Proof.KChainA.lean ====
/-
  The kernel's buffers at the boundaries of @main's segments, up to the entry of the first edge region: the encoder's
  output, the node table, the two degree factors, and the gathered rows, each as a function of the argument arrays.
  A host stretch's live buffers are computed from what the stretch found (KHost); what it found is either what an
  earlier segment wrote, carried unchanged over the segments in between (KSeg), or an argument, which nothing writes.
  What the five regions leave in their output arrays is taken as a hypothesis here (`Regions`) and proved elsewhere.
-/
import proofs.«138557_j88261577933338_1_alg».proof.Proof.Gen.KernelIdeal.Frame
import proofs.«138557_j88261577933338_1_alg».proof.Proof.KSeg
import proofs.«138557_j88261577933338_1_alg».proof.Proof.KHost
import proofs.«138557_j88261577933338_1_alg».proof.Proof.KTerm

set_option maxRecDepth 16384

noncomputable section

namespace Cert.KernelIdeal.KChain

open Idealize.ShloMosaic Idealize.SL.Sem Cert.KernelIdeal Cert.KernelIdeal.Gen
open Cert.KernelIdeal.KTerm Cert.KernelIdeal.KSeg

/-- What each region leaves in its output arrays, as the specification's row-wise functions of the arrays it found. -/
structure Regions : Prop where
  r0 : ∀ (V : (c : Dev nD) → (b : Ref sig .tc) → Buf (Elt Ideal) ((c.tc : Thread nD τ).loc b)) (c : Dev nD),
    (dat0 (F := Ideal) V c).arrAt 3 cfg0.N = Cert.Spec.mlp (V c main_arg0) (V c main_v0) (V c main_v1)
  r1a : ∀ (V : (c : Dev nD) → (b : Ref sig .tc) → Buf (Elt Ideal) ((c.tc : Thread nD τ).loc b)) (c : Dev nD),
    (dat1 (F := Ideal) V c).arrAt 7 cfg1.N = Cert.Spec.edge (V c main_v40) (V c main_v33) (V c main_v55) (V c main_v64)
  r1b : ∀ (V : (c : Dev nD) → (b : Ref sig .tc) → Buf (Elt Ideal) ((c.tc : Thread nD τ).loc b)) (c : Dev nD),
    (dat1 (F := Ideal) V c).arrAt 8 cfg1.N = Cert.Spec.edge (V c main_v47) (V c main_v33) (V c main_v63) (V c main_v65)
  r2 : ∀ (V : (c : Dev nD) → (b : Ref sig .tc) → Buf (Elt Ideal) ((c.tc : Thread nD τ).loc b)) (c : Dev nD),
    (dat2 (F := Ideal) V c).arrAt 8 cfg2.N = Cert.Spec.node true (V c main_v3) (V c main_v72) (V c main_v78) (V c main_arg5)
      (V c main_v79) (V c main_v80) (V c main_v81) (V c main_v82)
  r3a : ∀ (V : (c : Dev nD) → (b : Ref sig .tc) → Buf (Elt Ideal) ((c.tc : Thread nD τ).loc b)) (c : Dev nD),
    (dat3 (F := Ideal) V c).arrAt 7 cfg3.N = Cert.Spec.edge (V c main_v97) (V c main_v90) (V c main_v112) (V c main_v121)
  r3b : ∀ (V : (c : Dev nD) → (b : Ref sig .tc) → Buf (Elt Ideal) ((c.tc : Thread nD τ).loc b)) (c : Dev nD),
    (dat3 (F := Ideal) V c).arrAt 8 cfg3.N = Cert.Spec.edge (V c main_v104) (V c main_v90) (V c main_v120) (V c main_v122)
  r4 : ∀ (V : (c : Dev nD) → (b : Ref sig .tc) → Buf (Elt Ideal) ((c.tc : Thread nD τ).loc b)) (c : Dev nD),
    (dat4 (F := Ideal) V c).arrAt 8 cfg4.N = Cert.Spec.node false (V c main_v83) (V c main_v129) (V c main_v135) (V c main_arg13)
      (V c main_v136) (V c main_v137) (V c main_v138) (V c main_v139)

variable (m : (ℓ : Loc nD τ sig) → Buf (Elt Ideal) ℓ) (ρ : Dev nD → PrngReg) (c : Dev nD)

/-! ## Up to region 0's exit -/

theorem w1_arg0 : W1 m ρ c (Proc.devRef .tc main_arg0) = m ((c.tc : Thread nD τ).loc main_arg0) :=
  host_wr0 (W0 m ρ c) main_arg0 (by decide)

theorem w1_v0 : W1 m ρ c (Proc.devRef .tc main_v0)
    = transpose S256x128 [1, 0] (m ((c.tc : Thread nD τ).loc main_arg1)) transposes_S128x256_S256x128_1_0 :=
  KHost.s0_v0 (W0 m ρ c)

theorem w1_v1 : W1 m ρ c (Proc.devRef .tc main_v1) = rowF (m ((c.tc : Thread nD τ).loc main_arg2)) :=
  KHost.s0_v1 (W0 m ρ c)

/-- The encoder's output: the affine layer of the first node type's features. -/
theorem w2_v2 (h : Regions) : W2 m ρ c (Proc.devRef .tc main_v2)
    = Cert.Spec.mlp (m ((c.tc : Thread nD τ).loc main_arg0))
        (transpose S256x128 [1, 0] (m ((c.tc : Thread nD τ).loc main_arg1)) transposes_S128x256_S256x128_1_0)
        (rowF (m ((c.tc : Thread nD τ).loc main_arg2))) := by
  refine (W2_arr m ρ c 3).trans ((h.r0 (V1 m ρ) c).trans ?_)
  show Cert.Spec.mlp (W1 m ρ c (Proc.devRef .tc main_arg0)) (W1 m ρ c (Proc.devRef .tc main_v0)) (W1 m ρ c (Proc.devRef .tc main_v1)) = _
  rw [w1_arg0, w1_v0, w1_v1]

/-- An argument at region 0's exit. -/
theorem w2_arg (r : Ref sig .tc) (hr : r ∉ arr0 ++ wr0) : W2 m ρ c (Proc.devRef .tc r) = m ((c.tc : Thread nD τ).loc r) :=
  W2_W0 m ρ c r hr

/-! ## The node table and the degree factors -/

/-- The node table before the layers. -/
abbrev x0 : VF S100000x128 :=
  table0 (m ((c.tc : Thread nD τ).loc main_arg0)) (m ((c.tc : Thread nD τ).loc main_arg1))
    (m ((c.tc : Thread nD τ).loc main_arg2)) (m ((c.tc : Thread nD τ).loc main_arg3))

theorem w3_v3 (h : Regions) : W3 m ρ c (Proc.devRef .tc main_v3) = x0 m c := by
  show StableHlo.after (hostOps1 (F := Ideal)) (W2 m ρ c) (Proc.devRef .tc main_v3) = _
  rw [KHost.s1_v3, w2_v2 m ρ c h, w2_arg m ρ c main_arg3 (by decide)]
  rfl

theorem w3_v12 : W3 m ρ c (Proc.devRef .tc main_v12)
    = cmpf (F := Ideal) .ogt (deg (m ((c.tc : Thread nD τ).loc main_arg22))) (splatN 0x00000000#32) := by
  show StableHlo.after (hostOps1 (F := Ideal)) (W2 m ρ c) (Proc.devRef .tc main_v12) = _
  rw [KHost.s1_v12, w2_arg m ρ c main_arg22 (by decide)]

theorem w3_v17 : W3 m ρ c (Proc.devRef .tc main_v17)
    = Host.divf (F := Ideal) (splatN 0x3F800000#32)
        (Host.sqrt (F := Ideal) (maximumf (F := Ideal) (deg (m ((c.tc : Thread nD τ).loc main_arg22))) (splatN 0x3F800000#32))) := by
  show StableHlo.after (hostOps1 (F := Ideal)) (W2 m ρ c) (Proc.devRef .tc main_v17) = _
  rw [KHost.s1_v17, w2_arg m ρ c main_arg22 (by decide)]

theorem w3_cst_5 : W3 m ρ c (Proc.devRef .tc main_cst_5) = constant (F := Ideal) S_ .f32 0x00000000#32 :=
  KHost.s1_cst_5 (W2 m ρ c)

theorem w3_v10 : W3 m ρ c (Proc.devRef .tc main_v10) = deg (m ((c.tc : Thread nD τ).loc main_arg20)) := by
  show StableHlo.after (hostOps1 (F := Ideal)) (W2 m ρ c) (Proc.devRef .tc main_v10) = _
  rw [KHost.s1_v10, w2_arg m ρ c main_arg20 (by decide)]

/-- The degree factor by target. -/
theorem w4_v18 : W4 m ρ c (Proc.devRef .tc main_v18) = invDeg (m ((c.tc : Thread nD τ).loc main_arg22)) := by
  show StableHlo.after (hostOps1_1 (F := Ideal)) (W3 m ρ c) (Proc.devRef .tc main_v18) = _
  rw [KHost.s11_v18, w3_v12, w3_v17, w3_cst_5]
  rfl

theorem w4_v10 : W4 m ρ c (Proc.devRef .tc main_v10) = deg (m ((c.tc : Thread nD τ).loc main_arg20)) :=
  (host_wr1_1 (W3 m ρ c) main_v10 (by decide)).trans (w3_v10 m ρ c)

theorem w5_v20 : W5 m ρ c (Proc.devRef .tc main_v20)
    = cmpf (F := Ideal) .ogt (deg (m ((c.tc : Thread nD τ).loc main_arg20))) (splatN 0x00000000#32) := by
  show StableHlo.after (hostOps1_2 (F := Ideal)) (W4 m ρ c) (Proc.devRef .tc main_v20) = _
  rw [KHost.s12_v20, w4_v10]

theorem w5_v25 : W5 m ρ c (Proc.devRef .tc main_v25)
    = Host.divf (F := Ideal) (splatN 0x3F800000#32)
        (Host.sqrt (F := Ideal) (maximumf (F := Ideal) (deg (m ((c.tc : Thread nD τ).loc main_arg20))) (splatN 0x3F800000#32))) := by
  show StableHlo.after (hostOps1_2 (F := Ideal)) (W4 m ρ c) (Proc.devRef .tc main_v25) = _
  rw [KHost.s12_v25, w4_v10]

theorem w5_cst_9 : W5 m ρ c (Proc.devRef .tc main_cst_9) = constant (F := Ideal) S_ .f32 0x00000000#32 :=
  KHost.s12_cst_9 (W4 m ρ c)

/-- The degree factor by source. -/
theorem w6_v26 : W6 m ρ c (Proc.devRef .tc main_v26) = invDeg (m ((c.tc : Thread nD τ).loc main_arg20)) := by
  show StableHlo.after (hostOps1_3 (F := Ideal)) (W5 m ρ c) (Proc.devRef .tc main_v26) = _
  rw [KHost.s13_v26, w5_v20, w5_v25, w5_cst_9]
  rfl

theorem w6_v18 : W6 m ρ c (Proc.devRef .tc main_v18) = invDeg (m ((c.tc : Thread nD τ).loc main_arg22)) :=
  (((host_wr1_3 (W5 m ρ c)).trans (host_wr1_2 (W4 m ρ c))) main_v18 (by decide)).trans (w4_v18 m ρ c)

theorem w6_v3 (h : Regions) : W6 m ρ c (Proc.devRef .tc main_v3) = x0 m c :=
  (((host_wr1_3 (W5 m ρ c)).trans ((host_wr1_2 (W4 m ρ c)).trans (host_wr1_1 (W3 m ρ c)))) main_v3 (by decide)).trans
    (w3_v3 m ρ c h)

/-- An argument at the entry of the stretch of gathers. -/
theorem w6_arg (r : Ref sig .tc) (hr : r ∉ (wr1_3 ++ (wr1_2 ++ (wr1_1 ++ wr1))) ++ (arr0 ++ wr0)) :
    W6 m ρ c (Proc.devRef .tc r) = m ((c.tc : Thread nD τ).loc r) :=
  (((host_wr1_3 (W5 m ρ c)).trans ((host_wr1_2 (W4 m ρ c)).trans ((host_wr1_1 (W3 m ρ c)).trans (host_wr1 (W2 m ρ c))))).trans
    (W2_W0 m ρ c)) r hr

/-! ## Region 1's entry: the gathers of layer 0 -/

theorem w7_v33 : W7 m ρ c (Proc.devRef .tc main_v33)
    = relOf (m ((c.tc : Thread nD τ).loc main_arg4)) (m ((c.tc : Thread nD τ).loc main_arg21)) := by
  show StableHlo.after (hostOps1_4 (F := Ideal)) (W6 m ρ c) (Proc.devRef .tc main_v33) = _
  rw [KHost.s14_v33, w6_arg m ρ c main_arg4 (by decide), w6_arg m ρ c main_arg21 (by decide)]

theorem w7_v40 (h : Regions) : W7 m ρ c (Proc.devRef .tc main_v40) = rowsOf (x0 m c) (m ((c.tc : Thread nD τ).loc main_arg20)) := by
  show StableHlo.after (hostOps1_4 (F := Ideal)) (W6 m ρ c) (Proc.devRef .tc main_v40) = _
  rw [KHost.s14_v40, w6_v3 m ρ c h, w6_arg m ρ c main_arg20 (by decide)]

theorem w7_v47 (h : Regions) : W7 m ρ c (Proc.devRef .tc main_v47) = rowsOf (x0 m c) (m ((c.tc : Thread nD τ).loc main_arg22)) := by
  show StableHlo.after (hostOps1_4 (F := Ideal)) (W6 m ρ c) (Proc.devRef .tc main_v47) = _
  rw [KHost.s14_v47, w6_v3 m ρ c h, w6_arg m ρ c main_arg22 (by decide)]

theorem w7_v55 : W7 m ρ c (Proc.devRef .tc main_v55)
    = colF (pick (invDeg (m ((c.tc : Thread nD τ).loc main_arg20))) (m ((c.tc : Thread nD τ).loc main_arg20))) := by
  show StableHlo.after (hostOps1_4 (F := Ideal)) (W6 m ρ c) (Proc.devRef .tc main_v55) = _
  rw [KHost.s14_v55, w6_v26, w6_arg m ρ c main_arg20 (by decide)]

theorem w7_v63 : W7 m ρ c (Proc.devRef .tc main_v63)
    = colF (pick (invDeg (m ((c.tc : Thread nD τ).loc main_arg22))) (m ((c.tc : Thread nD τ).loc main_arg22))) := by
  show StableHlo.after (hostOps1_4 (F := Ideal)) (W6 m ρ c) (Proc.devRef .tc main_v63) = _
  rw [KHost.s14_v63, w6_v18, w6_arg m ρ c main_arg22 (by decide)]

theorem w7_v64 : W7 m ρ c (Proc.devRef .tc main_v64) = tr (m ((c.tc : Thread nD τ).loc main_arg8)) := by
  show StableHlo.after (hostOps1_4 (F := Ideal)) (W6 m ρ c) (Proc.devRef .tc main_v64) = _
  rw [KHost.s14_v64, w6_arg m ρ c main_arg8 (by decide)]

theorem w7_v65 : W7 m ρ c (Proc.devRef .tc main_v65) = tr (m ((c.tc : Thread nD τ).loc main_arg7)) := by
  show StableHlo.after (hostOps1_4 (F := Ideal)) (W6 m ρ c) (Proc.devRef .tc main_v65) = _
  rw [KHost.s14_v65, w6_arg m ρ c main_arg7 (by decide)]

/-- What region 1's entry still holds of the earlier segments: the node table and the two degree factors. -/
theorem w7_v3 (h : Regions) : W7 m ρ c (Proc.devRef .tc main_v3) = x0 m c :=
  (host_wr1_4 (W6 m ρ c) main_v3 (by decide)).trans (w6_v3 m ρ c h)
theorem w7_v18 : W7 m ρ c (Proc.devRef .tc main_v18) = invDeg (m ((c.tc : Thread nD τ).loc main_arg22)) :=
  (host_wr1_4 (W6 m ρ c) main_v18 (by decide)).trans (w6_v18 m ρ c)
theorem w7_v26 : W7 m ρ c (Proc.devRef .tc main_v26) = invDeg (m ((c.tc : Thread nD τ).loc main_arg20)) :=
  (host_wr1_4 (W6 m ρ c) main_v26 (by decide)).trans (w6_v26 m ρ c)
/-- An argument at region 1's entry. -/
theorem w7_arg (r : Ref sig .tc) (hr : r ∉ (wr1_4 ++ (wr1_3 ++ (wr1_2 ++ (wr1_1 ++ wr1)))) ++ (arr0 ++ wr0)) :
    W7 m ρ c (Proc.devRef .tc r) = m ((c.tc : Thread nD τ).loc r) :=
  ((W7_W2 m ρ c).trans (W2_W0 m ρ c)) r hr

end Cert.KernelIdeal.KChain

end
-- ==== Proof.KChainB.lean ====
/-
  The kernel's buffers from the first edge region to the end of @main. Layer 0: the two messages (region 1), their
  sums per node scaled by the degree factors and the small tables (a host stretch), the node update (region 2).
  Layer 1: the same four segments on layer 0's result. The last region's output array is the whole program's function
  of the argument arrays.
-/
import proofs.«138557_j88261577933338_1_alg».proof.Proof.KChainA

set_option maxRecDepth 16384

noncomputable section

namespace Cert.KernelIdeal.KChain

open Idealize.ShloMosaic Idealize.SL.Sem Cert.KernelIdeal Cert.KernelIdeal.Gen
open Cert.KernelIdeal.KTerm Cert.KernelIdeal.KSeg

variable (m : (ℓ : Loc nD τ sig) → Buf (Elt Ideal) ℓ) (ρ : Dev nD → PrngReg) (c : Dev nD)

/-! ## Layer 0 -/

/-- Region 1's first output: the messages out of the sources. -/
theorem w8_v66_0 (h : Regions) : W8 m ρ c (Proc.devRef .tc main_v66_0)
    = msgOut (x0 m c) (m ((c.tc : Thread nD τ).loc main_arg4)) (m ((c.tc : Thread nD τ).loc main_arg8)) (m ((c.tc : Thread nD τ).loc main_arg20)) (m ((c.tc : Thread nD τ).loc main_arg21)) := by
  refine (W8_arr m ρ c 7).trans ((h.r1a (V7 m ρ) c).trans ?_)
  show Cert.Spec.edge (W7 m ρ c (Proc.devRef .tc main_v40)) (W7 m ρ c (Proc.devRef .tc main_v33)) (W7 m ρ c (Proc.devRef .tc main_v55))
    (W7 m ρ c (Proc.devRef .tc main_v64)) = _
  rw [w7_v40 m ρ c h, w7_v33, w7_v55, w7_v64]
  rfl

/-- Region 1's second output: the messages into the targets. -/
theorem w8_v66_1 (h : Regions) : W8 m ρ c (Proc.devRef .tc main_v66_1)
    = msgIn (x0 m c) (m ((c.tc : Thread nD τ).loc main_arg4)) (m ((c.tc : Thread nD τ).loc main_arg7)) (m ((c.tc : Thread nD τ).loc main_arg21)) (m ((c.tc : Thread nD τ).loc main_arg22)) := by
  refine (W8_arr m ρ c 8).trans ((h.r1b (V7 m ρ) c).trans ?_)
  show Cert.Spec.edge (W7 m ρ c (Proc.devRef .tc main_v47)) (W7 m ρ c (Proc.devRef .tc main_v33)) (W7 m ρ c (Proc.devRef .tc main_v63))
    (W7 m ρ c (Proc.devRef .tc main_v65)) = _
  rw [w7_v47 m ρ c h, w7_v33, w7_v63, w7_v65]
  rfl

theorem w8_v18 : W8 m ρ c (Proc.devRef .tc main_v18) = invDeg (m ((c.tc : Thread nD τ).loc main_arg22)) :=
  (reg1 m ρ c main_v18 (by decide)).trans (w7_v18 m ρ c)
theorem w8_v26 : W8 m ρ c (Proc.devRef .tc main_v26) = invDeg (m ((c.tc : Thread nD τ).loc main_arg20)) :=
  (reg1 m ρ c main_v26 (by decide)).trans (w7_v26 m ρ c)
theorem w8_v3 (h : Regions) : W8 m ρ c (Proc.devRef .tc main_v3) = x0 m c :=
  (reg1 m ρ c main_v3 (by decide)).trans (w7_v3 m ρ c h)
/-- An argument at region 1's exit. -/
theorem w8_arg (r : Ref sig .tc)
    (hr : r ∉ arr1 ++ ((wr1_4 ++ (wr1_3 ++ (wr1_2 ++ (wr1_1 ++ wr1)))) ++ (arr0 ++ wr0))) :
    W8 m ρ c (Proc.devRef .tc r) = m ((c.tc : Thread nD τ).loc r) :=
  ((reg1 m ρ c).trans ((W7_W2 m ρ c).trans (W2_W0 m ρ c))) r hr

theorem w9_v72 (h : Regions) : W9 m ρ c (Proc.devRef .tc main_v72)
    = scaleRows (segSum (msgOut (x0 m c) (m ((c.tc : Thread nD τ).loc main_arg4)) (m ((c.tc : Thread nD τ).loc main_arg8)) (m ((c.tc : Thread nD τ).loc main_arg20)) (m ((c.tc : Thread nD τ).loc main_arg21))) (m ((c.tc : Thread nD τ).loc main_arg22))) (invDeg (m ((c.tc : Thread nD τ).loc main_arg22))) := by
  show StableHlo.after (hostOps2 (F := Ideal)) (W8 m ρ c) (Proc.devRef .tc main_v72) = _
  rw [KHost.s2_v72, w8_v66_0 m ρ c h, w8_arg m ρ c main_arg22 (by decide), w8_v18]

theorem w9_v78 (h : Regions) : W9 m ρ c (Proc.devRef .tc main_v78)
    = scaleRows (segSum (msgIn (x0 m c) (m ((c.tc : Thread nD τ).loc main_arg4)) (m ((c.tc : Thread nD τ).loc main_arg7)) (m ((c.tc : Thread nD τ).loc main_arg21)) (m ((c.tc : Thread nD τ).loc main_arg22))) (m ((c.tc : Thread nD τ).loc main_arg20))) (invDeg (m ((c.tc : Thread nD τ).loc main_arg20))) := by
  show StableHlo.after (hostOps2 (F := Ideal)) (W8 m ρ c) (Proc.devRef .tc main_v78) = _
  rw [KHost.s2_v78, w8_v66_1 m ρ c h, w8_arg m ρ c main_arg20 (by decide), w8_v26]

theorem w9_v79 : W9 m ρ c (Proc.devRef .tc main_v79) = tr (m ((c.tc : Thread nD τ).loc main_arg6)) := by
  show StableHlo.after (hostOps2 (F := Ideal)) (W8 m ρ c) (Proc.devRef .tc main_v79) = _
  rw [KHost.s2_v79, w8_arg m ρ c main_arg6 (by decide)]
theorem w9_v80 : W9 m ρ c (Proc.devRef .tc main_v80) = rowF (m ((c.tc : Thread nD τ).loc main_arg9)) := by
  show StableHlo.after (hostOps2 (F := Ideal)) (W8 m ρ c) (Proc.devRef .tc main_v80) = _
  rw [KHost.s2_v80, w8_arg m ρ c main_arg9 (by decide)]
theorem w9_v81 : W9 m ρ c (Proc.devRef .tc main_v81) = rowF (m ((c.tc : Thread nD τ).loc main_arg10)) := by
  show StableHlo.after (hostOps2 (F := Ideal)) (W8 m ρ c) (Proc.devRef .tc main_v81) = _
  rw [KHost.s2_v81, w8_arg m ρ c main_arg10 (by decide)]
theorem w9_v82 : W9 m ρ c (Proc.devRef .tc main_v82) = rowF (m ((c.tc : Thread nD τ).loc main_arg11)) := by
  show StableHlo.after (hostOps2 (F := Ideal)) (W8 m ρ c) (Proc.devRef .tc main_v82) = _
  rw [KHost.s2_v82, w8_arg m ρ c main_arg11 (by decide)]
theorem w9_v3 (h : Regions) : W9 m ρ c (Proc.devRef .tc main_v3) = x0 m c :=
  (host_wr2 (W8 m ρ c) main_v3 (by decide)).trans (w8_v3 m ρ c h)
theorem w9_arg5 : W9 m ρ c (Proc.devRef .tc main_arg5) = (m ((c.tc : Thread nD τ).loc main_arg5)) :=
  (host_wr2 (W8 m ρ c) main_arg5 (by decide)).trans (w8_arg m ρ c main_arg5 (by decide))

/-- The node table after layer 0. -/
abbrev x1 : VF S100000x128 :=
  layer true (x0 m c) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg20)) (m ((c.tc : Thread nD τ).loc main_arg21)) (m ((c.tc : Thread nD τ).loc main_arg22))

/-- Region 2's output: layer 0's node update. -/
theorem w10_v83 (h : Regions) : W10 m ρ c (Proc.devRef .tc main_v83) = x1 m c := by
  refine (W10_arr m ρ c 8).trans ((h.r2 (V9 m ρ) c).trans ?_)
  show Cert.Spec.node true (W9 m ρ c (Proc.devRef .tc main_v3)) (W9 m ρ c (Proc.devRef .tc main_v72)) (W9 m ρ c (Proc.devRef .tc main_v78))
    (W9 m ρ c (Proc.devRef .tc main_arg5)) (W9 m ρ c (Proc.devRef .tc main_v79)) (W9 m ρ c (Proc.devRef .tc main_v80)) (W9 m ρ c (Proc.devRef .tc main_v81))
    (W9 m ρ c (Proc.devRef .tc main_v82)) = _
  rw [w9_v3 m ρ c h, w9_v72 m ρ c h, w9_v78 m ρ c h, w9_arg5, w9_v79, w9_v80, w9_v81, w9_v82]
  rfl

/-! ## Layer 1 -/

theorem w10_v18 : W10 m ρ c (Proc.devRef .tc main_v18) = invDeg (m ((c.tc : Thread nD τ).loc main_arg22)) :=
  (((reg2 m ρ c).trans (host_wr2 (W8 m ρ c))) main_v18 (by decide)).trans (w8_v18 m ρ c)
theorem w10_v26 : W10 m ρ c (Proc.devRef .tc main_v26) = invDeg (m ((c.tc : Thread nD τ).loc main_arg20)) :=
  (((reg2 m ρ c).trans (host_wr2 (W8 m ρ c))) main_v26 (by decide)).trans (w8_v26 m ρ c)
/-- An argument at region 2's exit. -/
theorem w10_arg (r : Ref sig .tc)
    (hr : r ∉ (arr2 ++ wr2) ++ (arr1 ++ ((wr1_4 ++ (wr1_3 ++ (wr1_2 ++ (wr1_1 ++ wr1)))) ++ (arr0 ++ wr0)))) :
    W10 m ρ c (Proc.devRef .tc r) = m ((c.tc : Thread nD τ).loc r) :=
  (((reg2 m ρ c).trans (host_wr2 (W8 m ρ c))).trans ((reg1 m ρ c).trans ((W7_W2 m ρ c).trans (W2_W0 m ρ c)))) r hr

theorem w11_v90 : W11 m ρ c (Proc.devRef .tc main_v90) = relOf (m ((c.tc : Thread nD τ).loc main_arg12)) (m ((c.tc : Thread nD τ).loc main_arg21)) := by
  show StableHlo.after (hostOps3 (F := Ideal)) (W10 m ρ c) (Proc.devRef .tc main_v90) = _
  rw [KHost.s3_v90, w10_arg m ρ c main_arg12 (by decide), w10_arg m ρ c main_arg21 (by decide)]
theorem w11_v97 (h : Regions) : W11 m ρ c (Proc.devRef .tc main_v97) = rowsOf (x1 m c) (m ((c.tc : Thread nD τ).loc main_arg20)) := by
  show StableHlo.after (hostOps3 (F := Ideal)) (W10 m ρ c) (Proc.devRef .tc main_v97) = _
  rw [KHost.s3_v97, w10_v83 m ρ c h, w10_arg m ρ c main_arg20 (by decide)]
theorem w11_v104 (h : Regions) : W11 m ρ c (Proc.devRef .tc main_v104) = rowsOf (x1 m c) (m ((c.tc : Thread nD τ).loc main_arg22)) := by
  show StableHlo.after (hostOps3 (F := Ideal)) (W10 m ρ c) (Proc.devRef .tc main_v104) = _
  rw [KHost.s3_v104, w10_v83 m ρ c h, w10_arg m ρ c main_arg22 (by decide)]
theorem w11_v112 : W11 m ρ c (Proc.devRef .tc main_v112) = colF (pick (invDeg (m ((c.tc : Thread nD τ).loc main_arg20))) (m ((c.tc : Thread nD τ).loc main_arg20))) := by
  show StableHlo.after (hostOps3 (F := Ideal)) (W10 m ρ c) (Proc.devRef .tc main_v112) = _
  rw [KHost.s3_v112, w10_v26, w10_arg m ρ c main_arg20 (by decide)]
theorem w11_v120 : W11 m ρ c (Proc.devRef .tc main_v120) = colF (pick (invDeg (m ((c.tc : Thread nD τ).loc main_arg22))) (m ((c.tc : Thread nD τ).loc main_arg22))) := by
  show StableHlo.after (hostOps3 (F := Ideal)) (W10 m ρ c) (Proc.devRef .tc main_v120) = _
  rw [KHost.s3_v120, w10_v18, w10_arg m ρ c main_arg22 (by decide)]
theorem w11_v121 : W11 m ρ c (Proc.devRef .tc main_v121) = tr (m ((c.tc : Thread nD τ).loc main_arg16)) := by
  show StableHlo.after (hostOps3 (F := Ideal)) (W10 m ρ c) (Proc.devRef .tc main_v121) = _
  rw [KHost.s3_v121, w10_arg m ρ c main_arg16 (by decide)]
theorem w11_v122 : W11 m ρ c (Proc.devRef .tc main_v122) = tr (m ((c.tc : Thread nD τ).loc main_arg15)) := by
  show StableHlo.after (hostOps3 (F := Ideal)) (W10 m ρ c) (Proc.devRef .tc main_v122) = _
  rw [KHost.s3_v122, w10_arg m ρ c main_arg15 (by decide)]

/-- Region 3's outputs: layer 1's two messages. -/
theorem w12_v123_0 (h : Regions) : W12 m ρ c (Proc.devRef .tc main_v123_0)
    = msgOut (x1 m c) (m ((c.tc : Thread nD τ).loc main_arg12)) (m ((c.tc : Thread nD τ).loc main_arg16)) (m ((c.tc : Thread nD τ).loc main_arg20)) (m ((c.tc : Thread nD τ).loc main_arg21)) := by
  refine (W12_arr m ρ c 7).trans ((h.r3a (V11 m ρ) c).trans ?_)
  show Cert.Spec.edge (W11 m ρ c (Proc.devRef .tc main_v97)) (W11 m ρ c (Proc.devRef .tc main_v90)) (W11 m ρ c (Proc.devRef .tc main_v112))
    (W11 m ρ c (Proc.devRef .tc main_v121)) = _
  rw [w11_v97 m ρ c h, w11_v90, w11_v112, w11_v121]
  rfl
theorem w12_v123_1 (h : Regions) : W12 m ρ c (Proc.devRef .tc main_v123_1)
    = msgIn (x1 m c) (m ((c.tc : Thread nD τ).loc main_arg12)) (m ((c.tc : Thread nD τ).loc main_arg15)) (m ((c.tc : Thread nD τ).loc main_arg21)) (m ((c.tc : Thread nD τ).loc main_arg22)) := by
  refine (W12_arr m ρ c 8).trans ((h.r3b (V11 m ρ) c).trans ?_)
  show Cert.Spec.edge (W11 m ρ c (Proc.devRef .tc main_v104)) (W11 m ρ c (Proc.devRef .tc main_v90)) (W11 m ρ c (Proc.devRef .tc main_v120))
    (W11 m ρ c (Proc.devRef .tc main_v122)) = _
  rw [w11_v104 m ρ c h, w11_v90, w11_v120, w11_v122]
  rfl

theorem w12_v18 : W12 m ρ c (Proc.devRef .tc main_v18) = invDeg (m ((c.tc : Thread nD τ).loc main_arg22)) :=
  (((reg3 m ρ c).trans (host_wr3 (W10 m ρ c))) main_v18 (by decide)).trans (w10_v18 m ρ c)
theorem w12_v26 : W12 m ρ c (Proc.devRef .tc main_v26) = invDeg (m ((c.tc : Thread nD τ).loc main_arg20)) :=
  (((reg3 m ρ c).trans (host_wr3 (W10 m ρ c))) main_v26 (by decide)).trans (w10_v26 m ρ c)
theorem w12_v83 (h : Regions) : W12 m ρ c (Proc.devRef .tc main_v83) = x1 m c :=
  (((reg3 m ρ c).trans (host_wr3 (W10 m ρ c))) main_v83 (by decide)).trans (w10_v83 m ρ c h)
/-- An argument at region 3's exit. -/
theorem w12_arg (r : Ref sig .tc)
    (hr : r ∉ (arr3 ++ wr3) ++ ((arr2 ++ wr2) ++ (arr1 ++ ((wr1_4 ++ (wr1_3 ++ (wr1_2 ++ (wr1_1 ++ wr1)))) ++ (arr0 ++ wr0))))) :
    W12 m ρ c (Proc.devRef .tc r) = m ((c.tc : Thread nD τ).loc r) :=
  (((reg3 m ρ c).trans (host_wr3 (W10 m ρ c))).trans
    (((reg2 m ρ c).trans (host_wr2 (W8 m ρ c))).trans ((reg1 m ρ c).trans ((W7_W2 m ρ c).trans (W2_W0 m ρ c))))) r hr

theorem w13_v129 (h : Regions) : W13 m ρ c (Proc.devRef .tc main_v129)
    = scaleRows (segSum (msgOut (x1 m c) (m ((c.tc : Thread nD τ).loc main_arg12)) (m ((c.tc : Thread nD τ).loc main_arg16)) (m ((c.tc : Thread nD τ).loc main_arg20)) (m ((c.tc : Thread nD τ).loc main_arg21))) (m ((c.tc : Thread nD τ).loc main_arg22))) (invDeg (m ((c.tc : Thread nD τ).loc main_arg22))) := by
  show StableHlo.after (hostOps4 (F := Ideal)) (W12 m ρ c) (Proc.devRef .tc main_v129) = _
  rw [KHost.s4_v129, w12_v123_0 m ρ c h, w12_arg m ρ c main_arg22 (by decide), w12_v18]
theorem w13_v135 (h : Regions) : W13 m ρ c (Proc.devRef .tc main_v135)
    = scaleRows (segSum (msgIn (x1 m c) (m ((c.tc : Thread nD τ).loc main_arg12)) (m ((c.tc : Thread nD τ).loc main_arg15)) (m ((c.tc : Thread nD τ).loc main_arg21)) (m ((c.tc : Thread nD τ).loc main_arg22))) (m ((c.tc : Thread nD τ).loc main_arg20))) (invDeg (m ((c.tc : Thread nD τ).loc main_arg20))) := by
  show StableHlo.after (hostOps4 (F := Ideal)) (W12 m ρ c) (Proc.devRef .tc main_v135) = _
  rw [KHost.s4_v135, w12_v123_1 m ρ c h, w12_arg m ρ c main_arg20 (by decide), w12_v26]
theorem w13_v136 : W13 m ρ c (Proc.devRef .tc main_v136) = tr (m ((c.tc : Thread nD τ).loc main_arg14)) := by
  show StableHlo.after (hostOps4 (F := Ideal)) (W12 m ρ c) (Proc.devRef .tc main_v136) = _
  rw [KHost.s4_v136, w12_arg m ρ c main_arg14 (by decide)]
theorem w13_v137 : W13 m ρ c (Proc.devRef .tc main_v137) = rowF (m ((c.tc : Thread nD τ).loc main_arg17)) := by
  show StableHlo.after (hostOps4 (F := Ideal)) (W12 m ρ c) (Proc.devRef .tc main_v137) = _
  rw [KHost.s4_v137, w12_arg m ρ c main_arg17 (by decide)]
theorem w13_v138 : W13 m ρ c (Proc.devRef .tc main_v138) = rowF (m ((c.tc : Thread nD τ).loc main_arg18)) := by
  show StableHlo.after (hostOps4 (F := Ideal)) (W12 m ρ c) (Proc.devRef .tc main_v138) = _
  rw [KHost.s4_v138, w12_arg m ρ c main_arg18 (by decide)]
theorem w13_v139 : W13 m ρ c (Proc.devRef .tc main_v139) = rowF (m ((c.tc : Thread nD τ).loc main_arg19)) := by
  show StableHlo.after (hostOps4 (F := Ideal)) (W12 m ρ c) (Proc.devRef .tc main_v139) = _
  rw [KHost.s4_v139, w12_arg m ρ c main_arg19 (by decide)]
theorem w13_v83 (h : Regions) : W13 m ρ c (Proc.devRef .tc main_v83) = x1 m c :=
  (host_wr4 (W12 m ρ c) main_v83 (by decide)).trans (w12_v83 m ρ c h)
theorem w13_arg13 : W13 m ρ c (Proc.devRef .tc main_arg13) = (m ((c.tc : Thread nD τ).loc main_arg13)) :=
  (host_wr4 (W12 m ρ c) main_arg13 (by decide)).trans (w12_arg m ρ c main_arg13 (by decide))

/-- THE RESULT: after the last region the result buffer holds the whole program's function of the arguments. -/
theorem w14_v140 (h : Regions) : W14 m ρ c (Proc.devRef .tc main_v140)
    = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  refine (W14_arr m ρ c 8).trans ((h.r4 (V13 m ρ) c).trans ?_)
  show Cert.Spec.node false (W13 m ρ c (Proc.devRef .tc main_v83)) (W13 m ρ c (Proc.devRef .tc main_v129)) (W13 m ρ c (Proc.devRef .tc main_v135))
    (W13 m ρ c (Proc.devRef .tc main_arg13)) (W13 m ρ c (Proc.devRef .tc main_v136)) (W13 m ρ c (Proc.devRef .tc main_v137)) (W13 m ρ c (Proc.devRef .tc main_v138))
    (W13 m ρ c (Proc.devRef .tc main_v139)) = _
  rw [w13_v83 m ρ c h, w13_v129 m ρ c h, w13_v135 m ρ c h, w13_arg13, w13_v136, w13_v137, w13_v138, w13_v139]
  rfl

end Cert.KernelIdeal.KChain

end
-- ==== Proof.RefRunDefs.lean ====
/-
The value the reference program computes, as a chain of definitions over its 23 argument arrays
`a0 … a22`, in program order: the node table, the two inverse-square-root degree vectors, and for each of
the two layers the relation rows, the two gathers of node rows, the two per-edge messages, their two
per-node sums, and the layer's result.  Each definition is the program's own operations composed, applied
to the earlier definitions; the second layer's degree vectors are the same terms as the first's.
-/
import proofs.«138557_j88261577933338_1_alg».proof.Proof.Gen.ReferenceIdeal
import Idealize.ShloMosaic.Lib.StableHlo

noncomputable section

namespace Cert.ReferenceIdeal.RefRun

open Cert.ReferenceIdeal Cert.ReferenceIdeal.Gen Idealize.ShloMosaic Idealize.SL.Sem

variable {F : FTy → Type} [FloatOps F]

/-- The node table the layers start from (`%5`): the encoder `a0 · a1ᵀ + a2` on the first 50000 nodes, the given table `a3` on the other 50000. -/
def x0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) :
    (⟨S100000x128, .f32⟩ : BufTy).Contents (Elt F) :=
  concatenate S100000x128 0 [⟨S50000x128, (addf (Host.dotGeneral dot_S50000x256_S256x128_S50000x128_1_0_0_1_n_n none a0 (transpose S256x128 [1, 0] a1 transposes_S128x256_S256x128_1_0)) (broadcastInDim S50000x128 ![0, 1] bcast_S1x128_S50000x128_0_1 (broadcastInDim S1x128 ![1] bcast_S128_S1x128_1 a2)))⟩, ⟨S50000x128, a3⟩] concatenates_S50000x128_S50000x128_S100000x128_d0

/-- `%20`: per node, one over the square root of how many edges name it in `a22` (the count taken at least 1), and 0 where none does. -/
def invt (a22 : (⟨S600000, .i32⟩ : BufTy).Contents (Elt F)) :
    (⟨S100000, .f32⟩ : BufTy).Contents (Elt F) :=
  select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 a22) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 a22) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F))))

/-- `%28`: the same over the edges' other end `a20`. -/
def invs (a20 : (⟨S600000, .i32⟩ : BufTy).Contents (Elt F)) :
    (⟨S100000, .f32⟩ : BufTy).Contents (Elt F) :=
  select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 a20) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 a20) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F))))

/-- Layer 0, `%35`: each edge's row of the relation table `a4`, by its relation `a21`. -/
def relE0 (a4 : (⟨S32x128, .f32⟩ : BufTy).Contents (Elt F)) (a21 : (⟨S600000, .i32⟩ : BufTy).Contents (Elt F)) :
    (⟨S600000x128, .f32⟩ : BufTy).Contents (Elt F) :=
  Host.gather gather_S32x128_S600000x1_S600000x128_1_0_n_n_0_1_1128 a4 (broadcastInDim S600000x1 ![0] bcast_S600000_S600000x1_0 (select (cmpi .slt a21 (broadcastInDim S600000 ![] bcast_S_S600000 (constantI S_ 32 0#32 : (⟨S_, .i32⟩ : BufTy).Contents (Elt F)))) (addi a21 (broadcastInDim S600000 ![] bcast_S_S600000 (constantI S_ 32 32#32 : (⟨S_, .i32⟩ : BufTy).Contents (Elt F)))) a21))

/-- Layer 0, `%42`: each edge's row of the node table at its end `a20`. -/
def xS0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a20 : (⟨S600000, .i32⟩ : BufTy).Contents (Elt F)) :
    (⟨S600000x128, .f32⟩ : BufTy).Contents (Elt F) :=
  Host.gather gather_S100000x128_S600000x1_S600000x128_1_0_n_n_0_1_1128 (x0 a0 a1 a2 a3) (broadcastInDim S600000x1 ![0] bcast_S600000_S600000x1_0 (select (cmpi .slt a20 (broadcastInDim S600000 ![] bcast_S_S600000 (constantI S_ 32 0#32 : (⟨S_, .i32⟩ : BufTy).Contents (Elt F)))) (addi a20 (broadcastInDim S600000 ![] bcast_S_S600000 (constantI S_ 32 100000#32 : (⟨S_, .i32⟩ : BufTy).Contents (Elt F)))) a20))

/-- Layer 0, `%55`: the message along each edge from its end `a20`: `((x − rel) · a8ᵀ)` scaled by that end's `invs`. -/
def msgOut0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a8 : (⟨S128x128, .f32⟩ : BufTy).Contents (Elt F)) (a20 : (⟨S600000, .i32⟩ : BufTy).Contents (Elt F)) (a21 : (⟨S600000, .i32⟩ : BufTy).Contents (Elt F)) :
    (⟨S600000x128, .f32⟩ : BufTy).Contents (Elt F) :=
  mulf (Host.dotGeneral dot_S600000x128_S128x128_S600000x128_1_0_0_1_n_n none (subf (xS0 a0 a1 a2 a3 a20) (relE0 a4 a21)) (transpose S128x128 [1, 0] a8 transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (invs a20) (broadcastInDim S600000x1 ![0] bcast_S600000_S600000x1_0 (select (cmpi .slt a20 (broadcastInDim S600000 ![] bcast_S_S600000 (constantI S_ 32 0#32 : (⟨S_, .i32⟩ : BufTy).Contents (Elt F)))) (addi a20 (broadcastInDim S600000 ![] bcast_S_S600000 (constantI S_ 32 100000#32 : (⟨S_, .i32⟩ : BufTy).Contents (Elt F)))) a20)))))

/-- Layer 0, `%61`: those messages summed per node of the end `a22`, scaled by that node's `invt`. -/
def aggOut0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a8 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 a22) (msgOut0 a0 a1 a2 a3 a4 a8 a20 a21)) (broadcastInDim S100000x128 ![0, 1] bcast_S100000x1_S100000x128_0_1 (broadcastInDim S100000x1 ![0] bcast_S100000_S100000x1_0 (invt a22)))

/-- Layer 0, `%68`: each edge's row of the node table at its end `a22`. -/
def xT0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a22 : (⟨S600000, .i32⟩ : BufTy).Contents (Elt F)) :
    (⟨S600000x128, .f32⟩ : BufTy).Contents (Elt F) :=
  Host.gather gather_S100000x128_S600000x1_S600000x128_1_0_n_n_0_1_1128 (x0 a0 a1 a2 a3) (broadcastInDim S600000x1 ![0] bcast_S600000_S600000x1_0 (select (cmpi .slt a22 (broadcastInDim S600000 ![] bcast_S_S600000 (constantI S_ 32 0#32 : (⟨S_, .i32⟩ : BufTy).Contents (Elt F)))) (addi a22 (broadcastInDim S600000 ![] bcast_S_S600000 (constantI S_ 32 100000#32 : (⟨S_, .i32⟩ : BufTy).Contents (Elt F)))) a22))

/-- Layer 0, `%81`: the message along each edge from its end `a22`: `((x − rel) · a7ᵀ)` scaled by that end's `invt`. -/
def msgIn0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a7 : (⟨S128x128, .f32⟩ : BufTy).Contents (Elt F)) (a21 : (⟨S600000, .i32⟩ : BufTy).Contents (Elt F)) (a22 : (⟨S600000, .i32⟩ : BufTy).Contents (Elt F)) :
    (⟨S600000x128, .f32⟩ : BufTy).Contents (Elt F) :=
  mulf (Host.dotGeneral dot_S600000x128_S128x128_S600000x128_1_0_0_1_n_n none (subf (xT0 a0 a1 a2 a3 a22) (relE0 a4 a21)) (transpose S128x128 [1, 0] a7 transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (invt a22) (broadcastInDim S600000x1 ![0] bcast_S600000_S600000x1_0 (select (cmpi .slt a22 (broadcastInDim S600000 ![] bcast_S_S600000 (constantI S_ 32 0#32 : (⟨S_, .i32⟩ : BufTy).Contents (Elt F)))) (addi a22 (broadcastInDim S600000 ![] bcast_S_S600000 (constantI S_ 32 100000#32 : (⟨S_, .i32⟩ : BufTy).Contents (Elt F)))) a22)))))

/-- Layer 0, `%87`: those messages summed per node of the end `a20`, scaled by that node's `invs`. -/
def aggIn0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a7 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 a20) (msgIn0 a0 a1 a2 a3 a4 a7 a21 a22)) (broadcastInDim S100000x128 ![0, 1] bcast_S100000x1_S100000x128_0_1 (broadcastInDim S100000x1 ![0] bcast_S100000_S100000x1_0 (invs a20)))

/-- Layer 0, `%123`: the self-loop product `(x − a5) · a6ᵀ` added to the two aggregates, over 3, plus the bias `a9`, the positive part, then each row normalized (mean and variance over its 128 entries, `a10` the scale and `a11` the shift). -/
def out0 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  addf (mulf (mulf (subf (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (aggOut0 a0 a1 a2 a3 a4 a8 a20 a21 a22) (aggIn0 a0 a1 a2 a3 a4 a7 a20 a21 a22)) (Host.dotGeneral dot_S100000x128_S128x128_S100000x128_1_0_0_1_n_n none (subf (x0 a0 a1 a2 a3) (broadcastInDim S100000x128 ![0, 1] bcast_S1x128_S100000x128_0_1 a5)) (transpose S128x128 [1, 0] a6 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a9))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 a10))) (broadcastInDim S100000x128 ![0, 1] bcast_S1x128_S100000x128_0_1 (broadcastInDim S1x128 ![1] bcast_S128_S1x128_1 a11))

/-- Layer 1, `%153`: each edge's row of the relation table `a12`. -/
def relE1 (a12 : (⟨S32x128, .f32⟩ : BufTy).Contents (Elt F)) (a21 : (⟨S600000, .i32⟩ : BufTy).Contents (Elt F)) :
    (⟨S600000x128, .f32⟩ : BufTy).Contents (Elt F) :=
  Host.gather gather_S32x128_S600000x1_S600000x128_1_0_n_n_0_1_1128 a12 (broadcastInDim S600000x1 ![0] bcast_S600000_S600000x1_0 (select (cmpi .slt a21 (broadcastInDim S600000 ![] bcast_S_S600000 (constantI S_ 32 0#32 : (⟨S_, .i32⟩ : BufTy).Contents (Elt F)))) (addi a21 (broadcastInDim S600000 ![] bcast_S_S600000 (constantI S_ 32 32#32 : (⟨S_, .i32⟩ : BufTy).Contents (Elt F)))) a21))

/-- Layer 1, `%160`: each edge's row of layer 0's result at its end `a20`. -/
def xS1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S600000x128, .f32⟩ : BufTy).Contents (Elt F) :=
  Host.gather gather_S100000x128_S600000x1_S600000x128_1_0_n_n_0_1_1128 (out0 a0 a1 a2 a3 a4 a5 a6 a7 a8 a9 a10 a11 a20 a21 a22) (broadcastInDim S600000x1 ![0] bcast_S600000_S600000x1_0 (select (cmpi .slt a20 (broadcastInDim S600000 ![] bcast_S_S600000 (constantI S_ 32 0#32 : (⟨S_, .i32⟩ : BufTy).Contents (Elt F)))) (addi a20 (broadcastInDim S600000 ![] bcast_S_S600000 (constantI S_ 32 100000#32 : (⟨S_, .i32⟩ : BufTy).Contents (Elt F)))) a20))

/-- Layer 1, `%173`: the message along each edge from its end `a20`, through `a16ᵀ`. -/
def msgOut1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a16 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S600000x128, .f32⟩ : BufTy).Contents (Elt F) :=
  mulf (Host.dotGeneral dot_S600000x128_S128x128_S600000x128_1_0_0_1_n_n none (subf (xS1 a0 a1 a2 a3 a4 a5 a6 a7 a8 a9 a10 a11 a20 a21 a22) (relE1 a12 a21)) (transpose S128x128 [1, 0] a16 transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (invs a20) (broadcastInDim S600000x1 ![0] bcast_S600000_S600000x1_0 (select (cmpi .slt a20 (broadcastInDim S600000 ![] bcast_S_S600000 (constantI S_ 32 0#32 : (⟨S_, .i32⟩ : BufTy).Contents (Elt F)))) (addi a20 (broadcastInDim S600000 ![] bcast_S_S600000 (constantI S_ 32 100000#32 : (⟨S_, .i32⟩ : BufTy).Contents (Elt F)))) a20)))))

/-- Layer 1, `%179`: those messages summed per node of the end `a22`, scaled by `invt`. -/
def aggOut1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a16 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 a22) (msgOut1 a0 a1 a2 a3 a4 a5 a6 a7 a8 a9 a10 a11 a12 a16 a20 a21 a22)) (broadcastInDim S100000x128 ![0, 1] bcast_S100000x1_S100000x128_0_1 (broadcastInDim S100000x1 ![0] bcast_S100000_S100000x1_0 (invt a22)))

/-- Layer 1, `%186`: each edge's row of layer 0's result at its end `a22`. -/
def xT1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S600000x128, .f32⟩ : BufTy).Contents (Elt F) :=
  Host.gather gather_S100000x128_S600000x1_S600000x128_1_0_n_n_0_1_1128 (out0 a0 a1 a2 a3 a4 a5 a6 a7 a8 a9 a10 a11 a20 a21 a22) (broadcastInDim S600000x1 ![0] bcast_S600000_S600000x1_0 (select (cmpi .slt a22 (broadcastInDim S600000 ![] bcast_S_S600000 (constantI S_ 32 0#32 : (⟨S_, .i32⟩ : BufTy).Contents (Elt F)))) (addi a22 (broadcastInDim S600000 ![] bcast_S_S600000 (constantI S_ 32 100000#32 : (⟨S_, .i32⟩ : BufTy).Contents (Elt F)))) a22))

/-- Layer 1, `%199`: the message along each edge from its end `a22`, through `a15ᵀ`. -/
def msgIn1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a15 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S600000x128, .f32⟩ : BufTy).Contents (Elt F) :=
  mulf (Host.dotGeneral dot_S600000x128_S128x128_S600000x128_1_0_0_1_n_n none (subf (xT1 a0 a1 a2 a3 a4 a5 a6 a7 a8 a9 a10 a11 a20 a21 a22) (relE1 a12 a21)) (transpose S128x128 [1, 0] a15 transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (invt a22) (broadcastInDim S600000x1 ![0] bcast_S600000_S600000x1_0 (select (cmpi .slt a22 (broadcastInDim S600000 ![] bcast_S_S600000 (constantI S_ 32 0#32 : (⟨S_, .i32⟩ : BufTy).Contents (Elt F)))) (addi a22 (broadcastInDim S600000 ![] bcast_S_S600000 (constantI S_ 32 100000#32 : (⟨S_, .i32⟩ : BufTy).Contents (Elt F)))) a22)))))

/-- Layer 1, `%205`: those messages summed per node of the end `a20`, scaled by `invs`. -/
def aggIn1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a15 : (⟨S128x128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 a20) (msgIn1 a0 a1 a2 a3 a4 a5 a6 a7 a8 a9 a10 a11 a12 a15 a20 a21 a22)) (broadcastInDim S100000x128 ![0, 1] bcast_S100000x1_S100000x128_0_1 (broadcastInDim S100000x1 ![0] bcast_S100000_S100000x1_0 (invs a20)))

/-- Layer 1, `%240`, the program's result: self-loop product `(x − a13) · a14ᵀ`, the two aggregates, over 3, plus `a17`, no positive part, each row normalized with scale `a18` and shift `a19`. -/
def out1 (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a13 : (⟨S1x128, .f32⟩ : BufTy).Contents (Elt F)) (a14 : (⟨S128x128, .f32⟩ : BufTy).Contents (Elt F)) (a15 : (⟨S128x128, .f32⟩ : BufTy).Contents (Elt F)) (a16 : (⟨S128x128, .f32⟩ : BufTy).Contents (Elt F)) (a17 : (⟨S128, .f32⟩ : BufTy).Contents (Elt F)) (a18 : (⟨S128, .f32⟩ : BufTy).Contents (Elt F)) (a19 : (⟨S128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  addf (mulf (mulf (subf (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (broadcastInDim S100000x128 ![0, 1] bcast_S100000x1_S100000x128_0_1 (Host.divf (broadcastInDim S100000x1 ![0] bcast_S100000_S100000x1_0 (Host.reduceAdd (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (broadcastInDim S100000x128 ![0, 1] bcast_S100000x1_S100000x128_0_1 (Host.divf (broadcastInDim S100000x1 ![0] bcast_S100000_S100000x1_0 (Host.reduceAdd (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (broadcastInDim S100000x128 ![0, 1] bcast_S100000x1_S100000x128_0_1 (Host.divf (broadcastInDim S100000x1 ![0] bcast_S100000_S100000x1_0 (Host.reduceAdd (addf (Host.divf (addf (addf (aggOut1 a0 a1 a2 a3 a4 a5 a6 a7 a8 a9 a10 a11 a12 a16 a20 a21 a22) (aggIn1 a0 a1 a2 a3 a4 a5 a6 a7 a8 a9 a10 a11 a12 a15 a20 a21 a22)) (Host.dotGeneral dot_S100000x128_S128x128_S100000x128_1_0_0_1_n_n none (subf (out0 a0 a1 a2 a3 a4 a5 a6 a7 a8 a9 a10 a11 a20 a21 a22) (broadcastInDim S100000x128 ![0, 1] bcast_S1x128_S100000x128_0_1 a13)) (transpose S128x128 [1, 0] a14 transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 a17))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 a18))) (broadcastInDim S100000x128 ![0, 1] bcast_S1x128_S100000x128_0_1 (broadcastInDim S1x128 ![1] bcast_S128_S1x128_1 a19))

/-- The reference's result as a function of its 23 argument arrays. -/
def result (a0 : (⟨S50000x256, .f32⟩ : BufTy).Contents (Elt F)) (a1 : (⟨S128x256, .f32⟩ : BufTy).Contents (Elt F)) (a2 : (⟨S128, .f32⟩ : BufTy).Contents (Elt F)) (a3 : (⟨S50000x128, .f32⟩ : BufTy).Contents (Elt F)) (a4 : (⟨S32x128, .f32⟩ : BufTy).Contents (Elt F)) (a5 : (⟨S1x128, .f32⟩ : BufTy).Contents (Elt F)) (a6 : (⟨S128x128, .f32⟩ : BufTy).Contents (Elt F)) (a7 : (⟨S128x128, .f32⟩ : BufTy).Contents (Elt F)) (a8 : (⟨S128x128, .f32⟩ : BufTy).Contents (Elt F)) (a9 : (⟨S128, .f32⟩ : BufTy).Contents (Elt F)) (a10 : (⟨S128, .f32⟩ : BufTy).Contents (Elt F)) (a11 : (⟨S128, .f32⟩ : BufTy).Contents (Elt F)) (a12 : (⟨S32x128, .f32⟩ : BufTy).Contents (Elt F)) (a13 : (⟨S1x128, .f32⟩ : BufTy).Contents (Elt F)) (a14 : (⟨S128x128, .f32⟩ : BufTy).Contents (Elt F)) (a15 : (⟨S128x128, .f32⟩ : BufTy).Contents (Elt F)) (a16 : (⟨S128x128, .f32⟩ : BufTy).Contents (Elt F)) (a17 : (⟨S128, .f32⟩ : BufTy).Contents (Elt F)) (a18 : (⟨S128, .f32⟩ : BufTy).Contents (Elt F)) (a19 : (⟨S128, .f32⟩ : BufTy).Contents (Elt F)) (a20 : (⟨S600000, .i32⟩ : BufTy).Contents (Elt F)) (a21 : (⟨S600000, .i32⟩ : BufTy).Contents (Elt F)) (a22 : (⟨S600000, .i32⟩ : BufTy).Contents (Elt F)) :
    (⟨S100000x128, .f32⟩ : BufTy).Contents (Elt F) :=
  out1 a0 a1 a2 a3 a4 a5 a6 a7 a8 a9 a10 a11 a12 a13 a14 a15 a16 a17 a18 a19 a20 a21 a22

end Cert.ReferenceIdeal.RefRun

end
-- ==== Proof.LibHostLine.lean ====
/-
  A straight line of host operations, each writing one buffer of its own: what a buffer holds at the end of the line.

  The buffers' contents after a line is the fold of the operations' results over the contents before it, so a line
  cut in two folds the second part over what the first leaves.  Suppose every operation of the line writes exactly
  one reference, and cut the line at one operation.  A reference that is none of those the part after the cut writes
  is written by none of its operations, so at the end of the line its buffer holds what it held right after the
  operation at the cut.  For the operation's own result this is the operation's function of what its operands'
  buffers held right before it; and when the operands too are written by nothing from the cut on (in particular are
  not the result), what they held right before the cut is what they hold at the end.  So at the END of the line

      result = f (operand₁ at the end) (operand₂ at the end) …

  for a constant, a one-, a two- and a three-operand operation.  A program in which every value has a buffer of its
  own, written once and after its operands, satisfies the conditions at every operation, and its buffers' final
  contents then follow one operation at a time, each from the earlier ones.
-/
import Idealize.ShloMosaic.Lib.StableHlo.Run

noncomputable section

namespace Cert.Lib.HostLine

open Idealize.ShloMosaic Idealize.ShloMosaic.StableHlo

variable {τ : Topo} {sig : RefSig} {Val : EltTy → Type}

variable {τ : Topo} {sig : RefSig} {Val : EltTy → Type}

/-- Operation by operation, the one reference each operation of a line writes. -/
abbrev WritesOne (l : List (HloOp τ sig Val)) (w : List (Ref sig .tc)) : Prop :=
  List.Forall₂ (fun op r => op.writes = {Proc.devRef (τ := τ) .tc r}) l w

/-- Two lines run one after the other: the second folds over what the first leaves. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference that is none of those a line writes is written by none of its operations. -/
theorem not_written {l : List (HloOp τ sig Val)} {w : List (Ref sig .tc)} (h : WritesOne l w) :
    ∀ {r : Ref sig .tc}, r ∉ w → ∀ op ∈ l, Proc.devRef (τ := τ) .tc r ∉ op.writes := by
  induction h with
  | nil => intro r _ op hop; cases hop
  | @cons op' r' l' w' hab _ ih =>
    intro r hr op hop
    rcases List.mem_cons.mp hop with rfl | hop
    · rw [hab, Finset.mem_singleton]
      exact devRef_ne_of_ne fun e => hr (e ▸ List.mem_cons_self)
    · exact ih (fun hm => hr (List.mem_cons_of_mem _ hm)) op hop

/-- A buffer the rest of the line does not write holds at the end what it held after the operation at the cut. -/
theorem after_cut {l pre post : List (HloOp τ sig Val)} {op : HloOp τ sig Val} {wpost : List (Ref sig .tc)}
    (e : l = pre ++ op :: post) (hpost : WritesOne post wpost) (V : Valuation τ sig Val)
    {r : Ref sig .tc} (hr : r ∉ wpost) :
    after l V (Proc.devRef .tc r) = op.result (after pre V) (Proc.devRef .tc r) := by
  subst e
  rw [after_app, after_cons]
  exact after_of_forall_not_mem post _ (not_written hpost hr)

/-- A constant's buffer, not written again, holds the constant at the end. -/
theorem fin_nullary {l pre post : List (HloOp τ sig Val)} {wpost : List (Ref sig .tc)} (V : Valuation τ sig Val)
    (y : Ref sig .tc) (v : y.ty.Contents Val) (hy)
    (e : l = pre ++ nullary y v hy :: post) (hpost : WritesOne post wpost) (hy' : y ∉ wpost) :
    after l V (Proc.devRef .tc y) = v := by
  rw [after_cut e hpost V hy', nullary_result]

/-- A one-operand operation's buffer, not written again, holds at the end the operation's function of what the
    operand's buffer holds at the end, when nothing from the operation on writes the operand. -/
theorem fin_unary {l pre post : List (HloOp τ sig Val)} {wpost : List (Ref sig .tc)} (V : Valuation τ sig Val)
    (x y : Ref sig .tc) (f : x.ty.Contents Val → y.ty.Contents Val) (hx hy)
    (e : l = pre ++ unary x y f hx hy :: post) (hpost : WritesOne post wpost)
    (hy' : y ∉ wpost) (hx' : x ∉ y :: wpost) :
    after l V (Proc.devRef .tc y) = f (after l V (Proc.devRef .tc x)) := by
  have nx : x ≠ y := fun h => hx' (by rw [h]; exact List.mem_cons_self)
  rw [after_cut e hpost V hy', after_cut e hpost V (fun h => hx' (List.mem_cons_of_mem _ h)), unary_result,
    unary_result_ne x y f hx hy _ nx]

/-- The same for two operands. -/
theorem fin_binary {l pre post : List (HloOp τ sig Val)} {wpost : List (Ref sig .tc)} (V : Valuation τ sig Val)
    (a b y : Ref sig .tc) (f : a.ty.Contents Val → b.ty.Contents Val → y.ty.Contents Val) (ha hb hy)
    (e : l = pre ++ binary a b y f ha hb hy :: post) (hpost : WritesOne post wpost)
    (hy' : y ∉ wpost) (ha' : a ∉ y :: wpost) (hb' : b ∉ y :: wpost) :
    after l V (Proc.devRef .tc y) = f (after l V (Proc.devRef .tc a)) (after l V (Proc.devRef .tc b)) := by
  have na : a ≠ y := fun h => ha' (by rw [h]; exact List.mem_cons_self)
  have nb : b ≠ y := fun h => hb' (by rw [h]; exact List.mem_cons_self)
  rw [after_cut e hpost V hy', after_cut e hpost V (fun h => ha' (List.mem_cons_of_mem _ h)),
    after_cut e hpost V (fun h => hb' (List.mem_cons_of_mem _ h)), binary_result,
    binary_result_ne a b y f ha hb hy _ na, binary_result_ne a b y f ha hb hy _ nb]

/-- The same for three operands. -/
theorem fin_ternary {l pre post : List (HloOp τ sig Val)} {wpost : List (Ref sig .tc)} (V : Valuation τ sig Val)
    (c a b y : Ref sig .tc) (f : c.ty.Contents Val → a.ty.Contents Val → b.ty.Contents Val → y.ty.Contents Val) (hc ha hb hy)
    (e : l = pre ++ ternary c a b y f hc ha hb hy :: post) (hpost : WritesOne post wpost)
    (hy' : y ∉ wpost) (hc' : c ∉ y :: wpost) (ha' : a ∉ y :: wpost) (hb' : b ∉ y :: wpost) :
    after l V (Proc.devRef .tc y)
      = f (after l V (Proc.devRef .tc c)) (after l V (Proc.devRef .tc a)) (after l V (Proc.devRef .tc b)) := by
  have nc : c ≠ y := fun h => hc' (by rw [h]; exact List.mem_cons_self)
  have na : a ≠ y := fun h => ha' (by rw [h]; exact List.mem_cons_self)
  have nb : b ≠ y := fun h => hb' (by rw [h]; exact List.mem_cons_self)
  rw [after_cut e hpost V hy', after_cut e hpost V (fun h => hc' (List.mem_cons_of_mem _ h)),
    after_cut e hpost V (fun h => ha' (List.mem_cons_of_mem _ h)),
    after_cut e hpost V (fun h => hb' (List.mem_cons_of_mem _ h)), ternary_result,
    ternary_result_ne a b c y f hc ha hb hy _ nc, ternary_result_ne a b c y f hc ha hb hy _ na,
    ternary_result_ne a b c y f hc ha hb hy _ nb]

end Cert.Lib.HostLine

end
-- ==== Proof.RefRunLine.lean ====
/-
A straight line of host operations cut in three, each operation writing one buffer of its own.  A buffer the
last part does not write holds at the end of the whole line what it holds after the middle part run from what the
first part leaves; a buffer that neither the middle nor the last part writes holds at the end what the first part
leaves.  So a value computed by the middle part from buffers written before it is, at the end of the line, the
middle part's function of what those buffers hold at the end of the line.
-/
import proofs.«138557_j88261577933338_1_alg».proof.Proof.LibHostLine

noncomputable section

namespace Cert.ReferenceIdeal.RefRun

open Idealize.ShloMosaic Idealize.ShloMosaic.StableHlo Cert.Lib.HostLine

variable {τ : Topo} {sig : RefSig} {Val : EltTy → Type}

/-- Two lines whose operations each write one reference, one after the other. -/
theorem writesOne_append {l₁ l₂ : List (HloOp τ sig Val)} {w₁ w₂ : List (Ref sig .tc)}
    (h₁ : WritesOne l₁ w₁) (h₂ : WritesOne l₂ w₂) : WritesOne (l₁ ++ l₂) (w₁ ++ w₂) := by
  induction h₁ with
  | nil => exact h₂
  | cons h _ ih => exact List.Forall₂.cons h ih

/-- Two lines none of whose operations leaves a result undetermined, one after the other. -/
theorem fresh_append {l₁ l₂ : List (HloOp τ sig Val)} (h₁ : ∀ op ∈ l₁, op.fresh = ∅) (h₂ : ∀ op ∈ l₂, op.fresh = ∅) :
    ∀ op ∈ l₁ ++ l₂, op.fresh = ∅ :=
  fun op h => (List.mem_append.mp h).elim (h₁ op) (h₂ op)

/-- The line `pre ++ (s ++ post)`: what a buffer holds at its end, read after `s` when `post` does not write
    it, and after `pre` when neither `s` nor `post` writes it. -/
theorem mid {pre s post : List (HloOp τ sig Val)} {ws wpost : List (Ref sig .tc)}
    (hs : WritesOne s ws) (hpost : WritesOne post wpost) (V : Valuation τ sig Val) :
    (∀ {r : Ref sig .tc}, r ∉ wpost →
        after (pre ++ (s ++ post)) V (Proc.devRef .tc r) = after s (after pre V) (Proc.devRef .tc r))
    ∧ (∀ {r : Ref sig .tc}, r ∉ ws ++ wpost →
        after (pre ++ (s ++ post)) V (Proc.devRef .tc r) = after pre V (Proc.devRef .tc r)) := by
  refine ⟨fun {r} hr => ?_, fun {r} hr => ?_⟩
  · rw [after_app, after_app]
    exact after_of_forall_not_mem post _ (not_written hpost hr)
  · rw [after_app]
    exact after_of_forall_not_mem (s ++ post) _ (not_written (writesOne_append hs hpost) hr)

end Cert.ReferenceIdeal.RefRun

end
-- ==== Proof.RefRunS1.lean ====
/-
The encoder and the two degree vectors: the reference's first 44 operations, cut where the node table and the degree vectors are complete.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 0–5 of the reference, in order. -/
abbrev s01 : List (HloOp τ sig (Elt F)) :=
  [ unary main_arg1 main_v0 ((transpose S256x128 [1, 0] · transposes_S128x256_S256x128_1_0) : (⟨S128x256, .f32⟩ : BufTy).Contents (Elt F) → (⟨S256x128, .f32⟩ : BufTy).Contents (Elt F)),
    binary main_arg0 main_v0 main_v1 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    binary main_v4 main_arg3 main_v5 ((fun a b => concatenate S100000x128 0 [⟨S50000x128, a⟩, ⟨S50000x128, b⟩] concatenates_S50000x128_S50000x128_S100000x128_d0) : (⟨S50000x128, .f32⟩ : BufTy).Contents (Elt F) → (⟨S50000x128, .f32⟩ : BufTy).Contents (Elt F) → (⟨S100000x128, .f32⟩ : BufTy).Contents (Elt F)) ]

/-- The reference each of them writes. -/
abbrev w01 : List (Ref sig .tc) :=
  [main_v0, main_v1, main_v2, main_v3, main_v4, main_v5]

theorem s01_writes : List.Forall₂ (fun op r => op.writes = {Proc.devRef (τ := τ) .tc r}) (s01 (F := F)) w01 :=
  .cons rfl (.cons rfl (.cons rfl (.cons rfl (.cons rfl (.cons rfl (.nil))))))

theorem s01_fresh : ∀ op ∈ (s01 : List (HloOp τ sig (Elt F))), op.fresh = ∅ := by
  intro _ h; (repeat (cases h with | head => rfl | tail _ h => ?_)); exact nomatch h

set_option maxRecDepth 8192 in
theorem s01_v5 (W : Valuation τ sig (Elt F)) :
    after s01 W (Proc.devRef .tc main_v5)
      = concatenate S100000x128 0 [⟨S50000x128, (addf (Host.dotGeneral dot_S50000x256_S256x128_S50000x128_1_0_0_1_n_n none (W (Proc.devRef .tc main_arg0)) (transpose S256x128 [1, 0] (W (Proc.devRef .tc main_arg1)) transposes_S128x256_S256x128_1_0)) (broadcastInDim S50000x128 ![0, 1] bcast_S1x128_S50000x128_0_1 (broadcastInDim S1x128 ![1] bcast_S128_S1x128_1 (W (Proc.devRef .tc main_arg2)))))⟩, ⟨S50000x128, (W (Proc.devRef .tc main_arg3))⟩] concatenates_S50000x128_S50000x128_S100000x128_d0 := by
  after_results_simp <;> rfl

/-- Operations 6–43 of the reference, in order. -/
abbrev s02 : List (HloOp τ sig (Elt F)) :=
  [ nullary main_cst (constant S_ .f32 0x3F800000#32),
    unary main_cst main_v6 (broadcastInDim S600000 ![] bcast_S_S600000 : (⟨S_, .f32⟩ : BufTy).Contents (Elt F) → (⟨S600000, .f32⟩ : BufTy).Contents (Elt F)),
    nullary main_cst_0 (constant S_ .f32 0x00000000#32),
    unary main_cst_0 main_v7 (broadcastInDim S100000 ![] bcast_S_S100000 : (⟨S_, .f32⟩ : BufTy).Contents (Elt F) → (⟨S100000, .f32⟩ : BufTy).Contents (Elt F)),
    unary main_arg22 main_v8 (broadcastInDim S600000x1 ![0] bcast_S600000_S600000x1_0 : (⟨S600000, .i32⟩ : BufTy).Contents (Elt F) → (⟨S600000x1, .i32⟩ : BufTy).Contents (Elt F)),
    ternary main_v7 main_v8 main_v6 main_v9 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_1 (constant S_ .f32 0x00000000#32),
    unary main_cst_1 main_v10 (broadcastInDim S100000 ![] bcast_S_S100000 : (⟨S_, .f32⟩ : BufTy).Contents (Elt F) → (⟨S100000, .f32⟩ : BufTy).Contents (Elt F)),
    unary main_arg20 main_v11 (broadcastInDim S600000x1 ![0] bcast_S600000_S600000x1_0 : (⟨S600000, .i32⟩ : BufTy).Contents (Elt F) → (⟨S600000x1, .i32⟩ : BufTy).Contents (Elt F)),
    ternary main_v10 main_v11 main_v6 main_v12 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_2 (constant S_ .f32 0x00000000#32),
    unary main_cst_2 main_v13 (broadcastInDim S100000 ![] bcast_S_S100000 : (⟨S_, .f32⟩ : BufTy).Contents (Elt F) → (⟨S100000, .f32⟩ : BufTy).Contents (Elt F)),
    binary main_v9 main_v13 main_v14 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x3F800000#32),
    unary main_cst_3 main_v15 (broadcastInDim S100000 ![] bcast_S_S100000 : (⟨S_, .f32⟩ : BufTy).Contents (Elt F) → (⟨S100000, .f32⟩ : BufTy).Contents (Elt F)),
    binary main_v9 main_v15 main_v16 (maximumf : (⟨S100000, .f32⟩ : BufTy).Contents (Elt F) → (⟨S100000, .f32⟩ : BufTy).Contents (Elt F) → (⟨S100000, .f32⟩ : BufTy).Contents (Elt F)),
    unary main_v16 main_v17 (Host.sqrt : (⟨S100000, .f32⟩ : BufTy).Contents (Elt F) → (⟨S100000, .f32⟩ : BufTy).Contents (Elt F)),
    nullary main_cst_4 (constant S_ .f32 0x3F800000#32),
    unary main_cst_4 main_v18 (broadcastInDim S100000 ![] bcast_S_S100000 : (⟨S_, .f32⟩ : BufTy).Contents (Elt F) → (⟨S100000, .f32⟩ : BufTy).Contents (Elt F)),
    binary main_v18 main_v17 main_v19 (Host.divf : (⟨S100000, .f32⟩ : BufTy).Contents (Elt F) → (⟨S100000, .f32⟩ : BufTy).Contents (Elt F) → (⟨S100000, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v19) (TRef.of (T := ⟨S100000, .f32⟩) main_call0_v1) (TRef.of (T := ⟨S100000, .f32⟩) main_v20) select,
    nullary main_cst_6 (constant S_ .f32 0x00000000#32),
    unary main_cst_6 main_v21 (broadcastInDim S100000 ![] bcast_S_S100000 : (⟨S_, .f32⟩ : BufTy).Contents (Elt F) → (⟨S100000, .f32⟩ : BufTy).Contents (Elt F)),
    binary main_v12 main_v21 main_v22 (cmpf .ogt : (⟨S100000, .f32⟩ : BufTy).Contents (Elt F) → (⟨S100000, .f32⟩ : BufTy).Contents (Elt F) → (⟨S100000, .i1⟩ : BufTy).Contents (Elt F)),
    nullary main_cst_7 (constant S_ .f32 0x3F800000#32),
    unary main_cst_7 main_v23 (broadcastInDim S100000 ![] bcast_S_S100000 : (⟨S_, .f32⟩ : BufTy).Contents (Elt F) → (⟨S100000, .f32⟩ : BufTy).Contents (Elt F)),
    binary main_v12 main_v23 main_v24 (maximumf : (⟨S100000, .f32⟩ : BufTy).Contents (Elt F) → (⟨S100000, .f32⟩ : BufTy).Contents (Elt F) → (⟨S100000, .f32⟩ : BufTy).Contents (Elt F)),
    unary main_v24 main_v25 (Host.sqrt : (⟨S100000, .f32⟩ : BufTy).Contents (Elt F) → (⟨S100000, .f32⟩ : BufTy).Contents (Elt F)),
    nullary main_cst_8 (constant S_ .f32 0x3F800000#32),
    unary main_cst_8 main_v26 (broadcastInDim S100000 ![] bcast_S_S100000 : (⟨S_, .f32⟩ : BufTy).Contents (Elt F) → (⟨S100000, .f32⟩ : BufTy).Contents (Elt F)),
    binary main_v26 main_v25 main_v27 (Host.divf : (⟨S100000, .f32⟩ : BufTy).Contents (Elt F) → (⟨S100000, .f32⟩ : BufTy).Contents (Elt F) → (⟨S100000, .f32⟩ : BufTy).Contents (Elt F)),
    nullary main_cst_9 (constant S_ .f32 0x00000000#32),
    TRef.unary (TRef.of (T := ⟨S_, .f32⟩) main_cst_9) (TRef.of (T := ⟨S_, .f32⟩) main_call1_v0) id,
    TRef.unary (TRef.of (T := ⟨S_, .f32⟩) main_call1_v0) (TRef.of (T := ⟨S100000, .f32⟩) main_call1_v1) (broadcastInDim S100000 ![] bcast_S_S100000),
    TRef.ternary (TRef.of (T := ⟨S100000, .i1⟩) main_v22) (TRef.of (T := ⟨S100000, .f32⟩) main_v27) (TRef.of (T := ⟨S100000, .f32⟩) main_call1_v1) (TRef.of (T := ⟨S100000, .f32⟩) main_v28) select ]

/-- The reference each of them writes. -/
abbrev w02 : List (Ref sig .tc) :=
  [main_cst, main_v6, main_cst_0, main_v7, main_v8, main_v9, main_cst_1, main_v10, main_v11, main_v12, main_cst_2, main_v13, main_v14, main_cst_3, main_v15, main_v16, main_v17, main_cst_4, main_v18, main_v19, main_cst_5, main_call0_v0, main_call0_v1, main_v20, main_cst_6, main_v21, main_v22, main_cst_7, main_v23, main_v24, main_v25, main_cst_8, main_v26, main_v27, main_cst_9, main_call1_v0, main_call1_v1, main_v28]

theorem s02_writes : List.Forall₂ (fun op r => op.writes = {Proc.devRef (τ := τ) .tc r}) (s02 (F := F)) w02 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))

theorem s02_fresh : ∀ op ∈ (s02 : List (HloOp τ sig (Elt F))), op.fresh = ∅ := by
  intro _ h; (repeat (cases h with | head => rfl | tail _ h => ?_)); exact nomatch h

set_option maxRecDepth 8192 in
theorem s02_v20 (W : Valuation τ sig (Elt F)) :
    after s02 W (Proc.devRef .tc main_v20)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  after_results_simp <;> rfl

set_option maxRecDepth 8192 in
theorem s02_v28 (W : Valuation τ sig (Elt F)) :
    after s02 W (Proc.devRef .tc main_v28)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  after_results_simp <;> rfl

end Cert.ReferenceIdeal.RefRun

end
-- ==== Proof.RefRunS2.lean ====
/-
Layer 0, the messages from the edges' first ends and their per-node sums.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 44–52 of the reference, in order. -/
abbrev s03 : List (HloOp τ sig (Elt F)) :=
  [ nullary main_c (constantI S_ 32 0#32),
    unary main_c main_v29 (broadcastInDim S600000 ![] bcast_S_S600000 : (⟨S_, .i32⟩ : BufTy).Contents (Elt F) → (⟨S600000, .i32⟩ : BufTy).Contents (Elt F)),
    binary main_arg21 main_v29 main_v30 (cmpi .slt : (⟨S600000, .i32⟩ : BufTy).Contents (Elt F) → (⟨S600000, .i32⟩ : BufTy).Contents (Elt F) → (⟨S600000, .i1⟩ : BufTy).Contents (Elt F)),
    nullary main_c_10 (constantI S_ 32 32#32),
    unary main_c_10 main_v31 (broadcastInDim S600000 ![] bcast_S_S600000 : (⟨S_, .i32⟩ : BufTy).Contents (Elt F) → (⟨S600000, .i32⟩ : BufTy).Contents (Elt F)),
    binary main_arg21 main_v31 main_v32 (addi : (⟨S600000, .i32⟩ : BufTy).Contents (Elt F) → (⟨S600000, .i32⟩ : BufTy).Contents (Elt F) → (⟨S600000, .i32⟩ : BufTy).Contents (Elt F)),
    ternary main_v30 main_v32 main_arg21 main_v33 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v33 main_v34 (broadcastInDim S600000x1 ![0] bcast_S600000_S600000x1_0 : (⟨S600000, .i32⟩ : BufTy).Contents (Elt F) → (⟨S600000x1, .i32⟩ : BufTy).Contents (Elt F)),
    binary main_arg4 main_v34 main_v35 ((fun x i => Host.gather gather_S32x128_S600000x1_S600000x128_1_0_n_n_0_1_1128 x i) : (⟨S32x128, .f32⟩ : BufTy).Contents (Elt F) → (⟨S600000x1, .i32⟩ : BufTy).Contents (Elt F) → (⟨S600000x128, .f32⟩ : BufTy).Contents (Elt F)) ]

/-- The reference each of them writes. -/
abbrev w03 : List (Ref sig .tc) :=
  [main_c, main_v29, main_v30, main_c_10, main_v31, main_v32, main_v33, main_v34, main_v35]

theorem s03_writes : List.Forall₂ (fun op r => op.writes = {Proc.devRef (τ := τ) .tc r}) (s03 (F := F)) w03 :=
  .cons rfl (.cons rfl (.cons rfl (.cons rfl (.cons rfl (.cons rfl (.cons rfl (.cons rfl (.cons rfl (.nil)))))))))

theorem s03_fresh : ∀ op ∈ (s03 : List (HloOp τ sig (Elt F))), op.fresh = ∅ := by
  intro _ h; (repeat (cases h with | head => rfl | tail _ h => ?_)); exact nomatch h

set_option maxRecDepth 8192 in
theorem s03_v35 (W : Valuation τ sig (Elt F)) :
    after s03 W (Proc.devRef .tc main_v35)
      = Host.gather gather_S32x128_S600000x1_S600000x128_1_0_n_n_0_1_1128 (W (Proc.devRef .tc main_arg4)) (broadcastInDim S600000x1 ![0] bcast_S600000_S600000x1_0 (select (cmpi .slt (W (Proc.devRef .tc main_arg21)) (broadcastInDim S600000 ![] bcast_S_S600000 (constantI S_ 32 0#32 : (⟨S_, .i32⟩ : BufTy).Contents (Elt F)))) (addi (W (Proc.devRef .tc main_arg21)) (broadcastInDim S600000 ![] bcast_S_S600000 (constantI S_ 32 32#32 : (⟨S_, .i32⟩ : BufTy).Contents (Elt F)))) (W (Proc.devRef .tc main_arg21)))) := by
  after_results_simp <;> rfl

/-- Operations 53–61 of the reference, in order. -/
abbrev s04 : List (HloOp τ sig (Elt F)) :=
  [ nullary main_c_11 (constantI S_ 32 0#32),
    unary main_c_11 main_v36 (broadcastInDim S600000 ![] bcast_S_S600000 : (⟨S_, .i32⟩ : BufTy).Contents (Elt F) → (⟨S600000, .i32⟩ : BufTy).Contents (Elt F)),
    binary main_arg20 main_v36 main_v37 (cmpi .slt : (⟨S600000, .i32⟩ : BufTy).Contents (Elt F) → (⟨S600000, .i32⟩ : BufTy).Contents (Elt F) → (⟨S600000, .i1⟩ : BufTy).Contents (Elt F)),
    nullary main_c_12 (constantI S_ 32 100000#32),
    unary main_c_12 main_v38 (broadcastInDim S600000 ![] bcast_S_S600000 : (⟨S_, .i32⟩ : BufTy).Contents (Elt F) → (⟨S600000, .i32⟩ : BufTy).Contents (Elt F)),
    binary main_arg20 main_v38 main_v39 (addi : (⟨S600000, .i32⟩ : BufTy).Contents (Elt F) → (⟨S600000, .i32⟩ : BufTy).Contents (Elt F) → (⟨S600000, .i32⟩ : BufTy).Contents (Elt F)),
    ternary main_v37 main_v39 main_arg20 main_v40 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v40 main_v41 (broadcastInDim S600000x1 ![0] bcast_S600000_S600000x1_0 : (⟨S600000, .i32⟩ : BufTy).Contents (Elt F) → (⟨S600000x1, .i32⟩ : BufTy).Contents (Elt F)),
    binary main_v5 main_v41 main_v42 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- The reference each of them writes. -/
abbrev w04 : List (Ref sig .tc) :=
  [main_c_11, main_v36, main_v37, main_c_12, main_v38, main_v39, main_v40, main_v41, main_v42]

theorem s04_writes : List.Forall₂ (fun op r => op.writes = {Proc.devRef (τ := τ) .tc r}) (s04 (F := F)) w04 :=
  .cons rfl (.cons rfl (.cons rfl (.cons rfl (.cons rfl (.cons rfl (.cons rfl (.cons rfl (.cons rfl (.nil)))))))))

theorem s04_fresh : ∀ op ∈ (s04 : List (HloOp τ sig (Elt F))), op.fresh = ∅ := by
  intro _ h; (repeat (cases h with | head => rfl | tail _ h => ?_)); exact nomatch h

set_option maxRecDepth 8192 in
theorem s04_v42 (W : Valuation τ sig (Elt F)) :
    after s04 W (Proc.devRef .tc main_v42)
      = Host.gather gather_S100000x128_S600000x1_S600000x128_1_0_n_n_0_1_1128 (W (Proc.devRef .tc main_v5)) (broadcastInDim S600000x1 ![0] bcast_S600000_S600000x1_0 (select (cmpi .slt (W (Proc.devRef .tc main_arg20)) (broadcastInDim S600000 ![] bcast_S_S600000 (constantI S_ 32 0#32 : (⟨S_, .i32⟩ : BufTy).Contents (Elt F)))) (addi (W (Proc.devRef .tc main_arg20)) (broadcastInDim S600000 ![] bcast_S_S600000 (constantI S_ 32 100000#32 : (⟨S_, .i32⟩ : BufTy).Contents (Elt F)))) (W (Proc.devRef .tc main_arg20)))) := by
  after_results_simp <;> rfl

/-- Operations 62–76 of the reference, in order. -/
abbrev s05 : List (HloOp τ sig (Elt F)) :=
  [ binary main_v42 main_v35 main_v43 (subf : (⟨S600000x128, .f32⟩ : BufTy).Contents (Elt F) → (⟨S600000x128, .f32⟩ : BufTy).Contents (Elt F) → (⟨S600000x128, .f32⟩ : BufTy).Contents (Elt F)),
    unary main_arg8 main_v44 ((transpose S128x128 [1, 0] · transposes_S128x128_S128x128_1_0) : (⟨S128x128, .f32⟩ : BufTy).Contents (Elt F) → (⟨S128x128, .f32⟩ : BufTy).Contents (Elt F)),
    binary main_v43 main_v44 main_v45 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    nullary main_c_13 (constantI S_ 32 0#32),
    unary main_c_13 main_v46 (broadcastInDim S600000 ![] bcast_S_S600000 : (⟨S_, .i32⟩ : BufTy).Contents (Elt F) → (⟨S600000, .i32⟩ : BufTy).Contents (Elt F)),
    binary main_arg20 main_v46 main_v47 (cmpi .slt : (⟨S600000, .i32⟩ : BufTy).Contents (Elt F) → (⟨S600000, .i32⟩ : BufTy).Contents (Elt F) → (⟨S600000, .i1⟩ : BufTy).Contents (Elt F)),
    nullary main_c_14 (constantI S_ 32 100000#32),
    unary main_c_14 main_v48 (broadcastInDim S600000 ![] bcast_S_S600000 : (⟨S_, .i32⟩ : BufTy).Contents (Elt F) → (⟨S600000, .i32⟩ : BufTy).Contents (Elt F)),
    binary main_arg20 main_v48 main_v49 (addi : (⟨S600000, .i32⟩ : BufTy).Contents (Elt F) → (⟨S600000, .i32⟩ : BufTy).Contents (Elt F) → (⟨S600000, .i32⟩ : BufTy).Contents (Elt F)),
    ternary main_v47 main_v49 main_arg20 main_v50 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v50 main_v51 (broadcastInDim S600000x1 ![0] bcast_S600000_S600000x1_0 : (⟨S600000, .i32⟩ : BufTy).Contents (Elt F) → (⟨S600000x1, .i32⟩ : BufTy).Contents (Elt F)),
    binary main_v28 main_v51 main_v52 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    unary main_v52 main_v53 (broadcastInDim S600000x1 ![0] bcast_S600000_S600000x1_0 : (⟨S600000, .f32⟩ : BufTy).Contents (Elt F) → (⟨S600000x1, .f32⟩ : BufTy).Contents (Elt F)),
    unary main_v53 main_v54 (broadcastInDim S600000x128 ![0, 1] bcast_S600000x1_S600000x128_0_1 : (⟨S600000x1, .f32⟩ : BufTy).Contents (Elt F) → (⟨S600000x128, .f32⟩ : BufTy).Contents (Elt F)),
    binary main_v45 main_v54 main_v55 (mulf : (⟨S600000x128, .f32⟩ : BufTy).Contents (Elt F) → (⟨S600000x128, .f32⟩ : BufTy).Contents (Elt F) → (⟨S600000x128, .f32⟩ : BufTy).Contents (Elt F)) ]

/-- The reference each of them writes. -/
abbrev w05 : List (Ref sig .tc) :=
  [main_v43, main_v44, main_v45, main_c_13, main_v46, main_v47, main_c_14, main_v48, main_v49, main_v50, main_v51, main_v52, main_v53, main_v54, main_v55]

theorem s05_writes : List.Forall₂ (fun op r => op.writes = {Proc.devRef (τ := τ) .tc r}) (s05 (F := F)) w05 :=
  .cons rfl (.cons rfl (.cons rfl (.cons rfl (.cons rfl (.cons rfl (.cons rfl (.cons rfl (.cons rfl (.cons rfl (.cons rfl (.cons rfl (.cons rfl (.cons rfl (.cons rfl (.nil)))))))))))))))

theorem s05_fresh : ∀ op ∈ (s05 : List (HloOp τ sig (Elt F))), op.fresh = ∅ := by
  intro _ h; (repeat (cases h with | head => rfl | tail _ h => ?_)); exact nomatch h

set_option maxRecDepth 8192 in
theorem s05_v55 (W : Valuation τ sig (Elt F)) :
    after s05 W (Proc.devRef .tc main_v55)
      = mulf (Host.dotGeneral dot_S600000x128_S128x128_S600000x128_1_0_0_1_n_n none (subf (W (Proc.devRef .tc main_v42)) (W (Proc.devRef .tc main_v35))) (transpose S128x128 [1, 0] (W (Proc.devRef .tc main_arg8)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (W (Proc.devRef .tc main_v28)) (broadcastInDim S600000x1 ![0] bcast_S600000_S600000x1_0 (select (cmpi .slt (W (Proc.devRef .tc main_arg20)) (broadcastInDim S600000 ![] bcast_S_S600000 (constantI S_ 32 0#32 : (⟨S_, .i32⟩ : BufTy).Contents (Elt F)))) (addi (W (Proc.devRef .tc main_arg20)) (broadcastInDim S600000 ![] bcast_S_S600000 (constantI S_ 32 100000#32 : (⟨S_, .i32⟩ : BufTy).Contents (Elt F)))) (W (Proc.devRef .tc main_arg20))))))) := by
  after_results_simp <;> rfl

/-- Operations 77–83 of the reference, in order. -/
abbrev s06 : List (HloOp τ sig (Elt F)) :=
  [ nullary main_cst_15 (constant S_ .f32 0x00000000#32),
    unary main_cst_15 main_v56 (broadcastInDim S100000x128 ![] bcast_S_S100000x128 : (⟨S_, .f32⟩ : BufTy).Contents (Elt F) → (⟨S100000x128, .f32⟩ : BufTy).Contents (Elt F)),
    unary main_arg22 main_v57 (broadcastInDim S600000x1 ![0] bcast_S600000_S600000x1_0 : (⟨S600000, .i32⟩ : BufTy).Contents (Elt F) → (⟨S600000x1, .i32⟩ : BufTy).Contents (Elt F)),
    ternary main_v56 main_v57 main_v55 main_v58 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v20 main_v59 (broadcastInDim S100000x1 ![0] bcast_S100000_S100000x1_0 : (⟨S100000, .f32⟩ : BufTy).Contents (Elt F) → (⟨S100000x1, .f32⟩ : BufTy).Contents (Elt F)),
    unary main_v59 main_v60 (broadcastInDim S100000x128 ![0, 1] bcast_S100000x1_S100000x128_0_1 : (⟨S100000x1, .f32⟩ : BufTy).Contents (Elt F) → (⟨S100000x128, .f32⟩ : BufTy).Contents (Elt F)),
    binary main_v58 main_v60 main_v61 (mulf : (⟨S100000x128, .f32⟩ : BufTy).Contents (Elt F) → (⟨S100000x128, .f32⟩ : BufTy).Contents (Elt F) → (⟨S100000x128, .f32⟩ : BufTy).Contents (Elt F)) ]

/-- The reference each of them writes. -/
abbrev w06 : List (Ref sig .tc) :=
  [main_cst_15, main_v56, main_v57, main_v58, main_v59, main_v60, main_v61]

theorem s06_writes : List.Forall₂ (fun op r => op.writes = {Proc.devRef (τ := τ) .tc r}) (s06 (F := F)) w06 :=
  .cons rfl (.cons rfl (.cons rfl (.cons rfl (.cons rfl (.cons rfl (.cons rfl (.nil)))))))

theorem s06_fresh : ∀ op ∈ (s06 : List (HloOp τ sig (Elt F))), op.fresh = ∅ := by
  intro _ h; (repeat (cases h with | head => rfl | tail _ h => ?_)); exact nomatch h

set_option maxRecDepth 8192 in
theorem s06_v61 (W : Valuation τ sig (Elt F)) :
    after s06 W (Proc.devRef .tc main_v61)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (W (Proc.devRef .tc main_arg22))) (W (Proc.devRef .tc main_v55))) (broadcastInDim S100000x128 ![0, 1] bcast_S100000x1_S100000x128_0_1 (broadcastInDim S100000x1 ![0] bcast_S100000_S100000x1_0 (W (Proc.devRef .tc main_v20)))) := by
  after_results_simp <;> rfl

end Cert.ReferenceIdeal.RefRun

end
-- ==== Proof.RefRunS3.lean ====
/-
Layer 0, the messages from the edges' second ends and their per-node sums.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 84–92 of the reference, in order. -/
abbrev s07 : List (HloOp τ sig (Elt F)) :=
  [ nullary main_c_16 (constantI S_ 32 0#32),
    unary main_c_16 main_v62 (broadcastInDim S600000 ![] bcast_S_S600000 : (⟨S_, .i32⟩ : BufTy).Contents (Elt F) → (⟨S600000, .i32⟩ : BufTy).Contents (Elt F)),
    binary main_arg22 main_v62 main_v63 (cmpi .slt : (⟨S600000, .i32⟩ : BufTy).Contents (Elt F) → (⟨S600000, .i32⟩ : BufTy).Contents (Elt F) → (⟨S600000, .i1⟩ : BufTy).Contents (Elt F)),
    nullary main_c_17 (constantI S_ 32 100000#32),
    unary main_c_17 main_v64 (broadcastInDim S600000 ![] bcast_S_S600000 : (⟨S_, .i32⟩ : BufTy).Contents (Elt F) → (⟨S600000, .i32⟩ : BufTy).Contents (Elt F)),
    binary main_arg22 main_v64 main_v65 (addi : (⟨S600000, .i32⟩ : BufTy).Contents (Elt F) → (⟨S600000, .i32⟩ : BufTy).Contents (Elt F) → (⟨S600000, .i32⟩ : BufTy).Contents (Elt F)),
    ternary main_v63 main_v65 main_arg22 main_v66 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v66 main_v67 (broadcastInDim S600000x1 ![0] bcast_S600000_S600000x1_0 : (⟨S600000, .i32⟩ : BufTy).Contents (Elt F) → (⟨S600000x1, .i32⟩ : BufTy).Contents (Elt F)),
    binary main_v5 main_v67 main_v68 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- The reference each of them writes. -/
abbrev w07 : List (Ref sig .tc) :=
  [main_c_16, main_v62, main_v63, main_c_17, main_v64, main_v65, main_v66, main_v67, main_v68]

theorem s07_writes : List.Forall₂ (fun op r => op.writes = {Proc.devRef (τ := τ) .tc r}) (s07 (F := F)) w07 :=
  .cons rfl (.cons rfl (.cons rfl (.cons rfl (.cons rfl (.cons rfl (.cons rfl (.cons rfl (.cons rfl (.nil)))))))))

theorem s07_fresh : ∀ op ∈ (s07 : List (HloOp τ sig (Elt F))), op.fresh = ∅ := by
  intro _ h; (repeat (cases h with | head => rfl | tail _ h => ?_)); exact nomatch h

set_option maxRecDepth 8192 in
theorem s07_v68 (W : Valuation τ sig (Elt F)) :
    after s07 W (Proc.devRef .tc main_v68)
      = Host.gather gather_S100000x128_S600000x1_S600000x128_1_0_n_n_0_1_1128 (W (Proc.devRef .tc main_v5)) (broadcastInDim S600000x1 ![0] bcast_S600000_S600000x1_0 (select (cmpi .slt (W (Proc.devRef .tc main_arg22)) (broadcastInDim S600000 ![] bcast_S_S600000 (constantI S_ 32 0#32 : (⟨S_, .i32⟩ : BufTy).Contents (Elt F)))) (addi (W (Proc.devRef .tc main_arg22)) (broadcastInDim S600000 ![] bcast_S_S600000 (constantI S_ 32 100000#32 : (⟨S_, .i32⟩ : BufTy).Contents (Elt F)))) (W (Proc.devRef .tc main_arg22)))) := by
  after_results_simp <;> rfl

/-- Operations 93–107 of the reference, in order. -/
abbrev s08 : List (HloOp τ sig (Elt F)) :=
  [ binary main_v68 main_v35 main_v69 (subf : (⟨S600000x128, .f32⟩ : BufTy).Contents (Elt F) → (⟨S600000x128, .f32⟩ : BufTy).Contents (Elt F) → (⟨S600000x128, .f32⟩ : BufTy).Contents (Elt F)),
    unary main_arg7 main_v70 ((transpose S128x128 [1, 0] · transposes_S128x128_S128x128_1_0) : (⟨S128x128, .f32⟩ : BufTy).Contents (Elt F) → (⟨S128x128, .f32⟩ : BufTy).Contents (Elt F)),
    binary main_v69 main_v70 main_v71 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    nullary main_c_18 (constantI S_ 32 0#32),
    unary main_c_18 main_v72 (broadcastInDim S600000 ![] bcast_S_S600000 : (⟨S_, .i32⟩ : BufTy).Contents (Elt F) → (⟨S600000, .i32⟩ : BufTy).Contents (Elt F)),
    binary main_arg22 main_v72 main_v73 (cmpi .slt : (⟨S600000, .i32⟩ : BufTy).Contents (Elt F) → (⟨S600000, .i32⟩ : BufTy).Contents (Elt F) → (⟨S600000, .i1⟩ : BufTy).Contents (Elt F)),
    nullary main_c_19 (constantI S_ 32 100000#32),
    unary main_c_19 main_v74 (broadcastInDim S600000 ![] bcast_S_S600000 : (⟨S_, .i32⟩ : BufTy).Contents (Elt F) → (⟨S600000, .i32⟩ : BufTy).Contents (Elt F)),
    binary main_arg22 main_v74 main_v75 (addi : (⟨S600000, .i32⟩ : BufTy).Contents (Elt F) → (⟨S600000, .i32⟩ : BufTy).Contents (Elt F) → (⟨S600000, .i32⟩ : BufTy).Contents (Elt F)),
    ternary main_v73 main_v75 main_arg22 main_v76 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v76 main_v77 (broadcastInDim S600000x1 ![0] bcast_S600000_S600000x1_0 : (⟨S600000, .i32⟩ : BufTy).Contents (Elt F) → (⟨S600000x1, .i32⟩ : BufTy).Contents (Elt F)),
    binary main_v20 main_v77 main_v78 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    unary main_v78 main_v79 (broadcastInDim S600000x1 ![0] bcast_S600000_S600000x1_0 : (⟨S600000, .f32⟩ : BufTy).Contents (Elt F) → (⟨S600000x1, .f32⟩ : BufTy).Contents (Elt F)),
    unary main_v79 main_v80 (broadcastInDim S600000x128 ![0, 1] bcast_S600000x1_S600000x128_0_1 : (⟨S600000x1, .f32⟩ : BufTy).Contents (Elt F) → (⟨S600000x128, .f32⟩ : BufTy).Contents (Elt F)),
    binary main_v71 main_v80 main_v81 (mulf : (⟨S600000x128, .f32⟩ : BufTy).Contents (Elt F) → (⟨S600000x128, .f32⟩ : BufTy).Contents (Elt F) → (⟨S600000x128, .f32⟩ : BufTy).Contents (Elt F)) ]

/-- The reference each of them writes. -/
abbrev w08 : List (Ref sig .tc) :=
  [main_v69, main_v70, main_v71, main_c_18, main_v72, main_v73, main_c_19, main_v74, main_v75, main_v76, main_v77, main_v78, main_v79, main_v80, main_v81]

theorem s08_writes : List.Forall₂ (fun op r => op.writes = {Proc.devRef (τ := τ) .tc r}) (s08 (F := F)) w08 :=
  .cons rfl (.cons rfl (.cons rfl (.cons rfl (.cons rfl (.cons rfl (.cons rfl (.cons rfl (.cons rfl (.cons rfl (.cons rfl (.cons rfl (.cons rfl (.cons rfl (.cons rfl (.nil)))))))))))))))

theorem s08_fresh : ∀ op ∈ (s08 : List (HloOp τ sig (Elt F))), op.fresh = ∅ := by
  intro _ h; (repeat (cases h with | head => rfl | tail _ h => ?_)); exact nomatch h

set_option maxRecDepth 8192 in
theorem s08_v81 (W : Valuation τ sig (Elt F)) :
    after s08 W (Proc.devRef .tc main_v81)
      = mulf (Host.dotGeneral dot_S600000x128_S128x128_S600000x128_1_0_0_1_n_n none (subf (W (Proc.devRef .tc main_v68)) (W (Proc.devRef .tc main_v35))) (transpose S128x128 [1, 0] (W (Proc.devRef .tc main_arg7)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (W (Proc.devRef .tc main_v20)) (broadcastInDim S600000x1 ![0] bcast_S600000_S600000x1_0 (select (cmpi .slt (W (Proc.devRef .tc main_arg22)) (broadcastInDim S600000 ![] bcast_S_S600000 (constantI S_ 32 0#32 : (⟨S_, .i32⟩ : BufTy).Contents (Elt F)))) (addi (W (Proc.devRef .tc main_arg22)) (broadcastInDim S600000 ![] bcast_S_S600000 (constantI S_ 32 100000#32 : (⟨S_, .i32⟩ : BufTy).Contents (Elt F)))) (W (Proc.devRef .tc main_arg22))))))) := by
  after_results_simp <;> rfl

/-- Operations 108–114 of the reference, in order. -/
abbrev s09 : List (HloOp τ sig (Elt F)) :=
  [ nullary main_cst_20 (constant S_ .f32 0x00000000#32),
    unary main_cst_20 main_v82 (broadcastInDim S100000x128 ![] bcast_S_S100000x128 : (⟨S_, .f32⟩ : BufTy).Contents (Elt F) → (⟨S100000x128, .f32⟩ : BufTy).Contents (Elt F)),
    unary main_arg20 main_v83 (broadcastInDim S600000x1 ![0] bcast_S600000_S600000x1_0 : (⟨S600000, .i32⟩ : BufTy).Contents (Elt F) → (⟨S600000x1, .i32⟩ : BufTy).Contents (Elt F)),
    ternary main_v82 main_v83 main_v81 main_v84 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v28 main_v85 (broadcastInDim S100000x1 ![0] bcast_S100000_S100000x1_0 : (⟨S100000, .f32⟩ : BufTy).Contents (Elt F) → (⟨S100000x1, .f32⟩ : BufTy).Contents (Elt F)),
    unary main_v85 main_v86 (broadcastInDim S100000x128 ![0, 1] bcast_S100000x1_S100000x128_0_1 : (⟨S100000x1, .f32⟩ : BufTy).Contents (Elt F) → (⟨S100000x128, .f32⟩ : BufTy).Contents (Elt F)),
    binary main_v84 main_v86 main_v87 (mulf : (⟨S100000x128, .f32⟩ : BufTy).Contents (Elt F) → (⟨S100000x128, .f32⟩ : BufTy).Contents (Elt F) → (⟨S100000x128, .f32⟩ : BufTy).Contents (Elt F)) ]

/-- The reference each of them writes. -/
abbrev w09 : List (Ref sig .tc) :=
  [main_cst_20, main_v82, main_v83, main_v84, main_v85, main_v86, main_v87]

theorem s09_writes : List.Forall₂ (fun op r => op.writes = {Proc.devRef (τ := τ) .tc r}) (s09 (F := F)) w09 :=
  .cons rfl (.cons rfl (.cons rfl (.cons rfl (.cons rfl (.cons rfl (.cons rfl (.nil)))))))

theorem s09_fresh : ∀ op ∈ (s09 : List (HloOp τ sig (Elt F))), op.fresh = ∅ := by
  intro _ h; (repeat (cases h with | head => rfl | tail _ h => ?_)); exact nomatch h

set_option maxRecDepth 8192 in
theorem s09_v87 (W : Valuation τ sig (Elt F)) :
    after s09 W (Proc.devRef .tc main_v87)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (W (Proc.devRef .tc main_arg20))) (W (Proc.devRef .tc main_v81))) (broadcastInDim S100000x128 ![0, 1] bcast_S100000x1_S100000x128_0_1 (broadcastInDim S100000x1 ![0] bcast_S100000_S100000x1_0 (W (Proc.devRef .tc main_v28)))) := by
  after_results_simp <;> rfl

end Cert.ReferenceIdeal.RefRun

end
-- ==== Proof.RefRunS4.lean ====
/-
Layer 0, the per-node combination, positive part and row normalization.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 115–158 of the reference, in order. -/
abbrev s10 : List (HloOp τ sig (Elt F)) :=
  [ unary main_arg5 main_v88 (broadcastInDim S100000x128 ![0, 1] bcast_S1x128_S100000x128_0_1 : (⟨S1x128, .f32⟩ : BufTy).Contents (Elt F) → (⟨S100000x128, .f32⟩ : BufTy).Contents (Elt F)),
    binary main_v5 main_v88 main_v89 (subf : (⟨S100000x128, .f32⟩ : BufTy).Contents (Elt F) → (⟨S100000x128, .f32⟩ : BufTy).Contents (Elt F) → (⟨S100000x128, .f32⟩ : BufTy).Contents (Elt F)),
    unary main_arg6 main_v90 ((transpose S128x128 [1, 0] · transposes_S128x128_S128x128_1_0) : (⟨S128x128, .f32⟩ : BufTy).Contents (Elt F) → (⟨S128x128, .f32⟩ : BufTy).Contents (Elt F)),
    binary main_v89 main_v90 main_v91 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v61 main_v87 main_v92 (addf : (⟨S100000x128, .f32⟩ : BufTy).Contents (Elt F) → (⟨S100000x128, .f32⟩ : BufTy).Contents (Elt F) → (⟨S100000x128, .f32⟩ : BufTy).Contents (Elt F)),
    binary main_v92 main_v91 main_v93 (addf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x40400000#32),
    unary main_cst_21 main_v94 (broadcastInDim S100000x128 ![] bcast_S_S100000x128 : (⟨S_, .f32⟩ : BufTy).Contents (Elt F) → (⟨S100000x128, .f32⟩ : BufTy).Contents (Elt F)),
    binary main_v93 main_v94 main_v95 (Host.divf : (⟨S100000x128, .f32⟩ : BufTy).Contents (Elt F) → (⟨S100000x128, .f32⟩ : BufTy).Contents (Elt F) → (⟨S100000x128, .f32⟩ : BufTy).Contents (Elt F)),
    unary main_arg9 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v98) (TRef.of (T := ⟨S100000x128, .f32⟩) main_call2_v0) (TRef.of (T := ⟨S100000x128, .f32⟩) main_v99) maximumf,
    nullary main_cst_22 (constant S_ .f32 0x00000000#32),
    binary main_v99 main_cst_22 main_v100 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v100 main_v101 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43000000#32),
    unary main_cst_23 main_v102 (broadcastInDim S100000x1 ![] bcast_S_S100000x1 : (⟨S_, .f32⟩ : BufTy).Contents (Elt F) → (⟨S100000x1, .f32⟩ : BufTy).Contents (Elt F)),
    binary main_v101 main_v102 main_v103 (Host.divf : (⟨S100000x1, .f32⟩ : BufTy).Contents (Elt F) → (⟨S100000x1, .f32⟩ : BufTy).Contents (Elt F) → (⟨S100000x1, .f32⟩ : BufTy).Contents (Elt F)),
    unary main_v103 main_v104 (broadcastInDim S100000x128 ![0, 1] bcast_S100000x1_S100000x128_0_1 : (⟨S100000x1, .f32⟩ : BufTy).Contents (Elt F) → (⟨S100000x128, .f32⟩ : BufTy).Contents (Elt F)),
    binary main_v99 main_v104 main_v105 (subf : (⟨S100000x128, .f32⟩ : BufTy).Contents (Elt F) → (⟨S100000x128, .f32⟩ : BufTy).Contents (Elt F) → (⟨S100000x128, .f32⟩ : BufTy).Contents (Elt F)),
    binary main_v105 main_v105 main_v106 (mulf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x00000000#32),
    binary main_v106 main_cst_24 main_v107 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v107 main_v108 (broadcastInDim S100000x1 ![0] bcast_S100000_S100000x1_0 : (⟨S100000, .f32⟩ : BufTy).Contents (Elt F) → (⟨S100000x1, .f32⟩ : BufTy).Contents (Elt F)),
    nullary main_cst_25 (constant S_ .f32 0x43000000#32),
    unary main_cst_25 main_v109 (broadcastInDim S100000x1 ![] bcast_S_S100000x1 : (⟨S_, .f32⟩ : BufTy).Contents (Elt F) → (⟨S100000x1, .f32⟩ : BufTy).Contents (Elt F)),
    binary main_v108 main_v109 main_v110 (Host.divf : (⟨S100000x1, .f32⟩ : BufTy).Contents (Elt F) → (⟨S100000x1, .f32⟩ : BufTy).Contents (Elt F) → (⟨S100000x1, .f32⟩ : BufTy).Contents (Elt F)),
    unary main_v103 main_v111 (broadcastInDim S100000x128 ![0, 1] bcast_S100000x1_S100000x128_0_1 : (⟨S100000x1, .f32⟩ : BufTy).Contents (Elt F) → (⟨S100000x128, .f32⟩ : BufTy).Contents (Elt F)),
    binary main_v99 main_v111 main_v112 (subf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x3727C5AC#32),
    unary main_cst_26 main_v113 (broadcastInDim S100000x1 ![] bcast_S_S100000x1 : (⟨S_, .f32⟩ : BufTy).Contents (Elt F) → (⟨S100000x1, .f32⟩ : BufTy).Contents (Elt F)),
    binary main_v110 main_v113 main_v114 (addf : (⟨S100000x1, .f32⟩ : BufTy).Contents (Elt F) → (⟨S100000x1, .f32⟩ : BufTy).Contents (Elt F) → (⟨S100000x1, .f32⟩ : BufTy).Contents (Elt F)),
    unary main_v114 main_v115 (Host.rsqrt : (⟨S100000x1, .f32⟩ : BufTy).Contents (Elt F) → (⟨S100000x1, .f32⟩ : BufTy).Contents (Elt F)),
    unary main_v115 main_v116 (broadcastInDim S100000x128 ![0, 1] bcast_S100000x1_S100000x128_0_1 : (⟨S100000x1, .f32⟩ : BufTy).Contents (Elt F) → (⟨S100000x128, .f32⟩ : BufTy).Contents (Elt F)),
    binary main_v112 main_v116 main_v117 (mulf : (⟨S100000x128, .f32⟩ : BufTy).Contents (Elt F) → (⟨S100000x128, .f32⟩ : BufTy).Contents (Elt F) → (⟨S100000x128, .f32⟩ : BufTy).Contents (Elt F)),
    unary main_arg10 main_v118 (broadcastInDim S1x128 ![1] bcast_S128_S1x128_1 : (⟨S128, .f32⟩ : BufTy).Contents (Elt F) → (⟨S1x128, .f32⟩ : BufTy).Contents (Elt F)),
    unary main_v118 main_v119 (broadcastInDim S100000x128 ![0, 1] bcast_S1x128_S100000x128_0_1 : (⟨S1x128, .f32⟩ : BufTy).Contents (Elt F) → (⟨S100000x128, .f32⟩ : BufTy).Contents (Elt F)),
    binary main_v117 main_v119 main_v120 (mulf : (⟨S100000x128, .f32⟩ : BufTy).Contents (Elt F) → (⟨S100000x128, .f32⟩ : BufTy).Contents (Elt F) → (⟨S100000x128, .f32⟩ : BufTy).Contents (Elt F)),
    unary main_arg11 main_v121 (broadcastInDim S1x128 ![1] bcast_S128_S1x128_1 : (⟨S128, .f32⟩ : BufTy).Contents (Elt F) → (⟨S1x128, .f32⟩ : BufTy).Contents (Elt F)),
    unary main_v121 main_v122 (broadcastInDim S100000x128 ![0, 1] bcast_S1x128_S100000x128_0_1 : (⟨S1x128, .f32⟩ : BufTy).Contents (Elt F) → (⟨S100000x128, .f32⟩ : BufTy).Contents (Elt F)),
    binary main_v120 main_v122 main_v123 (addf : (⟨S100000x128, .f32⟩ : BufTy).Contents (Elt F) → (⟨S100000x128, .f32⟩ : BufTy).Contents (Elt F) → (⟨S100000x128, .f32⟩ : BufTy).Contents (Elt F)) ]

/-- The reference each of them writes. -/
abbrev w10 : List (Ref sig .tc) :=
  [main_v88, main_v89, main_v90, main_v91, main_v92, main_v93, main_cst_21, main_v94, main_v95, main_v96, main_v97, main_v98, main_call2_cst, main_call2_v0, main_v99, main_cst_22, main_v100, main_v101, main_cst_23, main_v102, main_v103, main_v104, main_v105, main_v106, main_cst_24, main_v107, main_v108, main_cst_25, main_v109, main_v110, main_v111, main_v112, main_cst_26, main_v113, main_v114, main_v115, main_v116, main_v117, main_v118, main_v119, main_v120, main_v121, main_v122, main_v123]

theorem s10_writes : List.Forall₂ (fun op r => op.writes = {Proc.devRef (τ := τ) .tc r}) (s10 (F := F)) w10 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))

theorem s10_fresh : ∀ op ∈ (s10 : List (HloOp τ sig (Elt F))), op.fresh = ∅ := by
  intro _ h; (repeat (cases h with | head => rfl | tail _ h => ?_)); exact nomatch h

set_option maxRecDepth 8192 in
theorem s10_v123 (W : Valuation τ sig (Elt F)) :
    after s10 W (Proc.devRef .tc main_v123)
      = addf (mulf (mulf (subf (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (W (Proc.devRef .tc main_v61)) (W (Proc.devRef .tc main_v87))) (Host.dotGeneral dot_S100000x128_S128x128_S100000x128_1_0_0_1_n_n none (subf (W (Proc.devRef .tc main_v5)) (broadcastInDim S100000x128 ![0, 1] bcast_S1x128_S100000x128_0_1 (W (Proc.devRef .tc main_arg5)))) (transpose S128x128 [1, 0] (W (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 (W (Proc.devRef .tc main_arg10))))) (broadcastInDim S100000x128 ![0, 1] bcast_S1x128_S100000x128_0_1 (broadcastInDim S1x128 ![1] bcast_S128_S1x128_1 (W (Proc.devRef .tc main_arg11)))) := by
  after_results_simp <;> rfl

end Cert.ReferenceIdeal.RefRun

end
-- ==== Proof.RefRunS5.lean ====
/-
Layer 1, the two degree vectors computed again.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 159–196 of the reference, in order. -/
abbrev s11 : List (HloOp τ sig (Elt F)) :=
  [ nullary main_cst_27 (constant S_ .f32 0x3F800000#32),
    unary main_cst_27 main_v124 (broadcastInDim S600000 ![] bcast_S_S600000 : (⟨S_, .f32⟩ : BufTy).Contents (Elt F) → (⟨S600000, .f32⟩ : BufTy).Contents (Elt F)),
    nullary main_cst_28 (constant S_ .f32 0x00000000#32),
    unary main_cst_28 main_v125 (broadcastInDim S100000 ![] bcast_S_S100000 : (⟨S_, .f32⟩ : BufTy).Contents (Elt F) → (⟨S100000, .f32⟩ : BufTy).Contents (Elt F)),
    unary main_arg22 main_v126 (broadcastInDim S600000x1 ![0] bcast_S600000_S600000x1_0 : (⟨S600000, .i32⟩ : BufTy).Contents (Elt F) → (⟨S600000x1, .i32⟩ : BufTy).Contents (Elt F)),
    ternary main_v125 main_v126 main_v124 main_v127 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_29 (constant S_ .f32 0x00000000#32),
    unary main_cst_29 main_v128 (broadcastInDim S100000 ![] bcast_S_S100000 : (⟨S_, .f32⟩ : BufTy).Contents (Elt F) → (⟨S100000, .f32⟩ : BufTy).Contents (Elt F)),
    unary main_arg20 main_v129 (broadcastInDim S600000x1 ![0] bcast_S600000_S600000x1_0 : (⟨S600000, .i32⟩ : BufTy).Contents (Elt F) → (⟨S600000x1, .i32⟩ : BufTy).Contents (Elt F)),
    ternary main_v128 main_v129 main_v124 main_v130 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    nullary main_cst_30 (constant S_ .f32 0x00000000#32),
    unary main_cst_30 main_v131 (broadcastInDim S100000 ![] bcast_S_S100000 : (⟨S_, .f32⟩ : BufTy).Contents (Elt F) → (⟨S100000, .f32⟩ : BufTy).Contents (Elt F)),
    binary main_v127 main_v131 main_v132 (cmpf .ogt : (⟨S100000, .f32⟩ : BufTy).Contents (Elt F) → (⟨S100000, .f32⟩ : BufTy).Contents (Elt F) → (⟨S100000, .i1⟩ : BufTy).Contents (Elt F)),
    nullary main_cst_31 (constant S_ .f32 0x3F800000#32),
    unary main_cst_31 main_v133 (broadcastInDim S100000 ![] bcast_S_S100000 : (⟨S_, .f32⟩ : BufTy).Contents (Elt F) → (⟨S100000, .f32⟩ : BufTy).Contents (Elt F)),
    binary main_v127 main_v133 main_v134 (maximumf : (⟨S100000, .f32⟩ : BufTy).Contents (Elt F) → (⟨S100000, .f32⟩ : BufTy).Contents (Elt F) → (⟨S100000, .f32⟩ : BufTy).Contents (Elt F)),
    unary main_v134 main_v135 (Host.sqrt : (⟨S100000, .f32⟩ : BufTy).Contents (Elt F) → (⟨S100000, .f32⟩ : BufTy).Contents (Elt F)),
    nullary main_cst_32 (constant S_ .f32 0x3F800000#32),
    unary main_cst_32 main_v136 (broadcastInDim S100000 ![] bcast_S_S100000 : (⟨S_, .f32⟩ : BufTy).Contents (Elt F) → (⟨S100000, .f32⟩ : BufTy).Contents (Elt F)),
    binary main_v136 main_v135 main_v137 (Host.divf : (⟨S100000, .f32⟩ : BufTy).Contents (Elt F) → (⟨S100000, .f32⟩ : BufTy).Contents (Elt F) → (⟨S100000, .f32⟩ : BufTy).Contents (Elt F)),
    nullary main_cst_33 (constant S_ .f32 0x00000000#32),
    TRef.unary (TRef.of (T := ⟨S_, .f32⟩) main_cst_33) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.ternary (TRef.of (T := ⟨S100000, .i1⟩) main_v132) (TRef.of (T := ⟨S100000, .f32⟩) main_v137) (TRef.of (T := ⟨S100000, .f32⟩) main_call3_v1) (TRef.of (T := ⟨S100000, .f32⟩) main_v138) select,
    nullary main_cst_34 (constant S_ .f32 0x00000000#32),
    unary main_cst_34 main_v139 (broadcastInDim S100000 ![] bcast_S_S100000 : (⟨S_, .f32⟩ : BufTy).Contents (Elt F) → (⟨S100000, .f32⟩ : BufTy).Contents (Elt F)),
    binary main_v130 main_v139 main_v140 (cmpf .ogt : (⟨S100000, .f32⟩ : BufTy).Contents (Elt F) → (⟨S100000, .f32⟩ : BufTy).Contents (Elt F) → (⟨S100000, .i1⟩ : BufTy).Contents (Elt F)),
    nullary main_cst_35 (constant S_ .f32 0x3F800000#32),
    unary main_cst_35 main_v141 (broadcastInDim S100000 ![] bcast_S_S100000 : (⟨S_, .f32⟩ : BufTy).Contents (Elt F) → (⟨S100000, .f32⟩ : BufTy).Contents (Elt F)),
    binary main_v130 main_v141 main_v142 (maximumf : (⟨S100000, .f32⟩ : BufTy).Contents (Elt F) → (⟨S100000, .f32⟩ : BufTy).Contents (Elt F) → (⟨S100000, .f32⟩ : BufTy).Contents (Elt F)),
    unary main_v142 main_v143 (Host.sqrt : (⟨S100000, .f32⟩ : BufTy).Contents (Elt F) → (⟨S100000, .f32⟩ : BufTy).Contents (Elt F)),
    nullary main_cst_36 (constant S_ .f32 0x3F800000#32),
    unary main_cst_36 main_v144 (broadcastInDim S100000 ![] bcast_S_S100000 : (⟨S_, .f32⟩ : BufTy).Contents (Elt F) → (⟨S100000, .f32⟩ : BufTy).Contents (Elt F)),
    binary main_v144 main_v143 main_v145 (Host.divf : (⟨S100000, .f32⟩ : BufTy).Contents (Elt F) → (⟨S100000, .f32⟩ : BufTy).Contents (Elt F) → (⟨S100000, .f32⟩ : BufTy).Contents (Elt F)),
    nullary main_cst_37 (constant S_ .f32 0x00000000#32),
    TRef.unary (TRef.of (T := ⟨S_, .f32⟩) main_cst_37) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v140) (TRef.of (T := ⟨S100000, .f32⟩) main_v145) (TRef.of (T := ⟨S100000, .f32⟩) main_call4_v1) (TRef.of (T := ⟨S100000, .f32⟩) main_v146) select ]

/-- The reference each of them writes. -/
abbrev w11 : List (Ref sig .tc) :=
  [main_cst_27, main_v124, main_cst_28, main_v125, main_v126, main_v127, main_cst_29, main_v128, main_v129, main_v130, main_cst_30, main_v131, main_v132, main_cst_31, main_v133, main_v134, main_v135, main_cst_32, main_v136, main_v137, main_cst_33, main_call3_v0, main_call3_v1, main_v138, main_cst_34, main_v139, main_v140, main_cst_35, main_v141, main_v142, main_v143, main_cst_36, main_v144, main_v145, main_cst_37, main_call4_v0, main_call4_v1, main_v146]

theorem s11_writes : List.Forall₂ (fun op r => op.writes = {Proc.devRef (τ := τ) .tc r}) (s11 (F := F)) w11 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))

theorem s11_fresh : ∀ op ∈ (s11 : List (HloOp τ sig (Elt F))), op.fresh = ∅ := by
  intro _ h; (repeat (cases h with | head => rfl | tail _ h => ?_)); exact nomatch h

set_option maxRecDepth 8192 in
theorem s11_v138 (W : Valuation τ sig (Elt F)) :
    after s11 W (Proc.devRef .tc main_v138)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  after_results_simp <;> rfl

set_option maxRecDepth 8192 in
theorem s11_v146 (W : Valuation τ sig (Elt F)) :
    after s11 W (Proc.devRef .tc main_v146)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (W (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  after_results_simp <;> rfl

end Cert.ReferenceIdeal.RefRun

end
-- ==== Proof.RefRunS6.lean ====
/-
Layer 1, the messages from the edges' first ends and their per-node sums.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 197–205 of the reference, in order. -/
abbrev s12 : List (HloOp τ sig (Elt F)) :=
  [ nullary main_c_38 (constantI S_ 32 0#32),
    unary main_c_38 main_v147 (broadcastInDim S600000 ![] bcast_S_S600000 : (⟨S_, .i32⟩ : BufTy).Contents (Elt F) → (⟨S600000, .i32⟩ : BufTy).Contents (Elt F)),
    binary main_arg21 main_v147 main_v148 (cmpi .slt : (⟨S600000, .i32⟩ : BufTy).Contents (Elt F) → (⟨S600000, .i32⟩ : BufTy).Contents (Elt F) → (⟨S600000, .i1⟩ : BufTy).Contents (Elt F)),
    nullary main_c_39 (constantI S_ 32 32#32),
    unary main_c_39 main_v149 (broadcastInDim S600000 ![] bcast_S_S600000 : (⟨S_, .i32⟩ : BufTy).Contents (Elt F) → (⟨S600000, .i32⟩ : BufTy).Contents (Elt F)),
    binary main_arg21 main_v149 main_v150 (addi : (⟨S600000, .i32⟩ : BufTy).Contents (Elt F) → (⟨S600000, .i32⟩ : BufTy).Contents (Elt F) → (⟨S600000, .i32⟩ : BufTy).Contents (Elt F)),
    ternary main_v148 main_v150 main_arg21 main_v151 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v151 main_v152 (broadcastInDim S600000x1 ![0] bcast_S600000_S600000x1_0 : (⟨S600000, .i32⟩ : BufTy).Contents (Elt F) → (⟨S600000x1, .i32⟩ : BufTy).Contents (Elt F)),
    binary main_arg12 main_v152 main_v153 ((fun x i => Host.gather gather_S32x128_S600000x1_S600000x128_1_0_n_n_0_1_1128 x i) : (⟨S32x128, .f32⟩ : BufTy).Contents (Elt F) → (⟨S600000x1, .i32⟩ : BufTy).Contents (Elt F) → (⟨S600000x128, .f32⟩ : BufTy).Contents (Elt F)) ]

/-- The reference each of them writes. -/
abbrev w12 : List (Ref sig .tc) :=
  [main_c_38, main_v147, main_v148, main_c_39, main_v149, main_v150, main_v151, main_v152, main_v153]

theorem s12_writes : List.Forall₂ (fun op r => op.writes = {Proc.devRef (τ := τ) .tc r}) (s12 (F := F)) w12 :=
  .cons rfl (.cons rfl (.cons rfl (.cons rfl (.cons rfl (.cons rfl (.cons rfl (.cons rfl (.cons rfl (.nil)))))))))

theorem s12_fresh : ∀ op ∈ (s12 : List (HloOp τ sig (Elt F))), op.fresh = ∅ := by
  intro _ h; (repeat (cases h with | head => rfl | tail _ h => ?_)); exact nomatch h

set_option maxRecDepth 8192 in
theorem s12_v153 (W : Valuation τ sig (Elt F)) :
    after s12 W (Proc.devRef .tc main_v153)
      = Host.gather gather_S32x128_S600000x1_S600000x128_1_0_n_n_0_1_1128 (W (Proc.devRef .tc main_arg12)) (broadcastInDim S600000x1 ![0] bcast_S600000_S600000x1_0 (select (cmpi .slt (W (Proc.devRef .tc main_arg21)) (broadcastInDim S600000 ![] bcast_S_S600000 (constantI S_ 32 0#32 : (⟨S_, .i32⟩ : BufTy).Contents (Elt F)))) (addi (W (Proc.devRef .tc main_arg21)) (broadcastInDim S600000 ![] bcast_S_S600000 (constantI S_ 32 32#32 : (⟨S_, .i32⟩ : BufTy).Contents (Elt F)))) (W (Proc.devRef .tc main_arg21)))) := by
  after_results_simp <;> rfl

/-- Operations 206–214 of the reference, in order. -/
abbrev s13 : List (HloOp τ sig (Elt F)) :=
  [ nullary main_c_40 (constantI S_ 32 0#32),
    unary main_c_40 main_v154 (broadcastInDim S600000 ![] bcast_S_S600000 : (⟨S_, .i32⟩ : BufTy).Contents (Elt F) → (⟨S600000, .i32⟩ : BufTy).Contents (Elt F)),
    binary main_arg20 main_v154 main_v155 (cmpi .slt : (⟨S600000, .i32⟩ : BufTy).Contents (Elt F) → (⟨S600000, .i32⟩ : BufTy).Contents (Elt F) → (⟨S600000, .i1⟩ : BufTy).Contents (Elt F)),
    nullary main_c_41 (constantI S_ 32 100000#32),
    unary main_c_41 main_v156 (broadcastInDim S600000 ![] bcast_S_S600000 : (⟨S_, .i32⟩ : BufTy).Contents (Elt F) → (⟨S600000, .i32⟩ : BufTy).Contents (Elt F)),
    binary main_arg20 main_v156 main_v157 (addi : (⟨S600000, .i32⟩ : BufTy).Contents (Elt F) → (⟨S600000, .i32⟩ : BufTy).Contents (Elt F) → (⟨S600000, .i32⟩ : BufTy).Contents (Elt F)),
    ternary main_v155 main_v157 main_arg20 main_v158 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v158 main_v159 (broadcastInDim S600000x1 ![0] bcast_S600000_S600000x1_0 : (⟨S600000, .i32⟩ : BufTy).Contents (Elt F) → (⟨S600000x1, .i32⟩ : BufTy).Contents (Elt F)),
    binary main_v123 main_v159 main_v160 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- The reference each of them writes. -/
abbrev w13 : List (Ref sig .tc) :=
  [main_c_40, main_v154, main_v155, main_c_41, main_v156, main_v157, main_v158, main_v159, main_v160]

theorem s13_writes : List.Forall₂ (fun op r => op.writes = {Proc.devRef (τ := τ) .tc r}) (s13 (F := F)) w13 :=
  .cons rfl (.cons rfl (.cons rfl (.cons rfl (.cons rfl (.cons rfl (.cons rfl (.cons rfl (.cons rfl (.nil)))))))))

theorem s13_fresh : ∀ op ∈ (s13 : List (HloOp τ sig (Elt F))), op.fresh = ∅ := by
  intro _ h; (repeat (cases h with | head => rfl | tail _ h => ?_)); exact nomatch h

set_option maxRecDepth 8192 in
theorem s13_v160 (W : Valuation τ sig (Elt F)) :
    after s13 W (Proc.devRef .tc main_v160)
      = Host.gather gather_S100000x128_S600000x1_S600000x128_1_0_n_n_0_1_1128 (W (Proc.devRef .tc main_v123)) (broadcastInDim S600000x1 ![0] bcast_S600000_S600000x1_0 (select (cmpi .slt (W (Proc.devRef .tc main_arg20)) (broadcastInDim S600000 ![] bcast_S_S600000 (constantI S_ 32 0#32 : (⟨S_, .i32⟩ : BufTy).Contents (Elt F)))) (addi (W (Proc.devRef .tc main_arg20)) (broadcastInDim S600000 ![] bcast_S_S600000 (constantI S_ 32 100000#32 : (⟨S_, .i32⟩ : BufTy).Contents (Elt F)))) (W (Proc.devRef .tc main_arg20)))) := by
  after_results_simp <;> rfl

/-- Operations 215–229 of the reference, in order. -/
abbrev s14 : List (HloOp τ sig (Elt F)) :=
  [ binary main_v160 main_v153 main_v161 (subf : (⟨S600000x128, .f32⟩ : BufTy).Contents (Elt F) → (⟨S600000x128, .f32⟩ : BufTy).Contents (Elt F) → (⟨S600000x128, .f32⟩ : BufTy).Contents (Elt F)),
    unary main_arg16 main_v162 ((transpose S128x128 [1, 0] · transposes_S128x128_S128x128_1_0) : (⟨S128x128, .f32⟩ : BufTy).Contents (Elt F) → (⟨S128x128, .f32⟩ : BufTy).Contents (Elt F)),
    binary main_v161 main_v162 main_v163 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    nullary main_c_42 (constantI S_ 32 0#32),
    unary main_c_42 main_v164 (broadcastInDim S600000 ![] bcast_S_S600000 : (⟨S_, .i32⟩ : BufTy).Contents (Elt F) → (⟨S600000, .i32⟩ : BufTy).Contents (Elt F)),
    binary main_arg20 main_v164 main_v165 (cmpi .slt : (⟨S600000, .i32⟩ : BufTy).Contents (Elt F) → (⟨S600000, .i32⟩ : BufTy).Contents (Elt F) → (⟨S600000, .i1⟩ : BufTy).Contents (Elt F)),
    nullary main_c_43 (constantI S_ 32 100000#32),
    unary main_c_43 main_v166 (broadcastInDim S600000 ![] bcast_S_S600000 : (⟨S_, .i32⟩ : BufTy).Contents (Elt F) → (⟨S600000, .i32⟩ : BufTy).Contents (Elt F)),
    binary main_arg20 main_v166 main_v167 (addi : (⟨S600000, .i32⟩ : BufTy).Contents (Elt F) → (⟨S600000, .i32⟩ : BufTy).Contents (Elt F) → (⟨S600000, .i32⟩ : BufTy).Contents (Elt F)),
    ternary main_v165 main_v167 main_arg20 main_v168 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v168 main_v169 (broadcastInDim S600000x1 ![0] bcast_S600000_S600000x1_0 : (⟨S600000, .i32⟩ : BufTy).Contents (Elt F) → (⟨S600000x1, .i32⟩ : BufTy).Contents (Elt F)),
    binary main_v146 main_v169 main_v170 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    unary main_v170 main_v171 (broadcastInDim S600000x1 ![0] bcast_S600000_S600000x1_0 : (⟨S600000, .f32⟩ : BufTy).Contents (Elt F) → (⟨S600000x1, .f32⟩ : BufTy).Contents (Elt F)),
    unary main_v171 main_v172 (broadcastInDim S600000x128 ![0, 1] bcast_S600000x1_S600000x128_0_1 : (⟨S600000x1, .f32⟩ : BufTy).Contents (Elt F) → (⟨S600000x128, .f32⟩ : BufTy).Contents (Elt F)),
    binary main_v163 main_v172 main_v173 (mulf : (⟨S600000x128, .f32⟩ : BufTy).Contents (Elt F) → (⟨S600000x128, .f32⟩ : BufTy).Contents (Elt F) → (⟨S600000x128, .f32⟩ : BufTy).Contents (Elt F)) ]

/-- The reference each of them writes. -/
abbrev w14 : List (Ref sig .tc) :=
  [main_v161, main_v162, main_v163, main_c_42, main_v164, main_v165, main_c_43, main_v166, main_v167, main_v168, main_v169, main_v170, main_v171, main_v172, main_v173]

theorem s14_writes : List.Forall₂ (fun op r => op.writes = {Proc.devRef (τ := τ) .tc r}) (s14 (F := F)) w14 :=
  .cons rfl (.cons rfl (.cons rfl (.cons rfl (.cons rfl (.cons rfl (.cons rfl (.cons rfl (.cons rfl (.cons rfl (.cons rfl (.cons rfl (.cons rfl (.cons rfl (.cons rfl (.nil)))))))))))))))

theorem s14_fresh : ∀ op ∈ (s14 : List (HloOp τ sig (Elt F))), op.fresh = ∅ := by
  intro _ h; (repeat (cases h with | head => rfl | tail _ h => ?_)); exact nomatch h

set_option maxRecDepth 8192 in
theorem s14_v173 (W : Valuation τ sig (Elt F)) :
    after s14 W (Proc.devRef .tc main_v173)
      = mulf (Host.dotGeneral dot_S600000x128_S128x128_S600000x128_1_0_0_1_n_n none (subf (W (Proc.devRef .tc main_v160)) (W (Proc.devRef .tc main_v153))) (transpose S128x128 [1, 0] (W (Proc.devRef .tc main_arg16)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (W (Proc.devRef .tc main_v146)) (broadcastInDim S600000x1 ![0] bcast_S600000_S600000x1_0 (select (cmpi .slt (W (Proc.devRef .tc main_arg20)) (broadcastInDim S600000 ![] bcast_S_S600000 (constantI S_ 32 0#32 : (⟨S_, .i32⟩ : BufTy).Contents (Elt F)))) (addi (W (Proc.devRef .tc main_arg20)) (broadcastInDim S600000 ![] bcast_S_S600000 (constantI S_ 32 100000#32 : (⟨S_, .i32⟩ : BufTy).Contents (Elt F)))) (W (Proc.devRef .tc main_arg20))))))) := by
  after_results_simp <;> rfl

/-- Operations 230–236 of the reference, in order. -/
abbrev s15 : List (HloOp τ sig (Elt F)) :=
  [ nullary main_cst_44 (constant S_ .f32 0x00000000#32),
    unary main_cst_44 main_v174 (broadcastInDim S100000x128 ![] bcast_S_S100000x128 : (⟨S_, .f32⟩ : BufTy).Contents (Elt F) → (⟨S100000x128, .f32⟩ : BufTy).Contents (Elt F)),
    unary main_arg22 main_v175 (broadcastInDim S600000x1 ![0] bcast_S600000_S600000x1_0 : (⟨S600000, .i32⟩ : BufTy).Contents (Elt F) → (⟨S600000x1, .i32⟩ : BufTy).Contents (Elt F)),
    ternary main_v174 main_v175 main_v173 main_v176 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v138 main_v177 (broadcastInDim S100000x1 ![0] bcast_S100000_S100000x1_0 : (⟨S100000, .f32⟩ : BufTy).Contents (Elt F) → (⟨S100000x1, .f32⟩ : BufTy).Contents (Elt F)),
    unary main_v177 main_v178 (broadcastInDim S100000x128 ![0, 1] bcast_S100000x1_S100000x128_0_1 : (⟨S100000x1, .f32⟩ : BufTy).Contents (Elt F) → (⟨S100000x128, .f32⟩ : BufTy).Contents (Elt F)),
    binary main_v176 main_v178 main_v179 (mulf : (⟨S100000x128, .f32⟩ : BufTy).Contents (Elt F) → (⟨S100000x128, .f32⟩ : BufTy).Contents (Elt F) → (⟨S100000x128, .f32⟩ : BufTy).Contents (Elt F)) ]

/-- The reference each of them writes. -/
abbrev w15 : List (Ref sig .tc) :=
  [main_cst_44, main_v174, main_v175, main_v176, main_v177, main_v178, main_v179]

theorem s15_writes : List.Forall₂ (fun op r => op.writes = {Proc.devRef (τ := τ) .tc r}) (s15 (F := F)) w15 :=
  .cons rfl (.cons rfl (.cons rfl (.cons rfl (.cons rfl (.cons rfl (.cons rfl (.nil)))))))

theorem s15_fresh : ∀ op ∈ (s15 : List (HloOp τ sig (Elt F))), op.fresh = ∅ := by
  intro _ h; (repeat (cases h with | head => rfl | tail _ h => ?_)); exact nomatch h

set_option maxRecDepth 8192 in
theorem s15_v179 (W : Valuation τ sig (Elt F)) :
    after s15 W (Proc.devRef .tc main_v179)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (W (Proc.devRef .tc main_arg22))) (W (Proc.devRef .tc main_v173))) (broadcastInDim S100000x128 ![0, 1] bcast_S100000x1_S100000x128_0_1 (broadcastInDim S100000x1 ![0] bcast_S100000_S100000x1_0 (W (Proc.devRef .tc main_v138)))) := by
  after_results_simp <;> rfl

end Cert.ReferenceIdeal.RefRun

end
-- ==== Proof.RefRunS7.lean ====
/-
Layer 1, the messages from the edges' second ends and their per-node sums.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 237–245 of the reference, in order. -/
abbrev s16 : List (HloOp τ sig (Elt F)) :=
  [ nullary main_c_45 (constantI S_ 32 0#32),
    unary main_c_45 main_v180 (broadcastInDim S600000 ![] bcast_S_S600000 : (⟨S_, .i32⟩ : BufTy).Contents (Elt F) → (⟨S600000, .i32⟩ : BufTy).Contents (Elt F)),
    binary main_arg22 main_v180 main_v181 (cmpi .slt : (⟨S600000, .i32⟩ : BufTy).Contents (Elt F) → (⟨S600000, .i32⟩ : BufTy).Contents (Elt F) → (⟨S600000, .i1⟩ : BufTy).Contents (Elt F)),
    nullary main_c_46 (constantI S_ 32 100000#32),
    unary main_c_46 main_v182 (broadcastInDim S600000 ![] bcast_S_S600000 : (⟨S_, .i32⟩ : BufTy).Contents (Elt F) → (⟨S600000, .i32⟩ : BufTy).Contents (Elt F)),
    binary main_arg22 main_v182 main_v183 (addi : (⟨S600000, .i32⟩ : BufTy).Contents (Elt F) → (⟨S600000, .i32⟩ : BufTy).Contents (Elt F) → (⟨S600000, .i32⟩ : BufTy).Contents (Elt F)),
    ternary main_v181 main_v183 main_arg22 main_v184 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v184 main_v185 (broadcastInDim S600000x1 ![0] bcast_S600000_S600000x1_0 : (⟨S600000, .i32⟩ : BufTy).Contents (Elt F) → (⟨S600000x1, .i32⟩ : BufTy).Contents (Elt F)),
    binary main_v123 main_v185 main_v186 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

/-- The reference each of them writes. -/
abbrev w16 : List (Ref sig .tc) :=
  [main_c_45, main_v180, main_v181, main_c_46, main_v182, main_v183, main_v184, main_v185, main_v186]

theorem s16_writes : List.Forall₂ (fun op r => op.writes = {Proc.devRef (τ := τ) .tc r}) (s16 (F := F)) w16 :=
  .cons rfl (.cons rfl (.cons rfl (.cons rfl (.cons rfl (.cons rfl (.cons rfl (.cons rfl (.cons rfl (.nil)))))))))

theorem s16_fresh : ∀ op ∈ (s16 : List (HloOp τ sig (Elt F))), op.fresh = ∅ := by
  intro _ h; (repeat (cases h with | head => rfl | tail _ h => ?_)); exact nomatch h

set_option maxRecDepth 8192 in
theorem s16_v186 (W : Valuation τ sig (Elt F)) :
    after s16 W (Proc.devRef .tc main_v186)
      = Host.gather gather_S100000x128_S600000x1_S600000x128_1_0_n_n_0_1_1128 (W (Proc.devRef .tc main_v123)) (broadcastInDim S600000x1 ![0] bcast_S600000_S600000x1_0 (select (cmpi .slt (W (Proc.devRef .tc main_arg22)) (broadcastInDim S600000 ![] bcast_S_S600000 (constantI S_ 32 0#32 : (⟨S_, .i32⟩ : BufTy).Contents (Elt F)))) (addi (W (Proc.devRef .tc main_arg22)) (broadcastInDim S600000 ![] bcast_S_S600000 (constantI S_ 32 100000#32 : (⟨S_, .i32⟩ : BufTy).Contents (Elt F)))) (W (Proc.devRef .tc main_arg22)))) := by
  after_results_simp <;> rfl

/-- Operations 246–260 of the reference, in order. -/
abbrev s17 : List (HloOp τ sig (Elt F)) :=
  [ binary main_v186 main_v153 main_v187 (subf : (⟨S600000x128, .f32⟩ : BufTy).Contents (Elt F) → (⟨S600000x128, .f32⟩ : BufTy).Contents (Elt F) → (⟨S600000x128, .f32⟩ : BufTy).Contents (Elt F)),
    unary main_arg15 main_v188 ((transpose S128x128 [1, 0] · transposes_S128x128_S128x128_1_0) : (⟨S128x128, .f32⟩ : BufTy).Contents (Elt F) → (⟨S128x128, .f32⟩ : BufTy).Contents (Elt F)),
    binary main_v187 main_v188 main_v189 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    nullary main_c_47 (constantI S_ 32 0#32),
    unary main_c_47 main_v190 (broadcastInDim S600000 ![] bcast_S_S600000 : (⟨S_, .i32⟩ : BufTy).Contents (Elt F) → (⟨S600000, .i32⟩ : BufTy).Contents (Elt F)),
    binary main_arg22 main_v190 main_v191 (cmpi .slt : (⟨S600000, .i32⟩ : BufTy).Contents (Elt F) → (⟨S600000, .i32⟩ : BufTy).Contents (Elt F) → (⟨S600000, .i1⟩ : BufTy).Contents (Elt F)),
    nullary main_c_48 (constantI S_ 32 100000#32),
    unary main_c_48 main_v192 (broadcastInDim S600000 ![] bcast_S_S600000 : (⟨S_, .i32⟩ : BufTy).Contents (Elt F) → (⟨S600000, .i32⟩ : BufTy).Contents (Elt F)),
    binary main_arg22 main_v192 main_v193 (addi : (⟨S600000, .i32⟩ : BufTy).Contents (Elt F) → (⟨S600000, .i32⟩ : BufTy).Contents (Elt F) → (⟨S600000, .i32⟩ : BufTy).Contents (Elt F)),
    ternary main_v191 main_v193 main_arg22 main_v194 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v194 main_v195 (broadcastInDim S600000x1 ![0] bcast_S600000_S600000x1_0 : (⟨S600000, .i32⟩ : BufTy).Contents (Elt F) → (⟨S600000x1, .i32⟩ : BufTy).Contents (Elt F)),
    binary main_v138 main_v195 main_v196 ((fun x i => Host.gather gather_S100000_S600000x1_S600000_n_0_n_n_0_1_1 x i) : (⟨S100000, .f32⟩ : BufTy).Contents (Elt F) → (⟨S600000x1, .i32⟩ : BufTy).Contents (Elt F) → (⟨S600000, .f32⟩ : BufTy).Contents (Elt F)),
    unary main_v196 main_v197 (broadcastInDim S600000x1 ![0] bcast_S600000_S600000x1_0 : (⟨S600000, .f32⟩ : BufTy).Contents (Elt F) → (⟨S600000x1, .f32⟩ : BufTy).Contents (Elt F)),
    unary main_v197 main_v198 (broadcastInDim S600000x128 ![0, 1] bcast_S600000x1_S600000x128_0_1 : (⟨S600000x1, .f32⟩ : BufTy).Contents (Elt F) → (⟨S600000x128, .f32⟩ : BufTy).Contents (Elt F)),
    binary main_v189 main_v198 main_v199 (mulf : (⟨S600000x128, .f32⟩ : BufTy).Contents (Elt F) → (⟨S600000x128, .f32⟩ : BufTy).Contents (Elt F) → (⟨S600000x128, .f32⟩ : BufTy).Contents (Elt F)) ]

/-- The reference each of them writes. -/
abbrev w17 : List (Ref sig .tc) :=
  [main_v187, main_v188, main_v189, main_c_47, main_v190, main_v191, main_c_48, main_v192, main_v193, main_v194, main_v195, main_v196, main_v197, main_v198, main_v199]

theorem s17_writes : List.Forall₂ (fun op r => op.writes = {Proc.devRef (τ := τ) .tc r}) (s17 (F := F)) w17 :=
  .cons rfl (.cons rfl (.cons rfl (.cons rfl (.cons rfl (.cons rfl (.cons rfl (.cons rfl (.cons rfl (.cons rfl (.cons rfl (.cons rfl (.cons rfl (.cons rfl (.cons rfl (.nil)))))))))))))))

theorem s17_fresh : ∀ op ∈ (s17 : List (HloOp τ sig (Elt F))), op.fresh = ∅ := by
  intro _ h; (repeat (cases h with | head => rfl | tail _ h => ?_)); exact nomatch h

set_option maxRecDepth 8192 in
theorem s17_v199 (W : Valuation τ sig (Elt F)) :
    after s17 W (Proc.devRef .tc main_v199)
      = mulf (Host.dotGeneral dot_S600000x128_S128x128_S600000x128_1_0_0_1_n_n none (subf (W (Proc.devRef .tc main_v186)) (W (Proc.devRef .tc main_v153))) (transpose S128x128 [1, 0] (W (Proc.devRef .tc main_arg15)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (W (Proc.devRef .tc main_v138)) (broadcastInDim S600000x1 ![0] bcast_S600000_S600000x1_0 (select (cmpi .slt (W (Proc.devRef .tc main_arg22)) (broadcastInDim S600000 ![] bcast_S_S600000 (constantI S_ 32 0#32 : (⟨S_, .i32⟩ : BufTy).Contents (Elt F)))) (addi (W (Proc.devRef .tc main_arg22)) (broadcastInDim S600000 ![] bcast_S_S600000 (constantI S_ 32 100000#32 : (⟨S_, .i32⟩ : BufTy).Contents (Elt F)))) (W (Proc.devRef .tc main_arg22))))))) := by
  after_results_simp <;> rfl

/-- Operations 261–267 of the reference, in order. -/
abbrev s18 : List (HloOp τ sig (Elt F)) :=
  [ nullary main_cst_49 (constant S_ .f32 0x00000000#32),
    unary main_cst_49 main_v200 (broadcastInDim S100000x128 ![] bcast_S_S100000x128 : (⟨S_, .f32⟩ : BufTy).Contents (Elt F) → (⟨S100000x128, .f32⟩ : BufTy).Contents (Elt F)),
    unary main_arg20 main_v201 (broadcastInDim S600000x1 ![0] bcast_S600000_S600000x1_0 : (⟨S600000, .i32⟩ : BufTy).Contents (Elt F) → (⟨S600000x1, .i32⟩ : BufTy).Contents (Elt F)),
    ternary main_v200 main_v201 main_v199 main_v202 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    unary main_v146 main_v203 (broadcastInDim S100000x1 ![0] bcast_S100000_S100000x1_0 : (⟨S100000, .f32⟩ : BufTy).Contents (Elt F) → (⟨S100000x1, .f32⟩ : BufTy).Contents (Elt F)),
    unary main_v203 main_v204 (broadcastInDim S100000x128 ![0, 1] bcast_S100000x1_S100000x128_0_1 : (⟨S100000x1, .f32⟩ : BufTy).Contents (Elt F) → (⟨S100000x128, .f32⟩ : BufTy).Contents (Elt F)),
    binary main_v202 main_v204 main_v205 (mulf : (⟨S100000x128, .f32⟩ : BufTy).Contents (Elt F) → (⟨S100000x128, .f32⟩ : BufTy).Contents (Elt F) → (⟨S100000x128, .f32⟩ : BufTy).Contents (Elt F)) ]

/-- The reference each of them writes. -/
abbrev w18 : List (Ref sig .tc) :=
  [main_cst_49, main_v200, main_v201, main_v202, main_v203, main_v204, main_v205]

theorem s18_writes : List.Forall₂ (fun op r => op.writes = {Proc.devRef (τ := τ) .tc r}) (s18 (F := F)) w18 :=
  .cons rfl (.cons rfl (.cons rfl (.cons rfl (.cons rfl (.cons rfl (.cons rfl (.nil)))))))

theorem s18_fresh : ∀ op ∈ (s18 : List (HloOp τ sig (Elt F))), op.fresh = ∅ := by
  intro _ h; (repeat (cases h with | head => rfl | tail _ h => ?_)); exact nomatch h

set_option maxRecDepth 8192 in
theorem s18_v205 (W : Valuation τ sig (Elt F)) :
    after s18 W (Proc.devRef .tc main_v205)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (W (Proc.devRef .tc main_arg20))) (W (Proc.devRef .tc main_v199))) (broadcastInDim S100000x128 ![0, 1] bcast_S100000x1_S100000x128_0_1 (broadcastInDim S100000x1 ![0] bcast_S100000_S100000x1_0 (W (Proc.devRef .tc main_v146)))) := by
  after_results_simp <;> rfl

end Cert.ReferenceIdeal.RefRun

end
-- ==== Proof.RefRunS8.lean ====
/-
Layer 1, the per-node combination and row normalization: the program's result.
For each stretch: its operations in order, the one reference each writes, and what its result buffers hold after
it, run from ANY contents `W` of the buffers: the operations' composed term of what `W` holds at the buffers
written before the stretch.
-/
import proofs.«138557_j88261577933338_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 268–308 of the reference, in order. -/
abbrev s19 : List (HloOp τ sig (Elt F)) :=
  [ unary main_arg13 main_v206 (broadcastInDim S100000x128 ![0, 1] bcast_S1x128_S100000x128_0_1 : (⟨S1x128, .f32⟩ : BufTy).Contents (Elt F) → (⟨S100000x128, .f32⟩ : BufTy).Contents (Elt F)),
    binary main_v123 main_v206 main_v207 (subf : (⟨S100000x128, .f32⟩ : BufTy).Contents (Elt F) → (⟨S100000x128, .f32⟩ : BufTy).Contents (Elt F) → (⟨S100000x128, .f32⟩ : BufTy).Contents (Elt F)),
    unary main_arg14 main_v208 ((transpose S128x128 [1, 0] · transposes_S128x128_S128x128_1_0) : (⟨S128x128, .f32⟩ : BufTy).Contents (Elt F) → (⟨S128x128, .f32⟩ : BufTy).Contents (Elt F)),
    binary main_v207 main_v208 main_v209 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v179 main_v205 main_v210 (addf : (⟨S100000x128, .f32⟩ : BufTy).Contents (Elt F) → (⟨S100000x128, .f32⟩ : BufTy).Contents (Elt F) → (⟨S100000x128, .f32⟩ : BufTy).Contents (Elt F)),
    binary main_v210 main_v209 main_v211 (addf : (⟨S100000x128, .f32⟩ : BufTy).Contents (Elt F) → (⟨S100000x128, .f32⟩ : BufTy).Contents (Elt F) → (⟨S100000x128, .f32⟩ : BufTy).Contents (Elt F)),
    nullary main_cst_50 (constant S_ .f32 0x40400000#32),
    unary main_cst_50 main_v212 (broadcastInDim S100000x128 ![] bcast_S_S100000x128 : (⟨S_, .f32⟩ : BufTy).Contents (Elt F) → (⟨S100000x128, .f32⟩ : BufTy).Contents (Elt F)),
    binary main_v211 main_v212 main_v213 (Host.divf : (⟨S100000x128, .f32⟩ : BufTy).Contents (Elt F) → (⟨S100000x128, .f32⟩ : BufTy).Contents (Elt F) → (⟨S100000x128, .f32⟩ : BufTy).Contents (Elt F)),
    unary main_arg17 main_v214 (broadcastInDim S1x128 ![1] bcast_S128_S1x128_1 : (⟨S128, .f32⟩ : BufTy).Contents (Elt F) → (⟨S1x128, .f32⟩ : BufTy).Contents (Elt F)),
    unary main_v214 main_v215 (broadcastInDim S100000x128 ![0, 1] bcast_S1x128_S100000x128_0_1 : (⟨S1x128, .f32⟩ : BufTy).Contents (Elt F) → (⟨S100000x128, .f32⟩ : BufTy).Contents (Elt F)),
    binary main_v213 main_v215 main_v216 (addf : (⟨S100000x128, .f32⟩ : BufTy).Contents (Elt F) → (⟨S100000x128, .f32⟩ : BufTy).Contents (Elt F) → (⟨S100000x128, .f32⟩ : BufTy).Contents (Elt F)),
    nullary main_cst_51 (constant S_ .f32 0x00000000#32),
    binary main_v216 main_cst_51 main_v217 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v217 main_v218 (broadcastInDim S100000x1 ![0] bcast_S100000_S100000x1_0 : (⟨S100000, .f32⟩ : BufTy).Contents (Elt F) → (⟨S100000x1, .f32⟩ : BufTy).Contents (Elt F)),
    nullary main_cst_52 (constant S_ .f32 0x43000000#32),
    unary main_cst_52 main_v219 (broadcastInDim S100000x1 ![] bcast_S_S100000x1 : (⟨S_, .f32⟩ : BufTy).Contents (Elt F) → (⟨S100000x1, .f32⟩ : BufTy).Contents (Elt F)),
    binary main_v218 main_v219 main_v220 (Host.divf : (⟨S100000x1, .f32⟩ : BufTy).Contents (Elt F) → (⟨S100000x1, .f32⟩ : BufTy).Contents (Elt F) → (⟨S100000x1, .f32⟩ : BufTy).Contents (Elt F)),
    unary main_v220 main_v221 (broadcastInDim S100000x128 ![0, 1] bcast_S100000x1_S100000x128_0_1 : (⟨S100000x1, .f32⟩ : BufTy).Contents (Elt F) → (⟨S100000x128, .f32⟩ : BufTy).Contents (Elt F)),
    binary main_v216 main_v221 main_v222 (subf : (⟨S100000x128, .f32⟩ : BufTy).Contents (Elt F) → (⟨S100000x128, .f32⟩ : BufTy).Contents (Elt F) → (⟨S100000x128, .f32⟩ : BufTy).Contents (Elt F)),
    binary main_v222 main_v222 main_v223 (mulf : (⟨S100000x128, .f32⟩ : BufTy).Contents (Elt F) → (⟨S100000x128, .f32⟩ : BufTy).Contents (Elt F) → (⟨S100000x128, .f32⟩ : BufTy).Contents (Elt F)),
    nullary main_cst_53 (constant S_ .f32 0x00000000#32),
    binary main_v223 main_cst_53 main_v224 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v224 main_v225 (broadcastInDim S100000x1 ![0] bcast_S100000_S100000x1_0 : (⟨S100000, .f32⟩ : BufTy).Contents (Elt F) → (⟨S100000x1, .f32⟩ : BufTy).Contents (Elt F)),
    nullary main_cst_54 (constant S_ .f32 0x43000000#32),
    unary main_cst_54 main_v226 (broadcastInDim S100000x1 ![] bcast_S_S100000x1 : (⟨S_, .f32⟩ : BufTy).Contents (Elt F) → (⟨S100000x1, .f32⟩ : BufTy).Contents (Elt F)),
    binary main_v225 main_v226 main_v227 (Host.divf : (⟨S100000x1, .f32⟩ : BufTy).Contents (Elt F) → (⟨S100000x1, .f32⟩ : BufTy).Contents (Elt F) → (⟨S100000x1, .f32⟩ : BufTy).Contents (Elt F)),
    unary main_v220 main_v228 (broadcastInDim S100000x128 ![0, 1] bcast_S100000x1_S100000x128_0_1 : (⟨S100000x1, .f32⟩ : BufTy).Contents (Elt F) → (⟨S100000x128, .f32⟩ : BufTy).Contents (Elt F)),
    binary main_v216 main_v228 main_v229 (subf : (⟨S100000x128, .f32⟩ : BufTy).Contents (Elt F) → (⟨S100000x128, .f32⟩ : BufTy).Contents (Elt F) → (⟨S100000x128, .f32⟩ : BufTy).Contents (Elt F)),
    nullary main_cst_55 (constant S_ .f32 0x3727C5AC#32),
    unary main_cst_55 main_v230 (broadcastInDim S100000x1 ![] bcast_S_S100000x1 : (⟨S_, .f32⟩ : BufTy).Contents (Elt F) → (⟨S100000x1, .f32⟩ : BufTy).Contents (Elt F)),
    binary main_v227 main_v230 main_v231 (addf : (⟨S100000x1, .f32⟩ : BufTy).Contents (Elt F) → (⟨S100000x1, .f32⟩ : BufTy).Contents (Elt F) → (⟨S100000x1, .f32⟩ : BufTy).Contents (Elt F)),
    unary main_v231 main_v232 (Host.rsqrt : (⟨S100000x1, .f32⟩ : BufTy).Contents (Elt F) → (⟨S100000x1, .f32⟩ : BufTy).Contents (Elt F)),
    unary main_v232 main_v233 (broadcastInDim S100000x128 ![0, 1] bcast_S100000x1_S100000x128_0_1 : (⟨S100000x1, .f32⟩ : BufTy).Contents (Elt F) → (⟨S100000x128, .f32⟩ : BufTy).Contents (Elt F)),
    binary main_v229 main_v233 main_v234 (mulf : (⟨S100000x128, .f32⟩ : BufTy).Contents (Elt F) → (⟨S100000x128, .f32⟩ : BufTy).Contents (Elt F) → (⟨S100000x128, .f32⟩ : BufTy).Contents (Elt F)),
    unary main_arg18 main_v235 (broadcastInDim S1x128 ![1] bcast_S128_S1x128_1 : (⟨S128, .f32⟩ : BufTy).Contents (Elt F) → (⟨S1x128, .f32⟩ : BufTy).Contents (Elt F)),
    unary main_v235 main_v236 (broadcastInDim S100000x128 ![0, 1] bcast_S1x128_S100000x128_0_1 : (⟨S1x128, .f32⟩ : BufTy).Contents (Elt F) → (⟨S100000x128, .f32⟩ : BufTy).Contents (Elt F)),
    binary main_v234 main_v236 main_v237 (mulf : (⟨S100000x128, .f32⟩ : BufTy).Contents (Elt F) → (⟨S100000x128, .f32⟩ : BufTy).Contents (Elt F) → (⟨S100000x128, .f32⟩ : BufTy).Contents (Elt F)),
    unary main_arg19 main_v238 (broadcastInDim S1x128 ![1] bcast_S128_S1x128_1 : (⟨S128, .f32⟩ : BufTy).Contents (Elt F) → (⟨S1x128, .f32⟩ : BufTy).Contents (Elt F)),
    unary main_v238 main_v239 (broadcastInDim S100000x128 ![0, 1] bcast_S1x128_S100000x128_0_1 : (⟨S1x128, .f32⟩ : BufTy).Contents (Elt F) → (⟨S100000x128, .f32⟩ : BufTy).Contents (Elt F)),
    binary main_v237 main_v239 main_v240 (addf : (⟨S100000x128, .f32⟩ : BufTy).Contents (Elt F) → (⟨S100000x128, .f32⟩ : BufTy).Contents (Elt F) → (⟨S100000x128, .f32⟩ : BufTy).Contents (Elt F)) ]

/-- The reference each of them writes. -/
abbrev w19 : List (Ref sig .tc) :=
  [main_v206, main_v207, main_v208, main_v209, main_v210, main_v211, main_cst_50, main_v212, main_v213, main_v214, main_v215, main_v216, main_cst_51, main_v217, main_v218, main_cst_52, main_v219, main_v220, main_v221, main_v222, main_v223, main_cst_53, main_v224, main_v225, main_cst_54, main_v226, main_v227, main_v228, main_v229, main_cst_55, main_v230, main_v231, main_v232, main_v233, main_v234, main_v235, main_v236, main_v237, main_v238, main_v239, main_v240]

theorem s19_writes : List.Forall₂ (fun op r => op.writes = {Proc.devRef (τ := τ) .tc r}) (s19 (F := F)) w19 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))

theorem s19_fresh : ∀ op ∈ (s19 : List (HloOp τ sig (Elt F))), op.fresh = ∅ := by
  intro _ h; (repeat (cases h with | head => rfl | tail _ h => ?_)); exact nomatch h

set_option maxRecDepth 8192 in
theorem s19_v240 (W : Valuation τ sig (Elt F)) :
    after s19 W (Proc.devRef .tc main_v240)
      = addf (mulf (mulf (subf (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (W (Proc.devRef .tc main_v179)) (W (Proc.devRef .tc main_v205))) (Host.dotGeneral dot_S100000x128_S128x128_S100000x128_1_0_0_1_n_n none (subf (W (Proc.devRef .tc main_v123)) (broadcastInDim S100000x128 ![0, 1] bcast_S1x128_S100000x128_0_1 (W (Proc.devRef .tc main_arg13)))) (transpose S128x128 [1, 0] (W (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (W (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 (W (Proc.devRef .tc main_arg18))))) (broadcastInDim S100000x128 ![0, 1] bcast_S1x128_S100000x128_0_1 (broadcastInDim S1x128 ![1] bcast_S128_S1x128_1 (W (Proc.devRef .tc main_arg19)))) := by
  after_results_simp <;> rfl

end Cert.ReferenceIdeal.RefRun

end
-- ==== Proof.RefRun.lean ====
/-
The run of the idealized reference program.  The reference is a straight line of 309 host operations, each writing
a buffer of its own; cut into 19 consecutive stretches, the value a stretch computes is, at the END of the whole
line, the stretch's composed term of what the buffers written before it hold at the end of the line (no later
operation writes any of them).  Read in program order this gives each named intermediate — the node table, the
degree vectors, and per layer the gathers, the messages, their sums and the layer's result — as its definition
applied to the argument arrays, and the arguments themselves unchanged.  Every weakly fair execution terminates
with exactly these contents.
-/
import proofs.«138557_j88261577933338_1_alg».proof.Proof.RefRunDefs
import proofs.«138557_j88261577933338_1_alg».proof.Proof.RefRunOps
import proofs.«138557_j88261577933338_1_alg».proof.Proof.RefRunLine
import proofs.«138557_j88261577933338_1_alg».proof.Proof.RefRunS1
import proofs.«138557_j88261577933338_1_alg».proof.Proof.RefRunS2
import proofs.«138557_j88261577933338_1_alg».proof.Proof.RefRunS3
import proofs.«138557_j88261577933338_1_alg».proof.Proof.RefRunS4
import proofs.«138557_j88261577933338_1_alg».proof.Proof.RefRunS5
import proofs.«138557_j88261577933338_1_alg».proof.Proof.RefRunS6
import proofs.«138557_j88261577933338_1_alg».proof.Proof.RefRunS7
import proofs.«138557_j88261577933338_1_alg».proof.Proof.RefRunS8
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Lib.HostLine

variable {F : FTy → Type} [FloatOps F]

/-! ## The line as its stretches: what follows a stretch (`T`), the references that part writes (`WT`), what precedes it (`P`) -/

abbrev T20 : List (HloOp τ sig (Elt F)) := []
abbrev T19 : List (HloOp τ sig (Elt F)) := s19 ++ T20
abbrev T18 : List (HloOp τ sig (Elt F)) := s18 ++ T19
abbrev T17 : List (HloOp τ sig (Elt F)) := s17 ++ T18
abbrev T16 : List (HloOp τ sig (Elt F)) := s16 ++ T17
abbrev T15 : List (HloOp τ sig (Elt F)) := s15 ++ T16
abbrev T14 : List (HloOp τ sig (Elt F)) := s14 ++ T15
abbrev T13 : List (HloOp τ sig (Elt F)) := s13 ++ T14
abbrev T12 : List (HloOp τ sig (Elt F)) := s12 ++ T13
abbrev T11 : List (HloOp τ sig (Elt F)) := s11 ++ T12
abbrev T10 : List (HloOp τ sig (Elt F)) := s10 ++ T11
abbrev T09 : List (HloOp τ sig (Elt F)) := s09 ++ T10
abbrev T08 : List (HloOp τ sig (Elt F)) := s08 ++ T09
abbrev T07 : List (HloOp τ sig (Elt F)) := s07 ++ T08
abbrev T06 : List (HloOp τ sig (Elt F)) := s06 ++ T07
abbrev T05 : List (HloOp τ sig (Elt F)) := s05 ++ T06
abbrev T04 : List (HloOp τ sig (Elt F)) := s04 ++ T05
abbrev T03 : List (HloOp τ sig (Elt F)) := s03 ++ T04
abbrev T02 : List (HloOp τ sig (Elt F)) := s02 ++ T03
abbrev T01 : List (HloOp τ sig (Elt F)) := s01 ++ T02

abbrev WT20 : List (Ref sig .tc) := []
abbrev WT19 : List (Ref sig .tc) := w19 ++ WT20
abbrev WT18 : List (Ref sig .tc) := w18 ++ WT19
abbrev WT17 : List (Ref sig .tc) := w17 ++ WT18
abbrev WT16 : List (Ref sig .tc) := w16 ++ WT17
abbrev WT15 : List (Ref sig .tc) := w15 ++ WT16
abbrev WT14 : List (Ref sig .tc) := w14 ++ WT15
abbrev WT13 : List (Ref sig .tc) := w13 ++ WT14
abbrev WT12 : List (Ref sig .tc) := w12 ++ WT13
abbrev WT11 : List (Ref sig .tc) := w11 ++ WT12
abbrev WT10 : List (Ref sig .tc) := w10 ++ WT11
abbrev WT09 : List (Ref sig .tc) := w09 ++ WT10
abbrev WT08 : List (Ref sig .tc) := w08 ++ WT09
abbrev WT07 : List (Ref sig .tc) := w07 ++ WT08
abbrev WT06 : List (Ref sig .tc) := w06 ++ WT07
abbrev WT05 : List (Ref sig .tc) := w05 ++ WT06
abbrev WT04 : List (Ref sig .tc) := w04 ++ WT05
abbrev WT03 : List (Ref sig .tc) := w03 ++ WT04
abbrev WT02 : List (Ref sig .tc) := w02 ++ WT03
abbrev WT01 : List (Ref sig .tc) := w01 ++ WT02

abbrev P01 : List (HloOp τ sig (Elt F)) := []
abbrev P02 : List (HloOp τ sig (Elt F)) := P01 ++ s01
abbrev P03 : List (HloOp τ sig (Elt F)) := P02 ++ s02
abbrev P04 : List (HloOp τ sig (Elt F)) := P03 ++ s03
abbrev P05 : List (HloOp τ sig (Elt F)) := P04 ++ s04
abbrev P06 : List (HloOp τ sig (Elt F)) := P05 ++ s05
abbrev P07 : List (HloOp τ sig (Elt F)) := P06 ++ s06
abbrev P08 : List (HloOp τ sig (Elt F)) := P07 ++ s07
abbrev P09 : List (HloOp τ sig (Elt F)) := P08 ++ s08
abbrev P10 : List (HloOp τ sig (Elt F)) := P09 ++ s09
abbrev P11 : List (HloOp τ sig (Elt F)) := P10 ++ s10
abbrev P12 : List (HloOp τ sig (Elt F)) := P11 ++ s11
abbrev P13 : List (HloOp τ sig (Elt F)) := P12 ++ s12
abbrev P14 : List (HloOp τ sig (Elt F)) := P13 ++ s13
abbrev P15 : List (HloOp τ sig (Elt F)) := P14 ++ s14
abbrev P16 : List (HloOp τ sig (Elt F)) := P15 ++ s15
abbrev P17 : List (HloOp τ sig (Elt F)) := P16 ++ s16
abbrev P18 : List (HloOp τ sig (Elt F)) := P17 ++ s17
abbrev P19 : List (HloOp τ sig (Elt F)) := P18 ++ s18

theorem hT20 : WritesOne (τ := τ) (T20 (F := F)) WT20 := List.Forall₂.nil
theorem hT19 : WritesOne (τ := τ) (T19 (F := F)) WT19 := writesOne_append s19_writes hT20
theorem hT18 : WritesOne (τ := τ) (T18 (F := F)) WT18 := writesOne_append s18_writes hT19
theorem hT17 : WritesOne (τ := τ) (T17 (F := F)) WT17 := writesOne_append s17_writes hT18
theorem hT16 : WritesOne (τ := τ) (T16 (F := F)) WT16 := writesOne_append s16_writes hT17
theorem hT15 : WritesOne (τ := τ) (T15 (F := F)) WT15 := writesOne_append s15_writes hT16
theorem hT14 : WritesOne (τ := τ) (T14 (F := F)) WT14 := writesOne_append s14_writes hT15
theorem hT13 : WritesOne (τ := τ) (T13 (F := F)) WT13 := writesOne_append s13_writes hT14
theorem hT12 : WritesOne (τ := τ) (T12 (F := F)) WT12 := writesOne_append s12_writes hT13
theorem hT11 : WritesOne (τ := τ) (T11 (F := F)) WT11 := writesOne_append s11_writes hT12
theorem hT10 : WritesOne (τ := τ) (T10 (F := F)) WT10 := writesOne_append s10_writes hT11
theorem hT09 : WritesOne (τ := τ) (T09 (F := F)) WT09 := writesOne_append s09_writes hT10
theorem hT08 : WritesOne (τ := τ) (T08 (F := F)) WT08 := writesOne_append s08_writes hT09
theorem hT07 : WritesOne (τ := τ) (T07 (F := F)) WT07 := writesOne_append s07_writes hT08
theorem hT06 : WritesOne (τ := τ) (T06 (F := F)) WT06 := writesOne_append s06_writes hT07
theorem hT05 : WritesOne (τ := τ) (T05 (F := F)) WT05 := writesOne_append s05_writes hT06
theorem hT04 : WritesOne (τ := τ) (T04 (F := F)) WT04 := writesOne_append s04_writes hT05
theorem hT03 : WritesOne (τ := τ) (T03 (F := F)) WT03 := writesOne_append s03_writes hT04
theorem hT02 : WritesOne (τ := τ) (T02 (F := F)) WT02 := writesOne_append s02_writes hT03
theorem hT01 : WritesOne (τ := τ) (T01 (F := F)) WT01 := writesOne_append s01_writes hT02

set_option maxRecDepth 8192 in
/-- The 309 operations are the 19 stretches in order. -/
theorem ops_eq : (ops : List (HloOp τ sig (Elt F))) = T01 := rfl

theorem e01 : (ops : List (HloOp τ sig (Elt F))) = P01 ++ (s01 ++ T02) := ops_eq
theorem e02 : (ops : List (HloOp τ sig (Elt F))) = P02 ++ (s02 ++ T03) :=
  e01.trans (List.append_assoc P01 s01 T02).symm
theorem e03 : (ops : List (HloOp τ sig (Elt F))) = P03 ++ (s03 ++ T04) :=
  e02.trans (List.append_assoc P02 s02 T03).symm
theorem e04 : (ops : List (HloOp τ sig (Elt F))) = P04 ++ (s04 ++ T05) :=
  e03.trans (List.append_assoc P03 s03 T04).symm
theorem e05 : (ops : List (HloOp τ sig (Elt F))) = P05 ++ (s05 ++ T06) :=
  e04.trans (List.append_assoc P04 s04 T05).symm
theorem e06 : (ops : List (HloOp τ sig (Elt F))) = P06 ++ (s06 ++ T07) :=
  e05.trans (List.append_assoc P05 s05 T06).symm
theorem e07 : (ops : List (HloOp τ sig (Elt F))) = P07 ++ (s07 ++ T08) :=
  e06.trans (List.append_assoc P06 s06 T07).symm
theorem e08 : (ops : List (HloOp τ sig (Elt F))) = P08 ++ (s08 ++ T09) :=
  e07.trans (List.append_assoc P07 s07 T08).symm
theorem e09 : (ops : List (HloOp τ sig (Elt F))) = P09 ++ (s09 ++ T10) :=
  e08.trans (List.append_assoc P08 s08 T09).symm
theorem e10 : (ops : List (HloOp τ sig (Elt F))) = P10 ++ (s10 ++ T11) :=
  e09.trans (List.append_assoc P09 s09 T10).symm
theorem e11 : (ops : List (HloOp τ sig (Elt F))) = P11 ++ (s11 ++ T12) :=
  e10.trans (List.append_assoc P10 s10 T11).symm
theorem e12 : (ops : List (HloOp τ sig (Elt F))) = P12 ++ (s12 ++ T13) :=
  e11.trans (List.append_assoc P11 s11 T12).symm
theorem e13 : (ops : List (HloOp τ sig (Elt F))) = P13 ++ (s13 ++ T14) :=
  e12.trans (List.append_assoc P12 s12 T13).symm
theorem e14 : (ops : List (HloOp τ sig (Elt F))) = P14 ++ (s14 ++ T15) :=
  e13.trans (List.append_assoc P13 s13 T14).symm
theorem e15 : (ops : List (HloOp τ sig (Elt F))) = P15 ++ (s15 ++ T16) :=
  e14.trans (List.append_assoc P14 s14 T15).symm
theorem e16 : (ops : List (HloOp τ sig (Elt F))) = P16 ++ (s16 ++ T17) :=
  e15.trans (List.append_assoc P15 s15 T16).symm
theorem e17 : (ops : List (HloOp τ sig (Elt F))) = P17 ++ (s17 ++ T18) :=
  e16.trans (List.append_assoc P16 s16 T17).symm
theorem e18 : (ops : List (HloOp τ sig (Elt F))) = P18 ++ (s18 ++ T19) :=
  e17.trans (List.append_assoc P17 s17 T18).symm
theorem e19 : (ops : List (HloOp τ sig (Elt F))) = P19 ++ (s19 ++ T20) :=
  e18.trans (List.append_assoc P18 s18 T19).symm

theorem hOps : WritesOne (τ := τ) (ops (F := F)) WT01 := by rw [ops_eq]; exact hT01

/-- No operation leaves a result undetermined. -/
theorem ops_fresh : ∀ op ∈ (ops : List (HloOp τ sig (Elt F))), op.fresh = ∅ := by
  rw [ops_eq]
  exact fresh_append s01_fresh (fresh_append s02_fresh (fresh_append s03_fresh (fresh_append s04_fresh (fresh_append s05_fresh (fresh_append s06_fresh (fresh_append s07_fresh (fresh_append s08_fresh (fresh_append s09_fresh (fresh_append s10_fresh (fresh_append s11_fresh (fresh_append s12_fresh (fresh_append s13_fresh (fresh_append s14_fresh (fresh_append s15_fresh (fresh_append s16_fresh (fresh_append s17_fresh (fresh_append s18_fresh (fresh_append s19_fresh (fun _ h => nomatch h)))))))))))))))))))

/-- A reference no operation writes (an argument's) holds at the end what it held at the start. -/
theorem kept (V : Valuation τ sig (Elt F)) {r : Ref sig .tc} (hr : r ∉ WT01) :
    after ops V (Proc.devRef .tc r) = V (Proc.devRef .tc r) :=
  after_of_forall_not_mem ops V (not_written hOps hr)

/-! ## At the end of the line: each stretch's result as its term of the earlier buffers' final contents -/

set_option maxRecDepth 8192 in
theorem E_v5 (V : Valuation τ sig (Elt F)) :
    after ops V (Proc.devRef .tc main_v5)
      = concatenate S100000x128 0 [⟨S50000x128, (addf (Host.dotGeneral dot_S50000x256_S256x128_S50000x128_1_0_0_1_n_n none (after ops V (Proc.devRef .tc main_arg0)) (transpose S256x128 [1, 0] (after ops V (Proc.devRef .tc main_arg1)) transposes_S128x256_S256x128_1_0)) (broadcastInDim S50000x128 ![0, 1] bcast_S1x128_S50000x128_0_1 (broadcastInDim S1x128 ![1] bcast_S128_S1x128_1 (after ops V (Proc.devRef .tc main_arg2)))))⟩, ⟨S50000x128, (after ops V (Proc.devRef .tc main_arg3))⟩] concatenates_S50000x128_S50000x128_S100000x128_d0 := by
  obtain ⟨ho, hk⟩ := mid (pre := P01 (F := F)) s01_writes hT02 V
  rw [e01, ho (r := main_v5) (by decide), hk (r := main_arg0) (by decide), hk (r := main_arg1) (by decide), hk (r := main_arg2) (by decide), hk (r := main_arg3) (by decide)]
  exact s01_v5 (after P01 V)

set_option maxRecDepth 8192 in
theorem E_v20 (V : Valuation τ sig (Elt F)) :
    after ops V (Proc.devRef .tc main_v20)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  obtain ⟨ho, hk⟩ := mid (pre := P02 (F := F)) s02_writes hT03 V
  rw [e02, ho (r := main_v20) (by decide), hk (r := main_arg22) (by decide)]
  exact s02_v20 (after P02 V)

set_option maxRecDepth 8192 in
theorem E_v28 (V : Valuation τ sig (Elt F)) :
    after ops V (Proc.devRef .tc main_v28)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  obtain ⟨ho, hk⟩ := mid (pre := P02 (F := F)) s02_writes hT03 V
  rw [e02, ho (r := main_v28) (by decide), hk (r := main_arg20) (by decide)]
  exact s02_v28 (after P02 V)

set_option maxRecDepth 8192 in
theorem E_v35 (V : Valuation τ sig (Elt F)) :
    after ops V (Proc.devRef .tc main_v35)
      = Host.gather gather_S32x128_S600000x1_S600000x128_1_0_n_n_0_1_1128 (after ops V (Proc.devRef .tc main_arg4)) (broadcastInDim S600000x1 ![0] bcast_S600000_S600000x1_0 (select (cmpi .slt (after ops V (Proc.devRef .tc main_arg21)) (broadcastInDim S600000 ![] bcast_S_S600000 (constantI S_ 32 0#32 : (⟨S_, .i32⟩ : BufTy).Contents (Elt F)))) (addi (after ops V (Proc.devRef .tc main_arg21)) (broadcastInDim S600000 ![] bcast_S_S600000 (constantI S_ 32 32#32 : (⟨S_, .i32⟩ : BufTy).Contents (Elt F)))) (after ops V (Proc.devRef .tc main_arg21)))) := by
  obtain ⟨ho, hk⟩ := mid (pre := P03 (F := F)) s03_writes hT04 V
  rw [e03, ho (r := main_v35) (by decide), hk (r := main_arg4) (by decide), hk (r := main_arg21) (by decide)]
  exact s03_v35 (after P03 V)

set_option maxRecDepth 8192 in
theorem E_v42 (V : Valuation τ sig (Elt F)) :
    after ops V (Proc.devRef .tc main_v42)
      = Host.gather gather_S100000x128_S600000x1_S600000x128_1_0_n_n_0_1_1128 (after ops V (Proc.devRef .tc main_v5)) (broadcastInDim S600000x1 ![0] bcast_S600000_S600000x1_0 (select (cmpi .slt (after ops V (Proc.devRef .tc main_arg20)) (broadcastInDim S600000 ![] bcast_S_S600000 (constantI S_ 32 0#32 : (⟨S_, .i32⟩ : BufTy).Contents (Elt F)))) (addi (after ops V (Proc.devRef .tc main_arg20)) (broadcastInDim S600000 ![] bcast_S_S600000 (constantI S_ 32 100000#32 : (⟨S_, .i32⟩ : BufTy).Contents (Elt F)))) (after ops V (Proc.devRef .tc main_arg20)))) := by
  obtain ⟨ho, hk⟩ := mid (pre := P04 (F := F)) s04_writes hT05 V
  rw [e04, ho (r := main_v42) (by decide), hk (r := main_v5) (by decide), hk (r := main_arg20) (by decide)]
  exact s04_v42 (after P04 V)

set_option maxRecDepth 8192 in
theorem E_v55 (V : Valuation τ sig (Elt F)) :
    after ops V (Proc.devRef .tc main_v55)
      = mulf (Host.dotGeneral dot_S600000x128_S128x128_S600000x128_1_0_0_1_n_n none (subf (after ops V (Proc.devRef .tc main_v42)) (after ops V (Proc.devRef .tc main_v35))) (transpose S128x128 [1, 0] (after ops V (Proc.devRef .tc main_arg8)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (after ops V (Proc.devRef .tc main_v28)) (broadcastInDim S600000x1 ![0] bcast_S600000_S600000x1_0 (select (cmpi .slt (after ops V (Proc.devRef .tc main_arg20)) (broadcastInDim S600000 ![] bcast_S_S600000 (constantI S_ 32 0#32 : (⟨S_, .i32⟩ : BufTy).Contents (Elt F)))) (addi (after ops V (Proc.devRef .tc main_arg20)) (broadcastInDim S600000 ![] bcast_S_S600000 (constantI S_ 32 100000#32 : (⟨S_, .i32⟩ : BufTy).Contents (Elt F)))) (after ops V (Proc.devRef .tc main_arg20))))))) := by
  obtain ⟨ho, hk⟩ := mid (pre := P05 (F := F)) s05_writes hT06 V
  rw [e05, ho (r := main_v55) (by decide), hk (r := main_v42) (by decide), hk (r := main_v35) (by decide), hk (r := main_arg8) (by decide), hk (r := main_v28) (by decide), hk (r := main_arg20) (by decide)]
  exact s05_v55 (after P05 V)

set_option maxRecDepth 8192 in
theorem E_v61 (V : Valuation τ sig (Elt F)) :
    after ops V (Proc.devRef .tc main_v61)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (after ops V (Proc.devRef .tc main_arg22))) (after ops V (Proc.devRef .tc main_v55))) (broadcastInDim S100000x128 ![0, 1] bcast_S100000x1_S100000x128_0_1 (broadcastInDim S100000x1 ![0] bcast_S100000_S100000x1_0 (after ops V (Proc.devRef .tc main_v20)))) := by
  obtain ⟨ho, hk⟩ := mid (pre := P06 (F := F)) s06_writes hT07 V
  rw [e06, ho (r := main_v61) (by decide), hk (r := main_arg22) (by decide), hk (r := main_v55) (by decide), hk (r := main_v20) (by decide)]
  exact s06_v61 (after P06 V)

set_option maxRecDepth 8192 in
theorem E_v68 (V : Valuation τ sig (Elt F)) :
    after ops V (Proc.devRef .tc main_v68)
      = Host.gather gather_S100000x128_S600000x1_S600000x128_1_0_n_n_0_1_1128 (after ops V (Proc.devRef .tc main_v5)) (broadcastInDim S600000x1 ![0] bcast_S600000_S600000x1_0 (select (cmpi .slt (after ops V (Proc.devRef .tc main_arg22)) (broadcastInDim S600000 ![] bcast_S_S600000 (constantI S_ 32 0#32 : (⟨S_, .i32⟩ : BufTy).Contents (Elt F)))) (addi (after ops V (Proc.devRef .tc main_arg22)) (broadcastInDim S600000 ![] bcast_S_S600000 (constantI S_ 32 100000#32 : (⟨S_, .i32⟩ : BufTy).Contents (Elt F)))) (after ops V (Proc.devRef .tc main_arg22)))) := by
  obtain ⟨ho, hk⟩ := mid (pre := P07 (F := F)) s07_writes hT08 V
  rw [e07, ho (r := main_v68) (by decide), hk (r := main_v5) (by decide), hk (r := main_arg22) (by decide)]
  exact s07_v68 (after P07 V)

set_option maxRecDepth 8192 in
theorem E_v81 (V : Valuation τ sig (Elt F)) :
    after ops V (Proc.devRef .tc main_v81)
      = mulf (Host.dotGeneral dot_S600000x128_S128x128_S600000x128_1_0_0_1_n_n none (subf (after ops V (Proc.devRef .tc main_v68)) (after ops V (Proc.devRef .tc main_v35))) (transpose S128x128 [1, 0] (after ops V (Proc.devRef .tc main_arg7)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (after ops V (Proc.devRef .tc main_v20)) (broadcastInDim S600000x1 ![0] bcast_S600000_S600000x1_0 (select (cmpi .slt (after ops V (Proc.devRef .tc main_arg22)) (broadcastInDim S600000 ![] bcast_S_S600000 (constantI S_ 32 0#32 : (⟨S_, .i32⟩ : BufTy).Contents (Elt F)))) (addi (after ops V (Proc.devRef .tc main_arg22)) (broadcastInDim S600000 ![] bcast_S_S600000 (constantI S_ 32 100000#32 : (⟨S_, .i32⟩ : BufTy).Contents (Elt F)))) (after ops V (Proc.devRef .tc main_arg22))))))) := by
  obtain ⟨ho, hk⟩ := mid (pre := P08 (F := F)) s08_writes hT09 V
  rw [e08, ho (r := main_v81) (by decide), hk (r := main_v68) (by decide), hk (r := main_v35) (by decide), hk (r := main_arg7) (by decide), hk (r := main_v20) (by decide), hk (r := main_arg22) (by decide)]
  exact s08_v81 (after P08 V)

set_option maxRecDepth 8192 in
theorem E_v87 (V : Valuation τ sig (Elt F)) :
    after ops V (Proc.devRef .tc main_v87)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (after ops V (Proc.devRef .tc main_arg20))) (after ops V (Proc.devRef .tc main_v81))) (broadcastInDim S100000x128 ![0, 1] bcast_S100000x1_S100000x128_0_1 (broadcastInDim S100000x1 ![0] bcast_S100000_S100000x1_0 (after ops V (Proc.devRef .tc main_v28)))) := by
  obtain ⟨ho, hk⟩ := mid (pre := P09 (F := F)) s09_writes hT10 V
  rw [e09, ho (r := main_v87) (by decide), hk (r := main_arg20) (by decide), hk (r := main_v81) (by decide), hk (r := main_v28) (by decide)]
  exact s09_v87 (after P09 V)

set_option maxRecDepth 8192 in
theorem E_v123 (V : Valuation τ sig (Elt F)) :
    after ops V (Proc.devRef .tc main_v123)
      = addf (mulf (mulf (subf (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (broadcastInDim S100000x128 ![0, 1] bcast_S100000x1_S100000x128_0_1 (Host.divf (broadcastInDim S100000x1 ![0] bcast_S100000_S100000x1_0 (Host.reduceAdd (maximumf (addf (Host.divf (addf (addf (after ops V (Proc.devRef .tc main_v61)) (after ops V (Proc.devRef .tc main_v87))) (Host.dotGeneral dot_S100000x128_S128x128_S100000x128_1_0_0_1_n_n none (subf (after ops V (Proc.devRef .tc main_v5)) (broadcastInDim S100000x128 ![0, 1] bcast_S1x128_S100000x128_0_1 (after ops V (Proc.devRef .tc main_arg5)))) (transpose S128x128 [1, 0] (after ops V (Proc.devRef .tc main_arg6)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg9))))) (broadcastInDim S100000x128 ![] bcast_S_S100000x128 (constant S_ .f32 0x00000000#32 : (⟨S_, .f32⟩ : BufTy).Contents (Elt F)))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 (after ops V (Proc.devRef .tc main_arg10))))) (broadcastInDim S100000x128 ![0, 1] bcast_S1x128_S100000x128_0_1 (broadcastInDim S1x128 ![1] bcast_S128_S1x128_1 (after ops V (Proc.devRef .tc main_arg11)))) := by
  obtain ⟨ho, hk⟩ := mid (pre := P10 (F := F)) s10_writes hT11 V
  rw [e10, ho (r := main_v123) (by decide), hk (r := main_v61) (by decide), hk (r := main_v87) (by decide), hk (r := main_v5) (by decide), hk (r := main_arg5) (by decide), hk (r := main_arg6) (by decide), hk (r := main_arg9) (by decide), hk (r := main_arg10) (by decide), hk (r := main_arg11) (by decide)]
  exact s10_v123 (after P10 V)

set_option maxRecDepth 8192 in
theorem E_v138 (V : Valuation τ sig (Elt F)) :
    after ops V (Proc.devRef .tc main_v138)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg22))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  obtain ⟨ho, hk⟩ := mid (pre := P11 (F := F)) s11_writes hT12 V
  rw [e11, ho (r := main_v138) (by decide), hk (r := main_arg22) (by decide)]
  exact s11_v138 (after P11 V)

set_option maxRecDepth 8192 in
theorem E_v146 (V : Valuation τ sig (Elt F)) :
    after ops V (Proc.devRef .tc main_v146)
      = select (cmpf .ogt (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x00000000#32 : (⟨S_, .f32⟩ : BufTy).Contents (Elt F)))) (Host.divf (broadcastInDim S100000 ![] bcast_S_S100000 (constant S_ .f32 0x3F800000#32 : (⟨S_, .f32⟩ : BufTy).Contents (Elt F))) (Host.sqrt (maximumf (Host.scatterAdd scatter_S100000_S600000x1_S600000_n_0_0_1 (broadcastInDim S100000 ![] bcast_S_S100000 (constant S_ .f32 0x00000000#32 : (⟨S_, .f32⟩ : BufTy).Contents (Elt F))) (broadcastInDim S600000x1 ![0] bcast_S600000_S600000x1_0 (after ops V (Proc.devRef .tc main_arg20))) (broadcastInDim S600000 ![] bcast_S_S600000 (constant S_ .f32 0x3F800000#32 : (⟨S_, .f32⟩ : BufTy).Contents (Elt F)))) (broadcastInDim S100000 ![] bcast_S_S100000 (constant S_ .f32 0x3F800000#32 : (⟨S_, .f32⟩ : BufTy).Contents (Elt F)))))) (broadcastInDim S100000 ![] bcast_S_S100000 (id (constant S_ .f32 0x00000000#32 : (⟨S_, .f32⟩ : BufTy).Contents (Elt F)))) := by
  obtain ⟨ho, hk⟩ := mid (pre := P11 (F := F)) s11_writes hT12 V
  rw [e11, ho (r := main_v146) (by decide), hk (r := main_arg20) (by decide)]
  exact s11_v146 (after P11 V)

set_option maxRecDepth 8192 in
theorem E_v153 (V : Valuation τ sig (Elt F)) :
    after ops V (Proc.devRef .tc main_v153)
      = Host.gather gather_S32x128_S600000x1_S600000x128_1_0_n_n_0_1_1128 (after ops V (Proc.devRef .tc main_arg12)) (broadcastInDim S600000x1 ![0] bcast_S600000_S600000x1_0 (select (cmpi .slt (after ops V (Proc.devRef .tc main_arg21)) (broadcastInDim S600000 ![] bcast_S_S600000 (constantI S_ 32 0#32 : (⟨S_, .i32⟩ : BufTy).Contents (Elt F)))) (addi (after ops V (Proc.devRef .tc main_arg21)) (broadcastInDim S600000 ![] bcast_S_S600000 (constantI S_ 32 32#32 : (⟨S_, .i32⟩ : BufTy).Contents (Elt F)))) (after ops V (Proc.devRef .tc main_arg21)))) := by
  obtain ⟨ho, hk⟩ := mid (pre := P12 (F := F)) s12_writes hT13 V
  rw [e12, ho (r := main_v153) (by decide), hk (r := main_arg12) (by decide), hk (r := main_arg21) (by decide)]
  exact s12_v153 (after P12 V)

set_option maxRecDepth 8192 in
theorem E_v160 (V : Valuation τ sig (Elt F)) :
    after ops V (Proc.devRef .tc main_v160)
      = Host.gather gather_S100000x128_S600000x1_S600000x128_1_0_n_n_0_1_1128 (after ops V (Proc.devRef .tc main_v123)) (broadcastInDim S600000x1 ![0] bcast_S600000_S600000x1_0 (select (cmpi .slt (after ops V (Proc.devRef .tc main_arg20)) (broadcastInDim S600000 ![] bcast_S_S600000 (constantI S_ 32 0#32 : (⟨S_, .i32⟩ : BufTy).Contents (Elt F)))) (addi (after ops V (Proc.devRef .tc main_arg20)) (broadcastInDim S600000 ![] bcast_S_S600000 (constantI S_ 32 100000#32 : (⟨S_, .i32⟩ : BufTy).Contents (Elt F)))) (after ops V (Proc.devRef .tc main_arg20)))) := by
  obtain ⟨ho, hk⟩ := mid (pre := P13 (F := F)) s13_writes hT14 V
  rw [e13, ho (r := main_v160) (by decide), hk (r := main_v123) (by decide), hk (r := main_arg20) (by decide)]
  exact s13_v160 (after P13 V)

set_option maxRecDepth 8192 in
theorem E_v173 (V : Valuation τ sig (Elt F)) :
    after ops V (Proc.devRef .tc main_v173)
      = mulf (Host.dotGeneral dot_S600000x128_S128x128_S600000x128_1_0_0_1_n_n none (subf (after ops V (Proc.devRef .tc main_v160)) (after ops V (Proc.devRef .tc main_v153))) (transpose S128x128 [1, 0] (after ops V (Proc.devRef .tc main_arg16)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (after ops V (Proc.devRef .tc main_v146)) (broadcastInDim S600000x1 ![0] bcast_S600000_S600000x1_0 (select (cmpi .slt (after ops V (Proc.devRef .tc main_arg20)) (broadcastInDim S600000 ![] bcast_S_S600000 (constantI S_ 32 0#32 : (⟨S_, .i32⟩ : BufTy).Contents (Elt F)))) (addi (after ops V (Proc.devRef .tc main_arg20)) (broadcastInDim S600000 ![] bcast_S_S600000 (constantI S_ 32 100000#32 : (⟨S_, .i32⟩ : BufTy).Contents (Elt F)))) (after ops V (Proc.devRef .tc main_arg20))))))) := by
  obtain ⟨ho, hk⟩ := mid (pre := P14 (F := F)) s14_writes hT15 V
  rw [e14, ho (r := main_v173) (by decide), hk (r := main_v160) (by decide), hk (r := main_v153) (by decide), hk (r := main_arg16) (by decide), hk (r := main_v146) (by decide), hk (r := main_arg20) (by decide)]
  exact s14_v173 (after P14 V)

set_option maxRecDepth 8192 in
theorem E_v179 (V : Valuation τ sig (Elt F)) :
    after ops V (Proc.devRef .tc main_v179)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (after ops V (Proc.devRef .tc main_arg22))) (after ops V (Proc.devRef .tc main_v173))) (broadcastInDim S100000x128 ![0, 1] bcast_S100000x1_S100000x128_0_1 (broadcastInDim S100000x1 ![0] bcast_S100000_S100000x1_0 (after ops V (Proc.devRef .tc main_v138)))) := by
  obtain ⟨ho, hk⟩ := mid (pre := P15 (F := F)) s15_writes hT16 V
  rw [e15, ho (r := main_v179) (by decide), hk (r := main_arg22) (by decide), hk (r := main_v173) (by decide), hk (r := main_v138) (by decide)]
  exact s15_v179 (after P15 V)

set_option maxRecDepth 8192 in
theorem E_v186 (V : Valuation τ sig (Elt F)) :
    after ops V (Proc.devRef .tc main_v186)
      = Host.gather gather_S100000x128_S600000x1_S600000x128_1_0_n_n_0_1_1128 (after ops V (Proc.devRef .tc main_v123)) (broadcastInDim S600000x1 ![0] bcast_S600000_S600000x1_0 (select (cmpi .slt (after ops V (Proc.devRef .tc main_arg22)) (broadcastInDim S600000 ![] bcast_S_S600000 (constantI S_ 32 0#32 : (⟨S_, .i32⟩ : BufTy).Contents (Elt F)))) (addi (after ops V (Proc.devRef .tc main_arg22)) (broadcastInDim S600000 ![] bcast_S_S600000 (constantI S_ 32 100000#32 : (⟨S_, .i32⟩ : BufTy).Contents (Elt F)))) (after ops V (Proc.devRef .tc main_arg22)))) := by
  obtain ⟨ho, hk⟩ := mid (pre := P16 (F := F)) s16_writes hT17 V
  rw [e16, ho (r := main_v186) (by decide), hk (r := main_v123) (by decide), hk (r := main_arg22) (by decide)]
  exact s16_v186 (after P16 V)

set_option maxRecDepth 8192 in
theorem E_v199 (V : Valuation τ sig (Elt F)) :
    after ops V (Proc.devRef .tc main_v199)
      = mulf (Host.dotGeneral dot_S600000x128_S128x128_S600000x128_1_0_0_1_n_n none (subf (after ops V (Proc.devRef .tc main_v186)) (after ops V (Proc.devRef .tc main_v153))) (transpose S128x128 [1, 0] (after ops V (Proc.devRef .tc main_arg15)) transposes_S128x128_S128x128_1_0)) (broadcastInDim S600000x128 ![0, 1] bcast_S600000x1_S600000x128_0_1 (broadcastInDim S600000x1 ![0] bcast_S600000_S600000x1_0 (Host.gather gather_S100000_S600000x1_S600000_n_0_n_n_0_1_1 (after ops V (Proc.devRef .tc main_v138)) (broadcastInDim S600000x1 ![0] bcast_S600000_S600000x1_0 (select (cmpi .slt (after ops V (Proc.devRef .tc main_arg22)) (broadcastInDim S600000 ![] bcast_S_S600000 (constantI S_ 32 0#32 : (⟨S_, .i32⟩ : BufTy).Contents (Elt F)))) (addi (after ops V (Proc.devRef .tc main_arg22)) (broadcastInDim S600000 ![] bcast_S_S600000 (constantI S_ 32 100000#32 : (⟨S_, .i32⟩ : BufTy).Contents (Elt F)))) (after ops V (Proc.devRef .tc main_arg22))))))) := by
  obtain ⟨ho, hk⟩ := mid (pre := P17 (F := F)) s17_writes hT18 V
  rw [e17, ho (r := main_v199) (by decide), hk (r := main_v186) (by decide), hk (r := main_v153) (by decide), hk (r := main_arg15) (by decide), hk (r := main_v138) (by decide), hk (r := main_arg22) (by decide)]
  exact s17_v199 (after P17 V)

set_option maxRecDepth 8192 in
theorem E_v205 (V : Valuation τ sig (Elt F)) :
    after ops V (Proc.devRef .tc main_v205)
      = mulf (Host.scatterAdd scatter_S100000x128_S600000x1_S600000x128_1_0_0_1 (broadcastInDim S100000x128 ![] bcast_S_S100000x128 (constant S_ .f32 0x00000000#32 : (⟨S_, .f32⟩ : BufTy).Contents (Elt F))) (broadcastInDim S600000x1 ![0] bcast_S600000_S600000x1_0 (after ops V (Proc.devRef .tc main_arg20))) (after ops V (Proc.devRef .tc main_v199))) (broadcastInDim S100000x128 ![0, 1] bcast_S100000x1_S100000x128_0_1 (broadcastInDim S100000x1 ![0] bcast_S100000_S100000x1_0 (after ops V (Proc.devRef .tc main_v146)))) := by
  obtain ⟨ho, hk⟩ := mid (pre := P18 (F := F)) s18_writes hT19 V
  rw [e18, ho (r := main_v205) (by decide), hk (r := main_arg20) (by decide), hk (r := main_v199) (by decide), hk (r := main_v146) (by decide)]
  exact s18_v205 (after P18 V)

set_option maxRecDepth 8192 in
theorem E_v240 (V : Valuation τ sig (Elt F)) :
    after ops V (Proc.devRef .tc main_v240)
      = addf (mulf (mulf (subf (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (broadcastInDim S100000x128 ![0, 1] bcast_S100000x1_S100000x128_0_1 (Host.rsqrt (addf (Host.divf (broadcastInDim S100000x1 ![0] bcast_S100000_S100000x1_0 (Host.reduceAdd (mulf (subf (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))))) (subf (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (broadcastInDim S100000x128 ![0, 1] bcast_S100000x1_S100000x128_0_1 (Host.divf (broadcastInDim S100000x1 ![0] bcast_S100000_S100000x1_0 (Host.reduceAdd (addf (Host.divf (addf (addf (after ops V (Proc.devRef .tc main_v179)) (after ops V (Proc.devRef .tc main_v205))) (Host.dotGeneral dot_S100000x128_S128x128_S100000x128_1_0_0_1_n_n none (subf (after ops V (Proc.devRef .tc main_v123)) (broadcastInDim S100000x128 ![0, 1] bcast_S1x128_S100000x128_0_1 (after ops V (Proc.devRef .tc main_arg13)))) (transpose S128x128 [1, 0] (after ops V (Proc.devRef .tc main_arg14)) transposes_S128x128_S128x128_1_0))) (broadcastInDim S100000x128 ![] bcast_S_S100000x128 (constant S_ .f32 0x40400000#32 : (⟨S_, .f32⟩ : BufTy).Contents (Elt F)))) (broadcastInDim S100000x128 ![0, 1] bcast_S1x128_S100000x128_0_1 (broadcastInDim S1x128 ![1] bcast_S128_S1x128_1 (after ops V (Proc.devRef .tc main_arg17))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F))))))) (constant S_ .f32 0x00000000#32 : (⟨S_, .f32⟩ : BufTy).Contents (Elt F)) reducesTo_S100000x128_S100000_d1 h_S_)) (broadcastInDim S100000x1 ![] bcast_S_S100000x1 (constant S_ .f32 0x43000000#32 : (⟨S_, .f32⟩ : BufTy).Contents (Elt F)))) (broadcastInDim S100000x1 ![] bcast_S_S100000x1 (constant S_ .f32 0x3727C5AC#32 : (⟨S_, .f32⟩ : BufTy).Contents (Elt F))))))) (broadcastInDim S100000x128 ![0, 1] bcast_S1x128_S100000x128_0_1 (broadcastInDim S1x128 ![1] bcast_S128_S1x128_1 (after ops V (Proc.devRef .tc main_arg18))))) (broadcastInDim S100000x128 ![0, 1] bcast_S1x128_S100000x128_0_1 (broadcastInDim S1x128 ![1] bcast_S128_S1x128_1 (after ops V (Proc.devRef .tc main_arg19)))) := by
  obtain ⟨ho, hk⟩ := mid (pre := P19 (F := F)) s19_writes hT20 V
  rw [e19, ho (r := main_v240) (by decide), hk (r := main_v179) (by decide), hk (r := main_v205) (by decide), hk (r := main_v123) (by decide), hk (r := main_arg13) (by decide), hk (r := main_arg14) (by decide), hk (r := main_arg17) (by decide), hk (r := main_arg18) (by decide), hk (r := main_arg19) (by decide)]
  exact s19_v240 (after P19 V)

/-! ## In program order: each named intermediate as its definition at the argument arrays -/

set_option maxRecDepth 8192 in
theorem F_v5 (V : Valuation τ sig (Elt F)) :
    after ops V (Proc.devRef .tc main_v5) = x0 (V (Proc.devRef .tc main_arg0)) (V (Proc.devRef .tc main_arg1)) (V (Proc.devRef .tc main_arg2)) (V (Proc.devRef .tc main_arg3)) := by
  rw [E_v5 V, kept V (r := main_arg0) (by decide), kept V (r := main_arg1) (by decide), kept V (r := main_arg2) (by decide), kept V (r := main_arg3) (by decide)]
  rfl

set_option maxRecDepth 8192 in
theorem F_v20 (V : Valuation τ sig (Elt F)) :
    after ops V (Proc.devRef .tc main_v20) = invt (V (Proc.devRef .tc main_arg22)) := by
  rw [E_v20 V, kept V (r := main_arg22) (by decide)]
  rfl

set_option maxRecDepth 8192 in
theorem F_v28 (V : Valuation τ sig (Elt F)) :
    after ops V (Proc.devRef .tc main_v28) = invs (V (Proc.devRef .tc main_arg20)) := by
  rw [E_v28 V, kept V (r := main_arg20) (by decide)]
  rfl

set_option maxRecDepth 8192 in
theorem F_v35 (V : Valuation τ sig (Elt F)) :
    after ops V (Proc.devRef .tc main_v35) = relE0 (V (Proc.devRef .tc main_arg4)) (V (Proc.devRef .tc main_arg21)) := by
  rw [E_v35 V, kept V (r := main_arg4) (by decide), kept V (r := main_arg21) (by decide)]
  rfl

set_option maxRecDepth 8192 in
theorem F_v42 (V : Valuation τ sig (Elt F)) :
    after ops V (Proc.devRef .tc main_v42) = xS0 (V (Proc.devRef .tc main_arg0)) (V (Proc.devRef .tc main_arg1)) (V (Proc.devRef .tc main_arg2)) (V (Proc.devRef .tc main_arg3)) (V (Proc.devRef .tc main_arg20)) := by
  rw [E_v42 V, F_v5 V, kept V (r := main_arg20) (by decide)]
  rfl

set_option maxRecDepth 8192 in
theorem F_v55 (V : Valuation τ sig (Elt F)) :
    after ops V (Proc.devRef .tc main_v55) = msgOut0 (V (Proc.devRef .tc main_arg0)) (V (Proc.devRef .tc main_arg1)) (V (Proc.devRef .tc main_arg2)) (V (Proc.devRef .tc main_arg3)) (V (Proc.devRef .tc main_arg4)) (V (Proc.devRef .tc main_arg8)) (V (Proc.devRef .tc main_arg20)) (V (Proc.devRef .tc main_arg21)) := by
  rw [E_v55 V, F_v42 V, F_v35 V, kept V (r := main_arg8) (by decide), F_v28 V, kept V (r := main_arg20) (by decide)]
  rfl

set_option maxRecDepth 8192 in
theorem F_v61 (V : Valuation τ sig (Elt F)) :
    after ops V (Proc.devRef .tc main_v61) = aggOut0 (V (Proc.devRef .tc main_arg0)) (V (Proc.devRef .tc main_arg1)) (V (Proc.devRef .tc main_arg2)) (V (Proc.devRef .tc main_arg3)) (V (Proc.devRef .tc main_arg4)) (V (Proc.devRef .tc main_arg8)) (V (Proc.devRef .tc main_arg20)) (V (Proc.devRef .tc main_arg21)) (V (Proc.devRef .tc main_arg22)) := by
  rw [E_v61 V, kept V (r := main_arg22) (by decide), F_v55 V, F_v20 V]
  rfl

set_option maxRecDepth 8192 in
theorem F_v68 (V : Valuation τ sig (Elt F)) :
    after ops V (Proc.devRef .tc main_v68) = xT0 (V (Proc.devRef .tc main_arg0)) (V (Proc.devRef .tc main_arg1)) (V (Proc.devRef .tc main_arg2)) (V (Proc.devRef .tc main_arg3)) (V (Proc.devRef .tc main_arg22)) := by
  rw [E_v68 V, F_v5 V, kept V (r := main_arg22) (by decide)]
  rfl

set_option maxRecDepth 8192 in
theorem F_v81 (V : Valuation τ sig (Elt F)) :
    after ops V (Proc.devRef .tc main_v81) = msgIn0 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg21)) (V (Proc.devRef .tc main_arg22)) := by
  rw [E_v81 V, F_v68 V, F_v35 V, kept V (r := main_arg7) (by decide), F_v20 V, kept V (r := main_arg22) (by decide)]
  rfl

set_option maxRecDepth 8192 in
theorem F_v87 (V : Valuation τ sig (Elt F)) :
    after ops V (Proc.devRef .tc main_v87) = aggIn0 (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg20)) (V (Proc.devRef .tc main_arg21)) (V (Proc.devRef .tc main_arg22)) := by
  rw [E_v87 V, kept V (r := main_arg20) (by decide), F_v81 V, F_v28 V]
  rfl

set_option maxRecDepth 8192 in
theorem F_v123 (V : Valuation τ sig (Elt F)) :
    after ops V (Proc.devRef .tc main_v123) = out0 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg20)) (V (Proc.devRef .tc main_arg21)) (V (Proc.devRef .tc main_arg22)) := by
  rw [E_v123 V, F_v61 V, F_v87 V, F_v5 V, kept V (r := main_arg5) (by decide), kept V (r := main_arg6) (by decide), kept V (r := main_arg9) (by decide), kept V (r := main_arg10) (by decide), kept V (r := main_arg11) (by decide)]
  rfl

set_option maxRecDepth 8192 in
theorem F_v138 (V : Valuation τ sig (Elt F)) :
    after ops V (Proc.devRef .tc main_v138) = invt (V (Proc.devRef .tc main_arg22)) := by
  rw [E_v138 V, kept V (r := main_arg22) (by decide)]
  rfl

set_option maxRecDepth 8192 in
theorem F_v146 (V : Valuation τ sig (Elt F)) :
    after ops V (Proc.devRef .tc main_v146) = invs (V (Proc.devRef .tc main_arg20)) := by
  rw [E_v146 V, kept V (r := main_arg20) (by decide)]
  rfl

set_option maxRecDepth 8192 in
theorem F_v153 (V : Valuation τ sig (Elt F)) :
    after ops V (Proc.devRef .tc main_v153) = relE1 (V (Proc.devRef .tc main_arg12)) (V (Proc.devRef .tc main_arg21)) := by
  rw [E_v153 V, kept V (r := main_arg12) (by decide), kept V (r := main_arg21) (by decide)]
  rfl

set_option maxRecDepth 8192 in
theorem F_v160 (V : Valuation τ sig (Elt F)) :
    after ops V (Proc.devRef .tc main_v160) = xS1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg20)) (V (Proc.devRef .tc main_arg21)) (V (Proc.devRef .tc main_arg22)) := by
  rw [E_v160 V, F_v123 V, kept V (r := main_arg20) (by decide)]
  rfl

set_option maxRecDepth 8192 in
theorem F_v173 (V : Valuation τ sig (Elt F)) :
    after ops V (Proc.devRef .tc main_v173) = msgOut1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg16)) (V (Proc.devRef .tc main_arg20)) (V (Proc.devRef .tc main_arg21)) (V (Proc.devRef .tc main_arg22)) := by
  rw [E_v173 V, F_v160 V, F_v153 V, kept V (r := main_arg16) (by decide), F_v146 V, kept V (r := main_arg20) (by decide)]
  rfl

set_option maxRecDepth 8192 in
theorem F_v179 (V : Valuation τ sig (Elt F)) :
    after ops V (Proc.devRef .tc main_v179) = aggOut1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg16)) (V (Proc.devRef .tc main_arg20)) (V (Proc.devRef .tc main_arg21)) (V (Proc.devRef .tc main_arg22)) := by
  rw [E_v179 V, kept V (r := main_arg22) (by decide), F_v173 V, F_v138 V]
  rfl

set_option maxRecDepth 8192 in
theorem F_v186 (V : Valuation τ sig (Elt F)) :
    after ops V (Proc.devRef .tc main_v186) = xT1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg20)) (V (Proc.devRef .tc main_arg21)) (V (Proc.devRef .tc main_arg22)) := by
  rw [E_v186 V, F_v123 V, kept V (r := main_arg22) (by decide)]
  rfl

set_option maxRecDepth 8192 in
theorem F_v199 (V : Valuation τ sig (Elt F)) :
    after ops V (Proc.devRef .tc main_v199) = msgIn1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg15)) (V (Proc.devRef .tc main_arg20)) (V (Proc.devRef .tc main_arg21)) (V (Proc.devRef .tc main_arg22)) := by
  rw [E_v199 V, F_v186 V, F_v153 V, kept V (r := main_arg15) (by decide), F_v138 V, kept V (r := main_arg22) (by decide)]
  rfl

set_option maxRecDepth 8192 in
theorem F_v205 (V : Valuation τ sig (Elt F)) :
    after ops V (Proc.devRef .tc main_v205) = aggIn1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg15)) (V (Proc.devRef .tc main_arg20)) (V (Proc.devRef .tc main_arg21)) (V (Proc.devRef .tc main_arg22)) := by
  rw [E_v205 V, kept V (r := main_arg20) (by decide), F_v199 V, F_v146 V]
  rfl

set_option maxRecDepth 8192 in
theorem F_v240 (V : Valuation τ sig (Elt F)) :
    after ops V (Proc.devRef .tc main_v240) = out1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  rw [E_v240 V, F_v179 V, F_v205 V, F_v123 V, kept V (r := main_arg13) (by decide), kept V (r := main_arg14) (by decide), kept V (r := main_arg17) (by decide), kept V (r := main_arg18) (by decide), kept V (r := main_arg19) (by decide)]
  rfl

/-- What the result buffer holds at the end of the line, from any contents `V`. -/
theorem value (V : Valuation τ sig (Elt F)) :
    after ops V (Proc.devRef .tc main_v240) = result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) :=
  F_v240 V

/-- On every device, for any float values, from any memory with zero counters: every weakly fair execution of the
    reference terminates with the result buffer at `result` of the argument arrays and the arguments unchanged. -/
theorem run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v240) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v240).trans (value (launchContents m c)),
      (h c main_arg0).trans (kept (launchContents m c) (r := main_arg0) (by decide)),
      (h c main_arg1).trans (kept (launchContents m c) (r := main_arg1) (by decide)),
      (h c main_arg2).trans (kept (launchContents m c) (r := main_arg2) (by decide)),
      (h c main_arg3).trans (kept (launchContents m c) (r := main_arg3) (by decide)),
      (h c main_arg4).trans (kept (launchContents m c) (r := main_arg4) (by decide)),
      (h c main_arg5).trans (kept (launchContents m c) (r := main_arg5) (by decide)),
      (h c main_arg6).trans (kept (launchContents m c) (r := main_arg6) (by decide)),
      (h c main_arg7).trans (kept (launchContents m c) (r := main_arg7) (by decide)),
      (h c main_arg8).trans (kept (launchContents m c) (r := main_arg8) (by decide)),
      (h c main_arg9).trans (kept (launchContents m c) (r := main_arg9) (by decide)),
      (h c main_arg10).trans (kept (launchContents m c) (r := main_arg10) (by decide)),
      (h c main_arg11).trans (kept (launchContents m c) (r := main_arg11) (by decide)),
      (h c main_arg12).trans (kept (launchContents m c) (r := main_arg12) (by decide)),
      (h c main_arg13).trans (kept (launchContents m c) (r := main_arg13) (by decide)),
      (h c main_arg14).trans (kept (launchContents m c) (r := main_arg14) (by decide)),
      (h c main_arg15).trans (kept (launchContents m c) (r := main_arg15) (by decide)),
      (h c main_arg16).trans (kept (launchContents m c) (r := main_arg16) (by decide)),
      (h c main_arg17).trans (kept (launchContents m c) (r := main_arg17) (by decide)),
      (h c main_arg18).trans (kept (launchContents m c) (r := main_arg18) (by decide)),
      (h c main_arg19).trans (kept (launchContents m c) (r := main_arg19) (by decide)),
      (h c main_arg20).trans (kept (launchContents m c) (r := main_arg20) (by decide)),
      (h c main_arg21).trans (kept (launchContents m c) (r := main_arg21) (by decide)),
      (h c main_arg22).trans (kept (launchContents m c) (r := main_arg22) (by decide))⟩)
    (run_seq scopedRefs_eq scopedSems_eq defs main (fun _ => ops) main_eq (fun _ => ops_sub) m ρ (fun _ => ops_fresh))

/-- The same at the ideal instance: floats extended reals, every operation exact. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v240) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  run_gen m ρ

end Cert.ReferenceIdeal.RefRun

end
-- ==== Proof.RefBridge.lean ====
/-
  Three stretches of the reference's whole-array operations, applied to arbitrary operands, are the three row-wise
  functions of the specification, as whole matrices.

  * A product of two matrices plus a single row laid along every row is the affine layer: at (p, j) the product is the
    sum over the contracted coordinate and the laid row is its entry (0, j).
  * A product of a difference with a matrix, each row then scaled by a one-column matrix laid along the columns, is
    the message: at (p, j) the laid column is its entry (p, 0).
  * The node update: the combined message (the two aggregates plus the self product, divided by three — which on the
    extended reals is the product with the real number 1/3 —, plus the bias row, and its positive part in the first
    layer), then the row's layer normalisation, every row sum being a finite sum over the 128 columns.
-/
import proofs.«138557_j88261577933338_1_alg».proof.ReferenceIdeal
import proofs.«138557_j88261577933338_1_alg».proof.Proof.Spec
import Idealize.ShloMosaic.Lib.ValueIdx
import Idealize.ShloMosaic.Lib.ValueLayout
import Idealize.ShloMosaic.Lib.StackMember
import Idealize.ShloMosaic.Lib.KernelVsHost
import Idealize.ShloMosaic.Lib.IdealHost
import Idealize.ShloMosaic.PureOps.Ideal.Laws
import Idealize.ShloMosaic.Lib.Pipeline.Value

noncomputable section

open scoped BigOperators

namespace Cert.ReferenceIdeal.Bridge

open Idealize.ShloMosaic Idealize.ShloMosaic.ValueIdx Idealize.ShloMosaic.StackMember Cert.ReferenceIdeal

variable [Facts₀]
open Facts₀

/-- The first layer's product is the plain one. -/
theorem dot_mlp_plain : dot_S50000x256_S256x128_S50000x128_1_0_0_1_n_n = DotDims.plain 50000 256 128 := rfl

/-- The affine layer: product plus the laid bias row. -/
theorem mlp_eq (x : FVec Ideal S50000x256 .f32) (w : FVec Ideal S256x128 .f32) (r : FVec Ideal S1x128 .f32) :
    addf (Host.dotGeneral dot_S50000x256_S256x128_S50000x128_1_0_0_1_n_n none x w)
      (broadcastInDim S50000x128 ![0, 1] bcast_S1x128_S50000x128_0_1 r) = Cert.Spec.mlp x w r := by
  funext i
  obtain ⟨p, j, rfl⟩ : ∃ (p : Fin 50000) (j : Fin 128), i = ValueIdx.ix2 p j := ⟨i 0, i 1, ValueIdx.eq_ix2 i⟩
  rw [addf_apply, dot_mlp_plain, dotGeneral_plain_apply, broadcastInDim_oneRow_apply]
  rfl

/-- The per-edge product is the plain one. -/
theorem dot_edge_plain : dot_S600000x128_S128x128_S600000x128_1_0_0_1_n_n = DotDims.plain 600000 128 128 := rfl

/-- A one-column matrix laid along the columns, read at (p, j), is its entry (p, 0). -/
theorem broadcastInDim_oneCol_apply {α : Type} {m n : Nat} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

/-- The message: the product of the difference, each row scaled by the laid column. -/
theorem edge_eq (xs rel : FVec Ideal S600000x128 .f32) (w : FVec Ideal S128x128 .f32) (cl : FVec Ideal S600000x1 .f32) :
    mulf (Host.dotGeneral dot_S600000x128_S128x128_S600000x128_1_0_0_1_n_n none (subf xs rel) w)
      (broadcastInDim S600000x128 ![0, 1] bcast_S600000x1_S600000x128_0_1 cl) = Cert.Spec.edge xs rel cl w := by
  funext i
  obtain ⟨p, j, rfl⟩ : ∃ (p : Fin 600000) (j : Fin 128), i = ValueIdx.ix2 p j := ⟨i 0, i 1, ValueIdx.eq_ix2 i⟩
  rw [mulf_apply, dot_edge_plain, dotGeneral_plain_apply, broadcastInDim_oneCol_apply]
  rfl

/-- The word 0x40400000 is the real number three. -/
theorem ofBits_three : Ideal.ofBits .f32 0x40400000#32 = ((3 : ℝ) : EReal) := by
  simp [Ideal.ofBits, Ideal.ieee, -EReal.coe_mul]; norm_num

/-- The self-loop product is the plain one. -/
theorem dot_node_plain : dot_S100000x128_S128x128_S100000x128_1_0_0_1_n_n = DotDims.plain 100000 128 128 := rfl

/-- A vector laid as one column, read at (p, 0), is the vector at p. -/
theorem broadcastInDim_vecCol_apply {α : Type} {m : Nat} (hbc : (⟨1, ![m]⟩ : Shape).BroadcastsInDim ⟨2, ![m, 1]⟩ ![0])
    (y : (⟨1, ![m]⟩ : Shape).Idx → α) (r : Fin m) :
    broadcastInDim ⟨2, ![m, 1]⟩ ![0] hbc y (ix2 r (0 : Fin 1)) = y (ix1 r) := by
  refine broadcastInDim_apply ![0] hbc y (ix2 r (0 : Fin 1)) (ix1 r) ?_
  intro a
  match a with
  | ⟨0, _⟩ =>
    show r.val = if m = 1 then 0 else r.val
    split
    · have := r.isLt; omega
    · rfl

/-- The combined message as the reference computes it: the two aggregates plus the self-loop product, divided by the
    splat of the word of three, plus the laid bias row. -/
abbrev comboTerm (x ao ai : FVec Ideal S100000x128 .f32) (lr : FVec Ideal S1x128 .f32) (wl : FVec Ideal S128x128 .f32)
    (bias : FVec Ideal S1x128 .f32) : FVec Ideal S100000x128 .f32 :=
  addf (Host.divf (addf (addf ao ai)
        (Host.dotGeneral dot_S100000x128_S128x128_S100000x128_1_0_0_1_n_n none
          (subf x (broadcastInDim S100000x128 ![0, 1] bcast_S1x128_S100000x128_0_1 lr)) wl))
      (broadcastInDim S100000x128 ![] bcast_S_S100000x128 (constant S_ .f32 0x40400000#32)))
    (broadcastInDim S100000x128 ![0, 1] bcast_S1x128_S100000x128_0_1 bias)

/-- The positive part: the maximum with the splat of the zero word. -/
abbrev reluTerm (z : FVec Ideal S100000x128 .f32) : FVec Ideal S100000x128 .f32 :=
  maximumf z (broadcastInDim S100000x128 ![] bcast_S_S100000x128 (constant S_ .f32 0x00000000#32))

/-- The row means as a one-column matrix: the row sums from the zero word, laid as a column, divided by the splat of
    the word of 128. -/
abbrev meanTerm (z : FVec Ideal S100000x128 .f32) : FVec Ideal S100000x1 .f32 :=
  Host.divf (broadcastInDim S100000x1 ![0] bcast_S100000_S100000x1_0
      (Host.reduceAdd z (constant S_ .f32 0x00000000#32) reducesTo_S100000x128_S100000_d1 h_S_))
    (broadcastInDim S100000x1 ![] bcast_S_S100000x1 (constant S_ .f32 0x43000000#32))

/-- The deviation from the row mean. -/
abbrev devTerm (z : FVec Ideal S100000x128 .f32) : FVec Ideal S100000x128 .f32 :=
  subf z (broadcastInDim S100000x128 ![0, 1] bcast_S100000x1_S100000x128_0_1 (meanTerm z))

/-- The layer normalisation as the reference computes it. -/
abbrev lnTerm (z : FVec Ideal S100000x128 .f32) (g b : FVec Ideal S1x128 .f32) : FVec Ideal S100000x128 .f32 :=
  addf (mulf (mulf (devTerm z)
        (broadcastInDim S100000x128 ![0, 1] bcast_S100000x1_S100000x128_0_1
          (Host.rsqrt (addf (meanTerm (mulf (devTerm z) (devTerm z)))
            (broadcastInDim S100000x1 ![] bcast_S_S100000x1 (constant S_ .f32 0x3727C5AC#32))))))
      (broadcastInDim S100000x128 ![0, 1] bcast_S1x128_S100000x128_0_1 g))
    (broadcastInDim S100000x128 ![0, 1] bcast_S1x128_S100000x128_0_1 b)

/-- The first layer's node update as the reference computes it. -/
abbrev nodeTerm0 (x ao ai : FVec Ideal S100000x128 .f32) (lr : FVec Ideal S1x128 .f32) (wl : FVec Ideal S128x128 .f32)
    (bias g b : FVec Ideal S1x128 .f32) : FVec Ideal S100000x128 .f32 :=
  lnTerm (reluTerm (comboTerm x ao ai lr wl bias)) g b

/-- The second layer's node update as the reference computes it: no positive part. -/
abbrev nodeTerm1 (x ao ai : FVec Ideal S100000x128 .f32) (lr : FVec Ideal S1x128 .f32) (wl : FVec Ideal S128x128 .f32)
    (bias g b : FVec Ideal S1x128 .f32) : FVec Ideal S100000x128 .f32 :=
  lnTerm (comboTerm x ao ai lr wl bias) g b

/-- The combined message at (p, j). -/
theorem combo_apply (x ao ai : FVec Ideal S100000x128 .f32) (lr : FVec Ideal S1x128 .f32) (wl : FVec Ideal S128x128 .f32)
    (bias : FVec Ideal S1x128 .f32) (p : Fin 100000) (j : Fin 128) :
    comboTerm x ao ai lr wl bias (ix2 p j) = Cert.Spec.comboAt false x ao ai lr wl bias p j := by
  show addf _ _ _ = _
  rw [addf_apply, hostDivf_apply, addf_apply, addf_apply, dot_node_plain, dotGeneral_plain_apply,
    broadcastInDim_scalar_apply, constant_apply, ofBits_three, Ideal.div_coe (by norm_num : (3 : ℝ) ≠ 0),
    broadcastInDim_oneRow_apply]
  have hs : ∀ c : Fin 128, subf x (broadcastInDim S100000x128 ![0, 1] bcast_S1x128_S100000x128_0_1 lr) (ix2 p c)
      = x (ix2 p c) - lr (ix2 (0 : Fin 1) c) := fun c => by rw [subf_apply, broadcastInDim_oneRow_apply]
  simp only [hs]
  rfl

/-- The positive part at an entry. -/
theorem relu_apply (z : FVec Ideal S100000x128 .f32) (i : S100000x128.Idx) : reluTerm z i = max (z i) 0 := by
  show maximumf _ _ _ = _
  rw [maximumf_apply, broadcastInDim_scalar_apply, constant_apply, Ideal.ofBits_zero_f32]

/-- The positive part of the combined message at (p, j). -/
theorem combo_relu_apply (x ao ai : FVec Ideal S100000x128 .f32) (lr : FVec Ideal S1x128 .f32) (wl : FVec Ideal S128x128 .f32)
    (bias : FVec Ideal S1x128 .f32) (p : Fin 100000) (j : Fin 128) :
    reluTerm (comboTerm x ao ai lr wl bias) (ix2 p j) = Cert.Spec.comboAt true x ao ai lr wl bias p j := by
  rw [relu_apply, combo_apply]
  rfl

/-- The host's reciprocal square root at an entry. -/
theorem hostRsqrt_apply {s : Shape} (v : FVec Ideal s .f32) (i : s.Idx) : Host.rsqrt v i = Ideal.rsqrt (v i) := rfl

/-- The row sums drop axis 1. -/
theorem reduces_rows : S100000x128.Reduces [1] S100000 := by decide

/-- The row mean at (p, 0). -/
theorem mean_apply (z : FVec Ideal S100000x128 .f32) (p : Fin 100000) :
    meanTerm z (ix2 p (0 : Fin 1)) = Cert.Spec.meanAt (fun q => z (ix2 p q)) := by
  show Host.divf _ _ _ = _
  rw [hostDivf_apply, broadcastInDim_vecCol_apply, hostReduceAdd_apply,
    Ideal.hostReduceAdd_single reducesTo_S100000x128_S100000_d1 reduces_rows, constant_apply, Ideal.ofBits_zero_f32,
    zero_add, broadcastInDim_scalar_apply, constant_apply]
  unfold Cert.Spec.meanAt Cert.Spec.c128
  refine congrArg (fun s => Ideal.div s _) ?_
  refine Finset.sum_congr rfl fun k _ => congrArg z ?_
  funext ax
  match ax with
  | ⟨0, _⟩ => exact Fin.ext rfl
  | ⟨1, _⟩ => exact Fin.ext rfl

/-- The deviation at (p, j). -/
theorem dev_apply (z : FVec Ideal S100000x128 .f32) (p : Fin 100000) (j : Fin 128) :
    devTerm z (ix2 p j) = z (ix2 p j) - Cert.Spec.meanAt (fun q => z (ix2 p q)) := by
  show subf _ _ _ = _
  rw [subf_apply, broadcastInDim_oneCol_apply, mean_apply]

/-- The layer normalisation at (p, j). -/
theorem ln_apply (z : FVec Ideal S100000x128 .f32) (g b : FVec Ideal S1x128 .f32) (p : Fin 100000) (j : Fin 128) :
    lnTerm z g b (ix2 p j) = Cert.Spec.lnAt (fun q => z (ix2 p q)) g b j := by
  show addf _ _ _ = _
  rw [addf_apply, mulf_apply, mulf_apply, dev_apply, broadcastInDim_oneCol_apply, broadcastInDim_oneRow_apply,
    broadcastInDim_oneRow_apply]
  rw [hostRsqrt_apply, addf_apply, mean_apply, broadcastInDim_scalar_apply, constant_apply]
  simp only [mulf_apply, dev_apply]
  rfl

/-- The first layer's node update. -/
theorem node_relu_eq (x ao ai : FVec Ideal S100000x128 .f32) (lr : FVec Ideal S1x128 .f32) (wl : FVec Ideal S128x128 .f32)
    (bias g b : FVec Ideal S1x128 .f32) :
    nodeTerm0 x ao ai lr wl bias g b = Cert.Spec.node true x ao ai lr wl bias g b := by
  funext i
  obtain ⟨p, j, rfl⟩ : ∃ (p : Fin 100000) (j : Fin 128), i = ValueIdx.ix2 p j := ⟨i 0, i 1, ValueIdx.eq_ix2 i⟩
  show lnTerm _ g b _ = _
  rw [ln_apply]
  simp only [combo_relu_apply]
  rfl

/-- The second layer's node update. -/
theorem node_eq (x ao ai : FVec Ideal S100000x128 .f32) (lr : FVec Ideal S1x128 .f32) (wl : FVec Ideal S128x128 .f32)
    (bias g b : FVec Ideal S1x128 .f32) :
    nodeTerm1 x ao ai lr wl bias g b = Cert.Spec.node false x ao ai lr wl bias g b := by
  funext i
  obtain ⟨p, j, rfl⟩ : ∃ (p : Fin 100000) (j : Fin 128), i = ValueIdx.ix2 p j := ⟨i 0, i 1, ValueIdx.eq_ix2 i⟩
  show lnTerm _ g b _ = _
  rw [ln_apply]
  simp only [combo_apply]
  rfl

end Cert.ReferenceIdeal.Bridge

end
-- ==== Proof.LibRowCast.lean ====
/-
  A vector of n entries laid out as a one-row matrix, two spellings: the reshape of the [n] array to [1, n], and its
  broadcast along axis 1 of a [1, n] array. Both read, at (0, t), the vector's entry t.
-/
import Idealize.ShloMosaic.Lib.Pipeline.Value
import Idealize.ShloMosaic.Lib.ValueIdx

noncomputable section

namespace Cert.Lib.RowCast

open Idealize.ShloMosaic Idealize.ShloMosaic.ValueIdx

/-- The reshape of a vector to a one-row matrix is its broadcast along the row. -/
theorem shapeCast_row_eq_broadcastInDim {α : Type} {n : Nat} (x : (⟨1, ![n]⟩ : Shape).Idx → α)
    (h1 : (⟨1, ![n]⟩ : Shape).ShapeCasts ⟨2, ![1, n]⟩) (hd : (⟨1, ![n]⟩ : Shape).BroadcastsInDim ⟨2, ![1, n]⟩ ![1]) :
    shapeCast ⟨2, ![1, n]⟩ x h1 = broadcastInDim ⟨2, ![1, n]⟩ ![1] hd x := by
  funext i
  obtain ⟨r, t, rfl⟩ : ∃ (r : Fin 1) (t : Fin n), i = ix2 r t := ⟨i 0, i 1, eq_ix2 i⟩
  have hr : r = 0 := Subsingleton.elim _ _
  subst hr
  have e2 := shapeCast_apply x h1 (ix2 (0 : Fin 1) t) (ix1 t) (by
    rw [Shape.rowMajor_val_two, Shape.rowMajor_val_one]; show t.val = 0 * n + t.val; omega)
  have e3 := broadcastInDim_apply ![1] hd x (ix2 (0 : Fin 1) t) (ix1 t) (by
    intro a
    match a with
    | ⟨0, _⟩ =>
      show t.val = if n = 1 then 0 else t.val
      split
      · have := t.isLt; omega
      · rfl)
  exact e2.trans e3.symm

end Cert.Lib.RowCast

end
-- ==== Proof.LibColCast.lean ====
/-
  A vector laid as a one-column matrix: the reshape [n] → [n, 1] is the broadcast of the vector along axis 0 of [n, 1]
  (jnp's `v.reshape(-1, 1)` against `v[:, None]`). Both read, at (t, 0), the vector at t. General in the length and the
  element type.
-/
import Idealize.ShloMosaic.Lib.Pipeline.Value
import Idealize.ShloMosaic.Lib.ValueIdx

noncomputable section

namespace Cert.Lib.ColCast

open Idealize.ShloMosaic Idealize.ShloMosaic.ValueIdx

/-- The reshape of a vector to a one-column matrix is its broadcast down the column. -/
theorem shapeCast_col_eq_broadcastInDim {α : Type} {n : Nat} (x : (⟨1, ![n]⟩ : Shape).Idx → α)
    (h1 : (⟨1, ![n]⟩ : Shape).ShapeCasts ⟨2, ![n, 1]⟩) (hd : (⟨1, ![n]⟩ : Shape).BroadcastsInDim ⟨2, ![n, 1]⟩ ![0]) :
    shapeCast ⟨2, ![n, 1]⟩ x h1 = broadcastInDim ⟨2, ![n, 1]⟩ ![0] hd x := by
  funext i
  obtain ⟨t, r, rfl⟩ : ∃ (t : Fin n) (r : Fin 1), i = ix2 t r := ⟨i 0, i 1, eq_ix2 i⟩
  have hr : r = 0 := Subsingleton.elim _ _
  subst hr
  have e2 := shapeCast_apply x h1 (ix2 t (0 : Fin 1)) (ix1 t) (by
    rw [Shape.rowMajor_val_two, Shape.rowMajor_val_one]; show t.val = t.val * 1 + 0; omega)
  have e3 := broadcastInDim_apply ![0] hd x (ix2 t (0 : Fin 1)) (ix1 t) (by
    intro a
    match a with
    | ⟨0, _⟩ =>
      show t.val = if n = 1 then 0 else t.val
      split
      · have := t.isLt; omega
      · rfl)
  exact e2.trans e3.symm

end Cert.Lib.ColCast

end
-- ==== Proof.Join.lean ====
/-
  The kernel's function of the argument arrays is the reference's. The two differ in three ways only. (1) The regions
  compute the specification's row-wise functions where the reference composes host operations; the reference's
  compositions are those functions (the bridge lemmas). (2) The kernel reshapes a vector to a one-row or one-column
  matrix where the reference broadcasts it along the other axis: the same array. (3) The kernel computes the degree
  factors once, the reference once per layer: the same terms. Everything else — the gathers with jnp's index wrap, the
  scatter-adds, the transposes, the concatenation — is the same operation on both sides, compared as it is printed.
-/
import proofs.«138557_j88261577933338_1_alg».proof.Proof.KTerm
import proofs.«138557_j88261577933338_1_alg».proof.Proof.RefRunDefs
import proofs.«138557_j88261577933338_1_alg».proof.Proof.RefBridge
import proofs.«138557_j88261577933338_1_alg».proof.Proof.LibRowCast
import proofs.«138557_j88261577933338_1_alg».proof.Proof.LibColCast

set_option maxRecDepth 16384

noncomputable section

namespace Cert.Join

open Idealize.ShloMosaic Cert.KernelIdeal Cert.KernelIdeal.Facts₀ Cert.KernelIdeal.KTerm

/-! ## The casts -/

theorem rowF_eq (v : VF S128) :
    rowF v = broadcastInDim Cert.ReferenceIdeal.S1x128 ![1] Cert.ReferenceIdeal.Facts₀.bcast_S128_S1x128_1 v :=
  Cert.Lib.RowCast.shapeCast_row_eq_broadcastInDim v _ _

theorem colF_eq (v : VF S600000) :
    colF v = broadcastInDim Cert.ReferenceIdeal.S600000x1 ![0] Cert.ReferenceIdeal.Facts₀.bcast_S600000_S600000x1_0 v :=
  Cert.Lib.ColCast.shapeCast_col_eq_broadcastInDim v _ _

theorem colN_eq (v : VF S100000) :
    shapeCast S100000x1 v shapeCasts_S100000_S100000x1
      = broadcastInDim Cert.ReferenceIdeal.S100000x1 ![0] Cert.ReferenceIdeal.Facts₀.bcast_S100000_S100000x1_0 v :=
  Cert.Lib.ColCast.shapeCast_col_eq_broadcastInDim v _ _

/-! ## The node table and the degree factors -/

theorem table0_eq (a0 : VF S50000x256) (a1 : VF S128x256) (a2 : VF S128) (a3 : VF S50000x128) :
    table0 a0 a1 a2 a3 = Cert.ReferenceIdeal.RefRun.x0 (F := Ideal) a0 a1 a2 a3 := by
  unfold table0 Cert.ReferenceIdeal.RefRun.x0
  rw [rowF_eq, ← Cert.ReferenceIdeal.Bridge.mlp_eq]

theorem invt_eq (a : VI S600000) : invDeg a = Cert.ReferenceIdeal.RefRun.invt (F := Ideal) a := rfl
theorem invs_eq (a : VI S600000) : invDeg a = Cert.ReferenceIdeal.RefRun.invs (F := Ideal) a := rfl

/-! ## Layer 0 -/

theorem msgOut0_eq (a0 : VF S50000x256) (a1 : VF S128x256) (a2 : VF S128) (a3 : VF S50000x128) (a4 : VF S32x128)
    (a8 : VF S128x128) (a20 a21 : VI S600000) :
    msgOut (table0 a0 a1 a2 a3) a4 a8 a20 a21 = Cert.ReferenceIdeal.RefRun.msgOut0 (F := Ideal) a0 a1 a2 a3 a4 a8 a20 a21 := by
  unfold msgOut Cert.ReferenceIdeal.RefRun.msgOut0
  rw [colF_eq, table0_eq, ← Cert.ReferenceIdeal.Bridge.edge_eq]
  rfl

theorem msgIn0_eq (a0 : VF S50000x256) (a1 : VF S128x256) (a2 : VF S128) (a3 : VF S50000x128) (a4 : VF S32x128)
    (a7 : VF S128x128) (a21 a22 : VI S600000) :
    msgIn (table0 a0 a1 a2 a3) a4 a7 a21 a22 = Cert.ReferenceIdeal.RefRun.msgIn0 (F := Ideal) a0 a1 a2 a3 a4 a7 a21 a22 := by
  unfold msgIn Cert.ReferenceIdeal.RefRun.msgIn0
  rw [colF_eq, table0_eq, ← Cert.ReferenceIdeal.Bridge.edge_eq]
  rfl

theorem aggOut0_eq (a0 : VF S50000x256) (a1 : VF S128x256) (a2 : VF S128) (a3 : VF S50000x128) (a4 : VF S32x128)
    (a8 : VF S128x128) (a20 a21 a22 : VI S600000) :
    scaleRows (segSum (msgOut (table0 a0 a1 a2 a3) a4 a8 a20 a21) a22) (invDeg a22)
      = Cert.ReferenceIdeal.RefRun.aggOut0 (F := Ideal) a0 a1 a2 a3 a4 a8 a20 a21 a22 := by
  unfold scaleRows Cert.ReferenceIdeal.RefRun.aggOut0
  rw [colN_eq, msgOut0_eq]
  rfl

theorem aggIn0_eq (a0 : VF S50000x256) (a1 : VF S128x256) (a2 : VF S128) (a3 : VF S50000x128) (a4 : VF S32x128)
    (a7 : VF S128x128) (a20 a21 a22 : VI S600000) :
    scaleRows (segSum (msgIn (table0 a0 a1 a2 a3) a4 a7 a21 a22) a20) (invDeg a20)
      = Cert.ReferenceIdeal.RefRun.aggIn0 (F := Ideal) a0 a1 a2 a3 a4 a7 a20 a21 a22 := by
  unfold scaleRows Cert.ReferenceIdeal.RefRun.aggIn0
  rw [colN_eq, msgIn0_eq]
  rfl

/-- Layer 0's result. -/
theorem out0_eq (a0 : VF S50000x256) (a1 : VF S128x256) (a2 : VF S128) (a3 : VF S50000x128) (a4 : VF S32x128)
    (a5 : VF S1x128) (a6 a7 a8 : VF S128x128) (a9 a10 a11 : VF S128) (a20 a21 a22 : VI S600000) :
    layer true (table0 a0 a1 a2 a3) a4 a5 a6 a7 a8 a9 a10 a11 a20 a21 a22
      = Cert.ReferenceIdeal.RefRun.out0 (F := Ideal) a0 a1 a2 a3 a4 a5 a6 a7 a8 a9 a10 a11 a20 a21 a22 := by
  unfold layer
  rw [aggOut0_eq, aggIn0_eq, rowF_eq, rowF_eq, rowF_eq, table0_eq, ← Cert.ReferenceIdeal.Bridge.node_relu_eq]
  rfl

/-! ## Layer 1, on layer 0's result -/

theorem msgOut1_eq (a0 : VF S50000x256) (a1 : VF S128x256) (a2 : VF S128) (a3 : VF S50000x128) (a4 : VF S32x128)
    (a5 : VF S1x128) (a6 a7 a8 : VF S128x128) (a9 a10 a11 : VF S128) (a12 : VF S32x128) (a16 : VF S128x128)
    (a20 a21 a22 : VI S600000) :
    msgOut (layer true (table0 a0 a1 a2 a3) a4 a5 a6 a7 a8 a9 a10 a11 a20 a21 a22) a12 a16 a20 a21
      = Cert.ReferenceIdeal.RefRun.msgOut1 (F := Ideal) a0 a1 a2 a3 a4 a5 a6 a7 a8 a9 a10 a11 a12 a16 a20 a21 a22 := by
  unfold msgOut Cert.ReferenceIdeal.RefRun.msgOut1
  rw [colF_eq, out0_eq, ← Cert.ReferenceIdeal.Bridge.edge_eq]
  rfl

theorem msgIn1_eq (a0 : VF S50000x256) (a1 : VF S128x256) (a2 : VF S128) (a3 : VF S50000x128) (a4 : VF S32x128)
    (a5 : VF S1x128) (a6 a7 a8 : VF S128x128) (a9 a10 a11 : VF S128) (a12 : VF S32x128) (a15 : VF S128x128)
    (a20 a21 a22 : VI S600000) :
    msgIn (layer true (table0 a0 a1 a2 a3) a4 a5 a6 a7 a8 a9 a10 a11 a20 a21 a22) a12 a15 a21 a22
      = Cert.ReferenceIdeal.RefRun.msgIn1 (F := Ideal) a0 a1 a2 a3 a4 a5 a6 a7 a8 a9 a10 a11 a12 a15 a20 a21 a22 := by
  unfold msgIn Cert.ReferenceIdeal.RefRun.msgIn1
  rw [colF_eq, out0_eq, ← Cert.ReferenceIdeal.Bridge.edge_eq]
  rfl

theorem aggOut1_eq (a0 : VF S50000x256) (a1 : VF S128x256) (a2 : VF S128) (a3 : VF S50000x128) (a4 : VF S32x128)
    (a5 : VF S1x128) (a6 a7 a8 : VF S128x128) (a9 a10 a11 : VF S128) (a12 : VF S32x128) (a16 : VF S128x128)
    (a20 a21 a22 : VI S600000) :
    scaleRows (segSum (msgOut (layer true (table0 a0 a1 a2 a3) a4 a5 a6 a7 a8 a9 a10 a11 a20 a21 a22) a12 a16 a20 a21) a22)
        (invDeg a22)
      = Cert.ReferenceIdeal.RefRun.aggOut1 (F := Ideal) a0 a1 a2 a3 a4 a5 a6 a7 a8 a9 a10 a11 a12 a16 a20 a21 a22 := by
  unfold scaleRows Cert.ReferenceIdeal.RefRun.aggOut1
  rw [colN_eq, msgOut1_eq]
  rfl

theorem aggIn1_eq (a0 : VF S50000x256) (a1 : VF S128x256) (a2 : VF S128) (a3 : VF S50000x128) (a4 : VF S32x128)
    (a5 : VF S1x128) (a6 a7 a8 : VF S128x128) (a9 a10 a11 : VF S128) (a12 : VF S32x128) (a15 : VF S128x128)
    (a20 a21 a22 : VI S600000) :
    scaleRows (segSum (msgIn (layer true (table0 a0 a1 a2 a3) a4 a5 a6 a7 a8 a9 a10 a11 a20 a21 a22) a12 a15 a21 a22) a20)
        (invDeg a20)
      = Cert.ReferenceIdeal.RefRun.aggIn1 (F := Ideal) a0 a1 a2 a3 a4 a5 a6 a7 a8 a9 a10 a11 a12 a15 a20 a21 a22 := by
  unfold scaleRows Cert.ReferenceIdeal.RefRun.aggIn1
  rw [colN_eq, msgIn1_eq]
  rfl

/-- A layer is the node update of its table, its two scaled sums and its small tables (the definition, unfolded once). -/
theorem layer_def (relu : Bool) (x : VF S100000x128) (rel : VF S32x128) (lr : VF S1x128) (wloop win wout : VF S128x128)
    (bias g b : VF S128) (s r t : VI S600000) :
    layer relu x rel lr wloop win wout bias g b s r t
      = Cert.Spec.node relu x (scaleRows (segSum (msgOut x rel wout s r) t) (invDeg t))
          (scaleRows (segSum (msgIn x rel win r t) s) (invDeg s)) lr (tr wloop) (rowF bias) (rowF g) (rowF b) := rfl

/-- THE JOIN: the kernel's function of the 23 argument arrays is the reference's. -/
theorem forward_eq (a0 : VF S50000x256) (a1 : VF S128x256) (a2 : VF S128) (a3 : VF S50000x128) (a4 : VF S32x128)
    (a5 : VF S1x128) (a6 a7 a8 : VF S128x128) (a9 a10 a11 : VF S128) (a12 : VF S32x128) (a13 : VF S1x128)
    (a14 a15 a16 : VF S128x128) (a17 a18 a19 : VF S128) (a20 a21 a22 : VI S600000) :
    forward a0 a1 a2 a3 a4 a5 a6 a7 a8 a9 a10 a11 a12 a13 a14 a15 a16 a17 a18 a19 a20 a21 a22
      = Cert.ReferenceIdeal.RefRun.result (F := Ideal) a0 a1 a2 a3 a4 a5 a6 a7 a8 a9 a10 a11 a12 a13 a14 a15 a16 a17 a18 a19 a20 a21 a22 := by
  unfold forward Cert.ReferenceIdeal.RefRun.result Cert.ReferenceIdeal.RefRun.out1
  rw [layer_def false, aggOut1_eq, aggIn1_eq, rowF_eq, rowF_eq, rowF_eq, out0_eq, ← Cert.ReferenceIdeal.Bridge.node_eq]
  rfl

end Cert.Join

end
-- ==== Proof.lean ====
/-
  The certificate of a two-layer heterogeneous graph convolution: a kernel program of five regions — an encoder
  (x·Wᵀ + b), and per layer an edge kernel (the two messages ((x[s] − rel[r])·w_outᵀ)·inv_s[s] and
  ((x[t] − rel[r])·w_inᵀ)·inv_t[t]) and a node kernel ((agg_out + agg_in + (x − loop_rel)·w_loopᵀ)·(1/3) + bias, the
  positive part in the first layer only, then the row's layer normalisation) — among host operations (the gathers, the
  segment sums, the degree factors 1/√max(deg, 1)), against the same network written with jnp.

  The three frames are the generated ones (the reference's is its run with the result dropped). The kernel's only
  sanctioned rewrite names the literal 0.3333333432674408 as 1/3, twice. At the exact reading of floats both programs
  are one function of the 23 argument arrays:
  * each region's output array is the specification's row-wise function of the arrays it reads (every output row
    depends on the same row of the row-indexed operands and on the small tables, and the grid's row blocks tile the array);
  * the kernel's buffers, followed through its fourteen segments, give its result as `KTerm.forward` of the arguments;
  * the reference's run gives its result as the composition of its printed operations, in which the encoder, the
    messages and the node updates are the same row-wise functions: the only law used is x·(1/3) = x/3, which holds for
    every extended real, so the finiteness of the inputs is never needed;
  * the two compositions agree: a reshape of a vector to a row or a column is the broadcast the reference uses, and the
    degree factors the reference recomputes in the second layer are the same terms.
-/
import proofs.«138557_j88261577933338_1_alg».proof.Defs
import proofs.«138557_j88261577933338_1_alg».proof.Proof.Gen.Kernel
import proofs.«138557_j88261577933338_1_alg».proof.Proof.Gen.Kernel.Skeleton
import proofs.«138557_j88261577933338_1_alg».proof.Proof.Gen.Kernel.Launch
import proofs.«138557_j88261577933338_1_alg».proof.Proof.Gen.Kernel.Points
import proofs.«138557_j88261577933338_1_alg».proof.Proof.Gen.Kernel.Frame
import proofs.«138557_j88261577933338_1_alg».proof.Proof.Gen.KernelIdeal
import proofs.«138557_j88261577933338_1_alg».proof.Proof.Gen.KernelIdeal.Skeleton
import proofs.«138557_j88261577933338_1_alg».proof.Proof.Gen.KernelIdeal.Launch
import proofs.«138557_j88261577933338_1_alg».proof.Proof.Gen.KernelIdeal.Points
import proofs.«138557_j88261577933338_1_alg».proof.Proof.Gen.KernelIdeal.Frame
import proofs.«138557_j88261577933338_1_alg».proof.Proof.Gen.ReferenceIdeal
import proofs.«138557_j88261577933338_1_alg».proof.Proof.Gen.Pre_finite_inputs
import proofs.«138557_j88261577933338_1_alg».proof.Proof.Region0
import proofs.«138557_j88261577933338_1_alg».proof.Proof.Region1
import proofs.«138557_j88261577933338_1_alg».proof.Proof.Region2
import proofs.«138557_j88261577933338_1_alg».proof.Proof.Region3
import proofs.«138557_j88261577933338_1_alg».proof.Proof.Region4
import proofs.«138557_j88261577933338_1_alg».proof.Proof.KRun
import proofs.«138557_j88261577933338_1_alg».proof.Proof.KChainB
import proofs.«138557_j88261577933338_1_alg».proof.Proof.RefRun
import proofs.«138557_j88261577933338_1_alg».proof.Proof.Join
import Idealize.ShloMosaic.Adequacy
import Idealize.ShloMosaic.Init

noncomputable section

namespace Cert.Proof

open Idealize.ShloMosaic Idealize.SL.Sem

/-- What the five regions leave in their output arrays. -/
theorem regions : Cert.KernelIdeal.KChain.Regions where
  r0 := Cert.KernelIdeal.Region0.arr
  r1a := Cert.KernelIdeal.Region1.arr7
  r1b := Cert.KernelIdeal.Region1.arr8
  r2 := Cert.KernelIdeal.Region2.arr
  r3a := Cert.KernelIdeal.Region3.arr7
  r3b := Cert.KernelIdeal.Region3.arr8
  r4 := Cert.KernelIdeal.Region4.arr

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- The ledger's two entries are one statement: the certificate's table gives "inv_3" the value 1/3. -/
theorem preserves : Cert.preserves_Kernel_KernelIdeal :=
  ⟨IdealRules.named_const.statement Cert.KernelIdeal.κ "inv_3" .f32 0x3EAAAAAB#32 ((1 / 3 : ℝ) : EReal) rfl,
   IdealRules.named_const.statement Cert.KernelIdeal.κ "inv_3" .f32 0x3EAAAAAB#32 ((1 / 3 : ℝ) : EReal) rfl⟩

/-- Both programs end with the result buffer at the kernel's function of the (agreeing) argument arrays. -/
theorem algebraic : Cert.algebraic_KernelIdeal_ReferenceIdeal := by
  intro m ρ m' ρ' _ hagree
  refine ⟨fun c => Cert.KernelIdeal.KTerm.forward (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.KChain.w14_v140 m ρ c regions), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13, h14, h15, h16, h17, h18, h19, h20, h21, h22⟩ :=
      hagree c
    rw [h0, h1, h2, h3, h4, h5, h6, h7, h8, h9, h10, h11, h12, h13, h14, h15, h16, h17, h18, h19, h20, h21, h22]
    exact (Cert.Join.forward_eq _ _ _ _ _ _ _ _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
